-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v404) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x128 .f32) (main_arg1 : FVec F S4x2048x2048 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S1x2048x128 : Shape := ⟨3, ![1, 2048, 128]⟩
abbrev S1x512x2048 : Shape := ⟨3, ![1, 512, 2048]⟩
abbrev S512x2048 : Shape := ⟨2, ![512, 2048]⟩
abbrev S2048x128 : Shape := ⟨2, ![2048, 128]⟩
abbrev S512x128 : Shape := ⟨2, ![512, 128]⟩
abbrev S1x128 : Shape := ⟨2, ![1, 128]⟩
abbrev S2048 : Shape := ⟨1, ![2048]⟩
abbrev S2048x1 : Shape := ⟨2, ![2048, 1]⟩

abbrev nBuf : Space → Nat
  | .hbm => 15
  | .vmem => 24
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S4x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S1x2048x128, .f32⟩
  | .local _ .vmem, ⟨23, _⟩ => ⟨S1x2048x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x128_S128x128_0_0 : ∀ a, (![0, 0] : Fin 2 → Nat) a + S128x128.size a ≤ S128x128.size a
  h_S128x128 : 0 < S128x128.numel
  slices_S2048x128_o0_0_S512x128 : S2048x128.Slices ![0, 0] S512x128
  slices_S2048x128_o512_0_S512x128 : S2048x128.Slices ![512, 0] S512x128
  slices_S2048x128_o1024_0_S512x128 : S2048x128.Slices ![1024, 0] S512x128
  slices_S2048x128_o1536_0_S512x128 : S2048x128.Slices ![1536, 0] S512x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  shapeCasts_S2048x128_S1x2048x128 : S2048x128.ShapeCasts S1x2048x128
  dot_S2048x128_S128x128_S2048x128_1_0_0_1_n_n_wf : DotDims.WF S2048x128 S128x128 S2048x128 [1] [0] [0] [1] [] []
  dot_S512x2048_S512x128_S2048x128_0_0_1_1_n_n_wf : DotDims.WF S512x2048 S512x128 S2048x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x2048x128.size a
  hwx0_0 : ∀ i : grid0.Coords, EltTy.bits .f32 = 32 ∨ (Rect.block (s := S4x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x2048x2048.size a
  hwx0_1 : ∀ i : grid0.Coords, EltTy.bits .f32 = 32 ∨ (Rect.block (s := S4x2048x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x2048x2048.size a
  hwx0_2 : ∀ i : grid0.Coords, EltTy.bits .f32 = 32 ∨ (Rect.block (s := S4x2048x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x2048x2048.size a
  hwx0_3 : ∀ i : grid0.Coords, EltTy.bits .f32 = 32 ∨ (Rect.block (s := S4x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S4x2048x2048.size a
  hwx0_4 : ∀ i : grid0.Coords, EltTy.bits .f32 = 32 ∨ (Rect.block (s := S4x2048x2048) S1x512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x2048x128.size a ≤ S4x2048x128.size a
  hwx0_17 : ∀ i : grid0.Coords, EltTy.bits .f32 = 32 ∨ (Rect.block (s := S4x2048x128) S1x2048x128.size (cc0_transform_17 i) (hinb0_17 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x2048_S512x128_S2048x128_0_0_1_1_n_n : DotDims S512x2048 S512x128 S2048x128 where
  lhsContracting := [0]
  rhsContracting := [0]
  lhsNonContracting := [1]
  rhsNonContracting := [1]
  lhsBatch := []
  rhsBatch := []
  wf := dot_S512x2048_S512x128_S2048x128_0_0_1_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg12) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg13) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S1x2048x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S1x2048x2048 : Shape := ⟨3, ![1, 2048, 2048]⟩
abbrev S2048x2048 : Shape := ⟨2, ![2048, 2048]⟩
abbrev S1x2048x128 : Shape := ⟨3, ![1, 2048, 128]⟩
abbrev S2048x128 : Shape := ⟨2, ![2048, 128]⟩
abbrev S1x128 : Shape := ⟨2, ![1, 128]⟩
abbrev S_ : Shape := ⟨0, ![]⟩
abbrev S2048 : Shape := ⟨1, ![2048]⟩
abbrev S2048x1 : Shape := ⟨2, ![2048, 1]⟩

abbrev nBuf : Space → Nat
  | .hbm => 503
  | .vmem => 0
  | .smem => 0
  | _ => 0

abbrev hbmTy0_0 (i : Nat) : BufTy := match i % 128 with
  | 0 => ⟨S4x2048x128, .f32⟩
  | 1 => ⟨S4x2048x2048, .f32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S1x2048x2048, .f32⟩
  | 15 => ⟨S2048x2048, .f32⟩
  | 16 => ⟨S1x2048x128, .f32⟩
  | 17 => ⟨S2048x128, .f32⟩
  | 18 => ⟨S2048x128, .f32⟩
  | 19 => ⟨S2048x2048, .f32⟩
  | 20 => ⟨S2048x128, .f32⟩
  | 21 => ⟨S1x128, .f32⟩
  | 22 => ⟨S2048x128, .f32⟩
  | 23 => ⟨S2048x128, .f32⟩
  | 24 => ⟨S2048x128, .f32⟩
  | 25 => ⟨S_, .f32⟩
  | 26 => ⟨S2048, .f32⟩
  | 27 => ⟨S2048x1, .f32⟩
  | 28 => ⟨S_, .f32⟩
  | 29 => ⟨S2048x1, .f32⟩
  | 30 => ⟨S2048x1, .f32⟩
  | 31 => ⟨S2048x128, .f32⟩
  | 32 => ⟨S2048x128, .f32⟩
  | 33 => ⟨S2048x128, .f32⟩
  | 34 => ⟨S_, .f32⟩
  | 35 => ⟨S2048, .f32⟩
  | 36 => ⟨S2048x1, .f32⟩
  | 37 => ⟨S_, .f32⟩
  | 38 => ⟨S2048x1, .f32⟩
  | 39 => ⟨S2048x1, .f32⟩
  | 40 => ⟨S2048x128, .f32⟩
  | 41 => ⟨S2048x128, .f32⟩
  | 42 => ⟨S_, .f32⟩
  | 43 => ⟨S2048x1, .f32⟩
  | 44 => ⟨S2048x1, .f32⟩
  | 45 => ⟨S2048x1, .f32⟩
  | 46 => ⟨S2048x128, .f32⟩
  | 47 => ⟨S2048x128, .f32⟩
  | 48 => ⟨S1x128, .f32⟩
  | 49 => ⟨S2048x128, .f32⟩
  | 50 => ⟨S2048x128, .f32⟩
  | 51 => ⟨S1x128, .f32⟩
  | 52 => ⟨S2048x128, .f32⟩
  | 53 => ⟨S2048x128, .f32⟩
  | 54 => ⟨S_, .f32⟩
  | 55 => ⟨S2048x128, .f32⟩
  | 56 => ⟨S2048x128, .f32⟩
  | 57 => ⟨S2048x128, .f32⟩
  | 58 => ⟨S2048x2048, .f32⟩
  | 59 => ⟨S2048x128, .f32⟩
  | 60 => ⟨S1x128, .f32⟩
  | 61 => ⟨S2048x128, .f32⟩
  | 62 => ⟨S2048x128, .f32⟩
  | 63 => ⟨S2048x128, .f32⟩
  | 64 => ⟨S_, .f32⟩
  | 65 => ⟨S2048, .f32⟩
  | 66 => ⟨S2048x1, .f32⟩
  | 67 => ⟨S_, .f32⟩
  | 68 => ⟨S2048x1, .f32⟩
  | 69 => ⟨S2048x1, .f32⟩
  | 70 => ⟨S2048x128, .f32⟩
  | 71 => ⟨S2048x128, .f32⟩
  | 72 => ⟨S2048x128, .f32⟩
  | 73 => ⟨S_, .f32⟩
  | 74 => ⟨S2048, .f32⟩
  | 75 => ⟨S2048x1, .f32⟩
  | 76 => ⟨S_, .f32⟩
  | 77 => ⟨S2048x1, .f32⟩
  | 78 => ⟨S2048x1, .f32⟩
  | 79 => ⟨S2048x128, .f32⟩
  | 80 => ⟨S2048x128, .f32⟩
  | 81 => ⟨S_, .f32⟩
  | 82 => ⟨S2048x1, .f32⟩
  | 83 => ⟨S2048x1, .f32⟩
  | 84 => ⟨S2048x1, .f32⟩
  | 85 => ⟨S2048x128, .f32⟩
  | 86 => ⟨S2048x128, .f32⟩
  | 87 => ⟨S1x128, .f32⟩
  | 88 => ⟨S2048x128, .f32⟩
  | 89 => ⟨S2048x128, .f32⟩
  | 90 => ⟨S1x128, .f32⟩
  | 91 => ⟨S2048x128, .f32⟩
  | 92 => ⟨S2048x128, .f32⟩
  | 93 => ⟨S_, .f32⟩
  | 94 => ⟨S2048x128, .f32⟩
  | 95 => ⟨S2048x128, .f32⟩
  | 96 => ⟨S2048x128, .f32⟩
  | 97 => ⟨S2048x2048, .f32⟩
  | 98 => ⟨S2048x128, .f32⟩
  | 99 => ⟨S1x128, .f32⟩
  | 100 => ⟨S2048x128, .f32⟩
  | 101 => ⟨S2048x128, .f32⟩
  | 102 => ⟨S2048x128, .f32⟩
  | 103 => ⟨S_, .f32⟩
  | 104 => ⟨S2048, .f32⟩
  | 105 => ⟨S2048x1, .f32⟩
  | 106 => ⟨S_, .f32⟩
  | 107 => ⟨S2048x1, .f32⟩
  | 108 => ⟨S2048x1, .f32⟩
  | 109 => ⟨S2048x128, .f32⟩
  | 110 => ⟨S2048x128, .f32⟩
  | 111 => ⟨S2048x128, .f32⟩
  | 112 => ⟨S_, .f32⟩
  | 113 => ⟨S2048, .f32⟩
  | 114 => ⟨S2048x1, .f32⟩
  | 115 => ⟨S_, .f32⟩
  | 116 => ⟨S2048x1, .f32⟩
  | 117 => ⟨S2048x1, .f32⟩
  | 118 => ⟨S2048x128, .f32⟩
  | 119 => ⟨S2048x128, .f32⟩
  | 120 => ⟨S_, .f32⟩
  | 121 => ⟨S2048x1, .f32⟩
  | 122 => ⟨S2048x1, .f32⟩
  | 123 => ⟨S2048x1, .f32⟩
  | 124 => ⟨S2048x128, .f32⟩
  | 125 => ⟨S2048x128, .f32⟩
  | 126 => ⟨S1x128, .f32⟩
  | 127 => ⟨S2048x128, .f32⟩
  | _ => ⟨S4x2048x128, .f32⟩

abbrev hbmTy0_1 (i : Nat) : BufTy := match i % 128 with
  | 0 => ⟨S2048x128, .f32⟩
  | 1 => ⟨S1x128, .f32⟩
  | 2 => ⟨S2048x128, .f32⟩
  | 3 => ⟨S2048x128, .f32⟩
  | 4 => ⟨S_, .f32⟩
  | 5 => ⟨S2048x128, .f32⟩
  | 6 => ⟨S2048x128, .f32⟩
  | 7 => ⟨S1x2048x2048, .f32⟩
  | 8 => ⟨S2048x2048, .f32⟩
  | 9 => ⟨S1x2048x128, .f32⟩
  | 10 => ⟨S2048x128, .f32⟩
  | 11 => ⟨S2048x128, .f32⟩
  | 12 => ⟨S2048x2048, .f32⟩
  | 13 => ⟨S2048x128, .f32⟩
  | 14 => ⟨S1x128, .f32⟩
  | 15 => ⟨S2048x128, .f32⟩
  | 16 => ⟨S2048x128, .f32⟩
  | 17 => ⟨S2048x128, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x128, .f32⟩
  | 25 => ⟨S2048x128, .f32⟩
  | 26 => ⟨S2048x128, .f32⟩
  | 27 => ⟨S_, .f32⟩
  | 28 => ⟨S2048, .f32⟩
  | 29 => ⟨S2048x1, .f32⟩
  | 30 => ⟨S_, .f32⟩
  | 31 => ⟨S2048x1, .f32⟩
  | 32 => ⟨S2048x1, .f32⟩
  | 33 => ⟨S2048x128, .f32⟩
  | 34 => ⟨S2048x128, .f32⟩
  | 35 => ⟨S_, .f32⟩
  | 36 => ⟨S2048x1, .f32⟩
  | 37 => ⟨S2048x1, .f32⟩
  | 38 => ⟨S2048x1, .f32⟩
  | 39 => ⟨S2048x128, .f32⟩
  | 40 => ⟨S2048x128, .f32⟩
  | 41 => ⟨S1x128, .f32⟩
  | 42 => ⟨S2048x128, .f32⟩
  | 43 => ⟨S2048x128, .f32⟩
  | 44 => ⟨S1x128, .f32⟩
  | 45 => ⟨S2048x128, .f32⟩
  | 46 => ⟨S2048x128, .f32⟩
  | 47 => ⟨S_, .f32⟩
  | 48 => ⟨S2048x128, .f32⟩
  | 49 => ⟨S2048x128, .f32⟩
  | 50 => ⟨S2048x128, .f32⟩
  | 51 => ⟨S2048x2048, .f32⟩
  | 52 => ⟨S2048x128, .f32⟩
  | 53 => ⟨S1x128, .f32⟩
  | 54 => ⟨S2048x128, .f32⟩
  | 55 => ⟨S2048x128, .f32⟩
  | 56 => ⟨S2048x128, .f32⟩
  | 57 => ⟨S_, .f32⟩
  | 58 => ⟨S2048, .f32⟩
  | 59 => ⟨S2048x1, .f32⟩
  | 60 => ⟨S_, .f32⟩
  | 61 => ⟨S2048x1, .f32⟩
  | 62 => ⟨S2048x1, .f32⟩
  | 63 => ⟨S2048x128, .f32⟩
  | 64 => ⟨S2048x128, .f32⟩
  | 65 => ⟨S2048x128, .f32⟩
  | 66 => ⟨S_, .f32⟩
  | 67 => ⟨S2048, .f32⟩
  | 68 => ⟨S2048x1, .f32⟩
  | 69 => ⟨S_, .f32⟩
  | 70 => ⟨S2048x1, .f32⟩
  | 71 => ⟨S2048x1, .f32⟩
  | 72 => ⟨S2048x128, .f32⟩
  | 73 => ⟨S2048x128, .f32⟩
  | 74 => ⟨S_, .f32⟩
  | 75 => ⟨S2048x1, .f32⟩
  | 76 => ⟨S2048x1, .f32⟩
  | 77 => ⟨S2048x1, .f32⟩
  | 78 => ⟨S2048x128, .f32⟩
  | 79 => ⟨S2048x128, .f32⟩
  | 80 => ⟨S1x128, .f32⟩
  | 81 => ⟨S2048x128, .f32⟩
  | 82 => ⟨S2048x128, .f32⟩
  | 83 => ⟨S1x128, .f32⟩
  | 84 => ⟨S2048x128, .f32⟩
  | 85 => ⟨S2048x128, .f32⟩
  | 86 => ⟨S_, .f32⟩
  | 87 => ⟨S2048x128, .f32⟩
  | 88 => ⟨S2048x128, .f32⟩
  | 89 => ⟨S2048x128, .f32⟩
  | 90 => ⟨S2048x2048, .f32⟩
  | 91 => ⟨S2048x128, .f32⟩
  | 92 => ⟨S1x128, .f32⟩
  | 93 => ⟨S2048x128, .f32⟩
  | 94 => ⟨S2048x128, .f32⟩
  | 95 => ⟨S2048x128, .f32⟩
  | 96 => ⟨S_, .f32⟩
  | 97 => ⟨S2048, .f32⟩
  | 98 => ⟨S2048x1, .f32⟩
  | 99 => ⟨S_, .f32⟩
  | 100 => ⟨S2048x1, .f32⟩
  | 101 => ⟨S2048x1, .f32⟩
  | 102 => ⟨S2048x128, .f32⟩
  | 103 => ⟨S2048x128, .f32⟩
  | 104 => ⟨S2048x128, .f32⟩
  | 105 => ⟨S_, .f32⟩
  | 106 => ⟨S2048, .f32⟩
  | 107 => ⟨S2048x1, .f32⟩
  | 108 => ⟨S_, .f32⟩
  | 109 => ⟨S2048x1, .f32⟩
  | 110 => ⟨S2048x1, .f32⟩
  | 111 => ⟨S2048x128, .f32⟩
  | 112 => ⟨S2048x128, .f32⟩
  | 113 => ⟨S_, .f32⟩
  | 114 => ⟨S2048x1, .f32⟩
  | 115 => ⟨S2048x1, .f32⟩
  | 116 => ⟨S2048x1, .f32⟩
  | 117 => ⟨S2048x128, .f32⟩
  | 118 => ⟨S2048x128, .f32⟩
  | 119 => ⟨S1x128, .f32⟩
  | 120 => ⟨S2048x128, .f32⟩
  | 121 => ⟨S2048x128, .f32⟩
  | 122 => ⟨S1x128, .f32⟩
  | 123 => ⟨S2048x128, .f32⟩
  | 124 => ⟨S2048x128, .f32⟩
  | 125 => ⟨S_, .f32⟩
  | 126 => ⟨S2048x128, .f32⟩
  | 127 => ⟨S2048x128, .f32⟩
  | _ => ⟨S4x2048x128, .f32⟩

abbrev hbmTy0_2 (i : Nat) : BufTy := match i % 128 with
  | 0 => ⟨S1x2048x2048, .f32⟩
  | 1 => ⟨S2048x2048, .f32⟩
  | 2 => ⟨S1x2048x128, .f32⟩
  | 3 => ⟨S2048x128, .f32⟩
  | 4 => ⟨S2048x128, .f32⟩
  | 5 => ⟨S2048x2048, .f32⟩
  | 6 => ⟨S2048x128, .f32⟩
  | 7 => ⟨S1x128, .f32⟩
  | 8 => ⟨S2048x128, .f32⟩
  | 9 => ⟨S2048x128, .f32⟩
  | 10 => ⟨S2048x128, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S2048x128, .f32⟩
  | 18 => ⟨S2048x128, .f32⟩
  | 19 => ⟨S2048x128, .f32⟩
  | 20 => ⟨S_, .f32⟩
  | 21 => ⟨S2048, .f32⟩
  | 22 => ⟨S2048x1, .f32⟩
  | 23 => ⟨S_, .f32⟩
  | 24 => ⟨S2048x1, .f32⟩
  | 25 => ⟨S2048x1, .f32⟩
  | 26 => ⟨S2048x128, .f32⟩
  | 27 => ⟨S2048x128, .f32⟩
  | 28 => ⟨S_, .f32⟩
  | 29 => ⟨S2048x1, .f32⟩
  | 30 => ⟨S2048x1, .f32⟩
  | 31 => ⟨S2048x1, .f32⟩
  | 32 => ⟨S2048x128, .f32⟩
  | 33 => ⟨S2048x128, .f32⟩
  | 34 => ⟨S1x128, .f32⟩
  | 35 => ⟨S2048x128, .f32⟩
  | 36 => ⟨S2048x128, .f32⟩
  | 37 => ⟨S1x128, .f32⟩
  | 38 => ⟨S2048x128, .f32⟩
  | 39 => ⟨S2048x128, .f32⟩
  | 40 => ⟨S_, .f32⟩
  | 41 => ⟨S2048x128, .f32⟩
  | 42 => ⟨S2048x128, .f32⟩
  | 43 => ⟨S2048x128, .f32⟩
  | 44 => ⟨S2048x2048, .f32⟩
  | 45 => ⟨S2048x128, .f32⟩
  | 46 => ⟨S1x128, .f32⟩
  | 47 => ⟨S2048x128, .f32⟩
  | 48 => ⟨S2048x128, .f32⟩
  | 49 => ⟨S2048x128, .f32⟩
  | 50 => ⟨S_, .f32⟩
  | 51 => ⟨S2048, .f32⟩
  | 52 => ⟨S2048x1, .f32⟩
  | 53 => ⟨S_, .f32⟩
  | 54 => ⟨S2048x1, .f32⟩
  | 55 => ⟨S2048x1, .f32⟩
  | 56 => ⟨S2048x128, .f32⟩
  | 57 => ⟨S2048x128, .f32⟩
  | 58 => ⟨S2048x128, .f32⟩
  | 59 => ⟨S_, .f32⟩
  | 60 => ⟨S2048, .f32⟩
  | 61 => ⟨S2048x1, .f32⟩
  | 62 => ⟨S_, .f32⟩
  | 63 => ⟨S2048x1, .f32⟩
  | 64 => ⟨S2048x1, .f32⟩
  | 65 => ⟨S2048x128, .f32⟩
  | 66 => ⟨S2048x128, .f32⟩
  | 67 => ⟨S_, .f32⟩
  | 68 => ⟨S2048x1, .f32⟩
  | 69 => ⟨S2048x1, .f32⟩
  | 70 => ⟨S2048x1, .f32⟩
  | 71 => ⟨S2048x128, .f32⟩
  | 72 => ⟨S2048x128, .f32⟩
  | 73 => ⟨S1x128, .f32⟩
  | 74 => ⟨S2048x128, .f32⟩
  | 75 => ⟨S2048x128, .f32⟩
  | 76 => ⟨S1x128, .f32⟩
  | 77 => ⟨S2048x128, .f32⟩
  | 78 => ⟨S2048x128, .f32⟩
  | 79 => ⟨S_, .f32⟩
  | 80 => ⟨S2048x128, .f32⟩
  | 81 => ⟨S2048x128, .f32⟩
  | 82 => ⟨S2048x128, .f32⟩
  | 83 => ⟨S2048x2048, .f32⟩
  | 84 => ⟨S2048x128, .f32⟩
  | 85 => ⟨S1x128, .f32⟩
  | 86 => ⟨S2048x128, .f32⟩
  | 87 => ⟨S2048x128, .f32⟩
  | 88 => ⟨S2048x128, .f32⟩
  | 89 => ⟨S_, .f32⟩
  | 90 => ⟨S2048, .f32⟩
  | 91 => ⟨S2048x1, .f32⟩
  | 92 => ⟨S_, .f32⟩
  | 93 => ⟨S2048x1, .f32⟩
  | 94 => ⟨S2048x1, .f32⟩
  | 95 => ⟨S2048x128, .f32⟩
  | 96 => ⟨S2048x128, .f32⟩
  | 97 => ⟨S2048x128, .f32⟩
  | 98 => ⟨S_, .f32⟩
  | 99 => ⟨S2048, .f32⟩
  | 100 => ⟨S2048x1, .f32⟩
  | 101 => ⟨S_, .f32⟩
  | 102 => ⟨S2048x1, .f32⟩
  | 103 => ⟨S2048x1, .f32⟩
  | 104 => ⟨S2048x128, .f32⟩
  | 105 => ⟨S2048x128, .f32⟩
  | 106 => ⟨S_, .f32⟩
  | 107 => ⟨S2048x1, .f32⟩
  | 108 => ⟨S2048x1, .f32⟩
  | 109 => ⟨S2048x1, .f32⟩
  | 110 => ⟨S2048x128, .f32⟩
  | 111 => ⟨S2048x128, .f32⟩
  | 112 => ⟨S1x128, .f32⟩
  | 113 => ⟨S2048x128, .f32⟩
  | 114 => ⟨S2048x128, .f32⟩
  | 115 => ⟨S1x128, .f32⟩
  | 116 => ⟨S2048x128, .f32⟩
  | 117 => ⟨S2048x128, .f32⟩
  | 118 => ⟨S_, .f32⟩
  | 119 => ⟨S2048x128, .f32⟩
  | 120 => ⟨S2048x128, .f32⟩
  | 121 => ⟨S1x2048x2048, .f32⟩
  | 122 => ⟨S2048x2048, .f32⟩
  | 123 => ⟨S1x2048x128, .f32⟩
  | 124 => ⟨S2048x128, .f32⟩
  | 125 => ⟨S2048x128, .f32⟩
  | 126 => ⟨S2048x2048, .f32⟩
  | 127 => ⟨S2048x128, .f32⟩
  | _ => ⟨S4x2048x128, .f32⟩

abbrev hbmTy0_3 (i : Nat) : BufTy := match i % 128 with
  | 0 => ⟨S1x128, .f32⟩
  | 1 => ⟨S2048x128, .f32⟩
  | 2 => ⟨S2048x128, .f32⟩
  | 3 => ⟨S2048x128, .f32⟩
  | 4 => ⟨S_, .f32⟩
  | 5 => ⟨S2048, .f32⟩
  | 6 => ⟨S2048x1, .f32⟩
  | 7 => ⟨S_, .f32⟩
  | 8 => ⟨S2048x1, .f32⟩
  | 9 => ⟨S2048x1, .f32⟩
  | 10 => ⟨S2048x128, .f32⟩
  | 11 => ⟨S2048x128, .f32⟩
  | 12 => ⟨S2048x128, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S2048x128, .f32⟩
  | 20 => ⟨S2048x128, .f32⟩
  | 21 => ⟨S_, .f32⟩
  | 22 => ⟨S2048x1, .f32⟩
  | 23 => ⟨S2048x1, .f32⟩
  | 24 => ⟨S2048x1, .f32⟩
  | 25 => ⟨S2048x128, .f32⟩
  | 26 => ⟨S2048x128, .f32⟩
  | 27 => ⟨S1x128, .f32⟩
  | 28 => ⟨S2048x128, .f32⟩
  | 29 => ⟨S2048x128, .f32⟩
  | 30 => ⟨S1x128, .f32⟩
  | 31 => ⟨S2048x128, .f32⟩
  | 32 => ⟨S2048x128, .f32⟩
  | 33 => ⟨S_, .f32⟩
  | 34 => ⟨S2048x128, .f32⟩
  | 35 => ⟨S2048x128, .f32⟩
  | 36 => ⟨S2048x128, .f32⟩
  | 37 => ⟨S2048x2048, .f32⟩
  | 38 => ⟨S2048x128, .f32⟩
  | 39 => ⟨S1x128, .f32⟩
  | 40 => ⟨S2048x128, .f32⟩
  | 41 => ⟨S2048x128, .f32⟩
  | 42 => ⟨S2048x128, .f32⟩
  | 43 => ⟨S_, .f32⟩
  | 44 => ⟨S2048, .f32⟩
  | 45 => ⟨S2048x1, .f32⟩
  | 46 => ⟨S_, .f32⟩
  | 47 => ⟨S2048x1, .f32⟩
  | 48 => ⟨S2048x1, .f32⟩
  | 49 => ⟨S2048x128, .f32⟩
  | 50 => ⟨S2048x128, .f32⟩
  | 51 => ⟨S2048x128, .f32⟩
  | 52 => ⟨S_, .f32⟩
  | 53 => ⟨S2048, .f32⟩
  | 54 => ⟨S2048x1, .f32⟩
  | 55 => ⟨S_, .f32⟩
  | 56 => ⟨S2048x1, .f32⟩
  | 57 => ⟨S2048x1, .f32⟩
  | 58 => ⟨S2048x128, .f32⟩
  | 59 => ⟨S2048x128, .f32⟩
  | 60 => ⟨S_, .f32⟩
  | 61 => ⟨S2048x1, .f32⟩
  | 62 => ⟨S2048x1, .f32⟩
  | 63 => ⟨S2048x1, .f32⟩
  | 64 => ⟨S2048x128, .f32⟩
  | 65 => ⟨S2048x128, .f32⟩
  | 66 => ⟨S1x128, .f32⟩
  | 67 => ⟨S2048x128, .f32⟩
  | 68 => ⟨S2048x128, .f32⟩
  | 69 => ⟨S1x128, .f32⟩
  | 70 => ⟨S2048x128, .f32⟩
  | 71 => ⟨S2048x128, .f32⟩
  | 72 => ⟨S_, .f32⟩
  | 73 => ⟨S2048x128, .f32⟩
  | 74 => ⟨S2048x128, .f32⟩
  | 75 => ⟨S2048x128, .f32⟩
  | 76 => ⟨S2048x2048, .f32⟩
  | 77 => ⟨S2048x128, .f32⟩
  | 78 => ⟨S1x128, .f32⟩
  | 79 => ⟨S2048x128, .f32⟩
  | 80 => ⟨S2048x128, .f32⟩
  | 81 => ⟨S2048x128, .f32⟩
  | 82 => ⟨S_, .f32⟩
  | 83 => ⟨S2048, .f32⟩
  | 84 => ⟨S2048x1, .f32⟩
  | 85 => ⟨S_, .f32⟩
  | 86 => ⟨S2048x1, .f32⟩
  | 87 => ⟨S2048x1, .f32⟩
  | 88 => ⟨S2048x128, .f32⟩
  | 89 => ⟨S2048x128, .f32⟩
  | 90 => ⟨S2048x128, .f32⟩
  | 91 => ⟨S_, .f32⟩
  | 92 => ⟨S2048, .f32⟩
  | 93 => ⟨S2048x1, .f32⟩
  | 94 => ⟨S_, .f32⟩
  | 95 => ⟨S2048x1, .f32⟩
  | 96 => ⟨S2048x1, .f32⟩
  | 97 => ⟨S2048x128, .f32⟩
  | 98 => ⟨S2048x128, .f32⟩
  | 99 => ⟨S_, .f32⟩
  | 100 => ⟨S2048x1, .f32⟩
  | 101 => ⟨S2048x1, .f32⟩
  | 102 => ⟨S2048x1, .f32⟩
  | 103 => ⟨S2048x128, .f32⟩
  | 104 => ⟨S2048x128, .f32⟩
  | 105 => ⟨S1x128, .f32⟩
  | 106 => ⟨S2048x128, .f32⟩
  | 107 => ⟨S2048x128, .f32⟩
  | 108 => ⟨S1x128, .f32⟩
  | 109 => ⟨S2048x128, .f32⟩
  | 110 => ⟨S2048x128, .f32⟩
  | 111 => ⟨S_, .f32⟩
  | 112 => ⟨S2048x128, .f32⟩
  | 113 => ⟨S2048x128, .f32⟩
  | 114 => ⟨S1x2048x128, .f32⟩
  | 115 => ⟨S1x2048x128, .f32⟩
  | 116 => ⟨S1x2048x128, .f32⟩
  | 117 => ⟨S1x2048x128, .f32⟩
  | 118 => ⟨S4x2048x128, .f32⟩
  | _ => ⟨S4x2048x128, .f32⟩

abbrev hbmTy (i : Nat) : BufTy := match i / 128 with
  | 0 => hbmTy0_0 i
  | 1 => hbmTy0_1 i
  | 2 => hbmTy0_2 i
  | 3 => hbmTy0_3 i
  | _ => ⟨S4x2048x128, .f32⟩

abbrev bufTy : (tb : Table) → Fin (tcTables nBuf tb) → BufTy
  | .hbm, ⟨i, _⟩ => hbmTy i
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call1_cst : Ref sig .tc := ⟨.hbm, 93, rfl⟩
abbrev main_call1_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_9 : Ref sig .tc := ⟨.hbm, 103, rfl⟩
abbrev main_v75 : Ref sig .tc := ⟨.hbm, 104, rfl⟩
abbrev main_v76 : Ref sig .tc := ⟨.hbm, 105, rfl⟩
abbrev main_cst_10 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_11 : Ref sig .tc := ⟨.hbm, 112, rfl⟩
abbrev main_v82 : Ref sig .tc := ⟨.hbm, 113, rfl⟩
abbrev main_v83 : Ref sig .tc := ⟨.hbm, 114, rfl⟩
abbrev main_cst_12 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_13 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_call2_cst : Ref sig .tc := ⟨.hbm, 132, rfl⟩
abbrev main_call2_v0 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_14 : Ref sig .tc := ⟨.hbm, 146, rfl⟩
abbrev main_v111 : Ref sig .tc := ⟨.hbm, 147, rfl⟩
abbrev main_v112 : Ref sig .tc := ⟨.hbm, 148, rfl⟩
abbrev main_cst_15 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_16 : Ref sig .tc := ⟨.hbm, 155, rfl⟩
abbrev main_v118 : Ref sig .tc := ⟨.hbm, 156, rfl⟩
abbrev main_v119 : Ref sig .tc := ⟨.hbm, 157, rfl⟩
abbrev main_cst_17 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_18 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_call3_cst : Ref sig .tc := ⟨.hbm, 175, rfl⟩
abbrev main_call3_v0 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_19 : Ref sig .tc := ⟨.hbm, 185, rfl⟩
abbrev main_v143 : Ref sig .tc := ⟨.hbm, 186, rfl⟩
abbrev main_v144 : Ref sig .tc := ⟨.hbm, 187, rfl⟩
abbrev main_cst_20 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_21 : Ref sig .tc := ⟨.hbm, 194, rfl⟩
abbrev main_v150 : Ref sig .tc := ⟨.hbm, 195, rfl⟩
abbrev main_v151 : Ref sig .tc := ⟨.hbm, 196, rfl⟩
abbrev main_cst_22 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_23 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_call4_cst : Ref sig .tc := ⟨.hbm, 214, rfl⟩
abbrev main_call4_v0 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_24 : Ref sig .tc := ⟨.hbm, 224, rfl⟩
abbrev main_v175 : Ref sig .tc := ⟨.hbm, 225, rfl⟩
abbrev main_v176 : Ref sig .tc := ⟨.hbm, 226, rfl⟩
abbrev main_cst_25 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_26 : Ref sig .tc := ⟨.hbm, 233, rfl⟩
abbrev main_v182 : Ref sig .tc := ⟨.hbm, 234, rfl⟩
abbrev main_v183 : Ref sig .tc := ⟨.hbm, 235, rfl⟩
abbrev main_cst_27 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_cst_28 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_call5_cst : Ref sig .tc := ⟨.hbm, 253, rfl⟩
abbrev main_call5_v0 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_cst_29 : Ref sig .tc := ⟨.hbm, 267, rfl⟩
abbrev main_v211 : Ref sig .tc := ⟨.hbm, 268, rfl⟩
abbrev main_v212 : Ref sig .tc := ⟨.hbm, 269, rfl⟩
abbrev main_cst_30 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_cst_31 : Ref sig .tc := ⟨.hbm, 276, rfl⟩
abbrev main_v218 : Ref sig .tc := ⟨.hbm, 277, rfl⟩
abbrev main_v219 : Ref sig .tc := ⟨.hbm, 278, rfl⟩
abbrev main_cst_32 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_cst_33 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_call6_cst : Ref sig .tc := ⟨.hbm, 296, rfl⟩
abbrev main_call6_v0 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_cst_34 : Ref sig .tc := ⟨.hbm, 306, rfl⟩
abbrev main_v243 : Ref sig .tc := ⟨.hbm, 307, rfl⟩
abbrev main_v244 : Ref sig .tc := ⟨.hbm, 308, rfl⟩
abbrev main_cst_35 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_cst_36 : Ref sig .tc := ⟨.hbm, 315, rfl⟩
abbrev main_v250 : Ref sig .tc := ⟨.hbm, 316, rfl⟩
abbrev main_v251 : Ref sig .tc := ⟨.hbm, 317, rfl⟩
abbrev main_cst_37 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_cst_38 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_call7_cst : Ref sig .tc := ⟨.hbm, 335, rfl⟩
abbrev main_call7_v0 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_cst_39 : Ref sig .tc := ⟨.hbm, 345, rfl⟩
abbrev main_v275 : Ref sig .tc := ⟨.hbm, 346, rfl⟩
abbrev main_v276 : Ref sig .tc := ⟨.hbm, 347, rfl⟩
abbrev main_cst_40 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_cst_41 : Ref sig .tc := ⟨.hbm, 354, rfl⟩
abbrev main_v282 : Ref sig .tc := ⟨.hbm, 355, rfl⟩
abbrev main_v283 : Ref sig .tc := ⟨.hbm, 356, rfl⟩
abbrev main_cst_42 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_cst_43 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_call8_cst : Ref sig .tc := ⟨.hbm, 374, rfl⟩
abbrev main_call8_v0 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_cst_44 : Ref sig .tc := ⟨.hbm, 388, rfl⟩
abbrev main_v311 : Ref sig .tc := ⟨.hbm, 389, rfl⟩
abbrev main_v312 : Ref sig .tc := ⟨.hbm, 390, rfl⟩
abbrev main_cst_45 : Ref sig .tc := ⟨.hbm, 391, rfl⟩
abbrev main_v313 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_cst_46 : Ref sig .tc := ⟨.hbm, 397, rfl⟩
abbrev main_v318 : Ref sig .tc := ⟨.hbm, 398, rfl⟩
abbrev main_v319 : Ref sig .tc := ⟨.hbm, 399, rfl⟩
abbrev main_cst_47 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_cst_48 : Ref sig .tc := ⟨.hbm, 405, rfl⟩
abbrev main_v324 : Ref sig .tc := ⟨.hbm, 406, rfl⟩
abbrev main_v325 : Ref sig .tc := ⟨.hbm, 407, rfl⟩
abbrev main_v326 : Ref sig .tc := ⟨.hbm, 408, rfl⟩
abbrev main_v327 : Ref sig .tc := ⟨.hbm, 409, rfl⟩
abbrev main_v328 : Ref sig .tc := ⟨.hbm, 410, rfl⟩
abbrev main_v329 : Ref sig .tc := ⟨.hbm, 411, rfl⟩
abbrev main_v330 : Ref sig .tc := ⟨.hbm, 412, rfl⟩
abbrev main_v331 : Ref sig .tc := ⟨.hbm, 413, rfl⟩
abbrev main_v332 : Ref sig .tc := ⟨.hbm, 414, rfl⟩
abbrev main_v333 : Ref sig .tc := ⟨.hbm, 415, rfl⟩
abbrev main_v334 : Ref sig .tc := ⟨.hbm, 416, rfl⟩
abbrev main_call9_cst : Ref sig .tc := ⟨.hbm, 417, rfl⟩
abbrev main_call9_v0 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_v341 : Ref sig .tc := ⟨.hbm, 425, rfl⟩
abbrev main_v342 : Ref sig .tc := ⟨.hbm, 426, rfl⟩
abbrev main_cst_49 : Ref sig .tc := ⟨.hbm, 427, rfl⟩
abbrev main_v343 : Ref sig .tc := ⟨.hbm, 428, rfl⟩
abbrev main_v344 : Ref sig .tc := ⟨.hbm, 429, rfl⟩
abbrev main_cst_50 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_cst_51 : Ref sig .tc := ⟨.hbm, 436, rfl⟩
abbrev main_v350 : Ref sig .tc := ⟨.hbm, 437, rfl⟩
abbrev main_v351 : Ref sig .tc := ⟨.hbm, 438, rfl⟩
abbrev main_cst_52 : Ref sig .tc := ⟨.hbm, 439, rfl⟩
abbrev main_v352 : Ref sig .tc := ⟨.hbm, 440, rfl⟩
abbrev main_v353 : Ref sig .tc := ⟨.hbm, 441, rfl⟩
abbrev main_v354 : Ref sig .tc := ⟨.hbm, 442, rfl⟩
abbrev main_v355 : Ref sig .tc := ⟨.hbm, 443, rfl⟩
abbrev main_cst_53 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_call10_cst : Ref sig .tc := ⟨.hbm, 456, rfl⟩
abbrev main_call10_v0 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩
abbrev main_v374 : Ref sig .tc := ⟨.hbm, 465, rfl⟩
abbrev main_cst_54 : Ref sig .tc := ⟨.hbm, 466, rfl⟩
abbrev main_v375 : Ref sig .tc := ⟨.hbm, 467, rfl⟩
abbrev main_v376 : Ref sig .tc := ⟨.hbm, 468, rfl⟩
abbrev main_cst_55 : Ref sig .tc := ⟨.hbm, 469, rfl⟩
abbrev main_v377 : Ref sig .tc := ⟨.hbm, 470, rfl⟩
abbrev main_v378 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_cst_56 : Ref sig .tc := ⟨.hbm, 475, rfl⟩
abbrev main_v382 : Ref sig .tc := ⟨.hbm, 476, rfl⟩
abbrev main_v383 : Ref sig .tc := ⟨.hbm, 477, rfl⟩
abbrev main_cst_57 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_cst_58 : Ref sig .tc := ⟨.hbm, 483, rfl⟩
abbrev main_v388 : Ref sig .tc := ⟨.hbm, 484, rfl⟩
abbrev main_v389 : Ref sig .tc := ⟨.hbm, 485, rfl⟩
abbrev main_v390 : Ref sig .tc := ⟨.hbm, 486, rfl⟩
abbrev main_v391 : Ref sig .tc := ⟨.hbm, 487, rfl⟩
abbrev main_v392 : Ref sig .tc := ⟨.hbm, 488, rfl⟩
abbrev main_v393 : Ref sig .tc := ⟨.hbm, 489, rfl⟩
abbrev main_v394 : Ref sig .tc := ⟨.hbm, 490, rfl⟩
abbrev main_v395 : Ref sig .tc := ⟨.hbm, 491, rfl⟩
abbrev main_v396 : Ref sig .tc := ⟨.hbm, 492, rfl⟩
abbrev main_v397 : Ref sig .tc := ⟨.hbm, 493, rfl⟩
abbrev main_v398 : Ref sig .tc := ⟨.hbm, 494, rfl⟩
abbrev main_call11_cst : Ref sig .tc := ⟨.hbm, 495, rfl⟩
abbrev main_call11_v0 : Ref sig .tc := ⟨.hbm, 496, rfl⟩
abbrev main_v399 : Ref sig .tc := ⟨.hbm, 497, rfl⟩
abbrev main_v400 : Ref sig .tc := ⟨.hbm, 498, rfl⟩
abbrev main_v401 : Ref sig .tc := ⟨.hbm, 499, rfl⟩
abbrev main_v402 : Ref sig .tc := ⟨.hbm, 500, rfl⟩
abbrev main_v403 : Ref sig .tc := ⟨.hbm, 501, rfl⟩
abbrev main_v404 : Ref sig .tc := ⟨.hbm, 502, rfl⟩

abbrev nD : Nat := 1
abbrev τ : Topo := Topo.v7x

variable {F : FTy → Type} [FloatOps F]

class Facts₀ : Prop where
  slices_S4x2048x2048_S1x2048x2048_0_0_0 : S4x2048x2048.Slices ![0, 0, 0] S1x2048x2048
  shapeCasts_S1x2048x2048_S2048x2048 : S1x2048x2048.ShapeCasts S2048x2048
  slices_S4x2048x128_S1x2048x128_0_0_0 : S4x2048x128.Slices ![0, 0, 0] S1x2048x128
  shapeCasts_S1x2048x128_S2048x128 : S1x2048x128.ShapeCasts S2048x128
  transposes_S2048x2048_S2048x2048_1_0 : S2048x2048.Transposes [1, 0] S2048x2048
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S_S2048x128 : S_.BroadcastsInDim S2048x128 (![] : Fin 0 → Fin S2048x128.rank)
  slices_S4x2048x2048_S1x2048x2048_1_0_0 : S4x2048x2048.Slices ![1, 0, 0] S1x2048x2048
  slices_S4x2048x128_S1x2048x128_1_0_0 : S4x2048x128.Slices ![1, 0, 0] S1x2048x128
  slices_S4x2048x2048_S1x2048x2048_2_0_0 : S4x2048x2048.Slices ![2, 0, 0] S1x2048x2048
  slices_S4x2048x128_S1x2048x128_2_0_0 : S4x2048x128.Slices ![2, 0, 0] S1x2048x128
  slices_S4x2048x2048_S1x2048x2048_3_0_0 : S4x2048x2048.Slices ![3, 0, 0] S1x2048x2048
  slices_S4x2048x128_S1x2048x128_3_0_0 : S4x2048x128.Slices ![3, 0, 0] S1x2048x128
  bcast_S2048x128_S1x2048x128_1_2 : S2048x128.BroadcastsInDim S1x2048x128 (![1, 2] : Fin 2 → Fin S1x2048x128.rank)
  concatenates_S1x2048x128_S1x2048x128_S1x2048x128_S1x2048x128_S4x2048x128_d0 : Shape.Concatenates [S1x2048x128, S1x2048x128, S1x2048x128, S1x2048x128] S4x2048x128 0
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

class Facts : Prop extends Facts₀ where

variable [Facts]
-- ==== Proof.BodyValBits.lean ====
/-
  What the kernel body stores into its output block, as one function of the blocks it loads.

  The body loads the graph's feature block `x` (1 × 2048 × 128), the four row bands `a0 … a3` of the graph's adjacency
  (1 × 512 × 2048 each, rows 512·q … 512·q + 511), and per layer a weight matrix and three parameter rows; it stores one
  1 × 2048 × 128 block. The printed arithmetic is cut into named pieces, each a function of earlier pieces: the four bands
  narrowed, `y` of the first layer, the first layer's output and the second layer's aggregate, the second layer's output
  and three partial terms of the third layer's aggregate, and the stored block. This module only composes the pieces in the
  order the body computes them.
-/
import proofs.«141423_g37074157699470_cont_sun_m_1229_6_alg».proof.Proof.Gen.Kernel.Skeleton

noncomputable section

namespace Cert.Kernel.Hand

open Idealize.ShloMosaic Cert.Kernel Cert.Kernel.Gen

variable {F : FTy → Type} [FloatOps F]

/-- The stored block from the loaded blocks: the feature block, the four adjacency bands, and for each of the three layers
    its weight, bias row, scale row and shift row. -/
def bodyVal (x : Vec F S1x2048x128 .f32) (a0 a1 a2 a3 : Vec F S1x512x2048 .f32)
    (w0 : Vec F S128x128 .f32) (b0 g0 s0 : Vec F S128 .f32)
    (w1 : Vec F S128x128 .f32) (b1 g1 s1 : Vec F S128 .f32)
    (w2 : Vec F S128x128 .f32) (b2 g2 s2 : Vec F S128 .f32) : FVec F S1x2048x128 .f32 :=
  k0_pay1 (k0_pay4 a2) (k0_pay5 a3)
    (k0_pay9 (k0_pay7 (k0_pay6 a0 a1 a2 a3 x w0 b0) g0 s0)
      (k0_pay8 (k0_pay2 a0) (k0_pay3 a1) (k0_pay4 a2) (k0_pay5 a3) (k0_pay6 a0 a1 a2 a3 x w0 b0) g0 s0 w1) b1 g1 s1)
    (k0_pay10 (k0_pay7 (k0_pay6 a0 a1 a2 a3 x w0 b0) g0 s0)
      (k0_pay8 (k0_pay2 a0) (k0_pay3 a1) (k0_pay4 a2) (k0_pay5 a3) (k0_pay6 a0 a1 a2 a3 x w0 b0) g0 s0 w1) b1 g1 s1 w2)
    (k0_pay11 (k0_pay2 a0) (k0_pay3 a1) (k0_pay7 (k0_pay6 a0 a1 a2 a3 x w0 b0) g0 s0)
      (k0_pay8 (k0_pay2 a0) (k0_pay3 a1) (k0_pay4 a2) (k0_pay5 a3) (k0_pay6 a0 a1 a2 a3 x w0 b0) g0 s0 w1) b1 g1 s1 w2)
    (k0_pay12 (k0_pay7 (k0_pay6 a0 a1 a2 a3 x w0 b0) g0 s0)
      (k0_pay8 (k0_pay2 a0) (k0_pay3 a1) (k0_pay4 a2) (k0_pay5 a3) (k0_pay6 a0 a1 a2 a3 x w0 b0) g0 s0 w1) b1 g1 s1 w2)
    (constant S2048x128 .f32 0x00000000#32) b2 g2 s2

end Cert.Kernel.Hand

end
-- ==== Proof.FrameDataBits.lean ====
/-
  The proof data of the one pipelined kernel call: eighteen windows over a grid of four points.

  The windows are the feature array, the adjacency array four times (its four row bands of 512 rows), twelve small
  parameter arrays, and the result array. The four band windows stand on ONE array, so that array's whole share is
  dealt among them a quarter each; every other window holds its array whole. After the body at a grid point every
  input window's buffer still holds its block, and the result window's buffer holds the one stored block, as a function
  of the seventeen input blocks.
-/
import proofs.«141423_g37074157699470_cont_sun_m_1229_6_alg».proof.Proof.Gen.Kernel.Launch
import proofs.«141423_g37074157699470_cont_sun_m_1229_6_alg».proof.Proof.Gen.Kernel.Skeleton
import proofs.«141423_g37074157699470_cont_sun_m_1229_6_alg».proof.Proof.Gen.Kernel.Points
import proofs.«141423_g37074157699470_cont_sun_m_1229_6_alg».proof.Proof.BodyValBits
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the kernel's entry, and the windows' blocks -/

/-- What core `c`'s buffer `b` holds when the kernel is entered: the program is the kernel call alone, so the
    contents it was started with. -/
abbrev entry (c : Dev nD) (b : Ref sig .tc) : Buf (Elt F) ((c : Thread nD τ).loc b) := m ((c : Thread nD τ).loc b)

/-- Window `w`'s block at grid point `t`, read off its array's entry contents. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## The shares -/

/-- The share of its array each input window holds: the four band windows a quarter of the adjacency array each, the
    quarters being the two halves of the two halves of the whole share; every other window the whole. -/
def shareOf : Fin 18 → PosShare TreeShare
  | 1 => fullShare.left.left
  | 2 => fullShare.left.right
  | 3 => fullShare.right.left
  | 4 => fullShare.right.right
  | _ => fullShare

/-! ## The stored block -/

/-- The whole-block rectangles the body loads and stores through. -/
abbrev rX : Rect S1x2048x128 := Rect.unit (s := S1x2048x128) ![0, 0, 0] S1x2048x128.size inb_S1x2048x128_S1x2048x128_0_0_0
abbrev rA : Rect S1x512x2048 := Rect.unit (s := S1x512x2048) ![0, 0, 0] S1x512x2048.size inb_S1x512x2048_S1x512x2048_0_0_0
abbrev rW : Rect S128x128 := Rect.unit (s := S128x128) ![0, 0] S128x128.size inb_S128x128_S128x128_0_0
abbrev rV : Rect S128 := Rect.unit (s := S128) ![0] S128.size inb_S128_S128_0

/-- What the body leaves in the result window's buffer, from the seventeen input blocks: its one store, through the
    whole-block rectangle, of `bodyVal` of the blocks as the loads read them. -/
def outBlock (x : Vec F S1x2048x128 .f32) (a0 a1 a2 a3 : Vec F S1x512x2048 .f32)
    (w0 : Vec F S128x128 .f32) (b0 g0 s0 : Vec F S128 .f32)
    (w1 : Vec F S128x128 .f32) (b1 g1 s1 : Vec F S128 .f32)
    (w2 : Vec F S128x128 .f32) (b2 g2 s2 : Vec F S128 .f32) : Vec F S1x2048x128 .f32 :=
  View.canon [⟨rX, bodyVal (View.ld x rX) (View.ld a0 rA) (View.ld a1 rA) (View.ld a2 rA) (View.ld a3 rA)
    (View.ld w0 rW) (View.ld b0 rV) (View.ld g0 rV) (View.ld s0 rV)
    (View.ld w1 rW) (View.ld b1 rV) (View.ld g1 rV) (View.ld s1 rV)
    (View.ld w2 rW) (View.ld b2 rV) (View.ld g2 rV) (View.ld s2 rV)⟩]

/-! ## The proof data -/

/-- The proof data of the pipeline on core `c`: each window's array at its entry contents; after the body at point
    `t` each input window's buffer at its block and the result window's at `outBlock` of the input blocks; the
    invariant the core's scoped buffers that are no staging buffer, untouched; nothing owed; the shares `shareOf`. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => blockAt m c 14 t
    | ⟨15, _⟩ => blockAt m c 15 t
    | ⟨16, _⟩ => blockAt m c 16 t
    | ⟨17, _⟩ => outBlock (blockAt m c 0 t) (blockAt m c 1 t) (blockAt m c 2 t) (blockAt m c 3 t) (blockAt m c 4 t)
        (blockAt m c 5 t) (blockAt m c 6 t) (blockAt m c 7 t) (blockAt m c 8 t)
        (blockAt m c 9 t) (blockAt m c 10 t) (blockAt m c 11 t) (blockAt m c 12 t)
        (blockAt m c 13 t) (blockAt m c 14 t) (blockAt m c 15 t) (blockAt m c 16 t)
    | ⟨_ + 18, h⟩ => absurd h (Nat.not_lt.2 (Nat.le_add_left _ _))
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = entry m c (Pipeline.arrRef spec0 w) := by
  dsimp only [dats]

end Cert.Kernel.Hand

end
-- ==== Proof.BodyTripleBits.lean ====
/-
  The kernel body's run on whole buffers.

  The body loads each of its seventeen input buffers whole, loads the result buffer (a value it never uses) and ends with
  one store that covers the result buffer. So, given the input buffers at contents it only reads and the result buffer at
  any contents, it runs to its end without a fault, leaves the inputs as they were, and leaves the result buffer holding the
  stored value read back through the covering store: `outBlock` of the inputs.
-/
import proofs.«141423_g37074157699470_cont_sun_m_1229_6_alg».proof.Proof.FrameDataBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- The one store covers the result window's buffer. -/
theorem cover_out (p0 : Vec F S1x2048x128 .f32) (y : S1x2048x128.Idx) :
    ∃ pc ∈ ([⟨rX, p0⟩] : List (View.Piece (Elt F) S1x2048x128 .f32)), y ∈ pc.1.set :=
  View.cover_of_tiled [⟨rX, p0⟩] S1x2048x128.size (by rfl) y

set_option maxHeartbeats 4000000 in
/-- The body on whole buffers: with the seventeen input buffers at contents it only reads and the result buffer at any
    contents, it runs to its end leaving the inputs as they were and the result buffer at `outBlock` of the inputs. -/
theorem sound_kernel (c : Dev nD) (E : Set ℕ) (i : grid0.Coords)
    (arg1 : Memref sig .tc .vmem S1x2048x128 .f32) (harg1 : arg1.IsWhole)
    (arg2 : Memref sig .tc .vmem S1x512x2048 .f32) (harg2 : arg2.IsWhole)
    (arg3 : Memref sig .tc .vmem S1x512x2048 .f32) (harg3 : arg3.IsWhole)
    (arg4 : Memref sig .tc .vmem S1x512x2048 .f32) (harg4 : arg4.IsWhole)
    (arg5 : Memref sig .tc .vmem S1x512x2048 .f32) (harg5 : arg5.IsWhole)
    (arg6 : Memref sig .tc .vmem S128x128 .f32) (harg6 : arg6.IsWhole)
    (arg7 : Memref sig .tc .vmem S128 .f32) (harg7 : arg7.IsWhole)
    (arg8 : Memref sig .tc .vmem S128 .f32) (harg8 : arg8.IsWhole)
    (arg9 : Memref sig .tc .vmem S128 .f32) (harg9 : arg9.IsWhole)
    (arg10 : Memref sig .tc .vmem S128x128 .f32) (harg10 : arg10.IsWhole)
    (arg11 : Memref sig .tc .vmem S128 .f32) (harg11 : arg11.IsWhole)
    (arg12 : Memref sig .tc .vmem S128 .f32) (harg12 : arg12.IsWhole)
    (arg13 : Memref sig .tc .vmem S128 .f32) (harg13 : arg13.IsWhole)
    (arg14 : Memref sig .tc .vmem S128x128 .f32) (harg14 : arg14.IsWhole)
    (arg15 : Memref sig .tc .vmem S128 .f32) (harg15 : arg15.IsWhole)
    (arg16 : Memref sig .tc .vmem S128 .f32) (harg16 : arg16.IsWhole)
    (arg17 : Memref sig .tc .vmem S128 .f32) (harg17 : arg17.IsWhole)
    (arg18 : Memref sig .tc .vmem S1x2048x128 .f32) (harg18 : arg18.IsWhole)
    (x : Vec F S1x2048x128 .f32) (a0 : Vec F S1x512x2048 .f32) (a1 : Vec F S1x512x2048 .f32) (a2 : Vec F S1x512x2048 .f32) (a3 : Vec F S1x512x2048 .f32) (w0 : Vec F S128x128 .f32) (b0 : Vec F S128 .f32) (g0 : Vec F S128 .f32) (s0 : Vec F S128 .f32) (w1 : Vec F S128x128 .f32) (b1 : Vec F S128 .f32) (g1 : Vec F S128 .f32) (s1 : Vec F S128 .f32) (w2 : Vec F S128x128 .f32) (b2 : Vec F S128 .f32) (g2 : Vec F S128 .f32) (s2 : Vec F S128 .f32) (K : PUnit → sProp 𝕄) :
    iprop(owns (c : Thread nD τ) arg1 fullShare x ∗ owns (c : Thread nD τ) arg2 fullShare a0 ∗ owns (c : Thread nD τ) arg3 fullShare a1 ∗ owns (c : Thread nD τ) arg4 fullShare a2 ∗ owns (c : Thread nD τ) arg5 fullShare a3 ∗ owns (c : Thread nD τ) arg6 fullShare w0 ∗ owns (c : Thread nD τ) arg7 fullShare b0 ∗ owns (c : Thread nD τ) arg8 fullShare g0 ∗ owns (c : Thread nD τ) arg9 fullShare s0 ∗ owns (c : Thread nD τ) arg10 fullShare w1 ∗ owns (c : Thread nD τ) arg11 fullShare b1 ∗ owns (c : Thread nD τ) arg12 fullShare g1 ∗ owns (c : Thread nD τ) arg13 fullShare s1 ∗ owns (c : Thread nD τ) arg14 fullShare w2 ∗ owns (c : Thread nD τ) arg15 fullShare b2 ∗ owns (c : Thread nD τ) arg16 fullShare g2 ∗ owns (c : Thread nD τ) arg17 fullShare s2 ∗ (∃ d, owns (c : Thread nD τ) arg18 fullShare d)
        ∗ (iprop(owns (c : Thread nD τ) arg1 fullShare x ∗ owns (c : Thread nD τ) arg2 fullShare a0 ∗ owns (c : Thread nD τ) arg3 fullShare a1 ∗ owns (c : Thread nD τ) arg4 fullShare a2 ∗ owns (c : Thread nD τ) arg5 fullShare a3 ∗ owns (c : Thread nD τ) arg6 fullShare w0 ∗ owns (c : Thread nD τ) arg7 fullShare b0 ∗ owns (c : Thread nD τ) arg8 fullShare g0 ∗ owns (c : Thread nD τ) arg9 fullShare s0 ∗ owns (c : Thread nD τ) arg10 fullShare w1 ∗ owns (c : Thread nD τ) arg11 fullShare b1 ∗ owns (c : Thread nD τ) arg12 fullShare g1 ∗ owns (c : Thread nD τ) arg13 fullShare s1 ∗ owns (c : Thread nD τ) arg14 fullShare w2 ∗ owns (c : Thread nD τ) arg15 fullShare b2 ∗ owns (c : Thread nD τ) arg16 fullShare g2 ∗ owns (c : Thread nD τ) arg17 fullShare s2 ∗ owns (c : Thread nD τ) arg18 fullShare (outBlock x a0 a1 a2 a3 w0 b0 g0 s0 w1 b1 g1 s1 w2 b2 g2 s2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__gcn_body_eq_skeleton]; unfold cc0__gcn_body_skel
  simp only [k0_part1_eq_skeleton, k0_part2_eq_skeleton, k0_part3_eq_skeleton]
  unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf1
  subst hf2
  subst hf3
  subst hf4
  subst hf5
  subst hf6
  subst hf7
  subst hf8
  subst hf9
  subst hf10
  subst hf11
  subst hf12
  subst hf13
  subst hf14
  subst hf15
  subst hf16
  subst hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  exact View.read_writes_eq_canon _ _ _ (cover_out _)

end Cert.Kernel.Hand

end
-- ==== Proof.FrameBits.lean ====
/-
  The run of the program whose one kernel is handed the adjacency array through four windows.

  The four band windows stand on one array, so the launch theorem for windows that may share arrays is used: the
  certificate says how the buffers behind the arrays, each held whole at entry, are dealt to the windows (the adjacency
  buffer a quarter share per band window), proves the body obligation from the body's triple, and reads the final state
  window by window.
-/
import proofs.«141423_g37074157699470_cont_sun_m_1229_6_alg».proof.Proof.FrameDataBits
import proofs.«141423_g37074157699470_cont_sun_m_1229_6_alg».proof.Proof.BodyTripleBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays' shares to the windows -/

/-- The fifteen distinct buffers behind the eighteen windows' arrays, one by one. -/
theorem arrBufs_list (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0)
        ∗ (((c.tc : Thread nD τ).loc main_arg1) ↦{fullShare} V main_arg1)
        ∗ (((c.tc : Thread nD τ).loc main_arg2) ↦{fullShare} V main_arg2)
        ∗ (((c.tc : Thread nD τ).loc main_arg3) ↦{fullShare} V main_arg3)
        ∗ (((c.tc : Thread nD τ).loc main_arg4) ↦{fullShare} V main_arg4)
        ∗ (((c.tc : Thread nD τ).loc main_arg5) ↦{fullShare} V main_arg5)
        ∗ (((c.tc : Thread nD τ).loc main_arg6) ↦{fullShare} V main_arg6)
        ∗ (((c.tc : Thread nD τ).loc main_arg7) ↦{fullShare} V main_arg7)
        ∗ (((c.tc : Thread nD τ).loc main_arg8) ↦{fullShare} V main_arg8)
        ∗ (((c.tc : Thread nD τ).loc main_arg9) ↦{fullShare} V main_arg9)
        ∗ (((c.tc : Thread nD τ).loc main_arg10) ↦{fullShare} V main_arg10)
        ∗ (((c.tc : Thread nD τ).loc main_arg11) ↦{fullShare} V main_arg11)
        ∗ (((c.tc : Thread nD τ).loc main_arg12) ↦{fullShare} V main_arg12)
        ∗ (((c.tc : Thread nD τ).loc main_arg13) ↦{fullShare} V main_arg13)
        ∗ (((c.tc : Thread nD τ).loc main_v0) ↦{fullShare} V main_v0)) := by
  unfold Pipeline.arrBufs
  exact bigSep_eq_bigSepL_of_eq [main_arg0, main_arg1, main_arg2, main_arg3, main_arg4, main_arg5, main_arg6, main_arg7, main_arg8, main_arg9, main_arg10, main_arg11, main_arg12, main_arg13, main_v0] (by decide) (by decide) _

/-- Window `w`'s array at entry: the elements under its view, at the window's share, at the entry contents. -/
def winPts (c : Dev nD) (w : Fin 18) : sProp 𝕄 :=
  (cfg0.win w).arr.view.loc (c.tc : Thread nD τ) ↦[(cfg0.win w).arr.view.set]{(dats m 0 c).share w} (dats m 0 c).arrAt w 0

/-- The windows' arrays at entry are these, window by window. -/
theorem arrays_eq_winPts (c : Dev nD) :
    (dats m 0 c).arrays ((dats m 0 c).arrAt · 0) = bigSep Finset.univ (winPts m c) := by
  unfold Dat.arrays; rfl

/-- Each is a points-to of its whole buffer, at the window's share: every window's view is its whole array. -/
theorem winPts0 (c : Dev nD) :
    winPts m c (0 : Fin 18) = (((c.tc : Thread nD τ).loc main_arg0) ↦{fullShare} entry m c main_arg0) := by
  unfold winPts; rw [(arr_whole0 0).set_eq_univ]; rfl
theorem winPts1 (c : Dev nD) :
    winPts m c (1 : Fin 18) = (((c.tc : Thread nD τ).loc main_arg1) ↦{fullShare.left.left} entry m c main_arg1) := by
  unfold winPts; rw [(arr_whole0 1).set_eq_univ]; rfl
theorem winPts2 (c : Dev nD) :
    winPts m c (2 : Fin 18) = (((c.tc : Thread nD τ).loc main_arg1) ↦{fullShare.left.right} entry m c main_arg1) := by
  unfold winPts; rw [(arr_whole0 2).set_eq_univ]; rfl
theorem winPts3 (c : Dev nD) :
    winPts m c (3 : Fin 18) = (((c.tc : Thread nD τ).loc main_arg1) ↦{fullShare.right.left} entry m c main_arg1) := by
  unfold winPts; rw [(arr_whole0 3).set_eq_univ]; rfl
theorem winPts4 (c : Dev nD) :
    winPts m c (4 : Fin 18) = (((c.tc : Thread nD τ).loc main_arg1) ↦{fullShare.right.right} entry m c main_arg1) := by
  unfold winPts; rw [(arr_whole0 4).set_eq_univ]; rfl
theorem winPts5 (c : Dev nD) :
    winPts m c (5 : Fin 18) = (((c.tc : Thread nD τ).loc main_arg2) ↦{fullShare} entry m c main_arg2) := by
  unfold winPts; rw [(arr_whole0 5).set_eq_univ]; rfl
theorem winPts6 (c : Dev nD) :
    winPts m c (6 : Fin 18) = (((c.tc : Thread nD τ).loc main_arg3) ↦{fullShare} entry m c main_arg3) := by
  unfold winPts; rw [(arr_whole0 6).set_eq_univ]; rfl
theorem winPts7 (c : Dev nD) :
    winPts m c (7 : Fin 18) = (((c.tc : Thread nD τ).loc main_arg4) ↦{fullShare} entry m c main_arg4) := by
  unfold winPts; rw [(arr_whole0 7).set_eq_univ]; rfl
theorem winPts8 (c : Dev nD) :
    winPts m c (8 : Fin 18) = (((c.tc : Thread nD τ).loc main_arg5) ↦{fullShare} entry m c main_arg5) := by
  unfold winPts; rw [(arr_whole0 8).set_eq_univ]; rfl
theorem winPts9 (c : Dev nD) :
    winPts m c (9 : Fin 18) = (((c.tc : Thread nD τ).loc main_arg6) ↦{fullShare} entry m c main_arg6) := by
  unfold winPts; rw [(arr_whole0 9).set_eq_univ]; rfl
theorem winPts10 (c : Dev nD) :
    winPts m c (10 : Fin 18) = (((c.tc : Thread nD τ).loc main_arg7) ↦{fullShare} entry m c main_arg7) := by
  unfold winPts; rw [(arr_whole0 10).set_eq_univ]; rfl
theorem winPts11 (c : Dev nD) :
    winPts m c (11 : Fin 18) = (((c.tc : Thread nD τ).loc main_arg8) ↦{fullShare} entry m c main_arg8) := by
  unfold winPts; rw [(arr_whole0 11).set_eq_univ]; rfl
theorem winPts12 (c : Dev nD) :
    winPts m c (12 : Fin 18) = (((c.tc : Thread nD τ).loc main_arg9) ↦{fullShare} entry m c main_arg9) := by
  unfold winPts; rw [(arr_whole0 12).set_eq_univ]; rfl
theorem winPts13 (c : Dev nD) :
    winPts m c (13 : Fin 18) = (((c.tc : Thread nD τ).loc main_arg10) ↦{fullShare} entry m c main_arg10) := by
  unfold winPts; rw [(arr_whole0 13).set_eq_univ]; rfl
theorem winPts14 (c : Dev nD) :
    winPts m c (14 : Fin 18) = (((c.tc : Thread nD τ).loc main_arg11) ↦{fullShare} entry m c main_arg11) := by
  unfold winPts; rw [(arr_whole0 14).set_eq_univ]; rfl
theorem winPts15 (c : Dev nD) :
    winPts m c (15 : Fin 18) = (((c.tc : Thread nD τ).loc main_arg12) ↦{fullShare} entry m c main_arg12) := by
  unfold winPts; rw [(arr_whole0 15).set_eq_univ]; rfl
theorem winPts16 (c : Dev nD) :
    winPts m c (16 : Fin 18) = (((c.tc : Thread nD τ).loc main_arg13) ↦{fullShare} entry m c main_arg13) := by
  unfold winPts; rw [(arr_whole0 16).set_eq_univ]; rfl
theorem winPts17 (c : Dev nD) :
    winPts m c (17 : Fin 18) = (((c.tc : Thread nD τ).loc main_v0) ↦{fullShare} entry m c main_v0) := by
  unfold winPts; rw [(arr_whole0 17).set_eq_univ]; rfl

/-- The invariant the proof data names, at every point. -/
theorem Φ_eq (c : Dev nD) (t : Fin (cfg0.N + 1)) :
    (dats m 0 c).Φ t = (Pipeline.scopedRest (Ix := Unit) (Name := ℕ) (U := UR sig nD τ) (Lvl := ℕ) (Val := Elt F) spec0 c : sProp 𝕄) := by
  dsimp only [dats]

/-- The buffers behind the arrays, each held whole at its entry contents, make the windows' arrays at entry: the
    adjacency buffer's whole share is split into its two halves and each half into its two halves, one quarter per
    band window; every other buffer goes whole to its one window. -/
theorem hsplit (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  rw [arrBufs_list]
  rw [arrays_eq_winPts, bigSep_W0]
  rw [winPts0, winPts1, winPts2, winPts3, winPts4, winPts5, winPts6, winPts7, winPts8, winPts9, winPts10, winPts11, winPts12, winPts13, winPts14, winPts15, winPts16, winPts17]
  iintro ⟨H0, H1, H2, H3, H4, H5, H6, H7, H8, H9, H10, H11, H12, H13, Hv⟩
  ihave H1 := (pointsTo_share (PosShare.mem_left_op_right fullShare)).1 $$ H1
  icases H1 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [H0]; · iexact H0
  isplitl [Hll]; · iexact Hll
  isplitl [Hlr]; · iexact Hlr
  isplitl [Hrl]; · iexact Hrl
  isplitl [Hrr]; · iexact Hrr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact Hv

/-! ## The program up to the kernel call -/

/-- The program is the kernel call alone, so the call is entered at the contents the program was started with. -/
theorem hmain (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-! ## What the body finds and leaves in the windows' buffers -/

/-- What the proof data says the body leaves, window by window. -/
theorem after0 (c : Dev nD) (t : Fin cfg0.N) : (dats m 0 c).after (0 : Fin 18) t = blockAt m c 0 t := by dsimp only [dats]
theorem after1 (c : Dev nD) (t : Fin cfg0.N) : (dats m 0 c).after (1 : Fin 18) t = blockAt m c 1 t := by dsimp only [dats]
theorem after2 (c : Dev nD) (t : Fin cfg0.N) : (dats m 0 c).after (2 : Fin 18) t = blockAt m c 2 t := by dsimp only [dats]
theorem after3 (c : Dev nD) (t : Fin cfg0.N) : (dats m 0 c).after (3 : Fin 18) t = blockAt m c 3 t := by dsimp only [dats]
theorem after4 (c : Dev nD) (t : Fin cfg0.N) : (dats m 0 c).after (4 : Fin 18) t = blockAt m c 4 t := by dsimp only [dats]
theorem after5 (c : Dev nD) (t : Fin cfg0.N) : (dats m 0 c).after (5 : Fin 18) t = blockAt m c 5 t := by dsimp only [dats]
theorem after6 (c : Dev nD) (t : Fin cfg0.N) : (dats m 0 c).after (6 : Fin 18) t = blockAt m c 6 t := by dsimp only [dats]
theorem after7 (c : Dev nD) (t : Fin cfg0.N) : (dats m 0 c).after (7 : Fin 18) t = blockAt m c 7 t := by dsimp only [dats]
theorem after8 (c : Dev nD) (t : Fin cfg0.N) : (dats m 0 c).after (8 : Fin 18) t = blockAt m c 8 t := by dsimp only [dats]
theorem after9 (c : Dev nD) (t : Fin cfg0.N) : (dats m 0 c).after (9 : Fin 18) t = blockAt m c 9 t := by dsimp only [dats]
theorem after10 (c : Dev nD) (t : Fin cfg0.N) : (dats m 0 c).after (10 : Fin 18) t = blockAt m c 10 t := by dsimp only [dats]
theorem after11 (c : Dev nD) (t : Fin cfg0.N) : (dats m 0 c).after (11 : Fin 18) t = blockAt m c 11 t := by dsimp only [dats]
theorem after12 (c : Dev nD) (t : Fin cfg0.N) : (dats m 0 c).after (12 : Fin 18) t = blockAt m c 12 t := by dsimp only [dats]
theorem after13 (c : Dev nD) (t : Fin cfg0.N) : (dats m 0 c).after (13 : Fin 18) t = blockAt m c 13 t := by dsimp only [dats]
theorem after14 (c : Dev nD) (t : Fin cfg0.N) : (dats m 0 c).after (14 : Fin 18) t = blockAt m c 14 t := by dsimp only [dats]
theorem after15 (c : Dev nD) (t : Fin cfg0.N) : (dats m 0 c).after (15 : Fin 18) t = blockAt m c 15 t := by dsimp only [dats]
theorem after16 (c : Dev nD) (t : Fin cfg0.N) : (dats m 0 c).after (16 : Fin 18) t = blockAt m c 16 t := by dsimp only [dats]
theorem after17 (c : Dev nD) (t : Fin cfg0.N) : (dats m 0 c).after (17 : Fin 18) t
    = outBlock (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) := by dsimp only [dats]

/-- An input window's current buffer holds the window's block at every grid point, whether the block was fetched there
    or at an earlier point: the body leaves it in place, the window is never idle and never cut, so an unfetched buffer
    still holds the block of the same index, which is this point's. -/
theorem held0 (c : Dev nD) (t : Fin cfg0.N) (d) : (dats m 0 c).before (0 : Fin 18) t d = blockAt m c 0 t := by
  rw [(dats m 0 c).before_in_eq_fetched 0 rfl (fun _ => rfl) (fun _ _ _ => rfl) (fun u => by rw [after0]; rfl) t d]
  rfl
theorem held1 (c : Dev nD) (t : Fin cfg0.N) (d) : (dats m 0 c).before (1 : Fin 18) t d = blockAt m c 1 t := by
  rw [(dats m 0 c).before_in_eq_fetched 1 rfl (fun _ => rfl) (fun _ _ _ => rfl) (fun u => by rw [after1]; rfl) t d]
  rfl
theorem held2 (c : Dev nD) (t : Fin cfg0.N) (d) : (dats m 0 c).before (2 : Fin 18) t d = blockAt m c 2 t := by
  rw [(dats m 0 c).before_in_eq_fetched 2 rfl (fun _ => rfl) (fun _ _ _ => rfl) (fun u => by rw [after2]; rfl) t d]
  rfl
theorem held3 (c : Dev nD) (t : Fin cfg0.N) (d) : (dats m 0 c).before (3 : Fin 18) t d = blockAt m c 3 t := by
  rw [(dats m 0 c).before_in_eq_fetched 3 rfl (fun _ => rfl) (fun _ _ _ => rfl) (fun u => by rw [after3]; rfl) t d]
  rfl
theorem held4 (c : Dev nD) (t : Fin cfg0.N) (d) : (dats m 0 c).before (4 : Fin 18) t d = blockAt m c 4 t := by
  rw [(dats m 0 c).before_in_eq_fetched 4 rfl (fun _ => rfl) (fun _ _ _ => rfl) (fun u => by rw [after4]; rfl) t d]
  rfl
theorem held5 (c : Dev nD) (t : Fin cfg0.N) (d) : (dats m 0 c).before (5 : Fin 18) t d = blockAt m c 5 t := by
  rw [(dats m 0 c).before_in_eq_fetched 5 rfl (fun _ => rfl) (fun _ _ _ => rfl) (fun u => by rw [after5]; rfl) t d]
  rfl
theorem held6 (c : Dev nD) (t : Fin cfg0.N) (d) : (dats m 0 c).before (6 : Fin 18) t d = blockAt m c 6 t := by
  rw [(dats m 0 c).before_in_eq_fetched 6 rfl (fun _ => rfl) (fun _ _ _ => rfl) (fun u => by rw [after6]; rfl) t d]
  rfl
theorem held7 (c : Dev nD) (t : Fin cfg0.N) (d) : (dats m 0 c).before (7 : Fin 18) t d = blockAt m c 7 t := by
  rw [(dats m 0 c).before_in_eq_fetched 7 rfl (fun _ => rfl) (fun _ _ _ => rfl) (fun u => by rw [after7]; rfl) t d]
  rfl
theorem held8 (c : Dev nD) (t : Fin cfg0.N) (d) : (dats m 0 c).before (8 : Fin 18) t d = blockAt m c 8 t := by
  rw [(dats m 0 c).before_in_eq_fetched 8 rfl (fun _ => rfl) (fun _ _ _ => rfl) (fun u => by rw [after8]; rfl) t d]
  rfl
theorem held9 (c : Dev nD) (t : Fin cfg0.N) (d) : (dats m 0 c).before (9 : Fin 18) t d = blockAt m c 9 t := by
  rw [(dats m 0 c).before_in_eq_fetched 9 rfl (fun _ => rfl) (fun _ _ _ => rfl) (fun u => by rw [after9]; rfl) t d]
  rfl
theorem held10 (c : Dev nD) (t : Fin cfg0.N) (d) : (dats m 0 c).before (10 : Fin 18) t d = blockAt m c 10 t := by
  rw [(dats m 0 c).before_in_eq_fetched 10 rfl (fun _ => rfl) (fun _ _ _ => rfl) (fun u => by rw [after10]; rfl) t d]
  rfl
theorem held11 (c : Dev nD) (t : Fin cfg0.N) (d) : (dats m 0 c).before (11 : Fin 18) t d = blockAt m c 11 t := by
  rw [(dats m 0 c).before_in_eq_fetched 11 rfl (fun _ => rfl) (fun _ _ _ => rfl) (fun u => by rw [after11]; rfl) t d]
  rfl
theorem held12 (c : Dev nD) (t : Fin cfg0.N) (d) : (dats m 0 c).before (12 : Fin 18) t d = blockAt m c 12 t := by
  rw [(dats m 0 c).before_in_eq_fetched 12 rfl (fun _ => rfl) (fun _ _ _ => rfl) (fun u => by rw [after12]; rfl) t d]
  rfl
theorem held13 (c : Dev nD) (t : Fin cfg0.N) (d) : (dats m 0 c).before (13 : Fin 18) t d = blockAt m c 13 t := by
  rw [(dats m 0 c).before_in_eq_fetched 13 rfl (fun _ => rfl) (fun _ _ _ => rfl) (fun u => by rw [after13]; rfl) t d]
  rfl
theorem held14 (c : Dev nD) (t : Fin cfg0.N) (d) : (dats m 0 c).before (14 : Fin 18) t d = blockAt m c 14 t := by
  rw [(dats m 0 c).before_in_eq_fetched 14 rfl (fun _ => rfl) (fun _ _ _ => rfl) (fun u => by rw [after14]; rfl) t d]
  rfl
theorem held15 (c : Dev nD) (t : Fin cfg0.N) (d) : (dats m 0 c).before (15 : Fin 18) t d = blockAt m c 15 t := by
  rw [(dats m 0 c).before_in_eq_fetched 15 rfl (fun _ => rfl) (fun _ _ _ => rfl) (fun u => by rw [after15]; rfl) t d]
  rfl
theorem held16 (c : Dev nD) (t : Fin cfg0.N) (d) : (dats m 0 c).before (16 : Fin 18) t d = blockAt m c 16 t := by
  rw [(dats m 0 c).before_in_eq_fetched 16 rfl (fun _ => rfl) (fun _ _ _ => rfl) (fun u => by rw [after16]; rfl) t d]
  rfl

/-! ## The body obligation -/

/-- What the pipeline calls the body with at point `t`: the invariant, the core's dues, and each window's current
    buffer — an input's at what a fetch left, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before (0 : Fin 18) t d))
    ∗ (∃ d, owns (c : Thread nD τ) (st0_1 t) fullShare ((dats m 0 c).before (1 : Fin 18) t d))
    ∗ (∃ d, owns (c : Thread nD τ) (st0_2 t) fullShare ((dats m 0 c).before (2 : Fin 18) t d))
    ∗ (∃ d, owns (c : Thread nD τ) (st0_3 t) fullShare ((dats m 0 c).before (3 : Fin 18) t d))
    ∗ (∃ d, owns (c : Thread nD τ) (st0_4 t) fullShare ((dats m 0 c).before (4 : Fin 18) t d))
    ∗ (∃ d, owns (c : Thread nD τ) (st0_5 t) fullShare ((dats m 0 c).before (5 : Fin 18) t d))
    ∗ (∃ d, owns (c : Thread nD τ) (st0_6 t) fullShare ((dats m 0 c).before (6 : Fin 18) t d))
    ∗ (∃ d, owns (c : Thread nD τ) (st0_7 t) fullShare ((dats m 0 c).before (7 : Fin 18) t d))
    ∗ (∃ d, owns (c : Thread nD τ) (st0_8 t) fullShare ((dats m 0 c).before (8 : Fin 18) t d))
    ∗ (∃ d, owns (c : Thread nD τ) (st0_9 t) fullShare ((dats m 0 c).before (9 : Fin 18) t d))
    ∗ (∃ d, owns (c : Thread nD τ) (st0_10 t) fullShare ((dats m 0 c).before (10 : Fin 18) t d))
    ∗ (∃ d, owns (c : Thread nD τ) (st0_11 t) fullShare ((dats m 0 c).before (11 : Fin 18) t d))
    ∗ (∃ d, owns (c : Thread nD τ) (st0_12 t) fullShare ((dats m 0 c).before (12 : Fin 18) t d))
    ∗ (∃ d, owns (c : Thread nD τ) (st0_13 t) fullShare ((dats m 0 c).before (13 : Fin 18) t d))
    ∗ (∃ d, owns (c : Thread nD τ) (st0_14 t) fullShare ((dats m 0 c).before (14 : Fin 18) t d))
    ∗ (∃ d, owns (c : Thread nD τ) (st0_15 t) fullShare ((dats m 0 c).before (15 : Fin 18) t d))
    ∗ (∃ d, owns (c : Thread nD τ) (st0_16 t) fullShare ((dats m 0 c).before (16 : Fin 18) t d))
    ∗ (∃ d, owns (c : Thread nD τ) (st0_17 t) fullShare ((dats m 0 c).before (17 : Fin 18) t d)))

/-- What it takes back: the same invariant and dues, and each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after (0 : Fin 18) t)
    ∗ owns (c : Thread nD τ) (st0_1 t) fullShare ((dats m 0 c).after (1 : Fin 18) t)
    ∗ owns (c : Thread nD τ) (st0_2 t) fullShare ((dats m 0 c).after (2 : Fin 18) t)
    ∗ owns (c : Thread nD τ) (st0_3 t) fullShare ((dats m 0 c).after (3 : Fin 18) t)
    ∗ owns (c : Thread nD τ) (st0_4 t) fullShare ((dats m 0 c).after (4 : Fin 18) t)
    ∗ owns (c : Thread nD τ) (st0_5 t) fullShare ((dats m 0 c).after (5 : Fin 18) t)
    ∗ owns (c : Thread nD τ) (st0_6 t) fullShare ((dats m 0 c).after (6 : Fin 18) t)
    ∗ owns (c : Thread nD τ) (st0_7 t) fullShare ((dats m 0 c).after (7 : Fin 18) t)
    ∗ owns (c : Thread nD τ) (st0_8 t) fullShare ((dats m 0 c).after (8 : Fin 18) t)
    ∗ owns (c : Thread nD τ) (st0_9 t) fullShare ((dats m 0 c).after (9 : Fin 18) t)
    ∗ owns (c : Thread nD τ) (st0_10 t) fullShare ((dats m 0 c).after (10 : Fin 18) t)
    ∗ owns (c : Thread nD τ) (st0_11 t) fullShare ((dats m 0 c).after (11 : Fin 18) t)
    ∗ owns (c : Thread nD τ) (st0_12 t) fullShare ((dats m 0 c).after (12 : Fin 18) t)
    ∗ owns (c : Thread nD τ) (st0_13 t) fullShare ((dats m 0 c).after (13 : Fin 18) t)
    ∗ owns (c : Thread nD τ) (st0_14 t) fullShare ((dats m 0 c).after (14 : Fin 18) t)
    ∗ owns (c : Thread nD τ) (st0_15 t) fullShare ((dats m 0 c).after (15 : Fin 18) t)
    ∗ owns (c : Thread nD τ) (st0_16 t) fullShare ((dats m 0 c).after (16 : Fin 18) t)
    ∗ owns (c : Thread nD τ) (st0_17 t) fullShare ((dats m 0 c).after (17 : Fin 18) t))

/-- The body at any point: every input buffer holds its block, so the body's triple applies at the seventeen blocks;
    the invariant and the dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5, held6, held7, held8, held9, held10, held11, held12, held13, held14, held15, held16, after0, after1, after2, after3, after4, after5, after6, after7, after8, after9, after10, after11, after12, after13, after14, after15, after16, after17]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of the program on the TensorCores terminates, and
    in every final state each window's array holds what the proof data computes for it after the last grid point. -/
theorem run_main_of (hbody : ∀ c, BodyObligationLoose (dats (F := F) m 0 c) (defs₀ (F := F)) Variants.none () Set.univ) :
    θ_run defs (onTc (τ := τ) (main (F := F))) ⟨m, fun _ => 0, ρ⟩
      (fun r => ∀ c : Dev nD, ∀ w, r.2.mem (((cfgs 0).spec w).arr.view.loc (c.tc : Thread nD τ)) = (dats m 0 c).arrAt w (cfgs 0).N) := by
  classical
  exact Pipeline.θ_run_region_noSem_shared cfgs (dats m) () cellOf_inj (0 : Fin 1) winFacts₀0 emb₁ defs₀ Variants.none m ρ main
    (hbody := hbody) (hne := block_pos0) (harr := arr_whole0) (hstage := stage_whole0) (howed := fun _ _ => rfl)
    (u₀ := initOf (Pipeline.cells cfgs cellOf_inj) (Pipeline.launchToks cfgs cellOf_inj))
    (hu₀ := .rfl)
    (V := entry m) (hmain := hmain m Variants.none) (hsplit := hsplit m)
    (X := fun _ => iprop(emp)) (Y := fun _ => iprop(emp)) (Z := fun _ => iprop(emp))
    (hX := fun c => by iintro -; isplitl [] <;> iempintro)
    (hin := fun c => by rw [Φ_eq]; iintro ⟨-, H⟩; iexact H)
    (hout := fun c => by rw [Φ_eq]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The run, with the body obligation discharged. -/
theorem run_main : θ_run defs (onTc (τ := τ) (main (F := F))) ⟨m, fun _ => 0, ρ⟩
    (fun r => ∀ c : Dev nD, ∀ w, r.2.mem (((cfgs 0).spec w).arr.view.loc (c.tc : Thread nD τ)) = (dats m 0 c).arrAt w (cfgs 0).N) :=
  run_main_of m ρ fun c => (body_obligation m c).loose

/-- The same run read at the sixteen arrays: the result array holds what the proof data computes for the result window
    after the last point, and every argument array — an input window's, never written back — its entry contents. -/
theorem run_post : θ_run defs (onTc (τ := τ) (main (F := F))) ⟨m, fun _ => 0, ρ⟩ (fun r => ∀ c : Dev nD,
      r.2.mem ((c.tc : Thread nD τ).loc main_v0) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c) (17 : Fin 18),
    ((h c) (0 : Fin 18)).trans (((dats m 0 c).arrAt_in 0 rfl _).trans (A_eq m c 0)),
    ((h c) (1 : Fin 18)).trans (((dats m 0 c).arrAt_in 1 rfl _).trans (A_eq m c 1)),
    ((h c) (5 : Fin 18)).trans (((dats m 0 c).arrAt_in 5 rfl _).trans (A_eq m c 5)),
    ((h c) (6 : Fin 18)).trans (((dats m 0 c).arrAt_in 6 rfl _).trans (A_eq m c 6)),
    ((h c) (7 : Fin 18)).trans (((dats m 0 c).arrAt_in 7 rfl _).trans (A_eq m c 7)),
    ((h c) (8 : Fin 18)).trans (((dats m 0 c).arrAt_in 8 rfl _).trans (A_eq m c 8)),
    ((h c) (9 : Fin 18)).trans (((dats m 0 c).arrAt_in 9 rfl _).trans (A_eq m c 9)),
    ((h c) (10 : Fin 18)).trans (((dats m 0 c).arrAt_in 10 rfl _).trans (A_eq m c 10)),
    ((h c) (11 : Fin 18)).trans (((dats m 0 c).arrAt_in 11 rfl _).trans (A_eq m c 11)),
    ((h c) (12 : Fin 18)).trans (((dats m 0 c).arrAt_in 12 rfl _).trans (A_eq m c 12)),
    ((h c) (13 : Fin 18)).trans (((dats m 0 c).arrAt_in 13 rfl _).trans (A_eq m c 13)),
    ((h c) (14 : Fin 18)).trans (((dats m 0 c).arrAt_in 14 rfl _).trans (A_eq m c 14)),
    ((h c) (15 : Fin 18)).trans (((dats m 0 c).arrAt_in 15 rfl _).trans (A_eq m c 15)),
    ((h c) (16 : Fin 18)).trans (((dats m 0 c).arrAt_in 16 rfl _).trans (A_eq m c 16))⟩) (run_main m ρ)

/-- The frame: the program terminates without fault and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_post m ρ)

end Cert.Kernel.Hand

end
-- ==== Proof.BodyValIdeal.lean ====
/-
  What the kernel body stores into its output block, as one function of the blocks it loads.

  The body loads the graph's feature block `x` (1 × 2048 × 128), the four row bands `a0 … a3` of the graph's adjacency
  (1 × 512 × 2048 each, rows 512·q … 512·q + 511), and per layer a weight matrix and three parameter rows; it stores one
  1 × 2048 × 128 block. The printed arithmetic is cut into named pieces, each a function of earlier pieces: the four bands
  narrowed, `y` of the first layer, the first layer's output and the second layer's aggregate, the second layer's output
  and three partial terms of the third layer's aggregate, and the stored block. This module only composes the pieces in the
  order the body computes them.
-/
import proofs.«141423_g37074157699470_cont_sun_m_1229_6_alg».proof.Proof.Gen.KernelIdeal.Skeleton

noncomputable section

namespace Cert.KernelIdeal.Hand

open Idealize.ShloMosaic Cert.KernelIdeal Cert.KernelIdeal.Gen

variable {F : FTy → Type} [FloatOps F]

/-- The stored block from the loaded blocks: the feature block, the four adjacency bands, and for each of the three layers
    its weight, bias row, scale row and shift row. -/
def bodyVal (x : Vec F S1x2048x128 .f32) (a0 a1 a2 a3 : Vec F S1x512x2048 .f32)
    (w0 : Vec F S128x128 .f32) (b0 g0 s0 : Vec F S128 .f32)
    (w1 : Vec F S128x128 .f32) (b1 g1 s1 : Vec F S128 .f32)
    (w2 : Vec F S128x128 .f32) (b2 g2 s2 : Vec F S128 .f32) : FVec F S1x2048x128 .f32 :=
  k0_pay1 (k0_pay4 a2) (k0_pay5 a3)
    (k0_pay9 (k0_pay7 (k0_pay6 a0 a1 a2 a3 x w0 b0) g0 s0)
      (k0_pay8 (k0_pay2 a0) (k0_pay3 a1) (k0_pay4 a2) (k0_pay5 a3) (k0_pay6 a0 a1 a2 a3 x w0 b0) g0 s0 w1) b1 g1 s1)
    (k0_pay10 (k0_pay7 (k0_pay6 a0 a1 a2 a3 x w0 b0) g0 s0)
      (k0_pay8 (k0_pay2 a0) (k0_pay3 a1) (k0_pay4 a2) (k0_pay5 a3) (k0_pay6 a0 a1 a2 a3 x w0 b0) g0 s0 w1) b1 g1 s1 w2)
    (k0_pay11 (k0_pay2 a0) (k0_pay3 a1) (k0_pay7 (k0_pay6 a0 a1 a2 a3 x w0 b0) g0 s0)
      (k0_pay8 (k0_pay2 a0) (k0_pay3 a1) (k0_pay4 a2) (k0_pay5 a3) (k0_pay6 a0 a1 a2 a3 x w0 b0) g0 s0 w1) b1 g1 s1 w2)
    (k0_pay12 (k0_pay7 (k0_pay6 a0 a1 a2 a3 x w0 b0) g0 s0)
      (k0_pay8 (k0_pay2 a0) (k0_pay3 a1) (k0_pay4 a2) (k0_pay5 a3) (k0_pay6 a0 a1 a2 a3 x w0 b0) g0 s0 w1) b1 g1 s1 w2)
    (constant S2048x128 .f32 0x00000000#32) b2 g2 s2

end Cert.KernelIdeal.Hand

end
-- ==== Proof.FrameDataIdeal.lean ====
/-
  The proof data of the one pipelined kernel call: eighteen windows over a grid of four points.

  The windows are the feature array, the adjacency array four times (its four row bands of 512 rows), twelve small
  parameter arrays, and the result array. The four band windows stand on ONE array, so that array's whole share is
  dealt among them a quarter each; every other window holds its array whole. After the body at a grid point every
  input window's buffer still holds its block, and the result window's buffer holds the one stored block, as a function
  of the seventeen input blocks.
-/
import proofs.«141423_g37074157699470_cont_sun_m_1229_6_alg».proof.Proof.Gen.KernelIdeal.Launch
import proofs.«141423_g37074157699470_cont_sun_m_1229_6_alg».proof.Proof.Gen.KernelIdeal.Skeleton
import proofs.«141423_g37074157699470_cont_sun_m_1229_6_alg».proof.Proof.Gen.KernelIdeal.Points
import proofs.«141423_g37074157699470_cont_sun_m_1229_6_alg».proof.Proof.BodyValIdeal
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the kernel's entry, and the windows' blocks -/

/-- What core `c`'s buffer `b` holds when the kernel is entered: the program is the kernel call alone, so the
    contents it was started with. -/
abbrev entry (c : Dev nD) (b : Ref sig .tc) : Buf (Elt F) ((c : Thread nD τ).loc b) := m ((c : Thread nD τ).loc b)

/-- Window `w`'s block at grid point `t`, read off its array's entry contents. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## The shares -/

/-- The share of its array each input window holds: the four band windows a quarter of the adjacency array each, the
    quarters being the two halves of the two halves of the whole share; every other window the whole. -/
def shareOf : Fin 18 → PosShare TreeShare
  | 1 => fullShare.left.left
  | 2 => fullShare.left.right
  | 3 => fullShare.right.left
  | 4 => fullShare.right.right
  | _ => fullShare

/-! ## The stored block -/

/-- The whole-block rectangles the body loads and stores through. -/
abbrev rX : Rect S1x2048x128 := Rect.unit (s := S1x2048x128) ![0, 0, 0] S1x2048x128.size inb_S1x2048x128_S1x2048x128_0_0_0
abbrev rA : Rect S1x512x2048 := Rect.unit (s := S1x512x2048) ![0, 0, 0] S1x512x2048.size inb_S1x512x2048_S1x512x2048_0_0_0
abbrev rW : Rect S128x128 := Rect.unit (s := S128x128) ![0, 0] S128x128.size inb_S128x128_S128x128_0_0
abbrev rV : Rect S128 := Rect.unit (s := S128) ![0] S128.size inb_S128_S128_0

/-- What the body leaves in the result window's buffer, from the seventeen input blocks: its one store, through the
    whole-block rectangle, of `bodyVal` of the blocks as the loads read them. -/
def outBlock (x : Vec F S1x2048x128 .f32) (a0 a1 a2 a3 : Vec F S1x512x2048 .f32)
    (w0 : Vec F S128x128 .f32) (b0 g0 s0 : Vec F S128 .f32)
    (w1 : Vec F S128x128 .f32) (b1 g1 s1 : Vec F S128 .f32)
    (w2 : Vec F S128x128 .f32) (b2 g2 s2 : Vec F S128 .f32) : Vec F S1x2048x128 .f32 :=
  View.canon [⟨rX, bodyVal (View.ld x rX) (View.ld a0 rA) (View.ld a1 rA) (View.ld a2 rA) (View.ld a3 rA)
    (View.ld w0 rW) (View.ld b0 rV) (View.ld g0 rV) (View.ld s0 rV)
    (View.ld w1 rW) (View.ld b1 rV) (View.ld g1 rV) (View.ld s1 rV)
    (View.ld w2 rW) (View.ld b2 rV) (View.ld g2 rV) (View.ld s2 rV)⟩]

/-! ## The proof data -/

/-- The proof data of the pipeline on core `c`: each window's array at its entry contents; after the body at point
    `t` each input window's buffer at its block and the result window's at `outBlock` of the input blocks; the
    invariant the core's scoped buffers that are no staging buffer, untouched; nothing owed; the shares `shareOf`. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => blockAt m c 13 t
    | ⟨14, _⟩ => blockAt m c 14 t
    | ⟨15, _⟩ => blockAt m c 15 t
    | ⟨16, _⟩ => blockAt m c 16 t
    | ⟨17, _⟩ => outBlock (blockAt m c 0 t) (blockAt m c 1 t) (blockAt m c 2 t) (blockAt m c 3 t) (blockAt m c 4 t)
        (blockAt m c 5 t) (blockAt m c 6 t) (blockAt m c 7 t) (blockAt m c 8 t)
        (blockAt m c 9 t) (blockAt m c 10 t) (blockAt m c 11 t) (blockAt m c 12 t)
        (blockAt m c 13 t) (blockAt m c 14 t) (blockAt m c 15 t) (blockAt m c 16 t)
    | ⟨_ + 18, h⟩ => absurd h (Nat.not_lt.2 (Nat.le_add_left _ _))
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = entry m c (Pipeline.arrRef spec0 w) := by
  dsimp only [dats]

end Cert.KernelIdeal.Hand

end
-- ==== Proof.BodyTripleIdeal.lean ====
/-
  The kernel body's run on whole buffers.

  The body loads each of its seventeen input buffers whole, loads the result buffer (a value it never uses) and ends with
  one store that covers the result buffer. So, given the input buffers at contents it only reads and the result buffer at
  any contents, it runs to its end without a fault, leaves the inputs as they were, and leaves the result buffer holding the
  stored value read back through the covering store: `outBlock` of the inputs.
-/
import proofs.«141423_g37074157699470_cont_sun_m_1229_6_alg».proof.Proof.FrameDataIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The one store covers the result window's buffer. -/
theorem cover_out (p0 : Vec F S1x2048x128 .f32) (y : S1x2048x128.Idx) :
    ∃ pc ∈ ([⟨rX, p0⟩] : List (View.Piece (Elt F) S1x2048x128 .f32)), y ∈ pc.1.set :=
  View.cover_of_tiled [⟨rX, p0⟩] S1x2048x128.size (by rfl) y

set_option maxHeartbeats 4000000 in
/-- The body on whole buffers: with the seventeen input buffers at contents it only reads and the result buffer at any
    contents, it runs to its end leaving the inputs as they were and the result buffer at `outBlock` of the inputs. -/
theorem sound_kernel (c : Dev nD) (E : Set ℕ) (i : grid0.Coords)
    (arg1 : Memref sig .tc .vmem S1x2048x128 .f32) (harg1 : arg1.IsWhole)
    (arg2 : Memref sig .tc .vmem S1x512x2048 .f32) (harg2 : arg2.IsWhole)
    (arg3 : Memref sig .tc .vmem S1x512x2048 .f32) (harg3 : arg3.IsWhole)
    (arg4 : Memref sig .tc .vmem S1x512x2048 .f32) (harg4 : arg4.IsWhole)
    (arg5 : Memref sig .tc .vmem S1x512x2048 .f32) (harg5 : arg5.IsWhole)
    (arg6 : Memref sig .tc .vmem S128x128 .f32) (harg6 : arg6.IsWhole)
    (arg7 : Memref sig .tc .vmem S128 .f32) (harg7 : arg7.IsWhole)
    (arg8 : Memref sig .tc .vmem S128 .f32) (harg8 : arg8.IsWhole)
    (arg9 : Memref sig .tc .vmem S128 .f32) (harg9 : arg9.IsWhole)
    (arg10 : Memref sig .tc .vmem S128x128 .f32) (harg10 : arg10.IsWhole)
    (arg11 : Memref sig .tc .vmem S128 .f32) (harg11 : arg11.IsWhole)
    (arg12 : Memref sig .tc .vmem S128 .f32) (harg12 : arg12.IsWhole)
    (arg13 : Memref sig .tc .vmem S128 .f32) (harg13 : arg13.IsWhole)
    (arg14 : Memref sig .tc .vmem S128x128 .f32) (harg14 : arg14.IsWhole)
    (arg15 : Memref sig .tc .vmem S128 .f32) (harg15 : arg15.IsWhole)
    (arg16 : Memref sig .tc .vmem S128 .f32) (harg16 : arg16.IsWhole)
    (arg17 : Memref sig .tc .vmem S128 .f32) (harg17 : arg17.IsWhole)
    (arg18 : Memref sig .tc .vmem S1x2048x128 .f32) (harg18 : arg18.IsWhole)
    (x : Vec F S1x2048x128 .f32) (a0 : Vec F S1x512x2048 .f32) (a1 : Vec F S1x512x2048 .f32) (a2 : Vec F S1x512x2048 .f32) (a3 : Vec F S1x512x2048 .f32) (w0 : Vec F S128x128 .f32) (b0 : Vec F S128 .f32) (g0 : Vec F S128 .f32) (s0 : Vec F S128 .f32) (w1 : Vec F S128x128 .f32) (b1 : Vec F S128 .f32) (g1 : Vec F S128 .f32) (s1 : Vec F S128 .f32) (w2 : Vec F S128x128 .f32) (b2 : Vec F S128 .f32) (g2 : Vec F S128 .f32) (s2 : Vec F S128 .f32) (K : PUnit → sProp 𝕄) :
    iprop(owns (c : Thread nD τ) arg1 fullShare x ∗ owns (c : Thread nD τ) arg2 fullShare a0 ∗ owns (c : Thread nD τ) arg3 fullShare a1 ∗ owns (c : Thread nD τ) arg4 fullShare a2 ∗ owns (c : Thread nD τ) arg5 fullShare a3 ∗ owns (c : Thread nD τ) arg6 fullShare w0 ∗ owns (c : Thread nD τ) arg7 fullShare b0 ∗ owns (c : Thread nD τ) arg8 fullShare g0 ∗ owns (c : Thread nD τ) arg9 fullShare s0 ∗ owns (c : Thread nD τ) arg10 fullShare w1 ∗ owns (c : Thread nD τ) arg11 fullShare b1 ∗ owns (c : Thread nD τ) arg12 fullShare g1 ∗ owns (c : Thread nD τ) arg13 fullShare s1 ∗ owns (c : Thread nD τ) arg14 fullShare w2 ∗ owns (c : Thread nD τ) arg15 fullShare b2 ∗ owns (c : Thread nD τ) arg16 fullShare g2 ∗ owns (c : Thread nD τ) arg17 fullShare s2 ∗ (∃ d, owns (c : Thread nD τ) arg18 fullShare d)
        ∗ (iprop(owns (c : Thread nD τ) arg1 fullShare x ∗ owns (c : Thread nD τ) arg2 fullShare a0 ∗ owns (c : Thread nD τ) arg3 fullShare a1 ∗ owns (c : Thread nD τ) arg4 fullShare a2 ∗ owns (c : Thread nD τ) arg5 fullShare a3 ∗ owns (c : Thread nD τ) arg6 fullShare w0 ∗ owns (c : Thread nD τ) arg7 fullShare b0 ∗ owns (c : Thread nD τ) arg8 fullShare g0 ∗ owns (c : Thread nD τ) arg9 fullShare s0 ∗ owns (c : Thread nD τ) arg10 fullShare w1 ∗ owns (c : Thread nD τ) arg11 fullShare b1 ∗ owns (c : Thread nD τ) arg12 fullShare g1 ∗ owns (c : Thread nD τ) arg13 fullShare s1 ∗ owns (c : Thread nD τ) arg14 fullShare w2 ∗ owns (c : Thread nD τ) arg15 fullShare b2 ∗ owns (c : Thread nD τ) arg16 fullShare g2 ∗ owns (c : Thread nD τ) arg17 fullShare s2 ∗ owns (c : Thread nD τ) arg18 fullShare (outBlock x a0 a1 a2 a3 w0 b0 g0 s0 w1 b1 g1 s1 w2 b2 g2 s2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__gcn_body_eq_skeleton]; unfold cc0__gcn_body_skel
  simp only [k0_part1_eq_skeleton, k0_part2_eq_skeleton, k0_part3_eq_skeleton]
  unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf1
  subst hf2
  subst hf3
  subst hf4
  subst hf5
  subst hf6
  subst hf7
  subst hf8
  subst hf9
  subst hf10
  subst hf11
  subst hf12
  subst hf13
  subst hf14
  subst hf15
  subst hf16
  subst hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  exact View.read_writes_eq_canon _ _ _ (cover_out _)

end Cert.KernelIdeal.Hand

end
-- ==== Proof.FrameIdeal.lean ====
/-
  The run of the program whose one kernel is handed the adjacency array through four windows.

  The four band windows stand on one array, so the launch theorem for windows that may share arrays is used: the
  certificate says how the buffers behind the arrays, each held whole at entry, are dealt to the windows (the adjacency
  buffer a quarter share per band window), proves the body obligation from the body's triple, and reads the final state
  window by window.
-/
import proofs.«141423_g37074157699470_cont_sun_m_1229_6_alg».proof.Proof.FrameDataIdeal
import proofs.«141423_g37074157699470_cont_sun_m_1229_6_alg».proof.Proof.BodyTripleIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays' shares to the windows -/

/-- The fifteen distinct buffers behind the eighteen windows' arrays, one by one. -/
theorem arrBufs_list (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0)
        ∗ (((c.tc : Thread nD τ).loc main_arg1) ↦{fullShare} V main_arg1)
        ∗ (((c.tc : Thread nD τ).loc main_arg2) ↦{fullShare} V main_arg2)
        ∗ (((c.tc : Thread nD τ).loc main_arg3) ↦{fullShare} V main_arg3)
        ∗ (((c.tc : Thread nD τ).loc main_arg4) ↦{fullShare} V main_arg4)
        ∗ (((c.tc : Thread nD τ).loc main_arg5) ↦{fullShare} V main_arg5)
        ∗ (((c.tc : Thread nD τ).loc main_arg6) ↦{fullShare} V main_arg6)
        ∗ (((c.tc : Thread nD τ).loc main_arg7) ↦{fullShare} V main_arg7)
        ∗ (((c.tc : Thread nD τ).loc main_arg8) ↦{fullShare} V main_arg8)
        ∗ (((c.tc : Thread nD τ).loc main_arg9) ↦{fullShare} V main_arg9)
        ∗ (((c.tc : Thread nD τ).loc main_arg10) ↦{fullShare} V main_arg10)
        ∗ (((c.tc : Thread nD τ).loc main_arg11) ↦{fullShare} V main_arg11)
        ∗ (((c.tc : Thread nD τ).loc main_arg12) ↦{fullShare} V main_arg12)
        ∗ (((c.tc : Thread nD τ).loc main_arg13) ↦{fullShare} V main_arg13)
        ∗ (((c.tc : Thread nD τ).loc main_v0) ↦{fullShare} V main_v0)) := by
  unfold Pipeline.arrBufs
  exact bigSep_eq_bigSepL_of_eq [main_arg0, main_arg1, main_arg2, main_arg3, main_arg4, main_arg5, main_arg6, main_arg7, main_arg8, main_arg9, main_arg10, main_arg11, main_arg12, main_arg13, main_v0] (by decide) (by decide) _

/-- Window `w`'s array at entry: the elements under its view, at the window's share, at the entry contents. -/
def winPts (c : Dev nD) (w : Fin 18) : sProp 𝕄 :=
  (cfg0.win w).arr.view.loc (c.tc : Thread nD τ) ↦[(cfg0.win w).arr.view.set]{(dats m 0 c).share w} (dats m 0 c).arrAt w 0

/-- The windows' arrays at entry are these, window by window. -/
theorem arrays_eq_winPts (c : Dev nD) :
    (dats m 0 c).arrays ((dats m 0 c).arrAt · 0) = bigSep Finset.univ (winPts m c) := by
  unfold Dat.arrays; rfl

/-- Each is a points-to of its whole buffer, at the window's share: every window's view is its whole array. -/
theorem winPts0 (c : Dev nD) :
    winPts m c (0 : Fin 18) = (((c.tc : Thread nD τ).loc main_arg0) ↦{fullShare} entry m c main_arg0) := by
  unfold winPts; rw [(arr_whole0 0).set_eq_univ]; rfl
theorem winPts1 (c : Dev nD) :
    winPts m c (1 : Fin 18) = (((c.tc : Thread nD τ).loc main_arg1) ↦{fullShare.left.left} entry m c main_arg1) := by
  unfold winPts; rw [(arr_whole0 1).set_eq_univ]; rfl
theorem winPts2 (c : Dev nD) :
    winPts m c (2 : Fin 18) = (((c.tc : Thread nD τ).loc main_arg1) ↦{fullShare.left.right} entry m c main_arg1) := by
  unfold winPts; rw [(arr_whole0 2).set_eq_univ]; rfl
theorem winPts3 (c : Dev nD) :
    winPts m c (3 : Fin 18) = (((c.tc : Thread nD τ).loc main_arg1) ↦{fullShare.right.left} entry m c main_arg1) := by
  unfold winPts; rw [(arr_whole0 3).set_eq_univ]; rfl
theorem winPts4 (c : Dev nD) :
    winPts m c (4 : Fin 18) = (((c.tc : Thread nD τ).loc main_arg1) ↦{fullShare.right.right} entry m c main_arg1) := by
  unfold winPts; rw [(arr_whole0 4).set_eq_univ]; rfl
theorem winPts5 (c : Dev nD) :
    winPts m c (5 : Fin 18) = (((c.tc : Thread nD τ).loc main_arg2) ↦{fullShare} entry m c main_arg2) := by
  unfold winPts; rw [(arr_whole0 5).set_eq_univ]; rfl
theorem winPts6 (c : Dev nD) :
    winPts m c (6 : Fin 18) = (((c.tc : Thread nD τ).loc main_arg3) ↦{fullShare} entry m c main_arg3) := by
  unfold winPts; rw [(arr_whole0 6).set_eq_univ]; rfl
theorem winPts7 (c : Dev nD) :
    winPts m c (7 : Fin 18) = (((c.tc : Thread nD τ).loc main_arg4) ↦{fullShare} entry m c main_arg4) := by
  unfold winPts; rw [(arr_whole0 7).set_eq_univ]; rfl
theorem winPts8 (c : Dev nD) :
    winPts m c (8 : Fin 18) = (((c.tc : Thread nD τ).loc main_arg5) ↦{fullShare} entry m c main_arg5) := by
  unfold winPts; rw [(arr_whole0 8).set_eq_univ]; rfl
theorem winPts9 (c : Dev nD) :
    winPts m c (9 : Fin 18) = (((c.tc : Thread nD τ).loc main_arg6) ↦{fullShare} entry m c main_arg6) := by
  unfold winPts; rw [(arr_whole0 9).set_eq_univ]; rfl
theorem winPts10 (c : Dev nD) :
    winPts m c (10 : Fin 18) = (((c.tc : Thread nD τ).loc main_arg7) ↦{fullShare} entry m c main_arg7) := by
  unfold winPts; rw [(arr_whole0 10).set_eq_univ]; rfl
theorem winPts11 (c : Dev nD) :
    winPts m c (11 : Fin 18) = (((c.tc : Thread nD τ).loc main_arg8) ↦{fullShare} entry m c main_arg8) := by
  unfold winPts; rw [(arr_whole0 11).set_eq_univ]; rfl
theorem winPts12 (c : Dev nD) :
    winPts m c (12 : Fin 18) = (((c.tc : Thread nD τ).loc main_arg9) ↦{fullShare} entry m c main_arg9) := by
  unfold winPts; rw [(arr_whole0 12).set_eq_univ]; rfl
theorem winPts13 (c : Dev nD) :
    winPts m c (13 : Fin 18) = (((c.tc : Thread nD τ).loc main_arg10) ↦{fullShare} entry m c main_arg10) := by
  unfold winPts; rw [(arr_whole0 13).set_eq_univ]; rfl
theorem winPts14 (c : Dev nD) :
    winPts m c (14 : Fin 18) = (((c.tc : Thread nD τ).loc main_arg11) ↦{fullShare} entry m c main_arg11) := by
  unfold winPts; rw [(arr_whole0 14).set_eq_univ]; rfl
theorem winPts15 (c : Dev nD) :
    winPts m c (15 : Fin 18) = (((c.tc : Thread nD τ).loc main_arg12) ↦{fullShare} entry m c main_arg12) := by
  unfold winPts; rw [(arr_whole0 15).set_eq_univ]; rfl
theorem winPts16 (c : Dev nD) :
    winPts m c (16 : Fin 18) = (((c.tc : Thread nD τ).loc main_arg13) ↦{fullShare} entry m c main_arg13) := by
  unfold winPts; rw [(arr_whole0 16).set_eq_univ]; rfl
theorem winPts17 (c : Dev nD) :
    winPts m c (17 : Fin 18) = (((c.tc : Thread nD τ).loc main_v0) ↦{fullShare} entry m c main_v0) := by
  unfold winPts; rw [(arr_whole0 17).set_eq_univ]; rfl

/-- The invariant the proof data names, at every point. -/
theorem Φ_eq (c : Dev nD) (t : Fin (cfg0.N + 1)) :
    (dats m 0 c).Φ t = (Pipeline.scopedRest (Ix := Unit) (Name := ℕ) (U := UR sig nD τ) (Lvl := ℕ) (Val := Elt F) spec0 c : sProp 𝕄) := by
  dsimp only [dats]

/-- The buffers behind the arrays, each held whole at its entry contents, make the windows' arrays at entry: the
    adjacency buffer's whole share is split into its two halves and each half into its two halves, one quarter per
    band window; every other buffer goes whole to its one window. -/
theorem hsplit (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  rw [arrBufs_list]
  rw [arrays_eq_winPts, bigSep_W0]
  rw [winPts0, winPts1, winPts2, winPts3, winPts4, winPts5, winPts6, winPts7, winPts8, winPts9, winPts10, winPts11, winPts12, winPts13, winPts14, winPts15, winPts16, winPts17]
  iintro ⟨H0, H1, H2, H3, H4, H5, H6, H7, H8, H9, H10, H11, H12, H13, Hv⟩
  ihave H1 := (pointsTo_share (PosShare.mem_left_op_right fullShare)).1 $$ H1
  icases H1 with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [H0]; · iexact H0
  isplitl [Hll]; · iexact Hll
  isplitl [Hlr]; · iexact Hlr
  isplitl [Hrl]; · iexact Hrl
  isplitl [Hrr]; · iexact Hrr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact Hv

/-! ## The program up to the kernel call -/

/-- The program is the kernel call alone, so the call is entered at the contents the program was started with. -/
theorem hmain (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-! ## What the body finds and leaves in the windows' buffers -/

/-- What the proof data says the body leaves, window by window. -/
theorem after0 (c : Dev nD) (t : Fin cfg0.N) : (dats m 0 c).after (0 : Fin 18) t = blockAt m c 0 t := by dsimp only [dats]
theorem after1 (c : Dev nD) (t : Fin cfg0.N) : (dats m 0 c).after (1 : Fin 18) t = blockAt m c 1 t := by dsimp only [dats]
theorem after2 (c : Dev nD) (t : Fin cfg0.N) : (dats m 0 c).after (2 : Fin 18) t = blockAt m c 2 t := by dsimp only [dats]
theorem after3 (c : Dev nD) (t : Fin cfg0.N) : (dats m 0 c).after (3 : Fin 18) t = blockAt m c 3 t := by dsimp only [dats]
theorem after4 (c : Dev nD) (t : Fin cfg0.N) : (dats m 0 c).after (4 : Fin 18) t = blockAt m c 4 t := by dsimp only [dats]
theorem after5 (c : Dev nD) (t : Fin cfg0.N) : (dats m 0 c).after (5 : Fin 18) t = blockAt m c 5 t := by dsimp only [dats]
theorem after6 (c : Dev nD) (t : Fin cfg0.N) : (dats m 0 c).after (6 : Fin 18) t = blockAt m c 6 t := by dsimp only [dats]
theorem after7 (c : Dev nD) (t : Fin cfg0.N) : (dats m 0 c).after (7 : Fin 18) t = blockAt m c 7 t := by dsimp only [dats]
theorem after8 (c : Dev nD) (t : Fin cfg0.N) : (dats m 0 c).after (8 : Fin 18) t = blockAt m c 8 t := by dsimp only [dats]
theorem after9 (c : Dev nD) (t : Fin cfg0.N) : (dats m 0 c).after (9 : Fin 18) t = blockAt m c 9 t := by dsimp only [dats]
theorem after10 (c : Dev nD) (t : Fin cfg0.N) : (dats m 0 c).after (10 : Fin 18) t = blockAt m c 10 t := by dsimp only [dats]
theorem after11 (c : Dev nD) (t : Fin cfg0.N) : (dats m 0 c).after (11 : Fin 18) t = blockAt m c 11 t := by dsimp only [dats]
theorem after12 (c : Dev nD) (t : Fin cfg0.N) : (dats m 0 c).after (12 : Fin 18) t = blockAt m c 12 t := by dsimp only [dats]
theorem after13 (c : Dev nD) (t : Fin cfg0.N) : (dats m 0 c).after (13 : Fin 18) t = blockAt m c 13 t := by dsimp only [dats]
theorem after14 (c : Dev nD) (t : Fin cfg0.N) : (dats m 0 c).after (14 : Fin 18) t = blockAt m c 14 t := by dsimp only [dats]
theorem after15 (c : Dev nD) (t : Fin cfg0.N) : (dats m 0 c).after (15 : Fin 18) t = blockAt m c 15 t := by dsimp only [dats]
theorem after16 (c : Dev nD) (t : Fin cfg0.N) : (dats m 0 c).after (16 : Fin 18) t = blockAt m c 16 t := by dsimp only [dats]
theorem after17 (c : Dev nD) (t : Fin cfg0.N) : (dats m 0 c).after (17 : Fin 18) t
    = outBlock (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) := by dsimp only [dats]

/-- An input window's current buffer holds the window's block at every grid point, whether the block was fetched there
    or at an earlier point: the body leaves it in place, the window is never idle and never cut, so an unfetched buffer
    still holds the block of the same index, which is this point's. -/
theorem held0 (c : Dev nD) (t : Fin cfg0.N) (d) : (dats m 0 c).before (0 : Fin 18) t d = blockAt m c 0 t := by
  rw [(dats m 0 c).before_in_eq_fetched 0 rfl (fun _ => rfl) (fun _ _ _ => rfl) (fun u => by rw [after0]; rfl) t d]
  rfl
theorem held1 (c : Dev nD) (t : Fin cfg0.N) (d) : (dats m 0 c).before (1 : Fin 18) t d = blockAt m c 1 t := by
  rw [(dats m 0 c).before_in_eq_fetched 1 rfl (fun _ => rfl) (fun _ _ _ => rfl) (fun u => by rw [after1]; rfl) t d]
  rfl
theorem held2 (c : Dev nD) (t : Fin cfg0.N) (d) : (dats m 0 c).before (2 : Fin 18) t d = blockAt m c 2 t := by
  rw [(dats m 0 c).before_in_eq_fetched 2 rfl (fun _ => rfl) (fun _ _ _ => rfl) (fun u => by rw [after2]; rfl) t d]
  rfl
theorem held3 (c : Dev nD) (t : Fin cfg0.N) (d) : (dats m 0 c).before (3 : Fin 18) t d = blockAt m c 3 t := by
  rw [(dats m 0 c).before_in_eq_fetched 3 rfl (fun _ => rfl) (fun _ _ _ => rfl) (fun u => by rw [after3]; rfl) t d]
  rfl
theorem held4 (c : Dev nD) (t : Fin cfg0.N) (d) : (dats m 0 c).before (4 : Fin 18) t d = blockAt m c 4 t := by
  rw [(dats m 0 c).before_in_eq_fetched 4 rfl (fun _ => rfl) (fun _ _ _ => rfl) (fun u => by rw [after4]; rfl) t d]
  rfl
theorem held5 (c : Dev nD) (t : Fin cfg0.N) (d) : (dats m 0 c).before (5 : Fin 18) t d = blockAt m c 5 t := by
  rw [(dats m 0 c).before_in_eq_fetched 5 rfl (fun _ => rfl) (fun _ _ _ => rfl) (fun u => by rw [after5]; rfl) t d]
  rfl
theorem held6 (c : Dev nD) (t : Fin cfg0.N) (d) : (dats m 0 c).before (6 : Fin 18) t d = blockAt m c 6 t := by
  rw [(dats m 0 c).before_in_eq_fetched 6 rfl (fun _ => rfl) (fun _ _ _ => rfl) (fun u => by rw [after6]; rfl) t d]
  rfl
theorem held7 (c : Dev nD) (t : Fin cfg0.N) (d) : (dats m 0 c).before (7 : Fin 18) t d = blockAt m c 7 t := by
  rw [(dats m 0 c).before_in_eq_fetched 7 rfl (fun _ => rfl) (fun _ _ _ => rfl) (fun u => by rw [after7]; rfl) t d]
  rfl
theorem held8 (c : Dev nD) (t : Fin cfg0.N) (d) : (dats m 0 c).before (8 : Fin 18) t d = blockAt m c 8 t := by
  rw [(dats m 0 c).before_in_eq_fetched 8 rfl (fun _ => rfl) (fun _ _ _ => rfl) (fun u => by rw [after8]; rfl) t d]
  rfl
theorem held9 (c : Dev nD) (t : Fin cfg0.N) (d) : (dats m 0 c).before (9 : Fin 18) t d = blockAt m c 9 t := by
  rw [(dats m 0 c).before_in_eq_fetched 9 rfl (fun _ => rfl) (fun _ _ _ => rfl) (fun u => by rw [after9]; rfl) t d]
  rfl
theorem held10 (c : Dev nD) (t : Fin cfg0.N) (d) : (dats m 0 c).before (10 : Fin 18) t d = blockAt m c 10 t := by
  rw [(dats m 0 c).before_in_eq_fetched 10 rfl (fun _ => rfl) (fun _ _ _ => rfl) (fun u => by rw [after10]; rfl) t d]
  rfl
theorem held11 (c : Dev nD) (t : Fin cfg0.N) (d) : (dats m 0 c).before (11 : Fin 18) t d = blockAt m c 11 t := by
  rw [(dats m 0 c).before_in_eq_fetched 11 rfl (fun _ => rfl) (fun _ _ _ => rfl) (fun u => by rw [after11]; rfl) t d]
  rfl
theorem held12 (c : Dev nD) (t : Fin cfg0.N) (d) : (dats m 0 c).before (12 : Fin 18) t d = blockAt m c 12 t := by
  rw [(dats m 0 c).before_in_eq_fetched 12 rfl (fun _ => rfl) (fun _ _ _ => rfl) (fun u => by rw [after12]; rfl) t d]
  rfl
theorem held13 (c : Dev nD) (t : Fin cfg0.N) (d) : (dats m 0 c).before (13 : Fin 18) t d = blockAt m c 13 t := by
  rw [(dats m 0 c).before_in_eq_fetched 13 rfl (fun _ => rfl) (fun _ _ _ => rfl) (fun u => by rw [after13]; rfl) t d]
  rfl
theorem held14 (c : Dev nD) (t : Fin cfg0.N) (d) : (dats m 0 c).before (14 : Fin 18) t d = blockAt m c 14 t := by
  rw [(dats m 0 c).before_in_eq_fetched 14 rfl (fun _ => rfl) (fun _ _ _ => rfl) (fun u => by rw [after14]; rfl) t d]
  rfl
theorem held15 (c : Dev nD) (t : Fin cfg0.N) (d) : (dats m 0 c).before (15 : Fin 18) t d = blockAt m c 15 t := by
  rw [(dats m 0 c).before_in_eq_fetched 15 rfl (fun _ => rfl) (fun _ _ _ => rfl) (fun u => by rw [after15]; rfl) t d]
  rfl
theorem held16 (c : Dev nD) (t : Fin cfg0.N) (d) : (dats m 0 c).before (16 : Fin 18) t d = blockAt m c 16 t := by
  rw [(dats m 0 c).before_in_eq_fetched 16 rfl (fun _ => rfl) (fun _ _ _ => rfl) (fun u => by rw [after16]; rfl) t d]
  rfl

/-! ## The body obligation -/

/-- What the pipeline calls the body with at point `t`: the invariant, the core's dues, and each window's current
    buffer — an input's at what a fetch left, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before (0 : Fin 18) t d))
    ∗ (∃ d, owns (c : Thread nD τ) (st0_1 t) fullShare ((dats m 0 c).before (1 : Fin 18) t d))
    ∗ (∃ d, owns (c : Thread nD τ) (st0_2 t) fullShare ((dats m 0 c).before (2 : Fin 18) t d))
    ∗ (∃ d, owns (c : Thread nD τ) (st0_3 t) fullShare ((dats m 0 c).before (3 : Fin 18) t d))
    ∗ (∃ d, owns (c : Thread nD τ) (st0_4 t) fullShare ((dats m 0 c).before (4 : Fin 18) t d))
    ∗ (∃ d, owns (c : Thread nD τ) (st0_5 t) fullShare ((dats m 0 c).before (5 : Fin 18) t d))
    ∗ (∃ d, owns (c : Thread nD τ) (st0_6 t) fullShare ((dats m 0 c).before (6 : Fin 18) t d))
    ∗ (∃ d, owns (c : Thread nD τ) (st0_7 t) fullShare ((dats m 0 c).before (7 : Fin 18) t d))
    ∗ (∃ d, owns (c : Thread nD τ) (st0_8 t) fullShare ((dats m 0 c).before (8 : Fin 18) t d))
    ∗ (∃ d, owns (c : Thread nD τ) (st0_9 t) fullShare ((dats m 0 c).before (9 : Fin 18) t d))
    ∗ (∃ d, owns (c : Thread nD τ) (st0_10 t) fullShare ((dats m 0 c).before (10 : Fin 18) t d))
    ∗ (∃ d, owns (c : Thread nD τ) (st0_11 t) fullShare ((dats m 0 c).before (11 : Fin 18) t d))
    ∗ (∃ d, owns (c : Thread nD τ) (st0_12 t) fullShare ((dats m 0 c).before (12 : Fin 18) t d))
    ∗ (∃ d, owns (c : Thread nD τ) (st0_13 t) fullShare ((dats m 0 c).before (13 : Fin 18) t d))
    ∗ (∃ d, owns (c : Thread nD τ) (st0_14 t) fullShare ((dats m 0 c).before (14 : Fin 18) t d))
    ∗ (∃ d, owns (c : Thread nD τ) (st0_15 t) fullShare ((dats m 0 c).before (15 : Fin 18) t d))
    ∗ (∃ d, owns (c : Thread nD τ) (st0_16 t) fullShare ((dats m 0 c).before (16 : Fin 18) t d))
    ∗ (∃ d, owns (c : Thread nD τ) (st0_17 t) fullShare ((dats m 0 c).before (17 : Fin 18) t d)))

/-- What it takes back: the same invariant and dues, and each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after (0 : Fin 18) t)
    ∗ owns (c : Thread nD τ) (st0_1 t) fullShare ((dats m 0 c).after (1 : Fin 18) t)
    ∗ owns (c : Thread nD τ) (st0_2 t) fullShare ((dats m 0 c).after (2 : Fin 18) t)
    ∗ owns (c : Thread nD τ) (st0_3 t) fullShare ((dats m 0 c).after (3 : Fin 18) t)
    ∗ owns (c : Thread nD τ) (st0_4 t) fullShare ((dats m 0 c).after (4 : Fin 18) t)
    ∗ owns (c : Thread nD τ) (st0_5 t) fullShare ((dats m 0 c).after (5 : Fin 18) t)
    ∗ owns (c : Thread nD τ) (st0_6 t) fullShare ((dats m 0 c).after (6 : Fin 18) t)
    ∗ owns (c : Thread nD τ) (st0_7 t) fullShare ((dats m 0 c).after (7 : Fin 18) t)
    ∗ owns (c : Thread nD τ) (st0_8 t) fullShare ((dats m 0 c).after (8 : Fin 18) t)
    ∗ owns (c : Thread nD τ) (st0_9 t) fullShare ((dats m 0 c).after (9 : Fin 18) t)
    ∗ owns (c : Thread nD τ) (st0_10 t) fullShare ((dats m 0 c).after (10 : Fin 18) t)
    ∗ owns (c : Thread nD τ) (st0_11 t) fullShare ((dats m 0 c).after (11 : Fin 18) t)
    ∗ owns (c : Thread nD τ) (st0_12 t) fullShare ((dats m 0 c).after (12 : Fin 18) t)
    ∗ owns (c : Thread nD τ) (st0_13 t) fullShare ((dats m 0 c).after (13 : Fin 18) t)
    ∗ owns (c : Thread nD τ) (st0_14 t) fullShare ((dats m 0 c).after (14 : Fin 18) t)
    ∗ owns (c : Thread nD τ) (st0_15 t) fullShare ((dats m 0 c).after (15 : Fin 18) t)
    ∗ owns (c : Thread nD τ) (st0_16 t) fullShare ((dats m 0 c).after (16 : Fin 18) t)
    ∗ owns (c : Thread nD τ) (st0_17 t) fullShare ((dats m 0 c).after (17 : Fin 18) t))

/-- The body at any point: every input buffer holds its block, so the body's triple applies at the seventeen blocks;
    the invariant and the dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5, held6, held7, held8, held9, held10, held11, held12, held13, held14, held15, held16, after0, after1, after2, after3, after4, after5, after6, after7, after8, after9, after10, after11, after12, after13, after14, after15, after16, after17]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (blockAt m c 13 t) (blockAt m c 14 t) (blockAt m c 15 t) (blockAt m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of the program on the TensorCores terminates, and
    in every final state each window's array holds what the proof data computes for it after the last grid point. -/
theorem run_main_of (hbody : ∀ c, BodyObligationLoose (dats (F := F) m 0 c) (defs₀ (F := F)) Variants.none () Set.univ) :
    θ_run defs (onTc (τ := τ) (main (F := F))) ⟨m, fun _ => 0, ρ⟩
      (fun r => ∀ c : Dev nD, ∀ w, r.2.mem (((cfgs 0).spec w).arr.view.loc (c.tc : Thread nD τ)) = (dats m 0 c).arrAt w (cfgs 0).N) := by
  classical
  exact Pipeline.θ_run_region_noSem_shared cfgs (dats m) () cellOf_inj (0 : Fin 1) winFacts₀0 emb₁ defs₀ Variants.none m ρ main
    (hbody := hbody) (hne := block_pos0) (harr := arr_whole0) (hstage := stage_whole0) (howed := fun _ _ => rfl)
    (u₀ := initOf (Pipeline.cells cfgs cellOf_inj) (Pipeline.launchToks cfgs cellOf_inj))
    (hu₀ := .rfl)
    (V := entry m) (hmain := hmain m Variants.none) (hsplit := hsplit m)
    (X := fun _ => iprop(emp)) (Y := fun _ => iprop(emp)) (Z := fun _ => iprop(emp))
    (hX := fun c => by iintro -; isplitl [] <;> iempintro)
    (hin := fun c => by rw [Φ_eq]; iintro ⟨-, H⟩; iexact H)
    (hout := fun c => by rw [Φ_eq]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The run, with the body obligation discharged. -/
theorem run_main : θ_run defs (onTc (τ := τ) (main (F := F))) ⟨m, fun _ => 0, ρ⟩
    (fun r => ∀ c : Dev nD, ∀ w, r.2.mem (((cfgs 0).spec w).arr.view.loc (c.tc : Thread nD τ)) = (dats m 0 c).arrAt w (cfgs 0).N) :=
  run_main_of m ρ fun c => (body_obligation m c).loose

/-- The same run read at the sixteen arrays: the result array holds what the proof data computes for the result window
    after the last point, and every argument array — an input window's, never written back — its entry contents. -/
theorem run_post : θ_run defs (onTc (τ := τ) (main (F := F))) ⟨m, fun _ => 0, ρ⟩ (fun r => ∀ c : Dev nD,
      r.2.mem ((c.tc : Thread nD τ).loc main_v0) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c) (17 : Fin 18),
    ((h c) (0 : Fin 18)).trans (((dats m 0 c).arrAt_in 0 rfl _).trans (A_eq m c 0)),
    ((h c) (1 : Fin 18)).trans (((dats m 0 c).arrAt_in 1 rfl _).trans (A_eq m c 1)),
    ((h c) (5 : Fin 18)).trans (((dats m 0 c).arrAt_in 5 rfl _).trans (A_eq m c 5)),
    ((h c) (6 : Fin 18)).trans (((dats m 0 c).arrAt_in 6 rfl _).trans (A_eq m c 6)),
    ((h c) (7 : Fin 18)).trans (((dats m 0 c).arrAt_in 7 rfl _).trans (A_eq m c 7)),
    ((h c) (8 : Fin 18)).trans (((dats m 0 c).arrAt_in 8 rfl _).trans (A_eq m c 8)),
    ((h c) (9 : Fin 18)).trans (((dats m 0 c).arrAt_in 9 rfl _).trans (A_eq m c 9)),
    ((h c) (10 : Fin 18)).trans (((dats m 0 c).arrAt_in 10 rfl _).trans (A_eq m c 10)),
    ((h c) (11 : Fin 18)).trans (((dats m 0 c).arrAt_in 11 rfl _).trans (A_eq m c 11)),
    ((h c) (12 : Fin 18)).trans (((dats m 0 c).arrAt_in 12 rfl _).trans (A_eq m c 12)),
    ((h c) (13 : Fin 18)).trans (((dats m 0 c).arrAt_in 13 rfl _).trans (A_eq m c 13)),
    ((h c) (14 : Fin 18)).trans (((dats m 0 c).arrAt_in 14 rfl _).trans (A_eq m c 14)),
    ((h c) (15 : Fin 18)).trans (((dats m 0 c).arrAt_in 15 rfl _).trans (A_eq m c 15)),
    ((h c) (16 : Fin 18)).trans (((dats m 0 c).arrAt_in 16 rfl _).trans (A_eq m c 16))⟩) (run_main m ρ)

/-- The frame: the program terminates without fault and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_post m ρ)

end Cert.KernelIdeal.Hand

end
-- ==== Proof.Spec.lean ====
/-
  The function both programs compute, on the extended reals, index by index.

  One graph-convolution layer on a graph of 2048 nodes with 128 features: with `h = x · W` (a 2048 × 128 by 128 × 128
  product), the aggregate at node `n` is `∑ k, A k n * h k d` — the TRANSPOSE of the dense adjacency `A` applied to
  `h`, so entry `A k n` weighs the edge from `k` into `n` —; `y = aggregate + b + x` (bias row and residual);
  each row of `y` is normalised by its mean `μ n = (0 + ∑ d, y n d) / 128` and its variance
  `(0 + ∑ d, (y n d − μ n)²) / 128` as `(y n d − μ n) / √(variance + ε)`, scaled by `g d`, shifted by `β d`, and the
  positive part is kept. The network is three such layers on each of four graphs, every graph with its own adjacency and
  features, all sharing the three layers' weights.
  The literals are kept as the words the programs print: `ε` is the f32 word `0x3727C5AC` and the divisor the f32 word
  of `128`; the same words stand on both sides, so they are never evaluated here.
-/
import Idealize.ShloMosaic.PureOps.Ideal
import Idealize.ShloMosaic.Lib.ValueIdx

noncomputable section

open scoped BigOperators

namespace Cert.Spec

open Idealize.ShloMosaic Idealize.ShloMosaic.ValueIdx

/-- The variance's guard `ε`: the f32 word both programs print. -/
def eps : EReal := Ideal.ofBits .f32 0x3727C5AC#32
/-- The row length as both programs print it: the f32 word of `128`. -/
def c128 : EReal := Ideal.ofBits .f32 0x43000000#32

/-- The dense product `x · W`: node `k`'s features through the layer's weight. -/
def feat (x : Fin 2048 → Fin 128 → EReal) (W : Fin 128 → Fin 128 → EReal) (k : Fin 2048) (d : Fin 128) : EReal :=
  ∑ j : Fin 128, x k j * W j d

/-- Aggregate over the edges into `n`, plus the bias row, plus the residual. -/
def pre (A : Fin 2048 → Fin 2048 → EReal) (x : Fin 2048 → Fin 128 → EReal) (W : Fin 128 → Fin 128 → EReal)
    (b : Fin 128 → EReal) (n : Fin 2048) (d : Fin 128) : EReal :=
  (∑ k : Fin 2048, A k n * feat x W k d) + b d + x n d

/-- A row's mean: the sum of its 128 entries, taken from `0`, over the word of `128`. -/
def rowMean (y : Fin 2048 → Fin 128 → EReal) (n : Fin 2048) : EReal :=
  Ideal.div (0 + ∑ d : Fin 128, y n d) c128

/-- A row's variance: the mean of the squared deviations from the row's mean. -/
def rowVar (y : Fin 2048 → Fin 128 → EReal) (n : Fin 2048) : EReal :=
  Ideal.div (0 + ∑ d : Fin 128, (y n d - rowMean y n) * (y n d - rowMean y n)) c128

/-- Row normalisation, the per-feature scale and shift, and the positive part. -/
def normRelu (y : Fin 2048 → Fin 128 → EReal) (g β : Fin 128 → EReal) (n : Fin 2048) (d : Fin 128) : EReal :=
  max (Ideal.div (y n d - rowMean y n) (Ideal.sqrt (rowVar y n + eps)) * g d + β d) 0

/-- One layer. -/
def layer (A : Fin 2048 → Fin 2048 → EReal) (x : Fin 2048 → Fin 128 → EReal) (W : Fin 128 → Fin 128 → EReal)
    (b g β : Fin 128 → EReal) : Fin 2048 → Fin 128 → EReal :=
  normRelu (pre A x W b) g β

/-- A weight matrix as a function of its two coordinates. -/
def mat (W : (⟨2, ![128, 128]⟩ : Shape).Idx → EReal) (j d : Fin 128) : EReal := W (ix2 j d)
/-- A parameter row as a function of its coordinate. -/
def row (v : (⟨1, ![128]⟩ : Shape).Idx → EReal) (d : Fin 128) : EReal := v (ix1 d)
/-- Graph `t`'s adjacency. -/
def adjOf (Adj : (⟨3, ![4, 2048, 2048]⟩ : Shape).Idx → EReal) (t : Fin 4) (k n : Fin 2048) : EReal := Adj (ix3 t k n)
/-- Graph `t`'s input features. -/
def featOf (X : (⟨3, ![4, 2048, 128]⟩ : Shape).Idx → EReal) (t : Fin 4) (n : Fin 2048) (d : Fin 128) : EReal := X (ix3 t n d)

/-- Three layers on graph `t`. -/
def net3 (A : Fin 2048 → Fin 2048 → EReal) (x : Fin 2048 → Fin 128 → EReal)
    (W0 : Fin 128 → Fin 128 → EReal) (b0 g0 β0 : Fin 128 → EReal)
    (W1 : Fin 128 → Fin 128 → EReal) (b1 g1 β1 : Fin 128 → EReal)
    (W2 : Fin 128 → Fin 128 → EReal) (b2 g2 β2 : Fin 128 → EReal) : Fin 2048 → Fin 128 → EReal :=
  layer A (layer A (layer A x W0 b0 g0 β0) W1 b1 g1 β1) W2 b2 g2 β2

/-- The whole result, as a function of the fourteen argument arrays in the order both programs take them: entry
    `(t, n, d)` is feature `d` of node `n` of graph `t` after the three layers. -/
def net (X : (⟨3, ![4, 2048, 128]⟩ : Shape).Idx → EReal) (Adj : (⟨3, ![4, 2048, 2048]⟩ : Shape).Idx → EReal)
    (W0 : (⟨2, ![128, 128]⟩ : Shape).Idx → EReal) (b0 g0 β0 : (⟨1, ![128]⟩ : Shape).Idx → EReal)
    (W1 : (⟨2, ![128, 128]⟩ : Shape).Idx → EReal) (b1 g1 β1 : (⟨1, ![128]⟩ : Shape).Idx → EReal)
    (W2 : (⟨2, ![128, 128]⟩ : Shape).Idx → EReal) (b2 g2 β2 : (⟨1, ![128]⟩ : Shape).Idx → EReal) :
    (⟨3, ![4, 2048, 128]⟩ : Shape).Idx → EReal :=
  fun i => net3 (adjOf Adj (i 0)) (featOf X (i 0)) (mat W0) (row b0) (row g0) (row β0)
    (mat W1) (row b1) (row g1) (row β1) (mat W2) (row b2) (row g2) (row β2) (i 1) (i 2)

end Cert.Spec

end
-- ==== Proof.Laws.lean ====
/-
  The laws on the extended reals that join the two arrangements of a layer.

  (1) The two literal words: the row length's word denotes the real 128 and the guard's word a positive real.
  (2) `d · rsqrt v = d / √v` for EVERY extended real `d` once `0 < v`, the value `v = ⊤` included: there
      `rsqrt ⊤ = 0` and `d / √⊤ = d · ⊤⁻¹ = d · 0`; on a positive real both sides are `d · (√v)⁻¹`. No finiteness of
      `d` is used.
  (3) A row's variance plus the guard is positive whatever the row holds: a square `e · e` is `≥ 0` on all of the
      extended reals (`⊥ · ⊥ = ⊤`), so is a sum of squares taken from `0`, so is its quotient by 128, and the guard is a
      positive real.
  (4) A sum over 2048 positions is `0` plus the four sums over the bands of 512 positions — only commutativity and
      associativity of `+`.
-/
import Idealize.ShloMosaic.PureOps.Ideal
import Idealize.ShloMosaic.PureOps.Ideal.Laws
import proofs.«141423_g37074157699470_cont_sun_m_1229_6_alg».proof.Proof.Spec

noncomputable section

open scoped BigOperators

namespace Cert.Spec

open Idealize.ShloMosaic

/-- The row length's word denotes the real `128`. -/
theorem c128_eq : c128 = ((128 : ℝ) : EReal) := by
  unfold c128
  simp [Ideal.ofBits, Ideal.ieee, -EReal.coe_mul]; norm_num

/-- The guard's word denotes a positive real. -/
theorem eps_pos : ∃ e : ℝ, 0 < e ∧ eps = (e : EReal) := by
  refine ⟨(2 ^ 23 + 2606508 : ℕ) * (2 : ℝ) ^ ((110 : ℤ) - 127 - 23), by positivity, ?_⟩
  unfold eps
  simp [Ideal.ofBits, Ideal.ieee, -EReal.coe_mul]

/-- Dividing by the row length keeps a non-negative extended real non-negative. -/
theorem div_c128_nonneg {s : EReal} (hs : 0 ≤ s) : 0 ≤ Ideal.div s c128 := by
  rw [c128_eq, Ideal.div_coe (by norm_num : (128 : ℝ) ≠ 0)]
  exact mul_nonneg hs (by exact_mod_cast (by norm_num : (0 : ℝ) ≤ 1 / 128))

/-- A square is non-negative on all of the extended reals. -/
theorem mul_self_nonneg' (e : EReal) : 0 ≤ e * e := by
  rcases le_total 0 e with h | h
  · exact mul_nonneg h h
  · have := mul_nonneg (EReal.neg_nonneg.mpr h) (EReal.neg_nonneg.mpr h)
    rwa [neg_mul_neg] at this

/-- A row's variance is non-negative, whatever the row holds. -/
theorem rowVar_nonneg (y : Fin 2048 → Fin 128 → EReal) (n : Fin 2048) : 0 ≤ rowVar y n := by
  unfold rowVar
  refine div_c128_nonneg ?_
  rw [zero_add]
  exact Finset.sum_nonneg fun d _ => mul_self_nonneg' _

/-- The variance plus the guard is positive. -/
theorem rowVar_eps_pos (y : Fin 2048 → Fin 128 → EReal) (n : Fin 2048) : 0 < rowVar y n + eps := by
  obtain ⟨e, he, hE⟩ := eps_pos
  have h0 : (0 : EReal) < (e : EReal) := by exact_mod_cast he
  calc (0 : EReal) < (e : EReal) := h0
    _ = 0 + eps := by rw [zero_add, hE]
    _ ≤ rowVar y n + eps := add_le_add (rowVar_nonneg y n) le_rfl

/-- `d · rsqrt v = d / √v` for every extended real `d` and every `v > 0`, `⊤` included. -/
theorem mul_rsqrt_eq_div_sqrt (d : EReal) {v : EReal} (hv : 0 < v) : d * Ideal.rsqrt v = Ideal.div d (Ideal.sqrt v) := by
  induction v using EReal.rec with
  | bot => exact absurd hv (not_lt_bot)
  | top =>
    rw [Ideal.rsqrt_top, Ideal.sqrt_top, Ideal.div, if_neg (by decide : (⊤ : EReal) ≠ 0), EReal.inv_top]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hs), EReal.coe_inv]

/-- Position `512 · q + r` of a row of 2048, for band `q` and offset `r`. -/
def bandPos (q : Fin 4) (r : Fin 512) : Fin 2048 := ⟨512 * q.val + r.val, by have := q.isLt; have := r.isLt; omega⟩

/-- A sum over 2048 positions, band by band. -/
theorem sum_bands {M : Type} [AddCommMonoid M] (f : Fin 2048 → M) :
    ∑ k : Fin 2048, f k = ∑ q : Fin 4, ∑ r : Fin 512, f (bandPos q r) := by
  rw [← Finset.sum_product']
  refine (Fintype.sum_equiv (finProdFinEquiv (m := 4) (n := 512)) _ _ fun qr => ?_).symm
  obtain ⟨q, r⟩ := qr
  refine congrArg f (Fin.ext ?_)
  simp only [bandPos, finProdFinEquiv_apply_val]
  omega

/-- The same sum as the body accumulates it: from `0`, one band after another. -/
theorem sum_bands4 (f : Fin 2048 → EReal) :
    ∑ k : Fin 2048, f k
      = 0 + (∑ r : Fin 512, f (bandPos 0 r)) + (∑ r : Fin 512, f (bandPos 1 r))
          + (∑ r : Fin 512, f (bandPos 2 r)) + (∑ r : Fin 512, f (bandPos 3 r)) := by
  rw [sum_bands, Fin.sum_univ_four, zero_add]

end Cert.Spec

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibDotCols.lean ====
/-
  A matrix product whose two operands are both contracted on their FIRST axis, read at an entry.

  For a `K × A` array `l` and a `K × B` array `r`, the product into a zero accumulator that contracts axis 0 of
  both (`lᵀ r`, an `A × B` array) is, at the exact values, the plain sum at every entry:
  `(lᵀ r)(a, b) = Σ_k l(k, a) · r(k, b)` (`matmul_cols_apply`).  No order of summation and no rounding is left in
  it, so nothing about the entries (finiteness included) is assumed.
-/
import Idealize.ShloMosaic.Lib.ValueIdx
import Idealize.ShloMosaic.PureOps.Ideal.Laws

noncomputable section

open scoped BigOperators

namespace Cert.Lib.DotCols

open Idealize.ShloMosaic Idealize.ShloMosaic.ValueIdx

variable {K A B : Nat} {φ₁ φ₂ : FTy}

/-- `lᵀ r` at `(a, b)`: the dimension numbers contract axis 0 of the left operand with axis 0 of the right one, keep
    axis 1 of each, and have no batch axis; the accumulator is the zero word. -/
theorem matmul_cols_apply (D : DotDims ⟨2, ![K, A]⟩ ⟨2, ![K, B]⟩ ⟨2, ![A, B]⟩)
    (hlc : D.lhsContracting = [0]) (hrc : D.rhsContracting = [0])
    (hln : D.lhsNonContracting = [1]) (hrn : D.rhsNonContracting = [1])
    (hlb : D.lhsBatch = []) (hrb : D.rhsBatch = [])
    (prec : Option ContractPrecision) (l : FVec Ideal ⟨2, ![K, A]⟩ φ₁) (r : FVec Ideal ⟨2, ![K, B]⟩ φ₂)
    (a : Fin A) (b : Fin B) :
    matmul D prec l r (constant ⟨2, ![A, B]⟩ .f32 0x00000000#32) (ix2 a b) = ∑ k : Fin K, l (ix2 k a) * r (ix2 k b) := by
  obtain ⟨lc, rc, ln, rn, lb, rb, wf⟩ := D
  dsimp only at hlc hrc hln hrn hlb hrb
  subst hlc hrc hln hrn hlb hrb
  simp only [matmul]
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, A]⟩ ⟨2, ![K, B]⟩ ⟨2, ![A, B]⟩) K rfl rfl k
  have el : DotDims.lhsIdx (⟨[0], [0], [1], [1], [], [], wf⟩ : DotDims ⟨2, ![K, A]⟩ ⟨2, ![K, B]⟩ ⟨2, ![A, B]⟩) (ix2 a b)
      ((contrEquiv1 _ K rfl rfl).symm k) = ix2 k a := funext fun c => Fin.ext (by
    match c with
    | ⟨0, _⟩ => exact (DotDims.lhsIdx_val_of_single _ rfl _ _).trans hk
    | ⟨1, _⟩ =>
      unfold DotDims.lhsIdx
      rw [dif_neg (by exact List.not_mem_nil), dif_pos (by exact List.mem_singleton.mpr rfl)]
      rfl)
  have er : DotDims.rhsIdx (⟨[0], [0], [1], [1], [], [], wf⟩ : DotDims ⟨2, ![K, A]⟩ ⟨2, ![K, B]⟩ ⟨2, ![A, B]⟩) (ix2 a b)
      ((contrEquiv1 _ K rfl rfl).symm k) = ix2 k b := funext fun c => Fin.ext (by
    match c with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

end Cert.Lib.DotCols

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibLeast.lean ====
/-
  General facts about reductions of an `M × N` array read at an index, at the ideal values.

  * Summing along the lanes gives, at row `p`, the sum of the row's `N` entries (`rowSum_apply`).
  * Taking the minimum along the lanes gives, at row `p`, the least of the row's entries and the starting value
    (`rowMin_apply`); along the rows, at column `q`, the least of the column's entries and the starting value
    (`colMin_apply`). The least value is the fold of `min` from the starting value over the axis's coordinates.
-/
import Idealize.ShloMosaic.Lib.ValueIdx
import Idealize.ShloMosaic.PureOps.Ideal.Laws

noncomputable section

open scoped BigOperators

namespace Cert.Lib.Least

open Idealize.ShloMosaic Idealize.ShloMosaic.ValueIdx

variable {M N : Nat}

/-- The row index `p` with lane `k` put back is `(p, k)`. -/
theorem lift_lane (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum along the lanes, at row `p`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_lane h p k)

/-- The minimum along the lanes, at row `p`: the least of the row's entries and the starting value. -/
theorem rowMin_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.minimumf.neutral φ hφ)
    (p : Fin M) :
    multiReduction .minimumf [1] ⟨1, ![M]⟩ src acc h hφ hacc (ix1 p)
      = (Finset.univ : Finset (Fin N)).fold min (Ideal.ofBits φ acc) fun k => src (ix2 p k) := by
  rw [multiReduction_minimumf_eq_fold]
  refine (h.fold_filter_drop_single _ _ src (ix1 p)).trans ?_
  have hf : (src ∘ h.lift (ix1 p)) = fun k : Fin N => src (ix2 p k) := funext fun (k : Fin N) => congrArg src (lift_lane h p k)
  exact congrArg (fun f => Finset.fold min (Ideal.ofBits φ acc) f (Finset.univ : Finset (Fin N))) hf

/-- The minimum along the rows, at column `q`: the least of the column's entries and the starting value. -/
theorem colMin_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.minimumf.neutral φ hφ)
    (q : Fin N) :
    multiReduction .minimumf [0] ⟨1, ![N]⟩ src acc h hφ hacc (ix1 q)
      = (Finset.univ : Finset (Fin M)).fold min (Ideal.ofBits φ acc) fun k => src (ix2 k q) := by
  rw [multiReduction_minimumf_eq_fold]
  refine (h.fold_filter_drop_single _ _ src (ix1 q)).trans ?_
  have hf : (src ∘ h.lift (ix1 q)) = fun k : Fin M => src (ix2 k q) := funext fun (k : Fin M) => congrArg src (lift_row h q k)
  exact congrArg (fun f => Finset.fold min (Ideal.ofBits φ acc) f (Finset.univ : Finset (Fin M))) hf

/-! ## The same at f32, with the accumulator's word written out

A printed reduction carries its accumulator as a literal word and a proof that the word equals itself; these forms take
the proof with that type, so that they apply to a printed term as it stands. -/

/-- The sum along the lanes of an f32 array, from the zero word. -/
theorem rowSum_f32 (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  rowSum_apply src _ h hφ hacc p

/-- The sum down the rows of an `M × 1` f32 column, from the zero word. -/
theorem colSum_f32 (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) := by
  refine (Ideal.multiReduction_add_single src _ h hφ hacc (ix1 (0 : Fin 1))).trans ?_
  exact Finset.sum_congr rfl fun k _ => congrArg src (lift_row h (0 : Fin 1) k)

/-- The minimum along the lanes of an f32 array, from the word of +∞. -/
theorem rowMin_f32 (src : FVec Ideal ⟨2, ![M, N]⟩ .f32) (h : (⟨2, ![M, N]⟩ : Shape).Reduces [1] ⟨1, ![M]⟩)
    (hφ : FKind.Formats .f32) (hacc : (0x7F800000#32 : BitVec 32) = 0x7F800000#32) (p : Fin M) :
    multiReduction .minimumf [1] ⟨1, ![M]⟩ src 0x7F800000#32 h hφ hacc (ix1 p)
      = (Finset.univ : Finset (Fin N)).fold min (Ideal.ofBits .f32 0x7F800000#32) fun k => src (ix2 p k) :=
  rowMin_apply src _ h hφ hacc p

/-- The minimum down the rows of an f32 array, from the word of +∞. -/
theorem colMin_f32 (src : FVec Ideal ⟨2, ![M, N]⟩ .f32) (h : (⟨2, ![M, N]⟩ : Shape).Reduces [0] ⟨1, ![N]⟩)
    (hφ : FKind.Formats .f32) (hacc : (0x7F800000#32 : BitVec 32) = 0x7F800000#32) (q : Fin N) :
    multiReduction .minimumf [0] ⟨1, ![N]⟩ src 0x7F800000#32 h hφ hacc (ix1 q)
      = (Finset.univ : Finset (Fin M)).fold min (Ideal.ofBits .f32 0x7F800000#32) fun k => src (ix2 k q) :=
  colMin_apply src _ h hφ hacc q

end Cert.Lib.Least

end
-- ==== Proof.KerStep.lean ====
/-
  One layer as the kernel body spells it on whole blocks, read at an entry.

  The body holds the graph's adjacency as four bands of 512 rows. Its aggregate is `0` plus, band by band, the product
  of the band's TRANSPOSE with the matching 512 rows of `h = x · W` (a contraction over the band's row axis), so at
  `(n, d)` it is `0 + ∑ q, ∑ r, A (512 q + r) n * h (512 q + r) d`: the sum over all 2048 rows, regrouped. The row
  statistics are lane sums kept as 2048 × 1 columns and spread back along the lanes; the normalisation multiplies by
  `rsqrt (variance + ε)` where the specification divides by the square root, which agree because that argument is
  positive (Laws). Narrowing to bf16 is the identity on the extended reals.
-/
import proofs.«141423_g37074157699470_cont_sun_m_1229_6_alg».proof.Proof.Gen.KernelIdeal
import proofs.«141423_g37074157699470_cont_sun_m_1229_6_alg».proof.Proof.Laws
import proofs.«141423_g37074157699470_cont_sun_m_1229_6_alg».proof.Proof.LibPlainDot
import proofs.«141423_g37074157699470_cont_sun_m_1229_6_alg».proof.Proof.LibDotCols
import proofs.«141423_g37074157699470_cont_sun_m_1229_6_alg».proof.Proof.LibRowForms
import proofs.«141423_g37074157699470_cont_sun_m_1229_6_alg».proof.Proof.LibColumn
import proofs.«141423_g37074157699470_cont_sun_m_1229_6_alg».proof.Proof.LibLeast
import Idealize.ShloMosaic.Lib.ValueIdx
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Facts₀ Cert.Spec

/-- The reciprocal square root of a block, at an entry. -/
theorem rsqrt_apply {s : Shape} {φ : FTy} (a : FVec Ideal s φ) (i : s.Idx) : rsqrt a i = Ideal.rsqrt (a i) := rfl

/-- The aggregate `Aᵀ · (x · W)` as the body accumulates it over the four bands. -/
def kAgg (A0 A1 A2 A3 : FVec Ideal S512x2048 .bf16) (x : FVec Ideal S2048x128 .f32) (w : FVec Ideal S128x128 .f32) :
    FVec Ideal S2048x128 .f32 :=
  have h : FVec Ideal S2048x128 .bf16 :=
    truncf .bf16 (matmul dot_S2048x128_S128x128_S2048x128_1_0_0_1_n_n none x w (constant S2048x128 .f32 0x00000000#32)) bitsLt_bf16_f32
  addf (addf (addf (addf (broadcast S2048x128 (Scalar.ofBits .f32 0x00000000#32))
    (matmul dot_S512x2048_S512x128_S2048x128_0_0_1_1_n_n none A0
      (extractStridedSlice S512x128 ![0, 0] h slices_S2048x128_o0_0_S512x128) (constant S2048x128 .f32 0x00000000#32)))
    (matmul dot_S512x2048_S512x128_S2048x128_0_0_1_1_n_n none A1
      (extractStridedSlice S512x128 ![512, 0] h slices_S2048x128_o512_0_S512x128) (constant S2048x128 .f32 0x00000000#32)))
    (matmul dot_S512x2048_S512x128_S2048x128_0_0_1_1_n_n none A2
      (extractStridedSlice S512x128 ![1024, 0] h slices_S2048x128_o1024_0_S512x128) (constant S2048x128 .f32 0x00000000#32)))
    (matmul dot_S512x2048_S512x128_S2048x128_0_0_1_1_n_n none A3
      (extractStridedSlice S512x128 ![1536, 0] h slices_S2048x128_o1536_0_S512x128) (constant S2048x128 .f32 0x00000000#32))

/-- A parameter row laid along the lanes and repeated down the 2048 rows. -/
def rowSpread (v : FVec Ideal S128 .f32) : FVec Ideal S2048x128 .f32 :=
  broadcastTo S2048x128 (shapeCast S1x128 v shapeCasts_S128_S1x128) broadcasts_S1x128_S2048x128

/-- A lane sum over the word of 128, kept as a 2048 × 1 column. -/
def meanCol (z : FVec Ideal S2048x128 .f32) : FVec Ideal S2048x1 .f32 :=
  divf (shapeCast S2048x1 (multiReduction .add [1] S2048 z 0x00000000#32 reduces_S2048x128_S2048 (.inl rfl) rfl) shapeCasts_S2048_S2048x1)
    (broadcast S2048x1 (Scalar.ofBits .f32 0x43000000#32))

/-- A row's mean as a column, spread back along the lanes. -/
def meanSpread (y : FVec Ideal S2048x128 .f32) : FVec Ideal S2048x128 .f32 :=
  broadcastTo S2048x128 (meanCol y) broadcasts_S2048x1_S2048x128

/-- The reciprocal root of each row's variance plus the guard, as a column. -/
def invCol (y : FVec Ideal S2048x128 .f32) : FVec Ideal S2048x1 .f32 :=
  rsqrt (addf (meanCol (mulf (subf y (meanSpread y)) (subf y (meanSpread y)))) (broadcast S2048x1 (Scalar.ofBits .f32 0x3727C5AC#32)))

/-- Row normalisation, scale, shift and positive part, as the body spells them. -/
def kNorm (y : FVec Ideal S2048x128 .f32) (g s : FVec Ideal S128 .f32) : FVec Ideal S2048x128 .f32 :=
  maximumf
    (addf (mulf (mulf (subf y (meanSpread y)) (broadcastTo S2048x128 (invCol y) broadcasts_S2048x1_S2048x128)) (rowSpread g)) (rowSpread s))
    (broadcast S2048x128 (Scalar.ofBits .f32 0x00000000#32))

/-- One whole layer on blocks. -/
def kStep (A0 A1 A2 A3 : FVec Ideal S512x2048 .bf16) (x : FVec Ideal S2048x128 .f32) (w : FVec Ideal S128x128 .f32)
    (b g s : FVec Ideal S128 .f32) : FVec Ideal S2048x128 .f32 :=
  kNorm (addf (addf (kAgg A0 A1 A2 A3 x w) (rowSpread b)) x) g s

/-- A spread parameter row at `(n, d)` is the row at `d`. -/
theorem rowSpread_apply (v : FVec Ideal S128 .f32) (n : Fin 2048) (d : Fin 128) : rowSpread v (ix2 n d) = row v d := by
  unfold rowSpread row
  rw [Cert.Lib.RowForms.rowBroadcast_apply, Cert.Lib.RowForms.vecRow_apply]

/-- The lane-sum column at row `n`. -/
theorem meanCol_apply (z : FVec Ideal S2048x128 .f32) (n : Fin 2048) :
    meanCol z (ix2 n (0 : Fin 1)) = Ideal.div (∑ d : Fin 128, z (ix2 n d)) c128 := by
  unfold meanCol
  rw [divf_apply, broadcast_apply]
  exact congrArg (fun t => Ideal.div t c128)
    ((Cert.Lib.Column.col_apply _ shapeCasts_S2048_S2048x1 n).trans (Cert.Lib.Least.rowSum_f32 z reduces_S2048x128_S2048 (.inl rfl) rfl n))

/-- The mean column spread along the lanes, at `(n, d)`. -/
theorem meanSpread_apply (y : FVec Ideal S2048x128 .f32) (n : Fin 2048) (d : Fin 128) :
    meanSpread y (ix2 n d) = rowMean (fun n d => y (ix2 n d)) n := by
  unfold meanSpread rowMean
  rw [Cert.Lib.Column.colBroadcast_apply, meanCol_apply, zero_add]

/-- The reciprocal-root column at row `n`. -/
theorem invCol_apply (y : FVec Ideal S2048x128 .f32) (n : Fin 2048) :
    invCol y (ix2 n (0 : Fin 1)) = Ideal.rsqrt (rowVar (fun n d => y (ix2 n d)) n + eps) := by
  unfold invCol
  rw [rsqrt_apply, addf_apply, broadcast_apply, meanCol_apply]
  simp only [mulf_apply, subf_apply, meanSpread_apply]
  unfold rowVar eps
  rw [zero_add]
  rfl

/-- `x · W` narrowed, at row `k` and feature `d`. -/
theorem feat_apply (x : FVec Ideal S2048x128 .f32) (w : FVec Ideal S128x128 .f32) (k : Fin 2048) (d : Fin 128) :
    (truncf .bf16 (matmul dot_S2048x128_S128x128_S2048x128_1_0_0_1_n_n none x w (constant S2048x128 .f32 0x00000000#32)) bitsLt_bf16_f32
      : FVec Ideal S2048x128 .bf16) (ix2 k d) = feat (fun n d => x (ix2 n d)) (mat w) k d := by
  rw [truncf_apply]
  exact Cert.Lib.PlainDot.matmul_zero_apply (M := 2048) (K := 128) (N := 128) none x w k d

/-- One band's term of the aggregate at `(n, d)`: the band's rows are rows `512 q + r` of the adjacency `A`, and the
    matching rows of `h` are cut out at the literal offset `o = 512 q`. -/
theorem band_apply (q : Fin 4) (Aq : FVec Ideal S512x2048 .bf16) (A : Fin 2048 → Fin 2048 → EReal)
    (hA : ∀ r n, Aq (ix2 r n) = A (bandPos q r) n) (hb : FVec Ideal S2048x128 .bf16) (o : ℕ)
    (hs : S2048x128.Slices ![o, 0] S512x128) (ho : ∀ r : Fin 512, (bandPos q r).val = o + r.val) (n : Fin 2048) (d : Fin 128) :
    matmul dot_S512x2048_S512x128_S2048x128_0_0_1_1_n_n none Aq (extractStridedSlice S512x128 ![o, 0] hb hs)
        (constant S2048x128 .f32 0x00000000#32) (ix2 n d)
      = ∑ r : Fin 512, A (bandPos q r) n * hb (ix2 (bandPos q r) d) := by
  rw [Cert.Lib.DotCols.matmul_cols_apply (K := 512) (A := 2048) (B := 128) dot_S512x2048_S512x128_S2048x128_0_0_1_1_n_n rfl rfl rfl rfl rfl rfl]
  refine Finset.sum_congr rfl fun r _ => ?_
  rw [hA, extractStridedSlice_apply ![o, 0] hb hs (ix2 r d) (ix2 (bandPos q r) d) (fun a => by
    match a with
    | ⟨0, _⟩ => exact ho r
    | ⟨1, _⟩ => exact (Nat.zero_add _).symm)]

/-- The aggregate at `(n, d)` is the sum over all 2048 rows of the adjacency. -/
theorem kAgg_apply (A0 A1 A2 A3 : FVec Ideal S512x2048 .bf16) (A : Fin 2048 → Fin 2048 → EReal)
    (h0 : ∀ r n, A0 (ix2 r n) = A (bandPos 0 r) n) (h1 : ∀ r n, A1 (ix2 r n) = A (bandPos 1 r) n)
    (h2 : ∀ r n, A2 (ix2 r n) = A (bandPos 2 r) n) (h3 : ∀ r n, A3 (ix2 r n) = A (bandPos 3 r) n)
    (x : FVec Ideal S2048x128 .f32) (w : FVec Ideal S128x128 .f32) (n : Fin 2048) (d : Fin 128) :
    kAgg A0 A1 A2 A3 x w (ix2 n d) = ∑ k : Fin 2048, A k n * feat (fun n d => x (ix2 n d)) (mat w) k d := by
  unfold kAgg
  simp only [addf_apply, broadcast_apply]
  rw [show (Scalar.ofBits (F := Ideal) .f32 0x00000000#32 : EReal) = 0 from Ideal.ofBits_zero_f32,
    band_apply 0 A0 A h0 _ 0 slices_S2048x128_o0_0_S512x128 (fun _ => rfl),
    band_apply 1 A1 A h1 _ 512 slices_S2048x128_o512_0_S512x128 (fun _ => rfl),
    band_apply 2 A2 A h2 _ 1024 slices_S2048x128_o1024_0_S512x128 (fun _ => rfl),
    band_apply 3 A3 A h3 _ 1536 slices_S2048x128_o1536_0_S512x128 (fun _ => rfl),
    sum_bands4]
  simp only [feat_apply]

/-- The body's normalisation at `(n, d)` is the specification's: the product with `rsqrt` is the quotient by the root. -/
theorem kNorm_apply (y : FVec Ideal S2048x128 .f32) (g s : FVec Ideal S128 .f32) (n : Fin 2048) (d : Fin 128) :
    kNorm y g s (ix2 n d) = normRelu (fun n d => y (ix2 n d)) (row g) (row s) n d := by
  unfold kNorm normRelu
  rw [maximumf_apply, addf_apply, mulf_apply, mulf_apply, subf_apply, broadcast_apply, rowSpread_apply, rowSpread_apply,
    meanSpread_apply, Cert.Lib.Column.colBroadcast_apply, invCol_apply,
    show (Scalar.ofBits (F := Ideal) .f32 0x00000000#32 : EReal) = 0 from Ideal.ofBits_zero_f32,
    mul_rsqrt_eq_div_sqrt _ (rowVar_eps_pos _ n)]

/-- One layer on blocks, at `(n, d)`, is the specification's layer. -/
theorem kStep_apply (A0 A1 A2 A3 : FVec Ideal S512x2048 .bf16) (A : Fin 2048 → Fin 2048 → EReal)
    (h0 : ∀ r n, A0 (ix2 r n) = A (bandPos 0 r) n) (h1 : ∀ r n, A1 (ix2 r n) = A (bandPos 1 r) n)
    (h2 : ∀ r n, A2 (ix2 r n) = A (bandPos 2 r) n) (h3 : ∀ r n, A3 (ix2 r n) = A (bandPos 3 r) n)
    (x : FVec Ideal S2048x128 .f32) (w : FVec Ideal S128x128 .f32) (b g s : FVec Ideal S128 .f32) (n : Fin 2048) (d : Fin 128) :
    kStep A0 A1 A2 A3 x w b g s (ix2 n d)
      = layer A (fun n d => x (ix2 n d)) (mat w) (row b) (row g) (row s) n d := by
  unfold kStep layer
  rw [kNorm_apply]
  congr 1
  funext n' d'
  unfold pre
  rw [addf_apply, addf_apply, rowSpread_apply, kAgg_apply A0 A1 A2 A3 A h0 h1 h2 h3]

end Cert.KernelIdeal.Hand

end
-- ==== Proof.LibLeadAxes.lean ====
/-
  Arrays that differ by a leading unit axis, or by a split of the leading axis, read at an entry.

  A shape cast keeps the row-major position of every entry.
  * A `B × C` matrix viewed as a `1 × B × C` slab reads, at `(0, p, q)`, the matrix at `(p, q)` (`slab_apply`).
  * A rank-three array re-read at rank four holds, at each index, the entry with the same row-major position
    (`three_four_apply`): splitting the leading axis `a·b` of an `(a·b) × c × d` array into `a × b` sends `(i, j, k, l)`
    to `(i·b + j, k, l)`.
-/
import Idealize.ShloMosaic.Lib.ValueIdx
import Idealize.ShloMosaic.Lib.Pipeline.Value

noncomputable section

namespace Cert.Lib.LeadAxes

open Idealize.ShloMosaic Idealize.ShloMosaic.ValueIdx

variable {α : Type}

/-- A `B × C` matrix viewed as a `1 × B × C` slab: entry `(0, p, q)` is entry `(p, q)`. -/
theorem slab_apply {B C : ℕ} (v : (⟨2, ![B, C]⟩ : Shape).Idx → α) (h : (⟨2, ![B, C]⟩ : Shape).ShapeCasts ⟨3, ![1, B, C]⟩)
    (p : Fin B) (q : Fin C) : shapeCast ⟨3, ![1, B, C]⟩ v h (ix3 (0 : Fin 1) p q) = v (ix2 p q) :=
  shapeCast_apply v h (ix3 (0 : Fin 1) p q) (ix2 p q) (by
    rw [Shape.rowMajor_val_two, Shape.rowMajor_val_three]
    show p.val * C + q.val = (0 * B + p.val) * C + q.val
    rw [Nat.zero_mul, Nat.zero_add])

/-- A rank-three array re-read at rank four: entry `(i, h, p, d)` of the result is the operand at the index
    `(i', l, e)` with the same row-major position. -/
theorem three_four_apply {a0 a1 a2 b0 b1 b2 b3 : ℕ} (x : (⟨3, ![a0, a1, a2]⟩ : Shape).Idx → α)
    (hc : (⟨3, ![a0, a1, a2]⟩ : Shape).ShapeCasts ⟨4, ![b0, b1, b2, b3]⟩)
    (i : Fin b0) (h : Fin b1) (p : Fin b2) (d : Fin b3) (i' : Fin a0) (l : Fin a1) (e : Fin a2)
    (hpos : (i'.val * a1 + l.val) * a2 + e.val = ((i.val * b1 + h.val) * b2 + p.val) * b3 + d.val) :
    shapeCast ⟨4, ![b0, b1, b2, b3]⟩ x hc (ix4 i h p d) = x (ix3 i' l e) :=
  shapeCast_apply x hc _ _ (by
    rw [Shape.rowMajor_val_three, Shape.rowMajor_val_four]
    exact hpos)

end Cert.Lib.LeadAxes

end
-- ==== Proof.KerBody.lean ====
/-
  The stored block, read at an entry, is three layers of the specification.

  The body's stored value is the 2048 × 128 result of three layers, viewed as a 1 × 2048 × 128 slab. Each layer takes the
  four narrowed adjacency bands (a 1 × 512 × 2048 block viewed as 512 × 2048 and narrowed: the identity on the extended
  reals, so band `q` at `(r, n)` is the block at `(0, r, n)`), the previous layer's output (for the first layer the
  feature block viewed as 2048 × 128) and the layer's parameters. Read at `(0, n, d)` through the layer lemma three
  times, the stored block is `net3` of the adjacency whose rows `512 q + r` are the bands' rows `r`.
-/
import proofs.«141423_g37074157699470_cont_sun_m_1229_6_alg».proof.Proof.BodyValIdeal
import proofs.«141423_g37074157699470_cont_sun_m_1229_6_alg».proof.Proof.KerStep
import proofs.«141423_g37074157699470_cont_sun_m_1229_6_alg».proof.Proof.LibLeadAxes
import proofs.«141423_g37074157699470_cont_sun_m_1229_6_alg».proof.Proof.LibRowForms

noncomputable section

open scoped BigOperators

namespace Cert.KernelIdeal.Hand

open Idealize.ShloMosaic Idealize.ShloMosaic.ValueIdx Cert.KernelIdeal Cert.KernelIdeal.Gen Cert.Spec

/-- A narrowed band at `(r, n)` is the loaded block at `(0, r, n)`. -/
theorem band0_apply (a : Vec Ideal S1x512x2048 .f32) (r : Fin 512) (n : Fin 2048) :
    k0_pay2 a (ix2 r n) = a (ix3 (0 : Fin 1) r n) :=
  Cert.Lib.RowForms.unslab_apply (α := EReal) a shapeCasts_S1x512x2048_S512x2048 r n
theorem band1_apply (a : Vec Ideal S1x512x2048 .f32) (r : Fin 512) (n : Fin 2048) :
    k0_pay3 a (ix2 r n) = a (ix3 (0 : Fin 1) r n) :=
  Cert.Lib.RowForms.unslab_apply (α := EReal) a shapeCasts_S1x512x2048_S512x2048 r n
theorem band2_apply (a : Vec Ideal S1x512x2048 .f32) (r : Fin 512) (n : Fin 2048) :
    k0_pay4 a (ix2 r n) = a (ix3 (0 : Fin 1) r n) :=
  Cert.Lib.RowForms.unslab_apply (α := EReal) a shapeCasts_S1x512x2048_S512x2048 r n
theorem band3_apply (a : Vec Ideal S1x512x2048 .f32) (r : Fin 512) (n : Fin 2048) :
    k0_pay5 a (ix2 r n) = a (ix3 (0 : Fin 1) r n) :=
  Cert.Lib.RowForms.unslab_apply (α := EReal) a shapeCasts_S1x512x2048_S512x2048 r n

/-- The stored block is the slab view of three layers on blocks. -/
theorem bodyVal_eq (x : Vec Ideal S1x2048x128 .f32) (a0 a1 a2 a3 : Vec Ideal S1x512x2048 .f32)
    (w0 : Vec Ideal S128x128 .f32) (b0 g0 s0 : Vec Ideal S128 .f32)
    (w1 : Vec Ideal S128x128 .f32) (b1 g1 s1 : Vec Ideal S128 .f32)
    (w2 : Vec Ideal S128x128 .f32) (b2 g2 s2 : Vec Ideal S128 .f32) :
    bodyVal (F := Ideal) x a0 a1 a2 a3 w0 b0 g0 s0 w1 b1 g1 s1 w2 b2 g2 s2
      = shapeCast S1x2048x128
          (kStep (k0_pay2 a0) (k0_pay3 a1) (k0_pay4 a2) (k0_pay5 a3)
            (kStep (k0_pay2 a0) (k0_pay3 a1) (k0_pay4 a2) (k0_pay5 a3)
              (kStep (k0_pay2 a0) (k0_pay3 a1) (k0_pay4 a2) (k0_pay5 a3)
                (shapeCast S2048x128 x shapeCasts_S1x2048x128_S2048x128) w0 b0 g0 s0) w1 b1 g1 s1) w2 b2 g2 s2)
          shapeCasts_S2048x128_S1x2048x128 := rfl

/-- The stored block at `(0, n, d)`: three layers on the adjacency `A` whose band `q` holds its rows `512 q …`. -/
theorem bodyVal_apply (A : Fin 2048 → Fin 2048 → EReal)
    (x : Vec Ideal S1x2048x128 .f32) (a0 a1 a2 a3 : Vec Ideal S1x512x2048 .f32)
    (h0 : ∀ r n, a0 (ix3 (0 : Fin 1) r n) = A (bandPos 0 r) n) (h1 : ∀ r n, a1 (ix3 (0 : Fin 1) r n) = A (bandPos 1 r) n)
    (h2 : ∀ r n, a2 (ix3 (0 : Fin 1) r n) = A (bandPos 2 r) n) (h3 : ∀ r n, a3 (ix3 (0 : Fin 1) r n) = A (bandPos 3 r) n)
    (w0 : Vec Ideal S128x128 .f32) (b0 g0 s0 : Vec Ideal S128 .f32)
    (w1 : Vec Ideal S128x128 .f32) (b1 g1 s1 : Vec Ideal S128 .f32)
    (w2 : Vec Ideal S128x128 .f32) (b2 g2 s2 : Vec Ideal S128 .f32) (n : Fin 2048) (d : Fin 128) :
    bodyVal (F := Ideal) x a0 a1 a2 a3 w0 b0 g0 s0 w1 b1 g1 s1 w2 b2 g2 s2 (ix3 (0 : Fin 1) n d)
      = net3 A (fun n d => x (ix3 (0 : Fin 1) n d)) (mat w0) (row b0) (row g0) (row s0)
          (mat w1) (row b1) (row g1) (row s1) (mat w2) (row b2) (row g2) (row s2) n d := by
  have H0 : ∀ r n, k0_pay2 a0 (ix2 r n) = A (bandPos 0 r) n := fun r n => (band0_apply a0 r n).trans (h0 r n)
  have H1 : ∀ r n, k0_pay3 a1 (ix2 r n) = A (bandPos 1 r) n := fun r n => (band1_apply a1 r n).trans (h1 r n)
  have H2 : ∀ r n, k0_pay4 a2 (ix2 r n) = A (bandPos 2 r) n := fun r n => (band2_apply a2 r n).trans (h2 r n)
  have H3 : ∀ r n, k0_pay5 a3 (ix2 r n) = A (bandPos 3 r) n := fun r n => (band3_apply a3 r n).trans (h3 r n)
  have e0 : (fun (n : Fin 2048) (d : Fin 128) => (shapeCast S2048x128 x shapeCasts_S1x2048x128_S2048x128 : FVec Ideal S2048x128 .f32) (ix2 n d))
      = fun n d => x (ix3 (0 : Fin 1) n d) :=
    funext fun n => funext fun d => Cert.Lib.RowForms.unslab_apply (α := EReal) x shapeCasts_S1x2048x128_S2048x128 n d
  have e1 := fun (n : Fin 2048) (d : Fin 128) =>
    (kStep_apply (k0_pay2 a0) (k0_pay3 a1) (k0_pay4 a2) (k0_pay5 a3) A H0 H1 H2 H3
      (shapeCast S2048x128 x shapeCasts_S1x2048x128_S2048x128) w0 b0 g0 s0 n d).trans (by rw [e0])
  have e2 := fun (n : Fin 2048) (d : Fin 128) =>
    (kStep_apply (k0_pay2 a0) (k0_pay3 a1) (k0_pay4 a2) (k0_pay5 a3) A H0 H1 H2 H3
      (kStep (k0_pay2 a0) (k0_pay3 a1) (k0_pay4 a2) (k0_pay5 a3)
        (shapeCast S2048x128 x shapeCasts_S1x2048x128_S2048x128) w0 b0 g0 s0) w1 b1 g1 s1 n d).trans
      (by rw [show (fun n d => kStep (k0_pay2 a0) (k0_pay3 a1) (k0_pay4 a2) (k0_pay5 a3)
        (shapeCast S2048x128 x shapeCasts_S1x2048x128_S2048x128) w0 b0 g0 s0 (ix2 n d)) = _ from funext fun n => funext fun d => e1 n d])
  rw [bodyVal_eq, Cert.Lib.LeadAxes.slab_apply, kStep_apply _ _ _ _ A H0 H1 H2 H3]
  unfold net3
  rw [show (fun n d => kStep (k0_pay2 a0) (k0_pay3 a1) (k0_pay4 a2) (k0_pay5 a3)
        (kStep (k0_pay2 a0) (k0_pay3 a1) (k0_pay4 a2) (k0_pay5 a3)
          (shapeCast S2048x128 x shapeCasts_S1x2048x128_S2048x128) w0 b0 g0 s0) w1 b1 g1 s1 (ix2 n d)) = _ from funext fun n => funext fun d => e2 n d]

end Cert.KernelIdeal.Hand

end
-- ==== Proof.KerValue.lean ====
/-
  From the blocks to the array: what the result array holds after the run.

  Grid point `t` works on graph `t`: its feature block is block `(t, 0, 0)` of the feature array, its four adjacency
  bands are blocks `(t, q, 0)`, `q = 0 … 3`, of the adjacency array — rows `512 q …` of graph `t` —, the parameter
  windows are whole arrays, and it writes back block `(t, 0, 0)` of the result. A block's coordinate is its index times
  its extent plus the coordinate inside the block, so the stored block at `(0, n, d)` reads the specification's `net` at
  `(t, n, d)`; the four blocks written back tile the result array, so the array ends holding `net` of the argument
  arrays.
-/
import proofs.«141423_g37074157699470_cont_sun_m_1229_6_alg».proof.Proof.FrameDataIdeal
import proofs.«141423_g37074157699470_cont_sun_m_1229_6_alg».proof.Proof.KerBody
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ)

/-- The specification's result of the fourteen argument arrays as the kernel finds them. -/
def result (c : Dev nD) : S4x2048x128.Idx → EReal :=
  net (entry m c main_arg0) (entry m c main_arg1) (entry m c main_arg2) (entry m c main_arg3) (entry m c main_arg4)
    (entry m c main_arg5) (entry m c main_arg6) (entry m c main_arg7) (entry m c main_arg8) (entry m c main_arg9)
    (entry m c main_arg10) (entry m c main_arg11) (entry m c main_arg12) (entry m c main_arg13)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the feature, band and result windows sit at block `t` on the graph
    axis, band `q` at block `q` on the row axis, every other block index is `0`. -/
theorem idx_facts : ∀ t : Fin cfg0.N, win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 1
    ∧ win0_2.index t (2 : Fin 3) = 0
    ∧ win0_3.index t (0 : Fin 3) = t.val
    ∧ win0_3.index t (1 : Fin 3) = 2
    ∧ win0_3.index t (2 : Fin 3) = 0
    ∧ win0_4.index t (0 : Fin 3) = t.val
    ∧ win0_4.index t (1 : Fin 3) = 3
    ∧ win0_4.index t (2 : Fin 3) = 0
    ∧ win0_5.index t (0 : Fin 2) = 0
    ∧ win0_5.index t (1 : Fin 2) = 0
    ∧ win0_6.index t (0 : Fin 1) = 0
    ∧ win0_7.index t (0 : Fin 1) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 1) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 1) = 0
    ∧ win0_16.index t (0 : Fin 1) = 0
    ∧ win0_17.index t (0 : Fin 3) = t.val
    ∧ win0_17.index t (1 : Fin 3) = 0
    ∧ win0_17.index t (2 : Fin 3) = 0 :=
  (by decide +kernel : ∀ t : Fin grid0.N, _)

/-- The stored block at an entry `y` is `net` at the array entry over it, for blocks that are the stated pieces of the
    argument arrays. -/
theorem stored_eq (X : S4x2048x128.Idx → EReal) (Adj : S4x2048x2048.Idx → EReal)
    (W0 : S128x128.Idx → EReal) (B0 G0 T0 : S128.Idx → EReal)
    (W1 : S128x128.Idx → EReal) (B1 G1 T1 : S128.Idx → EReal)
    (W2 : S128x128.Idx → EReal) (B2 G2 T2 : S128.Idx → EReal)
    (tt : Fin 4) (x : Vec Ideal S1x2048x128 .f32) (a0 a1 a2 a3 : Vec Ideal S1x512x2048 .f32)
    (w0 : Vec Ideal S128x128 .f32) (b0 g0 s0 : Vec Ideal S128 .f32)
    (w1 : Vec Ideal S128x128 .f32) (b1 g1 s1 : Vec Ideal S128 .f32)
    (w2 : Vec Ideal S128x128 .f32) (b2 g2 s2 : Vec Ideal S128 .f32)
    (hx : ∀ n d, x (ix3 (0 : Fin 1) n d) = X (ix3 tt n d))
    (h0 : ∀ r n, a0 (ix3 (0 : Fin 1) r n) = Adj (ix3 tt (bandPos 0 r) n))
    (h1 : ∀ r n, a1 (ix3 (0 : Fin 1) r n) = Adj (ix3 tt (bandPos 1 r) n))
    (h2 : ∀ r n, a2 (ix3 (0 : Fin 1) r n) = Adj (ix3 tt (bandPos 2 r) n))
    (h3 : ∀ r n, a3 (ix3 (0 : Fin 1) r n) = Adj (ix3 tt (bandPos 3 r) n))
    (hw0 : ∀ j d, w0 (ix2 j d) = W0 (ix2 j d))
    (hb0 : ∀ d, b0 (ix1 d) = B0 (ix1 d))
    (hg0 : ∀ d, g0 (ix1 d) = G0 (ix1 d))
    (hs0 : ∀ d, s0 (ix1 d) = T0 (ix1 d))
    (hw1 : ∀ j d, w1 (ix2 j d) = W1 (ix2 j d))
    (hb1 : ∀ d, b1 (ix1 d) = B1 (ix1 d))
    (hg1 : ∀ d, g1 (ix1 d) = G1 (ix1 d))
    (hs1 : ∀ d, s1 (ix1 d) = T1 (ix1 d))
    (hw2 : ∀ j d, w2 (ix2 j d) = W2 (ix2 j d))
    (hb2 : ∀ d, b2 (ix1 d) = B2 (ix1 d))
    (hg2 : ∀ d, g2 (ix1 d) = G2 (ix1 d))
    (hs2 : ∀ d, s2 (ix1 d) = T2 (ix1 d))
    (y : S1x2048x128.Idx) (i : S4x2048x128.Idx) (e0 : (i 0).val = tt.val) (e1 : (i 1).val = (y 1).val) (e2 : (i 2).val = (y 2).val) :
    bodyVal (F := Ideal) x a0 a1 a2 a3 w0 b0 g0 s0 w1 b1 g1 s1 w2 b2 g2 s2 y
      = net X Adj W0 B0 G0 T0 W1 B1 G1 T1 W2 B2 G2 T2 i := by
  obtain ⟨p, n, d, rfl⟩ : ∃ (p : Fin 1) (n : Fin 2048) (d : Fin 128), y = ix3 p n d := ⟨y 0, y 1, y 2, eq_ix3 y⟩
  obtain rfl : p = 0 := Subsingleton.elim _ _
  rw [bodyVal_apply (adjOf Adj tt) x a0 a1 a2 a3 h0 h1 h2 h3]
  unfold net
  rw [show i 0 = tt from Fin.ext e0, show i 1 = n from Fin.ext e1, show i 2 = d from Fin.ext e2,
    show (fun n d => x (ix3 (0 : Fin 1) n d)) = featOf X tt from funext fun n => funext fun d => hx n d,
    (show mat w0 = mat W0 from funext fun j => funext fun d => hw0 j d),
    (show row b0 = row B0 from funext fun d => hb0 d),
    (show row g0 = row G0 from funext fun d => hg0 d),
    (show row s0 = row T0 from funext fun d => hs0 d),
    (show mat w1 = mat W1 from funext fun j => funext fun d => hw1 j d),
    (show row b1 = row B1 from funext fun d => hb1 d),
    (show row g1 = row G1 from funext fun d => hg1 d),
    (show row s1 = row T1 from funext fun d => hs1 d),
    (show mat w2 = mat W2 from funext fun j => funext fun d => hw2 j d),
    (show row b2 = row B2 from funext fun d => hb2 d),
    (show row g2 = row G2 from funext fun d => hg2 d),
    (show row s2 = row T2 from funext fun d => hs2 d)]

/-- What the body leaves in the result window's buffer at point `t`. -/
theorem stored17 (c : Dev nD) (t : Fin cfg0.N) :
    (dats m 0 c).after 17 t = outBlock (blockAt m c 0 t) (blockAt m c 1 t) (blockAt m c 2 t) (blockAt m c 3 t) (blockAt m c 4 t)
        (blockAt m c 5 t) (blockAt m c 6 t) (blockAt m c 7 t) (blockAt m c 8 t)
        (blockAt m c 9 t) (blockAt m c 10 t) (blockAt m c 11 t) (blockAt m c 12 t)
        (blockAt m c 13 t) (blockAt m c 14 t) (blockAt m c 15 t) (blockAt m c 16 t) := by
  dsimp only [dats]

/-- What point `t` writes back is block `t` of the specification's result. -/
theorem flushed17_eq (c : Dev nD) (t : Fin cfg0.N) :
    (dats m 0 c).flushed 17 t = ((cfg0.win 17).blk t).view.read (Elt Ideal) (result m c) := by
  show (cfg0.win 17).cut (grid0.coords t) ((dats m 0 c).after 17 t) = _
  rw [stored17]
  unfold outBlock
  rw [View.canon_unit_zero hz3]
  simp only [View.ld_unit_zero (S := S1x2048x128) hz3, View.ld_unit_zero (S := S1x512x2048) hz3,
    View.ld_unit_zero (S := S128x128) hz2, View.ld_unit_zero (S := S128) hz1]
  obtain ⟨f0, f1, f2, f3, f4, f5, f6, f7, f8, f9, f10, f11, f12, f13, f14, f15, f16, f17, f18, f19, f20, f21, f22, f23, f24, f25, f26, f27, f28, f29, f30, f31, f32⟩ := idx_facts t
  have htN : t.val < 4 := by have := t.isLt; have hN : cfg0.N = 4 := N_0; omega
  let tt : Fin 4 := ⟨t.val, htN⟩
  funext j
  show bodyVal (F := Ideal) (blockAt m c 0 t) (blockAt m c 1 t) (blockAt m c 2 t) (blockAt m c 3 t) (blockAt m c 4 t)
        (blockAt m c 5 t) (blockAt m c 6 t) (blockAt m c 7 t) (blockAt m c 8 t)
        (blockAt m c 9 t) (blockAt m c 10 t) (blockAt m c 11 t) (blockAt m c 12 t)
        (blockAt m c 13 t) (blockAt m c 14 t) (blockAt m c 15 t) (blockAt m c 16 t) j
      = result m c (((cfg0.win 17).blk t).view.emb j)
  unfold result
  refine stored_eq (entry m c main_arg0) (entry m c main_arg1) (entry m c main_arg2) (entry m c main_arg3) (entry m c main_arg4)
    (entry m c main_arg5) (entry m c main_arg6) (entry m c main_arg7) (entry m c main_arg8) (entry m c main_arg9)
    (entry m c main_arg10) (entry m c main_arg11) (entry m c main_arg12) (entry m c main_arg13)
    tt _ _ _ _ _ _ _ _ _ _ _ _ _ _ _ _ _
    (by
      intro n d
      show entry m c main_arg0 (((cfg0.win 0).blk t).view.emb (ix3 (0 : Fin 1) n d)) = entry m c main_arg0 (ix3 tt n d)
      refine congrArg _ (funext fun a => Fin.ext ?_)
      match a with
      | ⟨0, _⟩ => show win0_0.index t (0 : Fin 3) * 1 + 1 * 0 = t.val; omega
      | ⟨1, _⟩ => show win0_0.index t (1 : Fin 3) * 2048 + 1 * (n : Fin 2048).val = n.val; omega
      | ⟨2, _⟩ => show win0_0.index t (2 : Fin 3) * 128 + 1 * (d : Fin 128).val = (d : Fin 128).val; omega)
    (by
      intro r n
      show entry m c main_arg1 (((cfg0.win 1).blk t).view.emb (ix3 (0 : Fin 1) r n)) = entry m c main_arg1 (ix3 tt (bandPos 0 r) n)
      refine congrArg _ (funext fun a => Fin.ext ?_)
      match a with
      | ⟨0, _⟩ => show win0_1.index t (0 : Fin 3) * 1 + 1 * 0 = t.val; omega
      | ⟨1, _⟩ => show win0_1.index t (1 : Fin 3) * 512 + 1 * (r : Fin 512).val = 512 * 0 + r.val; omega
      | ⟨2, _⟩ => show win0_1.index t (2 : Fin 3) * 2048 + 1 * (n : Fin 2048).val = (n : Fin 2048).val; omega)
    (by
      intro r n
      show entry m c main_arg1 (((cfg0.win 2).blk t).view.emb (ix3 (0 : Fin 1) r n)) = entry m c main_arg1 (ix3 tt (bandPos 1 r) n)
      refine congrArg _ (funext fun a => Fin.ext ?_)
      match a with
      | ⟨0, _⟩ => show win0_2.index t (0 : Fin 3) * 1 + 1 * 0 = t.val; omega
      | ⟨1, _⟩ => show win0_2.index t (1 : Fin 3) * 512 + 1 * (r : Fin 512).val = 512 * 1 + r.val; omega
      | ⟨2, _⟩ => show win0_2.index t (2 : Fin 3) * 2048 + 1 * (n : Fin 2048).val = (n : Fin 2048).val; omega)
    (by
      intro r n
      show entry m c main_arg1 (((cfg0.win 3).blk t).view.emb (ix3 (0 : Fin 1) r n)) = entry m c main_arg1 (ix3 tt (bandPos 2 r) n)
      refine congrArg _ (funext fun a => Fin.ext ?_)
      match a with
      | ⟨0, _⟩ => show win0_3.index t (0 : Fin 3) * 1 + 1 * 0 = t.val; omega
      | ⟨1, _⟩ => show win0_3.index t (1 : Fin 3) * 512 + 1 * (r : Fin 512).val = 512 * 2 + r.val; omega
      | ⟨2, _⟩ => show win0_3.index t (2 : Fin 3) * 2048 + 1 * (n : Fin 2048).val = (n : Fin 2048).val; omega)
    (by
      intro r n
      show entry m c main_arg1 (((cfg0.win 4).blk t).view.emb (ix3 (0 : Fin 1) r n)) = entry m c main_arg1 (ix3 tt (bandPos 3 r) n)
      refine congrArg _ (funext fun a => Fin.ext ?_)
      match a with
      | ⟨0, _⟩ => show win0_4.index t (0 : Fin 3) * 1 + 1 * 0 = t.val; omega
      | ⟨1, _⟩ => show win0_4.index t (1 : Fin 3) * 512 + 1 * (r : Fin 512).val = 512 * 3 + r.val; omega
      | ⟨2, _⟩ => show win0_4.index t (2 : Fin 3) * 2048 + 1 * (n : Fin 2048).val = (n : Fin 2048).val; omega)
    (by
      intro j d
      show entry m c main_arg2 (((cfg0.win 5).blk t).view.emb (ix2 j d)) = entry m c main_arg2 (ix2 j d)
      refine congrArg _ (funext fun a => Fin.ext ?_)
      match a with
      | ⟨0, _⟩ => show win0_5.index t (0 : Fin 2) * 128 + 1 * j.val = j.val; omega
      | ⟨1, _⟩ => show win0_5.index t (1 : Fin 2) * 128 + 1 * d.val = d.val; omega)
    (by
      intro d
      show entry m c main_arg3 (((cfg0.win 6).blk t).view.emb (ix1 d)) = entry m c main_arg3 (ix1 d)
      refine congrArg _ (funext fun a => Fin.ext ?_)
      match a with
      | ⟨0, _⟩ => show win0_6.index t (0 : Fin 1) * 128 + 1 * d.val = d.val; omega)
    (by
      intro d
      show entry m c main_arg4 (((cfg0.win 7).blk t).view.emb (ix1 d)) = entry m c main_arg4 (ix1 d)
      refine congrArg _ (funext fun a => Fin.ext ?_)
      match a with
      | ⟨0, _⟩ => show win0_7.index t (0 : Fin 1) * 128 + 1 * d.val = d.val; omega)
    (by
      intro d
      show entry m c main_arg5 (((cfg0.win 8).blk t).view.emb (ix1 d)) = entry m c main_arg5 (ix1 d)
      refine congrArg _ (funext fun a => Fin.ext ?_)
      match a with
      | ⟨0, _⟩ => show win0_8.index t (0 : Fin 1) * 128 + 1 * d.val = d.val; omega)
    (by
      intro j d
      show entry m c main_arg6 (((cfg0.win 9).blk t).view.emb (ix2 j d)) = entry m c main_arg6 (ix2 j d)
      refine congrArg _ (funext fun a => Fin.ext ?_)
      match a with
      | ⟨0, _⟩ => show win0_9.index t (0 : Fin 2) * 128 + 1 * j.val = j.val; omega
      | ⟨1, _⟩ => show win0_9.index t (1 : Fin 2) * 128 + 1 * d.val = d.val; omega)
    (by
      intro d
      show entry m c main_arg7 (((cfg0.win 10).blk t).view.emb (ix1 d)) = entry m c main_arg7 (ix1 d)
      refine congrArg _ (funext fun a => Fin.ext ?_)
      match a with
      | ⟨0, _⟩ => show win0_10.index t (0 : Fin 1) * 128 + 1 * d.val = d.val; omega)
    (by
      intro d
      show entry m c main_arg8 (((cfg0.win 11).blk t).view.emb (ix1 d)) = entry m c main_arg8 (ix1 d)
      refine congrArg _ (funext fun a => Fin.ext ?_)
      match a with
      | ⟨0, _⟩ => show win0_11.index t (0 : Fin 1) * 128 + 1 * d.val = d.val; omega)
    (by
      intro d
      show entry m c main_arg9 (((cfg0.win 12).blk t).view.emb (ix1 d)) = entry m c main_arg9 (ix1 d)
      refine congrArg _ (funext fun a => Fin.ext ?_)
      match a with
      | ⟨0, _⟩ => show win0_12.index t (0 : Fin 1) * 128 + 1 * d.val = d.val; omega)
    (by
      intro j d
      show entry m c main_arg10 (((cfg0.win 13).blk t).view.emb (ix2 j d)) = entry m c main_arg10 (ix2 j d)
      refine congrArg _ (funext fun a => Fin.ext ?_)
      match a with
      | ⟨0, _⟩ => show win0_13.index t (0 : Fin 2) * 128 + 1 * j.val = j.val; omega
      | ⟨1, _⟩ => show win0_13.index t (1 : Fin 2) * 128 + 1 * d.val = d.val; omega)
    (by
      intro d
      show entry m c main_arg11 (((cfg0.win 14).blk t).view.emb (ix1 d)) = entry m c main_arg11 (ix1 d)
      refine congrArg _ (funext fun a => Fin.ext ?_)
      match a with
      | ⟨0, _⟩ => show win0_14.index t (0 : Fin 1) * 128 + 1 * d.val = d.val; omega)
    (by
      intro d
      show entry m c main_arg12 (((cfg0.win 15).blk t).view.emb (ix1 d)) = entry m c main_arg12 (ix1 d)
      refine congrArg _ (funext fun a => Fin.ext ?_)
      match a with
      | ⟨0, _⟩ => show win0_15.index t (0 : Fin 1) * 128 + 1 * d.val = d.val; omega)
    (by
      intro d
      show entry m c main_arg13 (((cfg0.win 16).blk t).view.emb (ix1 d)) = entry m c main_arg13 (ix1 d)
      refine congrArg _ (funext fun a => Fin.ext ?_)
      match a with
      | ⟨0, _⟩ => show win0_16.index t (0 : Fin 1) * 128 + 1 * d.val = d.val; omega)
    j _ ?_ ?_ ?_
  · show win0_17.index t (0 : Fin 3) * 1 + 1 * (j 0).val = t.val
    have : (j 0).val < 1 := (j 0).isLt
    omega
  · show win0_17.index t (1 : Fin 3) * 2048 + 1 * (j 1).val = (j 1).val
    omega
  · show win0_17.index t (2 : Fin 3) * 128 + 1 * (j 2).val = (j 2).val
    omega

/-- An entry of the result array is in point `t`'s block iff each coordinate is in the block's range on its axis. -/
theorem mem_blk17 (t : Fin cfg0.N) (i : S4x2048x128.Idx) :
    i ∈ ((cfg0.win 17).blk t).view.set ↔ ∀ a : Fin 3, win0_17.index t a * S1x2048x128.size a ≤ (i a).val
      ∧ (i a).val < win0_17.index t a * S1x2048x128.size a + S1x2048x128.size a := by
  show i ∈ ((View.whole main_v0).slice (win0_17.rect t)).set ↔ _
  rw [View.set_slice_whole, Rect.mem_set_unit]
  exact Iff.rfl

/-- Every entry `(t, n, d)` of the result array lies in point `t`'s block. -/
theorem covered17 (i : S4x2048x128.Idx) : ∃ t : Fin cfg0.N, (cfg0.win 17).flush t = true ∧ i ∈ ((cfg0.win 17).blk t).view.set := by
  have hi0 : (i 0).val < 4 := (i 0).isLt
  have hi1 : (i 1).val < 2048 := (i 1).isLt
  have hi2 : (i 2).val < 128 := (i 2).isLt
  have hN : cfg0.N = 4 := N_0
  refine ⟨⟨(i 0).val, by omega⟩, flush0_17 _, ?_⟩
  obtain ⟨f0, f1, f2, f3, f4, f5, f6, f7, f8, f9, f10, f11, f12, f13, f14, f15, f16, f17, f18, f19, f20, f21, f22, f23, f24, f25, f26, f27, f28, f29, f30, f31, f32⟩ := idx_facts ⟨(i 0).val, by omega⟩
  rw [mem_blk17]
  intro a
  match a with
  | ⟨0, _⟩ =>
    show win0_17.index _ (0 : Fin 3) * 1 ≤ (i 0).val ∧ (i 0).val < win0_17.index _ (0 : Fin 3) * 1 + 1
    rw [f30]; show (i 0).val * 1 ≤ (i 0).val ∧ (i 0).val < (i 0).val * 1 + 1; omega
  | ⟨1, _⟩ =>
    show win0_17.index _ (1 : Fin 3) * 2048 ≤ (i 1).val ∧ (i 1).val < win0_17.index _ (1 : Fin 3) * 2048 + 2048
    rw [f31]; omega
  | ⟨2, _⟩ =>
    show win0_17.index _ (2 : Fin 3) * 128 ≤ (i 2).val ∧ (i 2).val < win0_17.index _ (2 : Fin 3) * 128 + 128
    rw [f32]; omega

/-- The result array after the run: the four blocks written back tile it, so it holds the specification's result. -/
theorem final17 (c : Dev nD) : (dats m 0 c).arrAt 17 cfg0.N = result m c :=
  (dats m 0 c).arrAt_eq_of_cover 17 (result m c) (fun t _ => flushed17_eq m c t) covered17

end Cert.KernelIdeal.Hand

end
-- ==== Proof.RefRun.lean ====
/-
  The reference program's run: its operations listed window by window, the program shown equal to the line of these
  operations, and every weakly fair execution shown to end with each buffer at the fold of the operations' results over
  the launch contents.
-/
import proofs.«141423_g37074157699470_cont_sun_m_1229_6_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of the program, in order (a called function's operations stand in its call's place). -/
def win0 : List (HloOp τ sig (Elt F)) :=
  [ unary main_arg1 main_v0 ((extractStridedSlice S1x2048x2048 ![0, 0, 0] · slices_S4x2048x2048_S1x2048x2048_0_0_0) : (⟨S4x2048x2048, .f32⟩ : BufTy).Contents (Elt F) → (⟨S1x2048x2048, .f32⟩ : BufTy).Contents (Elt F)),
    reshape main_v0 main_v1 rfl shapeCasts_S1x2048x2048_S2048x2048,
    unary main_arg0 main_v2 ((extractStridedSlice S1x2048x128 ![0, 0, 0] · slices_S4x2048x128_S1x2048x128_0_0_0) : (⟨S4x2048x128, .f32⟩ : BufTy).Contents (Elt F) → (⟨S1x2048x128, .f32⟩ : BufTy).Contents (Elt F)),
    reshape main_v2 main_v3 rfl shapeCasts_S1x2048x128_S2048x128,
    binary main_v3 main_arg2 main_v4 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v1 main_v5 ((transpose S2048x2048 [1, 0] · transposes_S2048x2048_S2048x2048_1_0) : (⟨S2048x2048, .f32⟩ : BufTy).Contents (Elt F) → (⟨S2048x2048, .f32⟩ : BufTy).Contents (Elt F)),
    binary main_v5 main_v4 main_v6 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg3 main_v7 (broadcastInDim S1x128 ![1] bcast_S128_S1x128_1 : (⟨S128, .f32⟩ : BufTy).Contents (Elt F) → (⟨S1x128, .f32⟩ : BufTy).Contents (Elt F)),
    unary main_v7 main_v8 (broadcastInDim S2048x128 ![0, 1] bcast_S1x128_S2048x128_0_1 : (⟨S1x128, .f32⟩ : BufTy).Contents (Elt F) → (⟨S2048x128, .f32⟩ : BufTy).Contents (Elt F)),
    binary main_v6 main_v8 main_v9 (addf : (⟨S2048x128, .f32⟩ : BufTy).Contents (Elt F) → (⟨S2048x128, .f32⟩ : BufTy).Contents (Elt F) → (⟨S2048x128, .f32⟩ : BufTy).Contents (Elt F)),
    binary main_v9 main_v3 main_v10 (addf : (⟨S2048x128, .f32⟩ : BufTy).Contents (Elt F) → (⟨S2048x128, .f32⟩ : BufTy).Contents (Elt F) → (⟨S2048x128, .f32⟩ : BufTy).Contents (Elt F)),
    nullary main_cst (constant S_ .f32 0x00000000#32),
    binary main_v10 main_cst main_v11 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v11 main_v12 (broadcastInDim S2048x1 ![0] bcast_S2048_S2048x1_0 : (⟨S2048, .f32⟩ : BufTy).Contents (Elt F) → (⟨S2048x1, .f32⟩ : BufTy).Contents (Elt F)),
    nullary main_cst_0 (constant S_ .f32 0x43000000#32),
    unary main_cst_0 main_v13 (broadcastInDim S2048x1 ![] bcast_S_S2048x1 : (⟨S_, .f32⟩ : BufTy).Contents (Elt F) → (⟨S2048x1, .f32⟩ : BufTy).Contents (Elt F)),
    binary main_v12 main_v13 main_v14 (Host.divf : (⟨S2048x1, .f32⟩ : BufTy).Contents (Elt F) → (⟨S2048x1, .f32⟩ : BufTy).Contents (Elt F) → (⟨S2048x1, .f32⟩ : BufTy).Contents (Elt F)),
    unary main_v14 main_v15 (broadcastInDim S2048x128 ![0, 1] bcast_S2048x1_S2048x128_0_1 : (⟨S2048x1, .f32⟩ : BufTy).Contents (Elt F) → (⟨S2048x128, .f32⟩ : BufTy).Contents (Elt F)),
    binary main_v10 main_v15 main_v16 (subf : (⟨S2048x128, .f32⟩ : BufTy).Contents (Elt F) → (⟨S2048x128, .f32⟩ : BufTy).Contents (Elt F) → (⟨S2048x128, .f32⟩ : BufTy).Contents (Elt F)),
    binary main_v16 main_v16 main_v17 (mulf : (⟨S2048x128, .f32⟩ : BufTy).Contents (Elt F) → (⟨S2048x128, .f32⟩ : BufTy).Contents (Elt F) → (⟨S2048x128, .f32⟩ : BufTy).Contents (Elt F)),
    nullary main_cst_1 (constant S_ .f32 0x00000000#32),
    binary main_v17 main_cst_1 main_v18 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v18 main_v19 (broadcastInDim S2048x1 ![0] bcast_S2048_S2048x1_0 : (⟨S2048, .f32⟩ : BufTy).Contents (Elt F) → (⟨S2048x1, .f32⟩ : BufTy).Contents (Elt F)),
    nullary main_cst_2 (constant S_ .f32 0x43000000#32),
    unary main_cst_2 main_v20 (broadcastInDim S2048x1 ![] bcast_S_S2048x1 : (⟨S_, .f32⟩ : BufTy).Contents (Elt F) → (⟨S2048x1, .f32⟩ : BufTy).Contents (Elt F)),
    binary main_v19 main_v20 main_v21 (Host.divf : (⟨S2048x1, .f32⟩ : BufTy).Contents (Elt F) → (⟨S2048x1, .f32⟩ : BufTy).Contents (Elt F) → (⟨S2048x1, .f32⟩ : BufTy).Contents (Elt F)),
    unary main_v14 main_v22 (broadcastInDim S2048x128 ![0, 1] bcast_S2048x1_S2048x128_0_1 : (⟨S2048x1, .f32⟩ : BufTy).Contents (Elt F) → (⟨S2048x128, .f32⟩ : BufTy).Contents (Elt F)),
    binary main_v10 main_v22 main_v23 (subf : (⟨S2048x128, .f32⟩ : BufTy).Contents (Elt F) → (⟨S2048x128, .f32⟩ : BufTy).Contents (Elt F) → (⟨S2048x128, .f32⟩ : BufTy).Contents (Elt F)),
    nullary main_cst_3 (constant S_ .f32 0x3727C5AC#32),
    unary main_cst_3 main_v24 (broadcastInDim S2048x1 ![] bcast_S_S2048x1 : (⟨S_, .f32⟩ : BufTy).Contents (Elt F) → (⟨S2048x1, .f32⟩ : BufTy).Contents (Elt F)),
    binary main_v21 main_v24 main_v25 (addf : (⟨S2048x1, .f32⟩ : BufTy).Contents (Elt F) → (⟨S2048x1, .f32⟩ : BufTy).Contents (Elt F) → (⟨S2048x1, .f32⟩ : BufTy).Contents (Elt F)),
    unary main_v25 main_v26 (Host.sqrt : (⟨S2048x1, .f32⟩ : BufTy).Contents (Elt F) → (⟨S2048x1, .f32⟩ : BufTy).Contents (Elt F)),
    unary main_v26 main_v27 (broadcastInDim S2048x128 ![0, 1] bcast_S2048x1_S2048x128_0_1 : (⟨S2048x1, .f32⟩ : BufTy).Contents (Elt F) → (⟨S2048x128, .f32⟩ : BufTy).Contents (Elt F)),
    binary main_v23 main_v27 main_v28 (Host.divf : (⟨S2048x128, .f32⟩ : BufTy).Contents (Elt F) → (⟨S2048x128, .f32⟩ : BufTy).Contents (Elt F) → (⟨S2048x128, .f32⟩ : BufTy).Contents (Elt F)),
    unary main_arg4 main_v29 (broadcastInDim S1x128 ![1] bcast_S128_S1x128_1 : (⟨S128, .f32⟩ : BufTy).Contents (Elt F) → (⟨S1x128, .f32⟩ : BufTy).Contents (Elt F)),
    unary main_v29 main_v30 (broadcastInDim S2048x128 ![0, 1] bcast_S1x128_S2048x128_0_1 : (⟨S1x128, .f32⟩ : BufTy).Contents (Elt F) → (⟨S2048x128, .f32⟩ : BufTy).Contents (Elt F)),
    binary main_v28 main_v30 main_v31 (mulf : (⟨S2048x128, .f32⟩ : BufTy).Contents (Elt F) → (⟨S2048x128, .f32⟩ : BufTy).Contents (Elt F) → (⟨S2048x128, .f32⟩ : BufTy).Contents (Elt F)),
    unary main_arg5 main_v32 (broadcastInDim S1x128 ![1] bcast_S128_S1x128_1 : (⟨S128, .f32⟩ : BufTy).Contents (Elt F) → (⟨S1x128, .f32⟩ : BufTy).Contents (Elt F)),
    unary main_v32 main_v33 (broadcastInDim S2048x128 ![0, 1] bcast_S1x128_S2048x128_0_1 : (⟨S1x128, .f32⟩ : BufTy).Contents (Elt F) → (⟨S2048x128, .f32⟩ : BufTy).Contents (Elt F)),
    binary main_v31 main_v33 main_v34 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x128, .f32⟩) main_call0_v0) (broadcastInDim S2048x128 ![] bcast_S_S2048x128),
    TRef.binary (TRef.of (T := ⟨S2048x128, .f32⟩) main_v34) (TRef.of (T := ⟨S2048x128, .f32⟩) main_call0_v0) (TRef.of (T := ⟨S2048x128, .f32⟩) main_v35) maximumf,
    binary main_v35 main_arg6 main_v36 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v1 main_v37 ((transpose S2048x2048 [1, 0] · transposes_S2048x2048_S2048x2048_1_0) : (⟨S2048x2048, .f32⟩ : BufTy).Contents (Elt F) → (⟨S2048x2048, .f32⟩ : BufTy).Contents (Elt F)),
    binary main_v37 main_v36 main_v38 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg7 main_v39 (broadcastInDim S1x128 ![1] bcast_S128_S1x128_1 : (⟨S128, .f32⟩ : BufTy).Contents (Elt F) → (⟨S1x128, .f32⟩ : BufTy).Contents (Elt F)),
    unary main_v39 main_v40 (broadcastInDim S2048x128 ![0, 1] bcast_S1x128_S2048x128_0_1 : (⟨S1x128, .f32⟩ : BufTy).Contents (Elt F) → (⟨S2048x128, .f32⟩ : BufTy).Contents (Elt F)),
    binary main_v38 main_v40 main_v41 (addf : (⟨S2048x128, .f32⟩ : BufTy).Contents (Elt F) → (⟨S2048x128, .f32⟩ : BufTy).Contents (Elt F) → (⟨S2048x128, .f32⟩ : BufTy).Contents (Elt F)),
    binary main_v41 main_v35 main_v42 (addf : (⟨S2048x128, .f32⟩ : BufTy).Contents (Elt F) → (⟨S2048x128, .f32⟩ : BufTy).Contents (Elt F) → (⟨S2048x128, .f32⟩ : BufTy).Contents (Elt F)),
    nullary main_cst_4 (constant S_ .f32 0x00000000#32),
    binary main_v42 main_cst_4 main_v43 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v43 main_v44 (broadcastInDim S2048x1 ![0] bcast_S2048_S2048x1_0 : (⟨S2048, .f32⟩ : BufTy).Contents (Elt F) → (⟨S2048x1, .f32⟩ : BufTy).Contents (Elt F)),
    nullary main_cst_5 (constant S_ .f32 0x43000000#32),
    unary main_cst_5 main_v45 (broadcastInDim S2048x1 ![] bcast_S_S2048x1 : (⟨S_, .f32⟩ : BufTy).Contents (Elt F) → (⟨S2048x1, .f32⟩ : BufTy).Contents (Elt F)),
    binary main_v44 main_v45 main_v46 (Host.divf : (⟨S2048x1, .f32⟩ : BufTy).Contents (Elt F) → (⟨S2048x1, .f32⟩ : BufTy).Contents (Elt F) → (⟨S2048x1, .f32⟩ : BufTy).Contents (Elt F)),
    unary main_v46 main_v47 (broadcastInDim S2048x128 ![0, 1] bcast_S2048x1_S2048x128_0_1 : (⟨S2048x1, .f32⟩ : BufTy).Contents (Elt F) → (⟨S2048x128, .f32⟩ : BufTy).Contents (Elt F)),
    binary main_v42 main_v47 main_v48 (subf : (⟨S2048x128, .f32⟩ : BufTy).Contents (Elt F) → (⟨S2048x128, .f32⟩ : BufTy).Contents (Elt F) → (⟨S2048x128, .f32⟩ : BufTy).Contents (Elt F)),
    binary main_v48 main_v48 main_v49 (mulf : (⟨S2048x128, .f32⟩ : BufTy).Contents (Elt F) → (⟨S2048x128, .f32⟩ : BufTy).Contents (Elt F) → (⟨S2048x128, .f32⟩ : BufTy).Contents (Elt F)),
    nullary main_cst_6 (constant S_ .f32 0x00000000#32),
    binary main_v49 main_cst_6 main_v50 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v50 main_v51 (broadcastInDim S2048x1 ![0] bcast_S2048_S2048x1_0 : (⟨S2048, .f32⟩ : BufTy).Contents (Elt F) → (⟨S2048x1, .f32⟩ : BufTy).Contents (Elt F)) ]

theorem part0_eq (d : Dev nD) : main_part0 (F := F) d = seq win0 := rfl

theorem win0_sub : (win0 : List (HloOp τ sig (Elt F))).Forall fun op => op.bufs ⊆ tcRefs τ sig :=
  ⟨unary_bufs_sub .., reshape_bufs_sub .., unary_bufs_sub .., reshape_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub ..⟩

theorem win0_fresh : ∀ op ∈ (win0 : List (HloOp τ sig (Elt F))), op.fresh = ∅ := by
  intro _ h; (repeat (cases h with | head => rfl | tail _ h => ?_)); exact nomatch h

/-- The operations of window 1 of the program, in order (a called function's operations stand in its call's place). -/
def win1 : List (HloOp τ sig (Elt F)) :=
  [ nullary main_cst_7 (constant S_ .f32 0x43000000#32),
    unary main_cst_7 main_v52 (broadcastInDim S2048x1 ![] bcast_S_S2048x1 : (⟨S_, .f32⟩ : BufTy).Contents (Elt F) → (⟨S2048x1, .f32⟩ : BufTy).Contents (Elt F)),
    binary main_v51 main_v52 main_v53 (Host.divf : (⟨S2048x1, .f32⟩ : BufTy).Contents (Elt F) → (⟨S2048x1, .f32⟩ : BufTy).Contents (Elt F) → (⟨S2048x1, .f32⟩ : BufTy).Contents (Elt F)),
    unary main_v46 main_v54 (broadcastInDim S2048x128 ![0, 1] bcast_S2048x1_S2048x128_0_1 : (⟨S2048x1, .f32⟩ : BufTy).Contents (Elt F) → (⟨S2048x128, .f32⟩ : BufTy).Contents (Elt F)),
    binary main_v42 main_v54 main_v55 (subf : (⟨S2048x128, .f32⟩ : BufTy).Contents (Elt F) → (⟨S2048x128, .f32⟩ : BufTy).Contents (Elt F) → (⟨S2048x128, .f32⟩ : BufTy).Contents (Elt F)),
    nullary main_cst_8 (constant S_ .f32 0x3727C5AC#32),
    unary main_cst_8 main_v56 (broadcastInDim S2048x1 ![] bcast_S_S2048x1 : (⟨S_, .f32⟩ : BufTy).Contents (Elt F) → (⟨S2048x1, .f32⟩ : BufTy).Contents (Elt F)),
    binary main_v53 main_v56 main_v57 (addf : (⟨S2048x1, .f32⟩ : BufTy).Contents (Elt F) → (⟨S2048x1, .f32⟩ : BufTy).Contents (Elt F) → (⟨S2048x1, .f32⟩ : BufTy).Contents (Elt F)),
    unary main_v57 main_v58 (Host.sqrt : (⟨S2048x1, .f32⟩ : BufTy).Contents (Elt F) → (⟨S2048x1, .f32⟩ : BufTy).Contents (Elt F)),
    unary main_v58 main_v59 (broadcastInDim S2048x128 ![0, 1] bcast_S2048x1_S2048x128_0_1 : (⟨S2048x1, .f32⟩ : BufTy).Contents (Elt F) → (⟨S2048x128, .f32⟩ : BufTy).Contents (Elt F)),
    binary main_v55 main_v59 main_v60 (Host.divf : (⟨S2048x128, .f32⟩ : BufTy).Contents (Elt F) → (⟨S2048x128, .f32⟩ : BufTy).Contents (Elt F) → (⟨S2048x128, .f32⟩ : BufTy).Contents (Elt F)),
    unary main_arg8 main_v61 (broadcastInDim S1x128 ![1] bcast_S128_S1x128_1 : (⟨S128, .f32⟩ : BufTy).Contents (Elt F) → (⟨S1x128, .f32⟩ : BufTy).Contents (Elt F)),
    unary main_v61 main_v62 (broadcastInDim S2048x128 ![0, 1] bcast_S1x128_S2048x128_0_1 : (⟨S1x128, .f32⟩ : BufTy).Contents (Elt F) → (⟨S2048x128, .f32⟩ : BufTy).Contents (Elt F)),
    binary main_v60 main_v62 main_v63 (mulf : (⟨S2048x128, .f32⟩ : BufTy).Contents (Elt F) → (⟨S2048x128, .f32⟩ : BufTy).Contents (Elt F) → (⟨S2048x128, .f32⟩ : BufTy).Contents (Elt F)),
    unary main_arg9 main_v64 (broadcastInDim S1x128 ![1] bcast_S128_S1x128_1 : (⟨S128, .f32⟩ : BufTy).Contents (Elt F) → (⟨S1x128, .f32⟩ : BufTy).Contents (Elt F)),
    unary main_v64 main_v65 (broadcastInDim S2048x128 ![0, 1] bcast_S1x128_S2048x128_0_1 : (⟨S1x128, .f32⟩ : BufTy).Contents (Elt F) → (⟨S2048x128, .f32⟩ : BufTy).Contents (Elt F)),
    binary main_v63 main_v65 main_v66 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x128, .f32⟩) main_call1_v0) (broadcastInDim S2048x128 ![] bcast_S_S2048x128),
    TRef.binary (TRef.of (T := ⟨S2048x128, .f32⟩) main_v66) (TRef.of (T := ⟨S2048x128, .f32⟩) main_call1_v0) (TRef.of (T := ⟨S2048x128, .f32⟩) main_v67) maximumf,
    binary main_v67 main_arg10 main_v68 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v1 main_v69 ((transpose S2048x2048 [1, 0] · transposes_S2048x2048_S2048x2048_1_0) : (⟨S2048x2048, .f32⟩ : BufTy).Contents (Elt F) → (⟨S2048x2048, .f32⟩ : BufTy).Contents (Elt F)),
    binary main_v69 main_v68 main_v70 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg11 main_v71 (broadcastInDim S1x128 ![1] bcast_S128_S1x128_1 : (⟨S128, .f32⟩ : BufTy).Contents (Elt F) → (⟨S1x128, .f32⟩ : BufTy).Contents (Elt F)),
    unary main_v71 main_v72 (broadcastInDim S2048x128 ![0, 1] bcast_S1x128_S2048x128_0_1 : (⟨S1x128, .f32⟩ : BufTy).Contents (Elt F) → (⟨S2048x128, .f32⟩ : BufTy).Contents (Elt F)),
    binary main_v70 main_v72 main_v73 (addf : (⟨S2048x128, .f32⟩ : BufTy).Contents (Elt F) → (⟨S2048x128, .f32⟩ : BufTy).Contents (Elt F) → (⟨S2048x128, .f32⟩ : BufTy).Contents (Elt F)),
    binary main_v73 main_v67 main_v74 (addf : (⟨S2048x128, .f32⟩ : BufTy).Contents (Elt F) → (⟨S2048x128, .f32⟩ : BufTy).Contents (Elt F) → (⟨S2048x128, .f32⟩ : BufTy).Contents (Elt F)),
    nullary main_cst_9 (constant S_ .f32 0x00000000#32),
    binary main_v74 main_cst_9 main_v75 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v75 main_v76 (broadcastInDim S2048x1 ![0] bcast_S2048_S2048x1_0 : (⟨S2048, .f32⟩ : BufTy).Contents (Elt F) → (⟨S2048x1, .f32⟩ : BufTy).Contents (Elt F)),
    nullary main_cst_10 (constant S_ .f32 0x43000000#32),
    unary main_cst_10 main_v77 (broadcastInDim S2048x1 ![] bcast_S_S2048x1 : (⟨S_, .f32⟩ : BufTy).Contents (Elt F) → (⟨S2048x1, .f32⟩ : BufTy).Contents (Elt F)),
    binary main_v76 main_v77 main_v78 (Host.divf : (⟨S2048x1, .f32⟩ : BufTy).Contents (Elt F) → (⟨S2048x1, .f32⟩ : BufTy).Contents (Elt F) → (⟨S2048x1, .f32⟩ : BufTy).Contents (Elt F)),
    unary main_v78 main_v79 (broadcastInDim S2048x128 ![0, 1] bcast_S2048x1_S2048x128_0_1 : (⟨S2048x1, .f32⟩ : BufTy).Contents (Elt F) → (⟨S2048x128, .f32⟩ : BufTy).Contents (Elt F)),
    binary main_v74 main_v79 main_v80 (subf : (⟨S2048x128, .f32⟩ : BufTy).Contents (Elt F) → (⟨S2048x128, .f32⟩ : BufTy).Contents (Elt F) → (⟨S2048x128, .f32⟩ : BufTy).Contents (Elt F)),
    binary main_v80 main_v80 main_v81 (mulf : (⟨S2048x128, .f32⟩ : BufTy).Contents (Elt F) → (⟨S2048x128, .f32⟩ : BufTy).Contents (Elt F) → (⟨S2048x128, .f32⟩ : BufTy).Contents (Elt F)),
    nullary main_cst_11 (constant S_ .f32 0x00000000#32),
    binary main_v81 main_cst_11 main_v82 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v82 main_v83 (broadcastInDim S2048x1 ![0] bcast_S2048_S2048x1_0 : (⟨S2048, .f32⟩ : BufTy).Contents (Elt F) → (⟨S2048x1, .f32⟩ : BufTy).Contents (Elt F)),
    nullary main_cst_12 (constant S_ .f32 0x43000000#32),
    unary main_cst_12 main_v84 (broadcastInDim S2048x1 ![] bcast_S_S2048x1 : (⟨S_, .f32⟩ : BufTy).Contents (Elt F) → (⟨S2048x1, .f32⟩ : BufTy).Contents (Elt F)),
    binary main_v83 main_v84 main_v85 (Host.divf : (⟨S2048x1, .f32⟩ : BufTy).Contents (Elt F) → (⟨S2048x1, .f32⟩ : BufTy).Contents (Elt F) → (⟨S2048x1, .f32⟩ : BufTy).Contents (Elt F)),
    unary main_v78 main_v86 (broadcastInDim S2048x128 ![0, 1] bcast_S2048x1_S2048x128_0_1 : (⟨S2048x1, .f32⟩ : BufTy).Contents (Elt F) → (⟨S2048x128, .f32⟩ : BufTy).Contents (Elt F)),
    binary main_v74 main_v86 main_v87 (subf : (⟨S2048x128, .f32⟩ : BufTy).Contents (Elt F) → (⟨S2048x128, .f32⟩ : BufTy).Contents (Elt F) → (⟨S2048x128, .f32⟩ : BufTy).Contents (Elt F)),
    nullary main_cst_13 (constant S_ .f32 0x3727C5AC#32),
    unary main_cst_13 main_v88 (broadcastInDim S2048x1 ![] bcast_S_S2048x1 : (⟨S_, .f32⟩ : BufTy).Contents (Elt F) → (⟨S2048x1, .f32⟩ : BufTy).Contents (Elt F)),
    binary main_v85 main_v88 main_v89 (addf : (⟨S2048x1, .f32⟩ : BufTy).Contents (Elt F) → (⟨S2048x1, .f32⟩ : BufTy).Contents (Elt F) → (⟨S2048x1, .f32⟩ : BufTy).Contents (Elt F)),
    unary main_v89 main_v90 (Host.sqrt : (⟨S2048x1, .f32⟩ : BufTy).Contents (Elt F) → (⟨S2048x1, .f32⟩ : BufTy).Contents (Elt F)),
    unary main_v90 main_v91 (broadcastInDim S2048x128 ![0, 1] bcast_S2048x1_S2048x128_0_1 : (⟨S2048x1, .f32⟩ : BufTy).Contents (Elt F) → (⟨S2048x128, .f32⟩ : BufTy).Contents (Elt F)),
    binary main_v87 main_v91 main_v92 (Host.divf : (⟨S2048x128, .f32⟩ : BufTy).Contents (Elt F) → (⟨S2048x128, .f32⟩ : BufTy).Contents (Elt F) → (⟨S2048x128, .f32⟩ : BufTy).Contents (Elt F)),
    unary main_arg12 main_v93 (broadcastInDim S1x128 ![1] bcast_S128_S1x128_1 : (⟨S128, .f32⟩ : BufTy).Contents (Elt F) → (⟨S1x128, .f32⟩ : BufTy).Contents (Elt F)),
    unary main_v93 main_v94 (broadcastInDim S2048x128 ![0, 1] bcast_S1x128_S2048x128_0_1 : (⟨S1x128, .f32⟩ : BufTy).Contents (Elt F) → (⟨S2048x128, .f32⟩ : BufTy).Contents (Elt F)),
    binary main_v92 main_v94 main_v95 (mulf : (⟨S2048x128, .f32⟩ : BufTy).Contents (Elt F) → (⟨S2048x128, .f32⟩ : BufTy).Contents (Elt F) → (⟨S2048x128, .f32⟩ : BufTy).Contents (Elt F)),
    unary main_arg13 main_v96 (broadcastInDim S1x128 ![1] bcast_S128_S1x128_1 : (⟨S128, .f32⟩ : BufTy).Contents (Elt F) → (⟨S1x128, .f32⟩ : BufTy).Contents (Elt F)),
    unary main_v96 main_v97 (broadcastInDim S2048x128 ![0, 1] bcast_S1x128_S2048x128_0_1 : (⟨S1x128, .f32⟩ : BufTy).Contents (Elt F) → (⟨S2048x128, .f32⟩ : BufTy).Contents (Elt F)),
    binary main_v95 main_v97 main_v98 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2048x128, .f32⟩) main_call2_v0) (broadcastInDim S2048x128 ![] bcast_S_S2048x128),
    TRef.binary (TRef.of (T := ⟨S2048x128, .f32⟩) main_v98) (TRef.of (T := ⟨S2048x128, .f32⟩) main_call2_v0) (TRef.of (T := ⟨S2048x128, .f32⟩) main_v99) maximumf,
    unary main_arg1 main_v100 ((extractStridedSlice S1x2048x2048 ![1, 0, 0] · slices_S4x2048x2048_S1x2048x2048_1_0_0) : (⟨S4x2048x2048, .f32⟩ : BufTy).Contents (Elt F) → (⟨S1x2048x2048, .f32⟩ : BufTy).Contents (Elt F)),
    reshape main_v100 main_v101 rfl shapeCasts_S1x2048x2048_S2048x2048,
    unary main_arg0 main_v102 ((extractStridedSlice S1x2048x128 ![1, 0, 0] · slices_S4x2048x128_S1x2048x128_1_0_0) : (⟨S4x2048x128, .f32⟩ : BufTy).Contents (Elt F) → (⟨S1x2048x128, .f32⟩ : BufTy).Contents (Elt F)),
    reshape main_v102 main_v103 rfl shapeCasts_S1x2048x128_S2048x128,
    binary main_v103 main_arg2 main_v104 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)) ]

theorem part1_eq (d : Dev nD) : main_part1 (F := F) d = seq win1 := rfl

theorem win1_sub : (win1 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩

theorem win1_fresh : ∀ op ∈ (win1 : List (HloOp τ sig (Elt F))), op.fresh = ∅ := by
  intro _ h; (repeat (cases h with | head => rfl | tail _ h => ?_)); exact nomatch h

/-- The operations of window 2 of the program, in order (a called function's operations stand in its call's place). -/
def win2 : List (HloOp τ sig (Elt F)) :=
  [ unary main_v101 main_v105 ((transpose S2048x2048 [1, 0] · transposes_S2048x2048_S2048x2048_1_0) : (⟨S2048x2048, .f32⟩ : BufTy).Contents (Elt F) → (⟨S2048x2048, .f32⟩ : BufTy).Contents (Elt F)),
    binary main_v105 main_v104 main_v106 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg3 main_v107 (broadcastInDim S1x128 ![1] bcast_S128_S1x128_1 : (⟨S128, .f32⟩ : BufTy).Contents (Elt F) → (⟨S1x128, .f32⟩ : BufTy).Contents (Elt F)),
    unary main_v107 main_v108 (broadcastInDim S2048x128 ![0, 1] bcast_S1x128_S2048x128_0_1 : (⟨S1x128, .f32⟩ : BufTy).Contents (Elt F) → (⟨S2048x128, .f32⟩ : BufTy).Contents (Elt F)),
    binary main_v106 main_v108 main_v109 (addf : (⟨S2048x128, .f32⟩ : BufTy).Contents (Elt F) → (⟨S2048x128, .f32⟩ : BufTy).Contents (Elt F) → (⟨S2048x128, .f32⟩ : BufTy).Contents (Elt F)),
    binary main_v109 main_v103 main_v110 (addf : (⟨S2048x128, .f32⟩ : BufTy).Contents (Elt F) → (⟨S2048x128, .f32⟩ : BufTy).Contents (Elt F) → (⟨S2048x128, .f32⟩ : BufTy).Contents (Elt F)),
    nullary main_cst_14 (constant S_ .f32 0x00000000#32),
    binary main_v110 main_cst_14 main_v111 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v111 main_v112 (broadcastInDim S2048x1 ![0] bcast_S2048_S2048x1_0 : (⟨S2048, .f32⟩ : BufTy).Contents (Elt F) → (⟨S2048x1, .f32⟩ : BufTy).Contents (Elt F)),
    nullary main_cst_15 (constant S_ .f32 0x43000000#32),
    unary main_cst_15 main_v113 (broadcastInDim S2048x1 ![] bcast_S_S2048x1 : (⟨S_, .f32⟩ : BufTy).Contents (Elt F) → (⟨S2048x1, .f32⟩ : BufTy).Contents (Elt F)),
    binary main_v112 main_v113 main_v114 (Host.divf : (⟨S2048x1, .f32⟩ : BufTy).Contents (Elt F) → (⟨S2048x1, .f32⟩ : BufTy).Contents (Elt F) → (⟨S2048x1, .f32⟩ : BufTy).Contents (Elt F)),
    unary main_v114 main_v115 (broadcastInDim S2048x128 ![0, 1] bcast_S2048x1_S2048x128_0_1 : (⟨S2048x1, .f32⟩ : BufTy).Contents (Elt F) → (⟨S2048x128, .f32⟩ : BufTy).Contents (Elt F)),
    binary main_v110 main_v115 main_v116 (subf : (⟨S2048x128, .f32⟩ : BufTy).Contents (Elt F) → (⟨S2048x128, .f32⟩ : BufTy).Contents (Elt F) → (⟨S2048x128, .f32⟩ : BufTy).Contents (Elt F)),
    binary main_v116 main_v116 main_v117 (mulf : (⟨S2048x128, .f32⟩ : BufTy).Contents (Elt F) → (⟨S2048x128, .f32⟩ : BufTy).Contents (Elt F) → (⟨S2048x128, .f32⟩ : BufTy).Contents (Elt F)),
    nullary main_cst_16 (constant S_ .f32 0x00000000#32),
    binary main_v117 main_cst_16 main_v118 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v118 main_v119 (broadcastInDim S2048x1 ![0] bcast_S2048_S2048x1_0 : (⟨S2048, .f32⟩ : BufTy).Contents (Elt F) → (⟨S2048x1, .f32⟩ : BufTy).Contents (Elt F)),
    nullary main_cst_17 (constant S_ .f32 0x43000000#32),
    unary main_cst_17 main_v120 (broadcastInDim S2048x1 ![] bcast_S_S2048x1 : (⟨S_, .f32⟩ : BufTy).Contents (Elt F) → (⟨S2048x1, .f32⟩ : BufTy).Contents (Elt F)),
    binary main_v119 main_v120 main_v121 (Host.divf : (⟨S2048x1, .f32⟩ : BufTy).Contents (Elt F) → (⟨S2048x1, .f32⟩ : BufTy).Contents (Elt F) → (⟨S2048x1, .f32⟩ : BufTy).Contents (Elt F)),
    unary main_v114 main_v122 (broadcastInDim S2048x128 ![0, 1] bcast_S2048x1_S2048x128_0_1 : (⟨S2048x1, .f32⟩ : BufTy).Contents (Elt F) → (⟨S2048x128, .f32⟩ : BufTy).Contents (Elt F)),
    binary main_v110 main_v122 main_v123 (subf : (⟨S2048x128, .f32⟩ : BufTy).Contents (Elt F) → (⟨S2048x128, .f32⟩ : BufTy).Contents (Elt F) → (⟨S2048x128, .f32⟩ : BufTy).Contents (Elt F)),
    nullary main_cst_18 (constant S_ .f32 0x3727C5AC#32),
    unary main_cst_18 main_v124 (broadcastInDim S2048x1 ![] bcast_S_S2048x1 : (⟨S_, .f32⟩ : BufTy).Contents (Elt F) → (⟨S2048x1, .f32⟩ : BufTy).Contents (Elt F)),
    binary main_v121 main_v124 main_v125 (addf : (⟨S2048x1, .f32⟩ : BufTy).Contents (Elt F) → (⟨S2048x1, .f32⟩ : BufTy).Contents (Elt F) → (⟨S2048x1, .f32⟩ : BufTy).Contents (Elt F)),
    unary main_v125 main_v126 (Host.sqrt : (⟨S2048x1, .f32⟩ : BufTy).Contents (Elt F) → (⟨S2048x1, .f32⟩ : BufTy).Contents (Elt F)),
    unary main_v126 main_v127 (broadcastInDim S2048x128 ![0, 1] bcast_S2048x1_S2048x128_0_1 : (⟨S2048x1, .f32⟩ : BufTy).Contents (Elt F) → (⟨S2048x128, .f32⟩ : BufTy).Contents (Elt F)),
    binary main_v123 main_v127 main_v128 (Host.divf : (⟨S2048x128, .f32⟩ : BufTy).Contents (Elt F) → (⟨S2048x128, .f32⟩ : BufTy).Contents (Elt F) → (⟨S2048x128, .f32⟩ : BufTy).Contents (Elt F)),
    unary main_arg4 main_v129 (broadcastInDim S1x128 ![1] bcast_S128_S1x128_1 : (⟨S128, .f32⟩ : BufTy).Contents (Elt F) → (⟨S1x128, .f32⟩ : BufTy).Contents (Elt F)),
    unary main_v129 main_v130 (broadcastInDim S2048x128 ![0, 1] bcast_S1x128_S2048x128_0_1 : (⟨S1x128, .f32⟩ : BufTy).Contents (Elt F) → (⟨S2048x128, .f32⟩ : BufTy).Contents (Elt F)),
    binary main_v128 main_v130 main_v131 (mulf : (⟨S2048x128, .f32⟩ : BufTy).Contents (Elt F) → (⟨S2048x128, .f32⟩ : BufTy).Contents (Elt F) → (⟨S2048x128, .f32⟩ : BufTy).Contents (Elt F)),
    unary main_arg5 main_v132 (broadcastInDim S1x128 ![1] bcast_S128_S1x128_1 : (⟨S128, .f32⟩ : BufTy).Contents (Elt F) → (⟨S1x128, .f32⟩ : BufTy).Contents (Elt F)),
    unary main_v132 main_v133 (broadcastInDim S2048x128 ![0, 1] bcast_S1x128_S2048x128_0_1 : (⟨S1x128, .f32⟩ : BufTy).Contents (Elt F) → (⟨S2048x128, .f32⟩ : BufTy).Contents (Elt F)),
    binary main_v131 main_v133 main_v134 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2048x128, .f32⟩) main_call3_v0) (broadcastInDim S2048x128 ![] bcast_S_S2048x128),
    TRef.binary (TRef.of (T := ⟨S2048x128, .f32⟩) main_v134) (TRef.of (T := ⟨S2048x128, .f32⟩) main_call3_v0) (TRef.of (T := ⟨S2048x128, .f32⟩) main_v135) maximumf,
    binary main_v135 main_arg6 main_v136 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v101 main_v137 ((transpose S2048x2048 [1, 0] · transposes_S2048x2048_S2048x2048_1_0) : (⟨S2048x2048, .f32⟩ : BufTy).Contents (Elt F) → (⟨S2048x2048, .f32⟩ : BufTy).Contents (Elt F)),
    binary main_v137 main_v136 main_v138 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg7 main_v139 (broadcastInDim S1x128 ![1] bcast_S128_S1x128_1 : (⟨S128, .f32⟩ : BufTy).Contents (Elt F) → (⟨S1x128, .f32⟩ : BufTy).Contents (Elt F)),
    unary main_v139 main_v140 (broadcastInDim S2048x128 ![0, 1] bcast_S1x128_S2048x128_0_1 : (⟨S1x128, .f32⟩ : BufTy).Contents (Elt F) → (⟨S2048x128, .f32⟩ : BufTy).Contents (Elt F)),
    binary main_v138 main_v140 main_v141 (addf : (⟨S2048x128, .f32⟩ : BufTy).Contents (Elt F) → (⟨S2048x128, .f32⟩ : BufTy).Contents (Elt F) → (⟨S2048x128, .f32⟩ : BufTy).Contents (Elt F)),
    binary main_v141 main_v135 main_v142 (addf : (⟨S2048x128, .f32⟩ : BufTy).Contents (Elt F) → (⟨S2048x128, .f32⟩ : BufTy).Contents (Elt F) → (⟨S2048x128, .f32⟩ : BufTy).Contents (Elt F)),
    nullary main_cst_19 (constant S_ .f32 0x00000000#32),
    binary main_v142 main_cst_19 main_v143 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v143 main_v144 (broadcastInDim S2048x1 ![0] bcast_S2048_S2048x1_0 : (⟨S2048, .f32⟩ : BufTy).Contents (Elt F) → (⟨S2048x1, .f32⟩ : BufTy).Contents (Elt F)),
    nullary main_cst_20 (constant S_ .f32 0x43000000#32),
    unary main_cst_20 main_v145 (broadcastInDim S2048x1 ![] bcast_S_S2048x1 : (⟨S_, .f32⟩ : BufTy).Contents (Elt F) → (⟨S2048x1, .f32⟩ : BufTy).Contents (Elt F)),
    binary main_v144 main_v145 main_v146 (Host.divf : (⟨S2048x1, .f32⟩ : BufTy).Contents (Elt F) → (⟨S2048x1, .f32⟩ : BufTy).Contents (Elt F) → (⟨S2048x1, .f32⟩ : BufTy).Contents (Elt F)),
    unary main_v146 main_v147 (broadcastInDim S2048x128 ![0, 1] bcast_S2048x1_S2048x128_0_1 : (⟨S2048x1, .f32⟩ : BufTy).Contents (Elt F) → (⟨S2048x128, .f32⟩ : BufTy).Contents (Elt F)),
    binary main_v142 main_v147 main_v148 (subf : (⟨S2048x128, .f32⟩ : BufTy).Contents (Elt F) → (⟨S2048x128, .f32⟩ : BufTy).Contents (Elt F) → (⟨S2048x128, .f32⟩ : BufTy).Contents (Elt F)),
    binary main_v148 main_v148 main_v149 (mulf : (⟨S2048x128, .f32⟩ : BufTy).Contents (Elt F) → (⟨S2048x128, .f32⟩ : BufTy).Contents (Elt F) → (⟨S2048x128, .f32⟩ : BufTy).Contents (Elt F)),
    nullary main_cst_21 (constant S_ .f32 0x00000000#32),
    binary main_v149 main_cst_21 main_v150 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v150 main_v151 (broadcastInDim S2048x1 ![0] bcast_S2048_S2048x1_0 : (⟨S2048, .f32⟩ : BufTy).Contents (Elt F) → (⟨S2048x1, .f32⟩ : BufTy).Contents (Elt F)),
    nullary main_cst_22 (constant S_ .f32 0x43000000#32),
    unary main_cst_22 main_v152 (broadcastInDim S2048x1 ![] bcast_S_S2048x1 : (⟨S_, .f32⟩ : BufTy).Contents (Elt F) → (⟨S2048x1, .f32⟩ : BufTy).Contents (Elt F)),
    binary main_v151 main_v152 main_v153 (Host.divf : (⟨S2048x1, .f32⟩ : BufTy).Contents (Elt F) → (⟨S2048x1, .f32⟩ : BufTy).Contents (Elt F) → (⟨S2048x1, .f32⟩ : BufTy).Contents (Elt F)),
    unary main_v146 main_v154 (broadcastInDim S2048x128 ![0, 1] bcast_S2048x1_S2048x128_0_1 : (⟨S2048x1, .f32⟩ : BufTy).Contents (Elt F) → (⟨S2048x128, .f32⟩ : BufTy).Contents (Elt F)),
    binary main_v142 main_v154 main_v155 (subf : (⟨S2048x128, .f32⟩ : BufTy).Contents (Elt F) → (⟨S2048x128, .f32⟩ : BufTy).Contents (Elt F) → (⟨S2048x128, .f32⟩ : BufTy).Contents (Elt F)) ]

theorem part2_eq (d : Dev nD) : main_part2 (F := F) d = seq win2 := rfl

theorem win2_sub : (win2 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub ..⟩

theorem win2_fresh : ∀ op ∈ (win2 : List (HloOp τ sig (Elt F))), op.fresh = ∅ := by
  intro _ h; (repeat (cases h with | head => rfl | tail _ h => ?_)); exact nomatch h

/-- The operations of window 3 of the program, in order (a called function's operations stand in its call's place). -/
def win3 : List (HloOp τ sig (Elt F)) :=
  [ nullary main_cst_23 (constant S_ .f32 0x3727C5AC#32),
    unary main_cst_23 main_v156 (broadcastInDim S2048x1 ![] bcast_S_S2048x1 : (⟨S_, .f32⟩ : BufTy).Contents (Elt F) → (⟨S2048x1, .f32⟩ : BufTy).Contents (Elt F)),
    binary main_v153 main_v156 main_v157 (addf : (⟨S2048x1, .f32⟩ : BufTy).Contents (Elt F) → (⟨S2048x1, .f32⟩ : BufTy).Contents (Elt F) → (⟨S2048x1, .f32⟩ : BufTy).Contents (Elt F)),
    unary main_v157 main_v158 (Host.sqrt : (⟨S2048x1, .f32⟩ : BufTy).Contents (Elt F) → (⟨S2048x1, .f32⟩ : BufTy).Contents (Elt F)),
    unary main_v158 main_v159 (broadcastInDim S2048x128 ![0, 1] bcast_S2048x1_S2048x128_0_1 : (⟨S2048x1, .f32⟩ : BufTy).Contents (Elt F) → (⟨S2048x128, .f32⟩ : BufTy).Contents (Elt F)),
    binary main_v155 main_v159 main_v160 (Host.divf : (⟨S2048x128, .f32⟩ : BufTy).Contents (Elt F) → (⟨S2048x128, .f32⟩ : BufTy).Contents (Elt F) → (⟨S2048x128, .f32⟩ : BufTy).Contents (Elt F)),
    unary main_arg8 main_v161 (broadcastInDim S1x128 ![1] bcast_S128_S1x128_1 : (⟨S128, .f32⟩ : BufTy).Contents (Elt F) → (⟨S1x128, .f32⟩ : BufTy).Contents (Elt F)),
    unary main_v161 main_v162 (broadcastInDim S2048x128 ![0, 1] bcast_S1x128_S2048x128_0_1 : (⟨S1x128, .f32⟩ : BufTy).Contents (Elt F) → (⟨S2048x128, .f32⟩ : BufTy).Contents (Elt F)),
    binary main_v160 main_v162 main_v163 (mulf : (⟨S2048x128, .f32⟩ : BufTy).Contents (Elt F) → (⟨S2048x128, .f32⟩ : BufTy).Contents (Elt F) → (⟨S2048x128, .f32⟩ : BufTy).Contents (Elt F)),
    unary main_arg9 main_v164 (broadcastInDim S1x128 ![1] bcast_S128_S1x128_1 : (⟨S128, .f32⟩ : BufTy).Contents (Elt F) → (⟨S1x128, .f32⟩ : BufTy).Contents (Elt F)),
    unary main_v164 main_v165 (broadcastInDim S2048x128 ![0, 1] bcast_S1x128_S2048x128_0_1 : (⟨S1x128, .f32⟩ : BufTy).Contents (Elt F) → (⟨S2048x128, .f32⟩ : BufTy).Contents (Elt F)),
    binary main_v163 main_v165 main_v166 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048x128, .f32⟩) main_call4_v0) (broadcastInDim S2048x128 ![] bcast_S_S2048x128),
    TRef.binary (TRef.of (T := ⟨S2048x128, .f32⟩) main_v166) (TRef.of (T := ⟨S2048x128, .f32⟩) main_call4_v0) (TRef.of (T := ⟨S2048x128, .f32⟩) main_v167) maximumf,
    binary main_v167 main_arg10 main_v168 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v101 main_v169 ((transpose S2048x2048 [1, 0] · transposes_S2048x2048_S2048x2048_1_0) : (⟨S2048x2048, .f32⟩ : BufTy).Contents (Elt F) → (⟨S2048x2048, .f32⟩ : BufTy).Contents (Elt F)),
    binary main_v169 main_v168 main_v170 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg11 main_v171 (broadcastInDim S1x128 ![1] bcast_S128_S1x128_1 : (⟨S128, .f32⟩ : BufTy).Contents (Elt F) → (⟨S1x128, .f32⟩ : BufTy).Contents (Elt F)),
    unary main_v171 main_v172 (broadcastInDim S2048x128 ![0, 1] bcast_S1x128_S2048x128_0_1 : (⟨S1x128, .f32⟩ : BufTy).Contents (Elt F) → (⟨S2048x128, .f32⟩ : BufTy).Contents (Elt F)),
    binary main_v170 main_v172 main_v173 (addf : (⟨S2048x128, .f32⟩ : BufTy).Contents (Elt F) → (⟨S2048x128, .f32⟩ : BufTy).Contents (Elt F) → (⟨S2048x128, .f32⟩ : BufTy).Contents (Elt F)),
    binary main_v173 main_v167 main_v174 (addf : (⟨S2048x128, .f32⟩ : BufTy).Contents (Elt F) → (⟨S2048x128, .f32⟩ : BufTy).Contents (Elt F) → (⟨S2048x128, .f32⟩ : BufTy).Contents (Elt F)),
    nullary main_cst_24 (constant S_ .f32 0x00000000#32),
    binary main_v174 main_cst_24 main_v175 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v175 main_v176 (broadcastInDim S2048x1 ![0] bcast_S2048_S2048x1_0 : (⟨S2048, .f32⟩ : BufTy).Contents (Elt F) → (⟨S2048x1, .f32⟩ : BufTy).Contents (Elt F)),
    nullary main_cst_25 (constant S_ .f32 0x43000000#32),
    unary main_cst_25 main_v177 (broadcastInDim S2048x1 ![] bcast_S_S2048x1 : (⟨S_, .f32⟩ : BufTy).Contents (Elt F) → (⟨S2048x1, .f32⟩ : BufTy).Contents (Elt F)),
    binary main_v176 main_v177 main_v178 (Host.divf : (⟨S2048x1, .f32⟩ : BufTy).Contents (Elt F) → (⟨S2048x1, .f32⟩ : BufTy).Contents (Elt F) → (⟨S2048x1, .f32⟩ : BufTy).Contents (Elt F)),
    unary main_v178 main_v179 (broadcastInDim S2048x128 ![0, 1] bcast_S2048x1_S2048x128_0_1 : (⟨S2048x1, .f32⟩ : BufTy).Contents (Elt F) → (⟨S2048x128, .f32⟩ : BufTy).Contents (Elt F)),
    binary main_v174 main_v179 main_v180 (subf : (⟨S2048x128, .f32⟩ : BufTy).Contents (Elt F) → (⟨S2048x128, .f32⟩ : BufTy).Contents (Elt F) → (⟨S2048x128, .f32⟩ : BufTy).Contents (Elt F)),
    binary main_v180 main_v180 main_v181 (mulf : (⟨S2048x128, .f32⟩ : BufTy).Contents (Elt F) → (⟨S2048x128, .f32⟩ : BufTy).Contents (Elt F) → (⟨S2048x128, .f32⟩ : BufTy).Contents (Elt F)),
    nullary main_cst_26 (constant S_ .f32 0x00000000#32),
    binary main_v181 main_cst_26 main_v182 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v182 main_v183 (broadcastInDim S2048x1 ![0] bcast_S2048_S2048x1_0 : (⟨S2048, .f32⟩ : BufTy).Contents (Elt F) → (⟨S2048x1, .f32⟩ : BufTy).Contents (Elt F)),
    nullary main_cst_27 (constant S_ .f32 0x43000000#32),
    unary main_cst_27 main_v184 (broadcastInDim S2048x1 ![] bcast_S_S2048x1 : (⟨S_, .f32⟩ : BufTy).Contents (Elt F) → (⟨S2048x1, .f32⟩ : BufTy).Contents (Elt F)),
    binary main_v183 main_v184 main_v185 (Host.divf : (⟨S2048x1, .f32⟩ : BufTy).Contents (Elt F) → (⟨S2048x1, .f32⟩ : BufTy).Contents (Elt F) → (⟨S2048x1, .f32⟩ : BufTy).Contents (Elt F)),
    unary main_v178 main_v186 (broadcastInDim S2048x128 ![0, 1] bcast_S2048x1_S2048x128_0_1 : (⟨S2048x1, .f32⟩ : BufTy).Contents (Elt F) → (⟨S2048x128, .f32⟩ : BufTy).Contents (Elt F)),
    binary main_v174 main_v186 main_v187 (subf : (⟨S2048x128, .f32⟩ : BufTy).Contents (Elt F) → (⟨S2048x128, .f32⟩ : BufTy).Contents (Elt F) → (⟨S2048x128, .f32⟩ : BufTy).Contents (Elt F)),
    nullary main_cst_28 (constant S_ .f32 0x3727C5AC#32),
    unary main_cst_28 main_v188 (broadcastInDim S2048x1 ![] bcast_S_S2048x1 : (⟨S_, .f32⟩ : BufTy).Contents (Elt F) → (⟨S2048x1, .f32⟩ : BufTy).Contents (Elt F)),
    binary main_v185 main_v188 main_v189 (addf : (⟨S2048x1, .f32⟩ : BufTy).Contents (Elt F) → (⟨S2048x1, .f32⟩ : BufTy).Contents (Elt F) → (⟨S2048x1, .f32⟩ : BufTy).Contents (Elt F)),
    unary main_v189 main_v190 (Host.sqrt : (⟨S2048x1, .f32⟩ : BufTy).Contents (Elt F) → (⟨S2048x1, .f32⟩ : BufTy).Contents (Elt F)),
    unary main_v190 main_v191 (broadcastInDim S2048x128 ![0, 1] bcast_S2048x1_S2048x128_0_1 : (⟨S2048x1, .f32⟩ : BufTy).Contents (Elt F) → (⟨S2048x128, .f32⟩ : BufTy).Contents (Elt F)),
    binary main_v187 main_v191 main_v192 (Host.divf : (⟨S2048x128, .f32⟩ : BufTy).Contents (Elt F) → (⟨S2048x128, .f32⟩ : BufTy).Contents (Elt F) → (⟨S2048x128, .f32⟩ : BufTy).Contents (Elt F)),
    unary main_arg12 main_v193 (broadcastInDim S1x128 ![1] bcast_S128_S1x128_1 : (⟨S128, .f32⟩ : BufTy).Contents (Elt F) → (⟨S1x128, .f32⟩ : BufTy).Contents (Elt F)),
    unary main_v193 main_v194 (broadcastInDim S2048x128 ![0, 1] bcast_S1x128_S2048x128_0_1 : (⟨S1x128, .f32⟩ : BufTy).Contents (Elt F) → (⟨S2048x128, .f32⟩ : BufTy).Contents (Elt F)),
    binary main_v192 main_v194 main_v195 (mulf : (⟨S2048x128, .f32⟩ : BufTy).Contents (Elt F) → (⟨S2048x128, .f32⟩ : BufTy).Contents (Elt F) → (⟨S2048x128, .f32⟩ : BufTy).Contents (Elt F)),
    unary main_arg13 main_v196 (broadcastInDim S1x128 ![1] bcast_S128_S1x128_1 : (⟨S128, .f32⟩ : BufTy).Contents (Elt F) → (⟨S1x128, .f32⟩ : BufTy).Contents (Elt F)),
    unary main_v196 main_v197 (broadcastInDim S2048x128 ![0, 1] bcast_S1x128_S2048x128_0_1 : (⟨S1x128, .f32⟩ : BufTy).Contents (Elt F) → (⟨S2048x128, .f32⟩ : BufTy).Contents (Elt F)),
    binary main_v195 main_v197 main_v198 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S2048x128, .f32⟩) main_call5_v0) (broadcastInDim S2048x128 ![] bcast_S_S2048x128),
    TRef.binary (TRef.of (T := ⟨S2048x128, .f32⟩) main_v198) (TRef.of (T := ⟨S2048x128, .f32⟩) main_call5_v0) (TRef.of (T := ⟨S2048x128, .f32⟩) main_v199) maximumf,
    unary main_arg1 main_v200 ((extractStridedSlice S1x2048x2048 ![2, 0, 0] · slices_S4x2048x2048_S1x2048x2048_2_0_0) : (⟨S4x2048x2048, .f32⟩ : BufTy).Contents (Elt F) → (⟨S1x2048x2048, .f32⟩ : BufTy).Contents (Elt F)),
    reshape main_v200 main_v201 rfl shapeCasts_S1x2048x2048_S2048x2048,
    unary main_arg0 main_v202 ((extractStridedSlice S1x2048x128 ![2, 0, 0] · slices_S4x2048x128_S1x2048x128_2_0_0) : (⟨S4x2048x128, .f32⟩ : BufTy).Contents (Elt F) → (⟨S1x2048x128, .f32⟩ : BufTy).Contents (Elt F)),
    reshape main_v202 main_v203 rfl shapeCasts_S1x2048x128_S2048x128,
    binary main_v203 main_arg2 main_v204 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v201 main_v205 ((transpose S2048x2048 [1, 0] · transposes_S2048x2048_S2048x2048_1_0) : (⟨S2048x2048, .f32⟩ : BufTy).Contents (Elt F) → (⟨S2048x2048, .f32⟩ : BufTy).Contents (Elt F)),
    binary main_v205 main_v204 main_v206 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg3 main_v207 (broadcastInDim S1x128 ![1] bcast_S128_S1x128_1 : (⟨S128, .f32⟩ : BufTy).Contents (Elt F) → (⟨S1x128, .f32⟩ : BufTy).Contents (Elt F)),
    unary main_v207 main_v208 (broadcastInDim S2048x128 ![0, 1] bcast_S1x128_S2048x128_0_1 : (⟨S1x128, .f32⟩ : BufTy).Contents (Elt F) → (⟨S2048x128, .f32⟩ : BufTy).Contents (Elt F)),
    binary main_v206 main_v208 main_v209 (addf : (⟨S2048x128, .f32⟩ : BufTy).Contents (Elt F) → (⟨S2048x128, .f32⟩ : BufTy).Contents (Elt F) → (⟨S2048x128, .f32⟩ : BufTy).Contents (Elt F)) ]

theorem part3_eq (d : Dev nD) : main_part3 (F := F) d = seq win3 := rfl

theorem win3_sub : (win3 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., binary_bufs_sub .., unary_bufs_sub .., unary_bufs_sub .., binary_bufs_sub ..⟩

theorem win3_fresh : ∀ op ∈ (win3 : List (HloOp τ sig (Elt F))), op.fresh = ∅ := by
  intro _ h; (repeat (cases h with | head => rfl | tail _ h => ?_)); exact nomatch h

/-- The operations of window 4 of the program, in order (a called function's operations stand in its call's place). -/
def win4 : List (HloOp τ sig (Elt F)) :=
  [ binary main_v209 main_v203 main_v210 (addf : (⟨S2048x128, .f32⟩ : BufTy).Contents (Elt F) → (⟨S2048x128, .f32⟩ : BufTy).Contents (Elt F) → (⟨S2048x128, .f32⟩ : BufTy).Contents (Elt F)),
    nullary main_cst_29 (constant S_ .f32 0x00000000#32),
    binary main_v210 main_cst_29 main_v211 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v211 main_v212 (broadcastInDim S2048x1 ![0] bcast_S2048_S2048x1_0 : (⟨S2048, .f32⟩ : BufTy).Contents (Elt F) → (⟨S2048x1, .f32⟩ : BufTy).Contents (Elt F)),
    nullary main_cst_30 (constant S_ .f32 0x43000000#32),
    unary main_cst_30 main_v213 (broadcastInDim S2048x1 ![] bcast_S_S2048x1 : (⟨S_, .f32⟩ : BufTy).Contents (Elt F) → (⟨S2048x1, .f32⟩ : BufTy).Contents (Elt F)),
    binary main_v212 main_v213 main_v214 (Host.divf : (⟨S2048x1, .f32⟩ : BufTy).Contents (Elt F) → (⟨S2048x1, .f32⟩ : BufTy).Contents (Elt F) → (⟨S2048x1, .f32⟩ : BufTy).Contents (Elt F)),
    unary main_v214 main_v215 (broadcastInDim S2048x128 ![0, 1] bcast_S2048x1_S2048x128_0_1 : (⟨S2048x1, .f32⟩ : BufTy).Contents (Elt F) → (⟨S2048x128, .f32⟩ : BufTy).Contents (Elt F)),
    binary main_v210 main_v215 main_v216 (subf : (⟨S2048x128, .f32⟩ : BufTy).Contents (Elt F) → (⟨S2048x128, .f32⟩ : BufTy).Contents (Elt F) → (⟨S2048x128, .f32⟩ : BufTy).Contents (Elt F)),
    binary main_v216 main_v216 main_v217 (mulf : (⟨S2048x128, .f32⟩ : BufTy).Contents (Elt F) → (⟨S2048x128, .f32⟩ : BufTy).Contents (Elt F) → (⟨S2048x128, .f32⟩ : BufTy).Contents (Elt F)),
    nullary main_cst_31 (constant S_ .f32 0x00000000#32),
    binary main_v217 main_cst_31 main_v218 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v218 main_v219 (broadcastInDim S2048x1 ![0] bcast_S2048_S2048x1_0 : (⟨S2048, .f32⟩ : BufTy).Contents (Elt F) → (⟨S2048x1, .f32⟩ : BufTy).Contents (Elt F)),
    nullary main_cst_32 (constant S_ .f32 0x43000000#32),
    unary main_cst_32 main_v220 (broadcastInDim S2048x1 ![] bcast_S_S2048x1 : (⟨S_, .f32⟩ : BufTy).Contents (Elt F) → (⟨S2048x1, .f32⟩ : BufTy).Contents (Elt F)),
    binary main_v219 main_v220 main_v221 (Host.divf : (⟨S2048x1, .f32⟩ : BufTy).Contents (Elt F) → (⟨S2048x1, .f32⟩ : BufTy).Contents (Elt F) → (⟨S2048x1, .f32⟩ : BufTy).Contents (Elt F)),
    unary main_v214 main_v222 (broadcastInDim S2048x128 ![0, 1] bcast_S2048x1_S2048x128_0_1 : (⟨S2048x1, .f32⟩ : BufTy).Contents (Elt F) → (⟨S2048x128, .f32⟩ : BufTy).Contents (Elt F)),
    binary main_v210 main_v222 main_v223 (subf : (⟨S2048x128, .f32⟩ : BufTy).Contents (Elt F) → (⟨S2048x128, .f32⟩ : BufTy).Contents (Elt F) → (⟨S2048x128, .f32⟩ : BufTy).Contents (Elt F)),
    nullary main_cst_33 (constant S_ .f32 0x3727C5AC#32),
    unary main_cst_33 main_v224 (broadcastInDim S2048x1 ![] bcast_S_S2048x1 : (⟨S_, .f32⟩ : BufTy).Contents (Elt F) → (⟨S2048x1, .f32⟩ : BufTy).Contents (Elt F)),
    binary main_v221 main_v224 main_v225 (addf : (⟨S2048x1, .f32⟩ : BufTy).Contents (Elt F) → (⟨S2048x1, .f32⟩ : BufTy).Contents (Elt F) → (⟨S2048x1, .f32⟩ : BufTy).Contents (Elt F)),
    unary main_v225 main_v226 (Host.sqrt : (⟨S2048x1, .f32⟩ : BufTy).Contents (Elt F) → (⟨S2048x1, .f32⟩ : BufTy).Contents (Elt F)),
    unary main_v226 main_v227 (broadcastInDim S2048x128 ![0, 1] bcast_S2048x1_S2048x128_0_1 : (⟨S2048x1, .f32⟩ : BufTy).Contents (Elt F) → (⟨S2048x128, .f32⟩ : BufTy).Contents (Elt F)),
    binary main_v223 main_v227 main_v228 (Host.divf : (⟨S2048x128, .f32⟩ : BufTy).Contents (Elt F) → (⟨S2048x128, .f32⟩ : BufTy).Contents (Elt F) → (⟨S2048x128, .f32⟩ : BufTy).Contents (Elt F)),
    unary main_arg4 main_v229 (broadcastInDim S1x128 ![1] bcast_S128_S1x128_1 : (⟨S128, .f32⟩ : BufTy).Contents (Elt F) → (⟨S1x128, .f32⟩ : BufTy).Contents (Elt F)),
    unary main_v229 main_v230 (broadcastInDim S2048x128 ![0, 1] bcast_S1x128_S2048x128_0_1 : (⟨S1x128, .f32⟩ : BufTy).Contents (Elt F) → (⟨S2048x128, .f32⟩ : BufTy).Contents (Elt F)),
    binary main_v228 main_v230 main_v231 (mulf : (⟨S2048x128, .f32⟩ : BufTy).Contents (Elt F) → (⟨S2048x128, .f32⟩ : BufTy).Contents (Elt F) → (⟨S2048x128, .f32⟩ : BufTy).Contents (Elt F)),
    unary main_arg5 main_v232 (broadcastInDim S1x128 ![1] bcast_S128_S1x128_1 : (⟨S128, .f32⟩ : BufTy).Contents (Elt F) → (⟨S1x128, .f32⟩ : BufTy).Contents (Elt F)),
    unary main_v232 main_v233 (broadcastInDim S2048x128 ![0, 1] bcast_S1x128_S2048x128_0_1 : (⟨S1x128, .f32⟩ : BufTy).Contents (Elt F) → (⟨S2048x128, .f32⟩ : BufTy).Contents (Elt F)),
    binary main_v231 main_v233 main_v234 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S2048x128, .f32⟩) main_call6_v0) (broadcastInDim S2048x128 ![] bcast_S_S2048x128),
    TRef.binary (TRef.of (T := ⟨S2048x128, .f32⟩) main_v234) (TRef.of (T := ⟨S2048x128, .f32⟩) main_call6_v0) (TRef.of (T := ⟨S2048x128, .f32⟩) main_v235) maximumf,
    binary main_v235 main_arg6 main_v236 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v201 main_v237 ((transpose S2048x2048 [1, 0] · transposes_S2048x2048_S2048x2048_1_0) : (⟨S2048x2048, .f32⟩ : BufTy).Contents (Elt F) → (⟨S2048x2048, .f32⟩ : BufTy).Contents (Elt F)),
    binary main_v237 main_v236 main_v238 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg7 main_v239 (broadcastInDim S1x128 ![1] bcast_S128_S1x128_1 : (⟨S128, .f32⟩ : BufTy).Contents (Elt F) → (⟨S1x128, .f32⟩ : BufTy).Contents (Elt F)),
    unary main_v239 main_v240 (broadcastInDim S2048x128 ![0, 1] bcast_S1x128_S2048x128_0_1 : (⟨S1x128, .f32⟩ : BufTy).Contents (Elt F) → (⟨S2048x128, .f32⟩ : BufTy).Contents (Elt F)),
    binary main_v238 main_v240 main_v241 (addf : (⟨S2048x128, .f32⟩ : BufTy).Contents (Elt F) → (⟨S2048x128, .f32⟩ : BufTy).Contents (Elt F) → (⟨S2048x128, .f32⟩ : BufTy).Contents (Elt F)),
    binary main_v241 main_v235 main_v242 (addf : (⟨S2048x128, .f32⟩ : BufTy).Contents (Elt F) → (⟨S2048x128, .f32⟩ : BufTy).Contents (Elt F) → (⟨S2048x128, .f32⟩ : BufTy).Contents (Elt F)),
    nullary main_cst_34 (constant S_ .f32 0x00000000#32),
    binary main_v242 main_cst_34 main_v243 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v243 main_v244 (broadcastInDim S2048x1 ![0] bcast_S2048_S2048x1_0 : (⟨S2048, .f32⟩ : BufTy).Contents (Elt F) → (⟨S2048x1, .f32⟩ : BufTy).Contents (Elt F)),
    nullary main_cst_35 (constant S_ .f32 0x43000000#32),
    unary main_cst_35 main_v245 (broadcastInDim S2048x1 ![] bcast_S_S2048x1 : (⟨S_, .f32⟩ : BufTy).Contents (Elt F) → (⟨S2048x1, .f32⟩ : BufTy).Contents (Elt F)),
    binary main_v244 main_v245 main_v246 (Host.divf : (⟨S2048x1, .f32⟩ : BufTy).Contents (Elt F) → (⟨S2048x1, .f32⟩ : BufTy).Contents (Elt F) → (⟨S2048x1, .f32⟩ : BufTy).Contents (Elt F)),
    unary main_v246 main_v247 (broadcastInDim S2048x128 ![0, 1] bcast_S2048x1_S2048x128_0_1 : (⟨S2048x1, .f32⟩ : BufTy).Contents (Elt F) → (⟨S2048x128, .f32⟩ : BufTy).Contents (Elt F)),
    binary main_v242 main_v247 main_v248 (subf : (⟨S2048x128, .f32⟩ : BufTy).Contents (Elt F) → (⟨S2048x128, .f32⟩ : BufTy).Contents (Elt F) → (⟨S2048x128, .f32⟩ : BufTy).Contents (Elt F)),
    binary main_v248 main_v248 main_v249 (mulf : (⟨S2048x128, .f32⟩ : BufTy).Contents (Elt F) → (⟨S2048x128, .f32⟩ : BufTy).Contents (Elt F) → (⟨S2048x128, .f32⟩ : BufTy).Contents (Elt F)),
    nullary main_cst_36 (constant S_ .f32 0x00000000#32),
    binary main_v249 main_cst_36 main_v250 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v250 main_v251 (broadcastInDim S2048x1 ![0] bcast_S2048_S2048x1_0 : (⟨S2048, .f32⟩ : BufTy).Contents (Elt F) → (⟨S2048x1, .f32⟩ : BufTy).Contents (Elt F)),
    nullary main_cst_37 (constant S_ .f32 0x43000000#32),
    unary main_cst_37 main_v252 (broadcastInDim S2048x1 ![] bcast_S_S2048x1 : (⟨S_, .f32⟩ : BufTy).Contents (Elt F) → (⟨S2048x1, .f32⟩ : BufTy).Contents (Elt F)),
    binary main_v251 main_v252 main_v253 (Host.divf : (⟨S2048x1, .f32⟩ : BufTy).Contents (Elt F) → (⟨S2048x1, .f32⟩ : BufTy).Contents (Elt F) → (⟨S2048x1, .f32⟩ : BufTy).Contents (Elt F)),
    unary main_v246 main_v254 (broadcastInDim S2048x128 ![0, 1] bcast_S2048x1_S2048x128_0_1 : (⟨S2048x1, .f32⟩ : BufTy).Contents (Elt F) → (⟨S2048x128, .f32⟩ : BufTy).Contents (Elt F)),
    binary main_v242 main_v254 main_v255 (subf : (⟨S2048x128, .f32⟩ : BufTy).Contents (Elt F) → (⟨S2048x128, .f32⟩ : BufTy).Contents (Elt F) → (⟨S2048x128, .f32⟩ : BufTy).Contents (Elt F)),
    nullary main_cst_38 (constant S_ .f32 0x3727C5AC#32),
    unary main_cst_38 main_v256 (broadcastInDim S2048x1 ![] bcast_S_S2048x1 : (⟨S_, .f32⟩ : BufTy).Contents (Elt F) → (⟨S2048x1, .f32⟩ : BufTy).Contents (Elt F)),
    binary main_v253 main_v256 main_v257 (addf : (⟨S2048x1, .f32⟩ : BufTy).Contents (Elt F) → (⟨S2048x1, .f32⟩ : BufTy).Contents (Elt F) → (⟨S2048x1, .f32⟩ : BufTy).Contents (Elt F)),
    unary main_v257 main_v258 (Host.sqrt : (⟨S2048x1, .f32⟩ : BufTy).Contents (Elt F) → (⟨S2048x1, .f32⟩ : BufTy).Contents (Elt F)),
    unary main_v258 main_v259 (broadcastInDim S2048x128 ![0, 1] bcast_S2048x1_S2048x128_0_1 : (⟨S2048x1, .f32⟩ : BufTy).Contents (Elt F) → (⟨S2048x128, .f32⟩ : BufTy).Contents (Elt F)) ]

theorem part4_eq (d : Dev nD) : main_part4 (F := F) d = seq win4 := rfl

theorem win4_sub : (win4 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub ..⟩

theorem win4_fresh : ∀ op ∈ (win4 : List (HloOp τ sig (Elt F))), op.fresh = ∅ := by
  intro _ h; (repeat (cases h with | head => rfl | tail _ h => ?_)); exact nomatch h

/-- The operations of window 5 of the program, in order (a called function's operations stand in its call's place). -/
def win5 : List (HloOp τ sig (Elt F)) :=
  [ binary main_v255 main_v259 main_v260 (Host.divf : (⟨S2048x128, .f32⟩ : BufTy).Contents (Elt F) → (⟨S2048x128, .f32⟩ : BufTy).Contents (Elt F) → (⟨S2048x128, .f32⟩ : BufTy).Contents (Elt F)),
    unary main_arg8 main_v261 (broadcastInDim S1x128 ![1] bcast_S128_S1x128_1 : (⟨S128, .f32⟩ : BufTy).Contents (Elt F) → (⟨S1x128, .f32⟩ : BufTy).Contents (Elt F)),
    unary main_v261 main_v262 (broadcastInDim S2048x128 ![0, 1] bcast_S1x128_S2048x128_0_1 : (⟨S1x128, .f32⟩ : BufTy).Contents (Elt F) → (⟨S2048x128, .f32⟩ : BufTy).Contents (Elt F)),
    binary main_v260 main_v262 main_v263 (mulf : (⟨S2048x128, .f32⟩ : BufTy).Contents (Elt F) → (⟨S2048x128, .f32⟩ : BufTy).Contents (Elt F) → (⟨S2048x128, .f32⟩ : BufTy).Contents (Elt F)),
    unary main_arg9 main_v264 (broadcastInDim S1x128 ![1] bcast_S128_S1x128_1 : (⟨S128, .f32⟩ : BufTy).Contents (Elt F) → (⟨S1x128, .f32⟩ : BufTy).Contents (Elt F)),
    unary main_v264 main_v265 (broadcastInDim S2048x128 ![0, 1] bcast_S1x128_S2048x128_0_1 : (⟨S1x128, .f32⟩ : BufTy).Contents (Elt F) → (⟨S2048x128, .f32⟩ : BufTy).Contents (Elt F)),
    binary main_v263 main_v265 main_v266 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S2048x128, .f32⟩) main_call7_v0) (broadcastInDim S2048x128 ![] bcast_S_S2048x128),
    TRef.binary (TRef.of (T := ⟨S2048x128, .f32⟩) main_v266) (TRef.of (T := ⟨S2048x128, .f32⟩) main_call7_v0) (TRef.of (T := ⟨S2048x128, .f32⟩) main_v267) maximumf,
    binary main_v267 main_arg10 main_v268 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v201 main_v269 ((transpose S2048x2048 [1, 0] · transposes_S2048x2048_S2048x2048_1_0) : (⟨S2048x2048, .f32⟩ : BufTy).Contents (Elt F) → (⟨S2048x2048, .f32⟩ : BufTy).Contents (Elt F)),
    binary main_v269 main_v268 main_v270 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg11 main_v271 (broadcastInDim S1x128 ![1] bcast_S128_S1x128_1 : (⟨S128, .f32⟩ : BufTy).Contents (Elt F) → (⟨S1x128, .f32⟩ : BufTy).Contents (Elt F)),
    unary main_v271 main_v272 (broadcastInDim S2048x128 ![0, 1] bcast_S1x128_S2048x128_0_1 : (⟨S1x128, .f32⟩ : BufTy).Contents (Elt F) → (⟨S2048x128, .f32⟩ : BufTy).Contents (Elt F)),
    binary main_v270 main_v272 main_v273 (addf : (⟨S2048x128, .f32⟩ : BufTy).Contents (Elt F) → (⟨S2048x128, .f32⟩ : BufTy).Contents (Elt F) → (⟨S2048x128, .f32⟩ : BufTy).Contents (Elt F)),
    binary main_v273 main_v267 main_v274 (addf : (⟨S2048x128, .f32⟩ : BufTy).Contents (Elt F) → (⟨S2048x128, .f32⟩ : BufTy).Contents (Elt F) → (⟨S2048x128, .f32⟩ : BufTy).Contents (Elt F)),
    nullary main_cst_39 (constant S_ .f32 0x00000000#32),
    binary main_v274 main_cst_39 main_v275 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v275 main_v276 (broadcastInDim S2048x1 ![0] bcast_S2048_S2048x1_0 : (⟨S2048, .f32⟩ : BufTy).Contents (Elt F) → (⟨S2048x1, .f32⟩ : BufTy).Contents (Elt F)),
    nullary main_cst_40 (constant S_ .f32 0x43000000#32),
    unary main_cst_40 main_v277 (broadcastInDim S2048x1 ![] bcast_S_S2048x1 : (⟨S_, .f32⟩ : BufTy).Contents (Elt F) → (⟨S2048x1, .f32⟩ : BufTy).Contents (Elt F)),
    binary main_v276 main_v277 main_v278 (Host.divf : (⟨S2048x1, .f32⟩ : BufTy).Contents (Elt F) → (⟨S2048x1, .f32⟩ : BufTy).Contents (Elt F) → (⟨S2048x1, .f32⟩ : BufTy).Contents (Elt F)),
    unary main_v278 main_v279 (broadcastInDim S2048x128 ![0, 1] bcast_S2048x1_S2048x128_0_1 : (⟨S2048x1, .f32⟩ : BufTy).Contents (Elt F) → (⟨S2048x128, .f32⟩ : BufTy).Contents (Elt F)),
    binary main_v274 main_v279 main_v280 (subf : (⟨S2048x128, .f32⟩ : BufTy).Contents (Elt F) → (⟨S2048x128, .f32⟩ : BufTy).Contents (Elt F) → (⟨S2048x128, .f32⟩ : BufTy).Contents (Elt F)),
    binary main_v280 main_v280 main_v281 (mulf : (⟨S2048x128, .f32⟩ : BufTy).Contents (Elt F) → (⟨S2048x128, .f32⟩ : BufTy).Contents (Elt F) → (⟨S2048x128, .f32⟩ : BufTy).Contents (Elt F)),
    nullary main_cst_41 (constant S_ .f32 0x00000000#32),
    binary main_v281 main_cst_41 main_v282 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v282 main_v283 (broadcastInDim S2048x1 ![0] bcast_S2048_S2048x1_0 : (⟨S2048, .f32⟩ : BufTy).Contents (Elt F) → (⟨S2048x1, .f32⟩ : BufTy).Contents (Elt F)),
    nullary main_cst_42 (constant S_ .f32 0x43000000#32),
    unary main_cst_42 main_v284 (broadcastInDim S2048x1 ![] bcast_S_S2048x1 : (⟨S_, .f32⟩ : BufTy).Contents (Elt F) → (⟨S2048x1, .f32⟩ : BufTy).Contents (Elt F)),
    binary main_v283 main_v284 main_v285 (Host.divf : (⟨S2048x1, .f32⟩ : BufTy).Contents (Elt F) → (⟨S2048x1, .f32⟩ : BufTy).Contents (Elt F) → (⟨S2048x1, .f32⟩ : BufTy).Contents (Elt F)),
    unary main_v278 main_v286 (broadcastInDim S2048x128 ![0, 1] bcast_S2048x1_S2048x128_0_1 : (⟨S2048x1, .f32⟩ : BufTy).Contents (Elt F) → (⟨S2048x128, .f32⟩ : BufTy).Contents (Elt F)),
    binary main_v274 main_v286 main_v287 (subf : (⟨S2048x128, .f32⟩ : BufTy).Contents (Elt F) → (⟨S2048x128, .f32⟩ : BufTy).Contents (Elt F) → (⟨S2048x128, .f32⟩ : BufTy).Contents (Elt F)),
    nullary main_cst_43 (constant S_ .f32 0x3727C5AC#32),
    unary main_cst_43 main_v288 (broadcastInDim S2048x1 ![] bcast_S_S2048x1 : (⟨S_, .f32⟩ : BufTy).Contents (Elt F) → (⟨S2048x1, .f32⟩ : BufTy).Contents (Elt F)),
    binary main_v285 main_v288 main_v289 (addf : (⟨S2048x1, .f32⟩ : BufTy).Contents (Elt F) → (⟨S2048x1, .f32⟩ : BufTy).Contents (Elt F) → (⟨S2048x1, .f32⟩ : BufTy).Contents (Elt F)),
    unary main_v289 main_v290 (Host.sqrt : (⟨S2048x1, .f32⟩ : BufTy).Contents (Elt F) → (⟨S2048x1, .f32⟩ : BufTy).Contents (Elt F)),
    unary main_v290 main_v291 (broadcastInDim S2048x128 ![0, 1] bcast_S2048x1_S2048x128_0_1 : (⟨S2048x1, .f32⟩ : BufTy).Contents (Elt F) → (⟨S2048x128, .f32⟩ : BufTy).Contents (Elt F)),
    binary main_v287 main_v291 main_v292 (Host.divf : (⟨S2048x128, .f32⟩ : BufTy).Contents (Elt F) → (⟨S2048x128, .f32⟩ : BufTy).Contents (Elt F) → (⟨S2048x128, .f32⟩ : BufTy).Contents (Elt F)),
    unary main_arg12 main_v293 (broadcastInDim S1x128 ![1] bcast_S128_S1x128_1 : (⟨S128, .f32⟩ : BufTy).Contents (Elt F) → (⟨S1x128, .f32⟩ : BufTy).Contents (Elt F)),
    unary main_v293 main_v294 (broadcastInDim S2048x128 ![0, 1] bcast_S1x128_S2048x128_0_1 : (⟨S1x128, .f32⟩ : BufTy).Contents (Elt F) → (⟨S2048x128, .f32⟩ : BufTy).Contents (Elt F)),
    binary main_v292 main_v294 main_v295 (mulf : (⟨S2048x128, .f32⟩ : BufTy).Contents (Elt F) → (⟨S2048x128, .f32⟩ : BufTy).Contents (Elt F) → (⟨S2048x128, .f32⟩ : BufTy).Contents (Elt F)),
    unary main_arg13 main_v296 (broadcastInDim S1x128 ![1] bcast_S128_S1x128_1 : (⟨S128, .f32⟩ : BufTy).Contents (Elt F) → (⟨S1x128, .f32⟩ : BufTy).Contents (Elt F)),
    unary main_v296 main_v297 (broadcastInDim S2048x128 ![0, 1] bcast_S1x128_S2048x128_0_1 : (⟨S1x128, .f32⟩ : BufTy).Contents (Elt F) → (⟨S2048x128, .f32⟩ : BufTy).Contents (Elt F)),
    binary main_v295 main_v297 main_v298 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S2048x128, .f32⟩) main_call8_v0) (broadcastInDim S2048x128 ![] bcast_S_S2048x128),
    TRef.binary (TRef.of (T := ⟨S2048x128, .f32⟩) main_v298) (TRef.of (T := ⟨S2048x128, .f32⟩) main_call8_v0) (TRef.of (T := ⟨S2048x128, .f32⟩) main_v299) maximumf,
    unary main_arg1 main_v300 ((extractStridedSlice S1x2048x2048 ![3, 0, 0] · slices_S4x2048x2048_S1x2048x2048_3_0_0) : (⟨S4x2048x2048, .f32⟩ : BufTy).Contents (Elt F) → (⟨S1x2048x2048, .f32⟩ : BufTy).Contents (Elt F)),
    reshape main_v300 main_v301 rfl shapeCasts_S1x2048x2048_S2048x2048,
    unary main_arg0 main_v302 ((extractStridedSlice S1x2048x128 ![3, 0, 0] · slices_S4x2048x128_S1x2048x128_3_0_0) : (⟨S4x2048x128, .f32⟩ : BufTy).Contents (Elt F) → (⟨S1x2048x128, .f32⟩ : BufTy).Contents (Elt F)),
    reshape main_v302 main_v303 rfl shapeCasts_S1x2048x128_S2048x128,
    binary main_v303 main_arg2 main_v304 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v301 main_v305 ((transpose S2048x2048 [1, 0] · transposes_S2048x2048_S2048x2048_1_0) : (⟨S2048x2048, .f32⟩ : BufTy).Contents (Elt F) → (⟨S2048x2048, .f32⟩ : BufTy).Contents (Elt F)),
    binary main_v305 main_v304 main_v306 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg3 main_v307 (broadcastInDim S1x128 ![1] bcast_S128_S1x128_1 : (⟨S128, .f32⟩ : BufTy).Contents (Elt F) → (⟨S1x128, .f32⟩ : BufTy).Contents (Elt F)),
    unary main_v307 main_v308 (broadcastInDim S2048x128 ![0, 1] bcast_S1x128_S2048x128_0_1 : (⟨S1x128, .f32⟩ : BufTy).Contents (Elt F) → (⟨S2048x128, .f32⟩ : BufTy).Contents (Elt F)),
    binary main_v306 main_v308 main_v309 (addf : (⟨S2048x128, .f32⟩ : BufTy).Contents (Elt F) → (⟨S2048x128, .f32⟩ : BufTy).Contents (Elt F) → (⟨S2048x128, .f32⟩ : BufTy).Contents (Elt F)),
    binary main_v309 main_v303 main_v310 (addf : (⟨S2048x128, .f32⟩ : BufTy).Contents (Elt F) → (⟨S2048x128, .f32⟩ : BufTy).Contents (Elt F) → (⟨S2048x128, .f32⟩ : BufTy).Contents (Elt F)),
    nullary main_cst_44 (constant S_ .f32 0x00000000#32),
    binary main_v310 main_cst_44 main_v311 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v311 main_v312 (broadcastInDim S2048x1 ![0] bcast_S2048_S2048x1_0 : (⟨S2048, .f32⟩ : BufTy).Contents (Elt F) → (⟨S2048x1, .f32⟩ : BufTy).Contents (Elt F)),
    nullary main_cst_45 (constant S_ .f32 0x43000000#32) ]

theorem part5_eq (d : Dev nD) : main_part5 (F := F) d = seq win5 := rfl

theorem win5_sub : (win5 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub ..⟩

theorem win5_fresh : ∀ op ∈ (win5 : List (HloOp τ sig (Elt F))), op.fresh = ∅ := by
  intro _ h; (repeat (cases h with | head => rfl | tail _ h => ?_)); exact nomatch h

/-- The operations of window 6 of the program, in order (a called function's operations stand in its call's place). -/
def win6 : List (HloOp τ sig (Elt F)) :=
  [ unary main_cst_45 main_v313 (broadcastInDim S2048x1 ![] bcast_S_S2048x1 : (⟨S_, .f32⟩ : BufTy).Contents (Elt F) → (⟨S2048x1, .f32⟩ : BufTy).Contents (Elt F)),
    binary main_v312 main_v313 main_v314 (Host.divf : (⟨S2048x1, .f32⟩ : BufTy).Contents (Elt F) → (⟨S2048x1, .f32⟩ : BufTy).Contents (Elt F) → (⟨S2048x1, .f32⟩ : BufTy).Contents (Elt F)),
    unary main_v314 main_v315 (broadcastInDim S2048x128 ![0, 1] bcast_S2048x1_S2048x128_0_1 : (⟨S2048x1, .f32⟩ : BufTy).Contents (Elt F) → (⟨S2048x128, .f32⟩ : BufTy).Contents (Elt F)),
    binary main_v310 main_v315 main_v316 (subf : (⟨S2048x128, .f32⟩ : BufTy).Contents (Elt F) → (⟨S2048x128, .f32⟩ : BufTy).Contents (Elt F) → (⟨S2048x128, .f32⟩ : BufTy).Contents (Elt F)),
    binary main_v316 main_v316 main_v317 (mulf : (⟨S2048x128, .f32⟩ : BufTy).Contents (Elt F) → (⟨S2048x128, .f32⟩ : BufTy).Contents (Elt F) → (⟨S2048x128, .f32⟩ : BufTy).Contents (Elt F)),
    nullary main_cst_46 (constant S_ .f32 0x00000000#32),
    binary main_v317 main_cst_46 main_v318 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v318 main_v319 (broadcastInDim S2048x1 ![0] bcast_S2048_S2048x1_0 : (⟨S2048, .f32⟩ : BufTy).Contents (Elt F) → (⟨S2048x1, .f32⟩ : BufTy).Contents (Elt F)),
    nullary main_cst_47 (constant S_ .f32 0x43000000#32),
    unary main_cst_47 main_v320 (broadcastInDim S2048x1 ![] bcast_S_S2048x1 : (⟨S_, .f32⟩ : BufTy).Contents (Elt F) → (⟨S2048x1, .f32⟩ : BufTy).Contents (Elt F)),
    binary main_v319 main_v320 main_v321 (Host.divf : (⟨S2048x1, .f32⟩ : BufTy).Contents (Elt F) → (⟨S2048x1, .f32⟩ : BufTy).Contents (Elt F) → (⟨S2048x1, .f32⟩ : BufTy).Contents (Elt F)),
    unary main_v314 main_v322 (broadcastInDim S2048x128 ![0, 1] bcast_S2048x1_S2048x128_0_1 : (⟨S2048x1, .f32⟩ : BufTy).Contents (Elt F) → (⟨S2048x128, .f32⟩ : BufTy).Contents (Elt F)),
    binary main_v310 main_v322 main_v323 (subf : (⟨S2048x128, .f32⟩ : BufTy).Contents (Elt F) → (⟨S2048x128, .f32⟩ : BufTy).Contents (Elt F) → (⟨S2048x128, .f32⟩ : BufTy).Contents (Elt F)),
    nullary main_cst_48 (constant S_ .f32 0x3727C5AC#32),
    unary main_cst_48 main_v324 (broadcastInDim S2048x1 ![] bcast_S_S2048x1 : (⟨S_, .f32⟩ : BufTy).Contents (Elt F) → (⟨S2048x1, .f32⟩ : BufTy).Contents (Elt F)),
    binary main_v321 main_v324 main_v325 (addf : (⟨S2048x1, .f32⟩ : BufTy).Contents (Elt F) → (⟨S2048x1, .f32⟩ : BufTy).Contents (Elt F) → (⟨S2048x1, .f32⟩ : BufTy).Contents (Elt F)),
    unary main_v325 main_v326 (Host.sqrt : (⟨S2048x1, .f32⟩ : BufTy).Contents (Elt F) → (⟨S2048x1, .f32⟩ : BufTy).Contents (Elt F)),
    unary main_v326 main_v327 (broadcastInDim S2048x128 ![0, 1] bcast_S2048x1_S2048x128_0_1 : (⟨S2048x1, .f32⟩ : BufTy).Contents (Elt F) → (⟨S2048x128, .f32⟩ : BufTy).Contents (Elt F)),
    binary main_v323 main_v327 main_v328 (Host.divf : (⟨S2048x128, .f32⟩ : BufTy).Contents (Elt F) → (⟨S2048x128, .f32⟩ : BufTy).Contents (Elt F) → (⟨S2048x128, .f32⟩ : BufTy).Contents (Elt F)),
    unary main_arg4 main_v329 (broadcastInDim S1x128 ![1] bcast_S128_S1x128_1 : (⟨S128, .f32⟩ : BufTy).Contents (Elt F) → (⟨S1x128, .f32⟩ : BufTy).Contents (Elt F)),
    unary main_v329 main_v330 (broadcastInDim S2048x128 ![0, 1] bcast_S1x128_S2048x128_0_1 : (⟨S1x128, .f32⟩ : BufTy).Contents (Elt F) → (⟨S2048x128, .f32⟩ : BufTy).Contents (Elt F)),
    binary main_v328 main_v330 main_v331 (mulf : (⟨S2048x128, .f32⟩ : BufTy).Contents (Elt F) → (⟨S2048x128, .f32⟩ : BufTy).Contents (Elt F) → (⟨S2048x128, .f32⟩ : BufTy).Contents (Elt F)),
    unary main_arg5 main_v332 (broadcastInDim S1x128 ![1] bcast_S128_S1x128_1 : (⟨S128, .f32⟩ : BufTy).Contents (Elt F) → (⟨S1x128, .f32⟩ : BufTy).Contents (Elt F)),
    unary main_v332 main_v333 (broadcastInDim S2048x128 ![0, 1] bcast_S1x128_S2048x128_0_1 : (⟨S1x128, .f32⟩ : BufTy).Contents (Elt F) → (⟨S2048x128, .f32⟩ : BufTy).Contents (Elt F)),
    binary main_v331 main_v333 main_v334 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S2048x128, .f32⟩) main_call9_v0) (broadcastInDim S2048x128 ![] bcast_S_S2048x128),
    TRef.binary (TRef.of (T := ⟨S2048x128, .f32⟩) main_v334) (TRef.of (T := ⟨S2048x128, .f32⟩) main_call9_v0) (TRef.of (T := ⟨S2048x128, .f32⟩) main_v335) maximumf,
    binary main_v335 main_arg6 main_v336 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v301 main_v337 ((transpose S2048x2048 [1, 0] · transposes_S2048x2048_S2048x2048_1_0) : (⟨S2048x2048, .f32⟩ : BufTy).Contents (Elt F) → (⟨S2048x2048, .f32⟩ : BufTy).Contents (Elt F)),
    binary main_v337 main_v336 main_v338 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg7 main_v339 (broadcastInDim S1x128 ![1] bcast_S128_S1x128_1 : (⟨S128, .f32⟩ : BufTy).Contents (Elt F) → (⟨S1x128, .f32⟩ : BufTy).Contents (Elt F)),
    unary main_v339 main_v340 (broadcastInDim S2048x128 ![0, 1] bcast_S1x128_S2048x128_0_1 : (⟨S1x128, .f32⟩ : BufTy).Contents (Elt F) → (⟨S2048x128, .f32⟩ : BufTy).Contents (Elt F)),
    binary main_v338 main_v340 main_v341 (addf : (⟨S2048x128, .f32⟩ : BufTy).Contents (Elt F) → (⟨S2048x128, .f32⟩ : BufTy).Contents (Elt F) → (⟨S2048x128, .f32⟩ : BufTy).Contents (Elt F)),
    binary main_v341 main_v335 main_v342 (addf : (⟨S2048x128, .f32⟩ : BufTy).Contents (Elt F) → (⟨S2048x128, .f32⟩ : BufTy).Contents (Elt F) → (⟨S2048x128, .f32⟩ : BufTy).Contents (Elt F)),
    nullary main_cst_49 (constant S_ .f32 0x00000000#32),
    binary main_v342 main_cst_49 main_v343 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v343 main_v344 (broadcastInDim S2048x1 ![0] bcast_S2048_S2048x1_0 : (⟨S2048, .f32⟩ : BufTy).Contents (Elt F) → (⟨S2048x1, .f32⟩ : BufTy).Contents (Elt F)),
    nullary main_cst_50 (constant S_ .f32 0x43000000#32),
    unary main_cst_50 main_v345 (broadcastInDim S2048x1 ![] bcast_S_S2048x1 : (⟨S_, .f32⟩ : BufTy).Contents (Elt F) → (⟨S2048x1, .f32⟩ : BufTy).Contents (Elt F)),
    binary main_v344 main_v345 main_v346 (Host.divf : (⟨S2048x1, .f32⟩ : BufTy).Contents (Elt F) → (⟨S2048x1, .f32⟩ : BufTy).Contents (Elt F) → (⟨S2048x1, .f32⟩ : BufTy).Contents (Elt F)),
    unary main_v346 main_v347 (broadcastInDim S2048x128 ![0, 1] bcast_S2048x1_S2048x128_0_1 : (⟨S2048x1, .f32⟩ : BufTy).Contents (Elt F) → (⟨S2048x128, .f32⟩ : BufTy).Contents (Elt F)),
    binary main_v342 main_v347 main_v348 (subf : (⟨S2048x128, .f32⟩ : BufTy).Contents (Elt F) → (⟨S2048x128, .f32⟩ : BufTy).Contents (Elt F) → (⟨S2048x128, .f32⟩ : BufTy).Contents (Elt F)),
    binary main_v348 main_v348 main_v349 (mulf : (⟨S2048x128, .f32⟩ : BufTy).Contents (Elt F) → (⟨S2048x128, .f32⟩ : BufTy).Contents (Elt F) → (⟨S2048x128, .f32⟩ : BufTy).Contents (Elt F)),
    nullary main_cst_51 (constant S_ .f32 0x00000000#32),
    binary main_v349 main_cst_51 main_v350 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v350 main_v351 (broadcastInDim S2048x1 ![0] bcast_S2048_S2048x1_0 : (⟨S2048, .f32⟩ : BufTy).Contents (Elt F) → (⟨S2048x1, .f32⟩ : BufTy).Contents (Elt F)),
    nullary main_cst_52 (constant S_ .f32 0x43000000#32),
    unary main_cst_52 main_v352 (broadcastInDim S2048x1 ![] bcast_S_S2048x1 : (⟨S_, .f32⟩ : BufTy).Contents (Elt F) → (⟨S2048x1, .f32⟩ : BufTy).Contents (Elt F)),
    binary main_v351 main_v352 main_v353 (Host.divf : (⟨S2048x1, .f32⟩ : BufTy).Contents (Elt F) → (⟨S2048x1, .f32⟩ : BufTy).Contents (Elt F) → (⟨S2048x1, .f32⟩ : BufTy).Contents (Elt F)),
    unary main_v346 main_v354 (broadcastInDim S2048x128 ![0, 1] bcast_S2048x1_S2048x128_0_1 : (⟨S2048x1, .f32⟩ : BufTy).Contents (Elt F) → (⟨S2048x128, .f32⟩ : BufTy).Contents (Elt F)),
    binary main_v342 main_v354 main_v355 (subf : (⟨S2048x128, .f32⟩ : BufTy).Contents (Elt F) → (⟨S2048x128, .f32⟩ : BufTy).Contents (Elt F) → (⟨S2048x128, .f32⟩ : BufTy).Contents (Elt F)),
    nullary main_cst_53 (constant S_ .f32 0x3727C5AC#32),
    unary main_cst_53 main_v356 (broadcastInDim S2048x1 ![] bcast_S_S2048x1 : (⟨S_, .f32⟩ : BufTy).Contents (Elt F) → (⟨S2048x1, .f32⟩ : BufTy).Contents (Elt F)),
    binary main_v353 main_v356 main_v357 (addf : (⟨S2048x1, .f32⟩ : BufTy).Contents (Elt F) → (⟨S2048x1, .f32⟩ : BufTy).Contents (Elt F) → (⟨S2048x1, .f32⟩ : BufTy).Contents (Elt F)),
    unary main_v357 main_v358 (Host.sqrt : (⟨S2048x1, .f32⟩ : BufTy).Contents (Elt F) → (⟨S2048x1, .f32⟩ : BufTy).Contents (Elt F)),
    unary main_v358 main_v359 (broadcastInDim S2048x128 ![0, 1] bcast_S2048x1_S2048x128_0_1 : (⟨S2048x1, .f32⟩ : BufTy).Contents (Elt F) → (⟨S2048x128, .f32⟩ : BufTy).Contents (Elt F)),
    binary main_v355 main_v359 main_v360 (Host.divf : (⟨S2048x128, .f32⟩ : BufTy).Contents (Elt F) → (⟨S2048x128, .f32⟩ : BufTy).Contents (Elt F) → (⟨S2048x128, .f32⟩ : BufTy).Contents (Elt F)),
    unary main_arg8 main_v361 (broadcastInDim S1x128 ![1] bcast_S128_S1x128_1 : (⟨S128, .f32⟩ : BufTy).Contents (Elt F) → (⟨S1x128, .f32⟩ : BufTy).Contents (Elt F)),
    unary main_v361 main_v362 (broadcastInDim S2048x128 ![0, 1] bcast_S1x128_S2048x128_0_1 : (⟨S1x128, .f32⟩ : BufTy).Contents (Elt F) → (⟨S2048x128, .f32⟩ : BufTy).Contents (Elt F)),
    binary main_v360 main_v362 main_v363 (mulf : (⟨S2048x128, .f32⟩ : BufTy).Contents (Elt F) → (⟨S2048x128, .f32⟩ : BufTy).Contents (Elt F) → (⟨S2048x128, .f32⟩ : BufTy).Contents (Elt F)),
    unary main_arg9 main_v364 (broadcastInDim S1x128 ![1] bcast_S128_S1x128_1 : (⟨S128, .f32⟩ : BufTy).Contents (Elt F) → (⟨S1x128, .f32⟩ : BufTy).Contents (Elt F)) ]

theorem part6_eq (d : Dev nD) : main_part6 (F := F) d = seq win6 := rfl

theorem win6_sub : (win6 : List (HloOp τ sig (Elt F))).Forall fun op => op.bufs ⊆ tcRefs τ sig :=
  ⟨unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩

theorem win6_fresh : ∀ op ∈ (win6 : List (HloOp τ sig (Elt F))), op.fresh = ∅ := by
  intro _ h; (repeat (cases h with | head => rfl | tail _ h => ?_)); exact nomatch h

/-- The operations of window 7 of the program, in order (a called function's operations stand in its call's place). -/
def win7 : List (HloOp τ sig (Elt F)) :=
  [ unary main_v364 main_v365 (broadcastInDim S2048x128 ![0, 1] bcast_S1x128_S2048x128_0_1 : (⟨S1x128, .f32⟩ : BufTy).Contents (Elt F) → (⟨S2048x128, .f32⟩ : BufTy).Contents (Elt F)),
    binary main_v363 main_v365 main_v366 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S2048x128, .f32⟩) main_call10_v0) (broadcastInDim S2048x128 ![] bcast_S_S2048x128),
    TRef.binary (TRef.of (T := ⟨S2048x128, .f32⟩) main_v366) (TRef.of (T := ⟨S2048x128, .f32⟩) main_call10_v0) (TRef.of (T := ⟨S2048x128, .f32⟩) main_v367) maximumf,
    binary main_v367 main_arg10 main_v368 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v301 main_v369 ((transpose S2048x2048 [1, 0] · transposes_S2048x2048_S2048x2048_1_0) : (⟨S2048x2048, .f32⟩ : BufTy).Contents (Elt F) → (⟨S2048x2048, .f32⟩ : BufTy).Contents (Elt F)),
    binary main_v369 main_v368 main_v370 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg11 main_v371 (broadcastInDim S1x128 ![1] bcast_S128_S1x128_1 : (⟨S128, .f32⟩ : BufTy).Contents (Elt F) → (⟨S1x128, .f32⟩ : BufTy).Contents (Elt F)),
    unary main_v371 main_v372 (broadcastInDim S2048x128 ![0, 1] bcast_S1x128_S2048x128_0_1 : (⟨S1x128, .f32⟩ : BufTy).Contents (Elt F) → (⟨S2048x128, .f32⟩ : BufTy).Contents (Elt F)),
    binary main_v370 main_v372 main_v373 (addf : (⟨S2048x128, .f32⟩ : BufTy).Contents (Elt F) → (⟨S2048x128, .f32⟩ : BufTy).Contents (Elt F) → (⟨S2048x128, .f32⟩ : BufTy).Contents (Elt F)),
    binary main_v373 main_v367 main_v374 (addf : (⟨S2048x128, .f32⟩ : BufTy).Contents (Elt F) → (⟨S2048x128, .f32⟩ : BufTy).Contents (Elt F) → (⟨S2048x128, .f32⟩ : BufTy).Contents (Elt F)),
    nullary main_cst_54 (constant S_ .f32 0x00000000#32),
    binary main_v374 main_cst_54 main_v375 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v375 main_v376 (broadcastInDim S2048x1 ![0] bcast_S2048_S2048x1_0 : (⟨S2048, .f32⟩ : BufTy).Contents (Elt F) → (⟨S2048x1, .f32⟩ : BufTy).Contents (Elt F)),
    nullary main_cst_55 (constant S_ .f32 0x43000000#32),
    unary main_cst_55 main_v377 (broadcastInDim S2048x1 ![] bcast_S_S2048x1 : (⟨S_, .f32⟩ : BufTy).Contents (Elt F) → (⟨S2048x1, .f32⟩ : BufTy).Contents (Elt F)),
    binary main_v376 main_v377 main_v378 (Host.divf : (⟨S2048x1, .f32⟩ : BufTy).Contents (Elt F) → (⟨S2048x1, .f32⟩ : BufTy).Contents (Elt F) → (⟨S2048x1, .f32⟩ : BufTy).Contents (Elt F)),
    unary main_v378 main_v379 (broadcastInDim S2048x128 ![0, 1] bcast_S2048x1_S2048x128_0_1 : (⟨S2048x1, .f32⟩ : BufTy).Contents (Elt F) → (⟨S2048x128, .f32⟩ : BufTy).Contents (Elt F)),
    binary main_v374 main_v379 main_v380 (subf : (⟨S2048x128, .f32⟩ : BufTy).Contents (Elt F) → (⟨S2048x128, .f32⟩ : BufTy).Contents (Elt F) → (⟨S2048x128, .f32⟩ : BufTy).Contents (Elt F)),
    binary main_v380 main_v380 main_v381 (mulf : (⟨S2048x128, .f32⟩ : BufTy).Contents (Elt F) → (⟨S2048x128, .f32⟩ : BufTy).Contents (Elt F) → (⟨S2048x128, .f32⟩ : BufTy).Contents (Elt F)),
    nullary main_cst_56 (constant S_ .f32 0x00000000#32),
    binary main_v381 main_cst_56 main_v382 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v382 main_v383 (broadcastInDim S2048x1 ![0] bcast_S2048_S2048x1_0 : (⟨S2048, .f32⟩ : BufTy).Contents (Elt F) → (⟨S2048x1, .f32⟩ : BufTy).Contents (Elt F)),
    nullary main_cst_57 (constant S_ .f32 0x43000000#32),
    unary main_cst_57 main_v384 (broadcastInDim S2048x1 ![] bcast_S_S2048x1 : (⟨S_, .f32⟩ : BufTy).Contents (Elt F) → (⟨S2048x1, .f32⟩ : BufTy).Contents (Elt F)),
    binary main_v383 main_v384 main_v385 (Host.divf : (⟨S2048x1, .f32⟩ : BufTy).Contents (Elt F) → (⟨S2048x1, .f32⟩ : BufTy).Contents (Elt F) → (⟨S2048x1, .f32⟩ : BufTy).Contents (Elt F)),
    unary main_v378 main_v386 (broadcastInDim S2048x128 ![0, 1] bcast_S2048x1_S2048x128_0_1 : (⟨S2048x1, .f32⟩ : BufTy).Contents (Elt F) → (⟨S2048x128, .f32⟩ : BufTy).Contents (Elt F)),
    binary main_v374 main_v386 main_v387 (subf : (⟨S2048x128, .f32⟩ : BufTy).Contents (Elt F) → (⟨S2048x128, .f32⟩ : BufTy).Contents (Elt F) → (⟨S2048x128, .f32⟩ : BufTy).Contents (Elt F)),
    nullary main_cst_58 (constant S_ .f32 0x3727C5AC#32),
    unary main_cst_58 main_v388 (broadcastInDim S2048x1 ![] bcast_S_S2048x1 : (⟨S_, .f32⟩ : BufTy).Contents (Elt F) → (⟨S2048x1, .f32⟩ : BufTy).Contents (Elt F)),
    binary main_v385 main_v388 main_v389 (addf : (⟨S2048x1, .f32⟩ : BufTy).Contents (Elt F) → (⟨S2048x1, .f32⟩ : BufTy).Contents (Elt F) → (⟨S2048x1, .f32⟩ : BufTy).Contents (Elt F)),
    unary main_v389 main_v390 (Host.sqrt : (⟨S2048x1, .f32⟩ : BufTy).Contents (Elt F) → (⟨S2048x1, .f32⟩ : BufTy).Contents (Elt F)),
    unary main_v390 main_v391 (broadcastInDim S2048x128 ![0, 1] bcast_S2048x1_S2048x128_0_1 : (⟨S2048x1, .f32⟩ : BufTy).Contents (Elt F) → (⟨S2048x128, .f32⟩ : BufTy).Contents (Elt F)),
    binary main_v387 main_v391 main_v392 (Host.divf : (⟨S2048x128, .f32⟩ : BufTy).Contents (Elt F) → (⟨S2048x128, .f32⟩ : BufTy).Contents (Elt F) → (⟨S2048x128, .f32⟩ : BufTy).Contents (Elt F)),
    unary main_arg12 main_v393 (broadcastInDim S1x128 ![1] bcast_S128_S1x128_1 : (⟨S128, .f32⟩ : BufTy).Contents (Elt F) → (⟨S1x128, .f32⟩ : BufTy).Contents (Elt F)),
    unary main_v393 main_v394 (broadcastInDim S2048x128 ![0, 1] bcast_S1x128_S2048x128_0_1 : (⟨S1x128, .f32⟩ : BufTy).Contents (Elt F) → (⟨S2048x128, .f32⟩ : BufTy).Contents (Elt F)),
    binary main_v392 main_v394 main_v395 (mulf : (⟨S2048x128, .f32⟩ : BufTy).Contents (Elt F) → (⟨S2048x128, .f32⟩ : BufTy).Contents (Elt F) → (⟨S2048x128, .f32⟩ : BufTy).Contents (Elt F)),
    unary main_arg13 main_v396 (broadcastInDim S1x128 ![1] bcast_S128_S1x128_1 : (⟨S128, .f32⟩ : BufTy).Contents (Elt F) → (⟨S1x128, .f32⟩ : BufTy).Contents (Elt F)),
    unary main_v396 main_v397 (broadcastInDim S2048x128 ![0, 1] bcast_S1x128_S2048x128_0_1 : (⟨S1x128, .f32⟩ : BufTy).Contents (Elt F) → (⟨S2048x128, .f32⟩ : BufTy).Contents (Elt F)),
    binary main_v395 main_v397 main_v398 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S2048x128, .f32⟩) main_call11_v0) (broadcastInDim S2048x128 ![] bcast_S_S2048x128),
    TRef.binary (TRef.of (T := ⟨S2048x128, .f32⟩) main_v398) (TRef.of (T := ⟨S2048x128, .f32⟩) main_call11_v0) (TRef.of (T := ⟨S2048x128, .f32⟩) main_v399) maximumf,
    unary main_v99 main_v400 (broadcastInDim S1x2048x128 ![1, 2] bcast_S2048x128_S1x2048x128_1_2 : (⟨S2048x128, .f32⟩ : BufTy).Contents (Elt F) → (⟨S1x2048x128, .f32⟩ : BufTy).Contents (Elt F)),
    unary main_v199 main_v401 (broadcastInDim S1x2048x128 ![1, 2] bcast_S2048x128_S1x2048x128_1_2 : (⟨S2048x128, .f32⟩ : BufTy).Contents (Elt F) → (⟨S1x2048x128, .f32⟩ : BufTy).Contents (Elt F)),
    unary main_v299 main_v402 (broadcastInDim S1x2048x128 ![1, 2] bcast_S2048x128_S1x2048x128_1_2 : (⟨S2048x128, .f32⟩ : BufTy).Contents (Elt F) → (⟨S1x2048x128, .f32⟩ : BufTy).Contents (Elt F)),
    unary main_v399 main_v403 (broadcastInDim S1x2048x128 ![1, 2] bcast_S2048x128_S1x2048x128_1_2 : (⟨S2048x128, .f32⟩ : BufTy).Contents (Elt F) → (⟨S1x2048x128, .f32⟩ : BufTy).Contents (Elt F)),
    nary ![main_v400, main_v401, main_v402, main_v403] main_v404 (fun u => concatenate S4x2048x128 0 [⟨S1x2048x128, u 0⟩, ⟨S1x2048x128, u 1⟩, ⟨S1x2048x128, u 2⟩, ⟨S1x2048x128, u 3⟩] concatenates_S1x2048x128_S1x2048x128_S1x2048x128_S1x2048x128_S4x2048x128_d0) ]

theorem part7_eq (d : Dev nD) : main_part7 (F := F) d = seq win7 := rfl

theorem win7_sub : (win7 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., nary_bufs_sub ..⟩

theorem win7_fresh : ∀ op ∈ (win7 : List (HloOp τ sig (Elt F))), op.fresh = ∅ := by
  intro _ h; (repeat (cases h with | head => rfl | tail _ h => ?_)); exact nomatch h

/-- The whole program's operations: the windows one after the other. -/
def ops : List (HloOp τ sig (Elt F)) := win0 ++ (win1 ++ (win2 ++ (win3 ++ (win4 ++ (win5 ++ (win6 ++ win7))))))

theorem main_eq (d : Dev nD) : main (F := F) d = seq ops := by
  unfold main ops
  simp only [seq_append, part0_eq, part1_eq, part2_eq, part3_eq, part4_eq, part5_eq, part6_eq, part7_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  simp only [List.forall_append]
  exact ⟨win0_sub, win1_sub, win2_sub, win3_sub, win4_sub, win5_sub, win6_sub, win7_sub⟩

theorem ops_fresh : ∀ op ∈ (ops : List (HloOp τ sig (Elt F))), op.fresh = ∅ := by
  intro op h
  unfold ops at h
  simp only [List.mem_append] at h
  rcases h with h | h | h | h | h | h | h | h
  · exact win0_fresh op h
  · exact win1_fresh op h
  · exact win2_fresh op h
  · exact win3_fresh op h
  · exact win4_fresh op h
  · exact win5_fresh op h
  · exact win6_fresh op h
  · exact win7_fresh op h

/-- From any memory with zero counters, every weakly fair execution of the program terminates, and each buffer then
    holds the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.RefSide

end
-- ==== Proof.RefChunks.lean ====
/-
  The reference program's operations regrouped by what they compute — per graph the cut of its adjacency and features
  out of the stacked arguments, then one group per layer, and at the end the join of the four results —, the regrouped
  line shown to be the program's line, and for each group the buffers it writes, so that every other buffer keeps its
  contents through the group.
-/
import proofs.«141423_g37074157699470_cont_sun_m_1229_6_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Graph 0's adjacency and features cut out of the stacked arguments and viewed as matrices. -/
def pre0 : List (HloOp τ sig (Elt F)) :=
  [ unary main_arg1 main_v0 ((extractStridedSlice S1x2048x2048 ![0, 0, 0] · slices_S4x2048x2048_S1x2048x2048_0_0_0) : (⟨S4x2048x2048, .f32⟩ : BufTy).Contents (Elt F) → (⟨S1x2048x2048, .f32⟩ : BufTy).Contents (Elt F)),
    reshape main_v0 main_v1 rfl shapeCasts_S1x2048x2048_S2048x2048,
    unary main_arg0 main_v2 ((extractStridedSlice S1x2048x128 ![0, 0, 0] · slices_S4x2048x128_S1x2048x128_0_0_0) : (⟨S4x2048x128, .f32⟩ : BufTy).Contents (Elt F) → (⟨S1x2048x128, .f32⟩ : BufTy).Contents (Elt F)),
    reshape main_v2 main_v3 rfl shapeCasts_S1x2048x128_S2048x128 ]
/-- The buffers the group `pre0` writes. -/
abbrev pre0_W : List (Ref sig .tc) := [main_v0, main_v1, main_v2, main_v3]
theorem pre0_writes : (pre0 : List (HloOp τ sig (Elt F))).Forall fun op => op.writes ⊆ (pre0_W.map (Proc.devRef (τ := τ) .tc)).toFinset := by
  simp only [pre0, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `pre0` does not write keeps its contents through it. -/
theorem pre0_keep (V : Valuation τ sig (Elt F)) {r : Ref sig .tc} (h : r ∉ pre0_W) :
    after pre0 V (no_index (Proc.devRef .tc r)) = V (Proc.devRef .tc r) :=
  after_of_writes_sub pre0 V pre0_writes h

/-- Layer 0 on graph 0. -/
def lay00 : List (HloOp τ sig (Elt F)) :=
  [ binary main_v3 main_arg2 main_v4 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v1 main_v5 ((transpose S2048x2048 [1, 0] · transposes_S2048x2048_S2048x2048_1_0) : (⟨S2048x2048, .f32⟩ : BufTy).Contents (Elt F) → (⟨S2048x2048, .f32⟩ : BufTy).Contents (Elt F)),
    binary main_v5 main_v4 main_v6 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg3 main_v7 (broadcastInDim S1x128 ![1] bcast_S128_S1x128_1 : (⟨S128, .f32⟩ : BufTy).Contents (Elt F) → (⟨S1x128, .f32⟩ : BufTy).Contents (Elt F)),
    unary main_v7 main_v8 (broadcastInDim S2048x128 ![0, 1] bcast_S1x128_S2048x128_0_1 : (⟨S1x128, .f32⟩ : BufTy).Contents (Elt F) → (⟨S2048x128, .f32⟩ : BufTy).Contents (Elt F)),
    binary main_v6 main_v8 main_v9 (addf : (⟨S2048x128, .f32⟩ : BufTy).Contents (Elt F) → (⟨S2048x128, .f32⟩ : BufTy).Contents (Elt F) → (⟨S2048x128, .f32⟩ : BufTy).Contents (Elt F)),
    binary main_v9 main_v3 main_v10 (addf : (⟨S2048x128, .f32⟩ : BufTy).Contents (Elt F) → (⟨S2048x128, .f32⟩ : BufTy).Contents (Elt F) → (⟨S2048x128, .f32⟩ : BufTy).Contents (Elt F)),
    nullary main_cst (constant S_ .f32 0x00000000#32),
    binary main_v10 main_cst main_v11 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v11 main_v12 (broadcastInDim S2048x1 ![0] bcast_S2048_S2048x1_0 : (⟨S2048, .f32⟩ : BufTy).Contents (Elt F) → (⟨S2048x1, .f32⟩ : BufTy).Contents (Elt F)),
    nullary main_cst_0 (constant S_ .f32 0x43000000#32),
    unary main_cst_0 main_v13 (broadcastInDim S2048x1 ![] bcast_S_S2048x1 : (⟨S_, .f32⟩ : BufTy).Contents (Elt F) → (⟨S2048x1, .f32⟩ : BufTy).Contents (Elt F)),
    binary main_v12 main_v13 main_v14 (Host.divf : (⟨S2048x1, .f32⟩ : BufTy).Contents (Elt F) → (⟨S2048x1, .f32⟩ : BufTy).Contents (Elt F) → (⟨S2048x1, .f32⟩ : BufTy).Contents (Elt F)),
    unary main_v14 main_v15 (broadcastInDim S2048x128 ![0, 1] bcast_S2048x1_S2048x128_0_1 : (⟨S2048x1, .f32⟩ : BufTy).Contents (Elt F) → (⟨S2048x128, .f32⟩ : BufTy).Contents (Elt F)),
    binary main_v10 main_v15 main_v16 (subf : (⟨S2048x128, .f32⟩ : BufTy).Contents (Elt F) → (⟨S2048x128, .f32⟩ : BufTy).Contents (Elt F) → (⟨S2048x128, .f32⟩ : BufTy).Contents (Elt F)),
    binary main_v16 main_v16 main_v17 (mulf : (⟨S2048x128, .f32⟩ : BufTy).Contents (Elt F) → (⟨S2048x128, .f32⟩ : BufTy).Contents (Elt F) → (⟨S2048x128, .f32⟩ : BufTy).Contents (Elt F)),
    nullary main_cst_1 (constant S_ .f32 0x00000000#32),
    binary main_v17 main_cst_1 main_v18 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v18 main_v19 (broadcastInDim S2048x1 ![0] bcast_S2048_S2048x1_0 : (⟨S2048, .f32⟩ : BufTy).Contents (Elt F) → (⟨S2048x1, .f32⟩ : BufTy).Contents (Elt F)),
    nullary main_cst_2 (constant S_ .f32 0x43000000#32),
    unary main_cst_2 main_v20 (broadcastInDim S2048x1 ![] bcast_S_S2048x1 : (⟨S_, .f32⟩ : BufTy).Contents (Elt F) → (⟨S2048x1, .f32⟩ : BufTy).Contents (Elt F)),
    binary main_v19 main_v20 main_v21 (Host.divf : (⟨S2048x1, .f32⟩ : BufTy).Contents (Elt F) → (⟨S2048x1, .f32⟩ : BufTy).Contents (Elt F) → (⟨S2048x1, .f32⟩ : BufTy).Contents (Elt F)),
    unary main_v14 main_v22 (broadcastInDim S2048x128 ![0, 1] bcast_S2048x1_S2048x128_0_1 : (⟨S2048x1, .f32⟩ : BufTy).Contents (Elt F) → (⟨S2048x128, .f32⟩ : BufTy).Contents (Elt F)),
    binary main_v10 main_v22 main_v23 (subf : (⟨S2048x128, .f32⟩ : BufTy).Contents (Elt F) → (⟨S2048x128, .f32⟩ : BufTy).Contents (Elt F) → (⟨S2048x128, .f32⟩ : BufTy).Contents (Elt F)),
    nullary main_cst_3 (constant S_ .f32 0x3727C5AC#32),
    unary main_cst_3 main_v24 (broadcastInDim S2048x1 ![] bcast_S_S2048x1 : (⟨S_, .f32⟩ : BufTy).Contents (Elt F) → (⟨S2048x1, .f32⟩ : BufTy).Contents (Elt F)),
    binary main_v21 main_v24 main_v25 (addf : (⟨S2048x1, .f32⟩ : BufTy).Contents (Elt F) → (⟨S2048x1, .f32⟩ : BufTy).Contents (Elt F) → (⟨S2048x1, .f32⟩ : BufTy).Contents (Elt F)),
    unary main_v25 main_v26 (Host.sqrt : (⟨S2048x1, .f32⟩ : BufTy).Contents (Elt F) → (⟨S2048x1, .f32⟩ : BufTy).Contents (Elt F)),
    unary main_v26 main_v27 (broadcastInDim S2048x128 ![0, 1] bcast_S2048x1_S2048x128_0_1 : (⟨S2048x1, .f32⟩ : BufTy).Contents (Elt F) → (⟨S2048x128, .f32⟩ : BufTy).Contents (Elt F)),
    binary main_v23 main_v27 main_v28 (Host.divf : (⟨S2048x128, .f32⟩ : BufTy).Contents (Elt F) → (⟨S2048x128, .f32⟩ : BufTy).Contents (Elt F) → (⟨S2048x128, .f32⟩ : BufTy).Contents (Elt F)),
    unary main_arg4 main_v29 (broadcastInDim S1x128 ![1] bcast_S128_S1x128_1 : (⟨S128, .f32⟩ : BufTy).Contents (Elt F) → (⟨S1x128, .f32⟩ : BufTy).Contents (Elt F)),
    unary main_v29 main_v30 (broadcastInDim S2048x128 ![0, 1] bcast_S1x128_S2048x128_0_1 : (⟨S1x128, .f32⟩ : BufTy).Contents (Elt F) → (⟨S2048x128, .f32⟩ : BufTy).Contents (Elt F)),
    binary main_v28 main_v30 main_v31 (mulf : (⟨S2048x128, .f32⟩ : BufTy).Contents (Elt F) → (⟨S2048x128, .f32⟩ : BufTy).Contents (Elt F) → (⟨S2048x128, .f32⟩ : BufTy).Contents (Elt F)),
    unary main_arg5 main_v32 (broadcastInDim S1x128 ![1] bcast_S128_S1x128_1 : (⟨S128, .f32⟩ : BufTy).Contents (Elt F) → (⟨S1x128, .f32⟩ : BufTy).Contents (Elt F)),
    unary main_v32 main_v33 (broadcastInDim S2048x128 ![0, 1] bcast_S1x128_S2048x128_0_1 : (⟨S1x128, .f32⟩ : BufTy).Contents (Elt F) → (⟨S2048x128, .f32⟩ : BufTy).Contents (Elt F)),
    binary main_v31 main_v33 main_v34 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x128, .f32⟩) main_call0_v0) (broadcastInDim S2048x128 ![] bcast_S_S2048x128),
    TRef.binary (TRef.of (T := ⟨S2048x128, .f32⟩) main_v34) (TRef.of (T := ⟨S2048x128, .f32⟩) main_call0_v0) (TRef.of (T := ⟨S2048x128, .f32⟩) main_v35) maximumf ]
/-- The buffers the group `lay00` writes. -/
abbrev lay00_W : List (Ref sig .tc) := [main_v4, main_v5, main_v6, main_v7, main_v8, main_v9, main_v10, main_cst, main_v11, main_v12, main_cst_0, main_v13, main_v14, main_v15, main_v16, main_v17, main_cst_1, main_v18, main_v19, main_cst_2, main_v20, main_v21, main_v22, main_v23, main_cst_3, main_v24, main_v25, main_v26, main_v27, main_v28, main_v29, main_v30, main_v31, main_v32, main_v33, main_v34, main_call0_cst, main_call0_v0, main_v35]
theorem lay00_writes : (lay00 : List (HloOp τ sig (Elt F))).Forall fun op => op.writes ⊆ (lay00_W.map (Proc.devRef (τ := τ) .tc)).toFinset := by
  simp only [lay00, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay00` does not write keeps its contents through it. -/
theorem lay00_keep (V : Valuation τ sig (Elt F)) {r : Ref sig .tc} (h : r ∉ lay00_W) :
    after lay00 V (no_index (Proc.devRef .tc r)) = V (Proc.devRef .tc r) :=
  after_of_writes_sub lay00 V lay00_writes h

/-- Layer 1 on graph 0. -/
def lay01 : List (HloOp τ sig (Elt F)) :=
  [ binary main_v35 main_arg6 main_v36 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v1 main_v37 ((transpose S2048x2048 [1, 0] · transposes_S2048x2048_S2048x2048_1_0) : (⟨S2048x2048, .f32⟩ : BufTy).Contents (Elt F) → (⟨S2048x2048, .f32⟩ : BufTy).Contents (Elt F)),
    binary main_v37 main_v36 main_v38 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg7 main_v39 (broadcastInDim S1x128 ![1] bcast_S128_S1x128_1 : (⟨S128, .f32⟩ : BufTy).Contents (Elt F) → (⟨S1x128, .f32⟩ : BufTy).Contents (Elt F)),
    unary main_v39 main_v40 (broadcastInDim S2048x128 ![0, 1] bcast_S1x128_S2048x128_0_1 : (⟨S1x128, .f32⟩ : BufTy).Contents (Elt F) → (⟨S2048x128, .f32⟩ : BufTy).Contents (Elt F)),
    binary main_v38 main_v40 main_v41 (addf : (⟨S2048x128, .f32⟩ : BufTy).Contents (Elt F) → (⟨S2048x128, .f32⟩ : BufTy).Contents (Elt F) → (⟨S2048x128, .f32⟩ : BufTy).Contents (Elt F)),
    binary main_v41 main_v35 main_v42 (addf : (⟨S2048x128, .f32⟩ : BufTy).Contents (Elt F) → (⟨S2048x128, .f32⟩ : BufTy).Contents (Elt F) → (⟨S2048x128, .f32⟩ : BufTy).Contents (Elt F)),
    nullary main_cst_4 (constant S_ .f32 0x00000000#32),
    binary main_v42 main_cst_4 main_v43 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v43 main_v44 (broadcastInDim S2048x1 ![0] bcast_S2048_S2048x1_0 : (⟨S2048, .f32⟩ : BufTy).Contents (Elt F) → (⟨S2048x1, .f32⟩ : BufTy).Contents (Elt F)),
    nullary main_cst_5 (constant S_ .f32 0x43000000#32),
    unary main_cst_5 main_v45 (broadcastInDim S2048x1 ![] bcast_S_S2048x1 : (⟨S_, .f32⟩ : BufTy).Contents (Elt F) → (⟨S2048x1, .f32⟩ : BufTy).Contents (Elt F)),
    binary main_v44 main_v45 main_v46 (Host.divf : (⟨S2048x1, .f32⟩ : BufTy).Contents (Elt F) → (⟨S2048x1, .f32⟩ : BufTy).Contents (Elt F) → (⟨S2048x1, .f32⟩ : BufTy).Contents (Elt F)),
    unary main_v46 main_v47 (broadcastInDim S2048x128 ![0, 1] bcast_S2048x1_S2048x128_0_1 : (⟨S2048x1, .f32⟩ : BufTy).Contents (Elt F) → (⟨S2048x128, .f32⟩ : BufTy).Contents (Elt F)),
    binary main_v42 main_v47 main_v48 (subf : (⟨S2048x128, .f32⟩ : BufTy).Contents (Elt F) → (⟨S2048x128, .f32⟩ : BufTy).Contents (Elt F) → (⟨S2048x128, .f32⟩ : BufTy).Contents (Elt F)),
    binary main_v48 main_v48 main_v49 (mulf : (⟨S2048x128, .f32⟩ : BufTy).Contents (Elt F) → (⟨S2048x128, .f32⟩ : BufTy).Contents (Elt F) → (⟨S2048x128, .f32⟩ : BufTy).Contents (Elt F)),
    nullary main_cst_6 (constant S_ .f32 0x00000000#32),
    binary main_v49 main_cst_6 main_v50 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v50 main_v51 (broadcastInDim S2048x1 ![0] bcast_S2048_S2048x1_0 : (⟨S2048, .f32⟩ : BufTy).Contents (Elt F) → (⟨S2048x1, .f32⟩ : BufTy).Contents (Elt F)),
    nullary main_cst_7 (constant S_ .f32 0x43000000#32),
    unary main_cst_7 main_v52 (broadcastInDim S2048x1 ![] bcast_S_S2048x1 : (⟨S_, .f32⟩ : BufTy).Contents (Elt F) → (⟨S2048x1, .f32⟩ : BufTy).Contents (Elt F)),
    binary main_v51 main_v52 main_v53 (Host.divf : (⟨S2048x1, .f32⟩ : BufTy).Contents (Elt F) → (⟨S2048x1, .f32⟩ : BufTy).Contents (Elt F) → (⟨S2048x1, .f32⟩ : BufTy).Contents (Elt F)),
    unary main_v46 main_v54 (broadcastInDim S2048x128 ![0, 1] bcast_S2048x1_S2048x128_0_1 : (⟨S2048x1, .f32⟩ : BufTy).Contents (Elt F) → (⟨S2048x128, .f32⟩ : BufTy).Contents (Elt F)),
    binary main_v42 main_v54 main_v55 (subf : (⟨S2048x128, .f32⟩ : BufTy).Contents (Elt F) → (⟨S2048x128, .f32⟩ : BufTy).Contents (Elt F) → (⟨S2048x128, .f32⟩ : BufTy).Contents (Elt F)),
    nullary main_cst_8 (constant S_ .f32 0x3727C5AC#32),
    unary main_cst_8 main_v56 (broadcastInDim S2048x1 ![] bcast_S_S2048x1 : (⟨S_, .f32⟩ : BufTy).Contents (Elt F) → (⟨S2048x1, .f32⟩ : BufTy).Contents (Elt F)),
    binary main_v53 main_v56 main_v57 (addf : (⟨S2048x1, .f32⟩ : BufTy).Contents (Elt F) → (⟨S2048x1, .f32⟩ : BufTy).Contents (Elt F) → (⟨S2048x1, .f32⟩ : BufTy).Contents (Elt F)),
    unary main_v57 main_v58 (Host.sqrt : (⟨S2048x1, .f32⟩ : BufTy).Contents (Elt F) → (⟨S2048x1, .f32⟩ : BufTy).Contents (Elt F)),
    unary main_v58 main_v59 (broadcastInDim S2048x128 ![0, 1] bcast_S2048x1_S2048x128_0_1 : (⟨S2048x1, .f32⟩ : BufTy).Contents (Elt F) → (⟨S2048x128, .f32⟩ : BufTy).Contents (Elt F)),
    binary main_v55 main_v59 main_v60 (Host.divf : (⟨S2048x128, .f32⟩ : BufTy).Contents (Elt F) → (⟨S2048x128, .f32⟩ : BufTy).Contents (Elt F) → (⟨S2048x128, .f32⟩ : BufTy).Contents (Elt F)),
    unary main_arg8 main_v61 (broadcastInDim S1x128 ![1] bcast_S128_S1x128_1 : (⟨S128, .f32⟩ : BufTy).Contents (Elt F) → (⟨S1x128, .f32⟩ : BufTy).Contents (Elt F)),
    unary main_v61 main_v62 (broadcastInDim S2048x128 ![0, 1] bcast_S1x128_S2048x128_0_1 : (⟨S1x128, .f32⟩ : BufTy).Contents (Elt F) → (⟨S2048x128, .f32⟩ : BufTy).Contents (Elt F)),
    binary main_v60 main_v62 main_v63 (mulf : (⟨S2048x128, .f32⟩ : BufTy).Contents (Elt F) → (⟨S2048x128, .f32⟩ : BufTy).Contents (Elt F) → (⟨S2048x128, .f32⟩ : BufTy).Contents (Elt F)),
    unary main_arg9 main_v64 (broadcastInDim S1x128 ![1] bcast_S128_S1x128_1 : (⟨S128, .f32⟩ : BufTy).Contents (Elt F) → (⟨S1x128, .f32⟩ : BufTy).Contents (Elt F)),
    unary main_v64 main_v65 (broadcastInDim S2048x128 ![0, 1] bcast_S1x128_S2048x128_0_1 : (⟨S1x128, .f32⟩ : BufTy).Contents (Elt F) → (⟨S2048x128, .f32⟩ : BufTy).Contents (Elt F)),
    binary main_v63 main_v65 main_v66 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x128, .f32⟩) main_call1_v0) (broadcastInDim S2048x128 ![] bcast_S_S2048x128),
    TRef.binary (TRef.of (T := ⟨S2048x128, .f32⟩) main_v66) (TRef.of (T := ⟨S2048x128, .f32⟩) main_call1_v0) (TRef.of (T := ⟨S2048x128, .f32⟩) main_v67) maximumf ]
/-- The buffers the group `lay01` writes. -/
abbrev lay01_W : List (Ref sig .tc) := [main_v36, main_v37, main_v38, main_v39, main_v40, main_v41, main_v42, main_cst_4, main_v43, main_v44, main_cst_5, main_v45, main_v46, main_v47, main_v48, main_v49, main_cst_6, main_v50, main_v51, main_cst_7, main_v52, main_v53, main_v54, main_v55, main_cst_8, main_v56, main_v57, main_v58, main_v59, main_v60, main_v61, main_v62, main_v63, main_v64, main_v65, main_v66, main_call1_cst, main_call1_v0, main_v67]
theorem lay01_writes : (lay01 : List (HloOp τ sig (Elt F))).Forall fun op => op.writes ⊆ (lay01_W.map (Proc.devRef (τ := τ) .tc)).toFinset := by
  simp only [lay01, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay01` does not write keeps its contents through it. -/
theorem lay01_keep (V : Valuation τ sig (Elt F)) {r : Ref sig .tc} (h : r ∉ lay01_W) :
    after lay01 V (no_index (Proc.devRef .tc r)) = V (Proc.devRef .tc r) :=
  after_of_writes_sub lay01 V lay01_writes h

/-- Layer 2 on graph 0. -/
def lay02 : List (HloOp τ sig (Elt F)) :=
  [ binary main_v67 main_arg10 main_v68 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v1 main_v69 ((transpose S2048x2048 [1, 0] · transposes_S2048x2048_S2048x2048_1_0) : (⟨S2048x2048, .f32⟩ : BufTy).Contents (Elt F) → (⟨S2048x2048, .f32⟩ : BufTy).Contents (Elt F)),
    binary main_v69 main_v68 main_v70 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg11 main_v71 (broadcastInDim S1x128 ![1] bcast_S128_S1x128_1 : (⟨S128, .f32⟩ : BufTy).Contents (Elt F) → (⟨S1x128, .f32⟩ : BufTy).Contents (Elt F)),
    unary main_v71 main_v72 (broadcastInDim S2048x128 ![0, 1] bcast_S1x128_S2048x128_0_1 : (⟨S1x128, .f32⟩ : BufTy).Contents (Elt F) → (⟨S2048x128, .f32⟩ : BufTy).Contents (Elt F)),
    binary main_v70 main_v72 main_v73 (addf : (⟨S2048x128, .f32⟩ : BufTy).Contents (Elt F) → (⟨S2048x128, .f32⟩ : BufTy).Contents (Elt F) → (⟨S2048x128, .f32⟩ : BufTy).Contents (Elt F)),
    binary main_v73 main_v67 main_v74 (addf : (⟨S2048x128, .f32⟩ : BufTy).Contents (Elt F) → (⟨S2048x128, .f32⟩ : BufTy).Contents (Elt F) → (⟨S2048x128, .f32⟩ : BufTy).Contents (Elt F)),
    nullary main_cst_9 (constant S_ .f32 0x00000000#32),
    binary main_v74 main_cst_9 main_v75 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v75 main_v76 (broadcastInDim S2048x1 ![0] bcast_S2048_S2048x1_0 : (⟨S2048, .f32⟩ : BufTy).Contents (Elt F) → (⟨S2048x1, .f32⟩ : BufTy).Contents (Elt F)),
    nullary main_cst_10 (constant S_ .f32 0x43000000#32),
    unary main_cst_10 main_v77 (broadcastInDim S2048x1 ![] bcast_S_S2048x1 : (⟨S_, .f32⟩ : BufTy).Contents (Elt F) → (⟨S2048x1, .f32⟩ : BufTy).Contents (Elt F)),
    binary main_v76 main_v77 main_v78 (Host.divf : (⟨S2048x1, .f32⟩ : BufTy).Contents (Elt F) → (⟨S2048x1, .f32⟩ : BufTy).Contents (Elt F) → (⟨S2048x1, .f32⟩ : BufTy).Contents (Elt F)),
    unary main_v78 main_v79 (broadcastInDim S2048x128 ![0, 1] bcast_S2048x1_S2048x128_0_1 : (⟨S2048x1, .f32⟩ : BufTy).Contents (Elt F) → (⟨S2048x128, .f32⟩ : BufTy).Contents (Elt F)),
    binary main_v74 main_v79 main_v80 (subf : (⟨S2048x128, .f32⟩ : BufTy).Contents (Elt F) → (⟨S2048x128, .f32⟩ : BufTy).Contents (Elt F) → (⟨S2048x128, .f32⟩ : BufTy).Contents (Elt F)),
    binary main_v80 main_v80 main_v81 (mulf : (⟨S2048x128, .f32⟩ : BufTy).Contents (Elt F) → (⟨S2048x128, .f32⟩ : BufTy).Contents (Elt F) → (⟨S2048x128, .f32⟩ : BufTy).Contents (Elt F)),
    nullary main_cst_11 (constant S_ .f32 0x00000000#32),
    binary main_v81 main_cst_11 main_v82 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v82 main_v83 (broadcastInDim S2048x1 ![0] bcast_S2048_S2048x1_0 : (⟨S2048, .f32⟩ : BufTy).Contents (Elt F) → (⟨S2048x1, .f32⟩ : BufTy).Contents (Elt F)),
    nullary main_cst_12 (constant S_ .f32 0x43000000#32),
    unary main_cst_12 main_v84 (broadcastInDim S2048x1 ![] bcast_S_S2048x1 : (⟨S_, .f32⟩ : BufTy).Contents (Elt F) → (⟨S2048x1, .f32⟩ : BufTy).Contents (Elt F)),
    binary main_v83 main_v84 main_v85 (Host.divf : (⟨S2048x1, .f32⟩ : BufTy).Contents (Elt F) → (⟨S2048x1, .f32⟩ : BufTy).Contents (Elt F) → (⟨S2048x1, .f32⟩ : BufTy).Contents (Elt F)),
    unary main_v78 main_v86 (broadcastInDim S2048x128 ![0, 1] bcast_S2048x1_S2048x128_0_1 : (⟨S2048x1, .f32⟩ : BufTy).Contents (Elt F) → (⟨S2048x128, .f32⟩ : BufTy).Contents (Elt F)),
    binary main_v74 main_v86 main_v87 (subf : (⟨S2048x128, .f32⟩ : BufTy).Contents (Elt F) → (⟨S2048x128, .f32⟩ : BufTy).Contents (Elt F) → (⟨S2048x128, .f32⟩ : BufTy).Contents (Elt F)),
    nullary main_cst_13 (constant S_ .f32 0x3727C5AC#32),
    unary main_cst_13 main_v88 (broadcastInDim S2048x1 ![] bcast_S_S2048x1 : (⟨S_, .f32⟩ : BufTy).Contents (Elt F) → (⟨S2048x1, .f32⟩ : BufTy).Contents (Elt F)),
    binary main_v85 main_v88 main_v89 (addf : (⟨S2048x1, .f32⟩ : BufTy).Contents (Elt F) → (⟨S2048x1, .f32⟩ : BufTy).Contents (Elt F) → (⟨S2048x1, .f32⟩ : BufTy).Contents (Elt F)),
    unary main_v89 main_v90 (Host.sqrt : (⟨S2048x1, .f32⟩ : BufTy).Contents (Elt F) → (⟨S2048x1, .f32⟩ : BufTy).Contents (Elt F)),
    unary main_v90 main_v91 (broadcastInDim S2048x128 ![0, 1] bcast_S2048x1_S2048x128_0_1 : (⟨S2048x1, .f32⟩ : BufTy).Contents (Elt F) → (⟨S2048x128, .f32⟩ : BufTy).Contents (Elt F)),
    binary main_v87 main_v91 main_v92 (Host.divf : (⟨S2048x128, .f32⟩ : BufTy).Contents (Elt F) → (⟨S2048x128, .f32⟩ : BufTy).Contents (Elt F) → (⟨S2048x128, .f32⟩ : BufTy).Contents (Elt F)),
    unary main_arg12 main_v93 (broadcastInDim S1x128 ![1] bcast_S128_S1x128_1 : (⟨S128, .f32⟩ : BufTy).Contents (Elt F) → (⟨S1x128, .f32⟩ : BufTy).Contents (Elt F)),
    unary main_v93 main_v94 (broadcastInDim S2048x128 ![0, 1] bcast_S1x128_S2048x128_0_1 : (⟨S1x128, .f32⟩ : BufTy).Contents (Elt F) → (⟨S2048x128, .f32⟩ : BufTy).Contents (Elt F)),
    binary main_v92 main_v94 main_v95 (mulf : (⟨S2048x128, .f32⟩ : BufTy).Contents (Elt F) → (⟨S2048x128, .f32⟩ : BufTy).Contents (Elt F) → (⟨S2048x128, .f32⟩ : BufTy).Contents (Elt F)),
    unary main_arg13 main_v96 (broadcastInDim S1x128 ![1] bcast_S128_S1x128_1 : (⟨S128, .f32⟩ : BufTy).Contents (Elt F) → (⟨S1x128, .f32⟩ : BufTy).Contents (Elt F)),
    unary main_v96 main_v97 (broadcastInDim S2048x128 ![0, 1] bcast_S1x128_S2048x128_0_1 : (⟨S1x128, .f32⟩ : BufTy).Contents (Elt F) → (⟨S2048x128, .f32⟩ : BufTy).Contents (Elt F)),
    binary main_v95 main_v97 main_v98 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2048x128, .f32⟩) main_call2_v0) (broadcastInDim S2048x128 ![] bcast_S_S2048x128),
    TRef.binary (TRef.of (T := ⟨S2048x128, .f32⟩) main_v98) (TRef.of (T := ⟨S2048x128, .f32⟩) main_call2_v0) (TRef.of (T := ⟨S2048x128, .f32⟩) main_v99) maximumf ]
/-- The buffers the group `lay02` writes. -/
abbrev lay02_W : List (Ref sig .tc) := [main_v68, main_v69, main_v70, main_v71, main_v72, main_v73, main_v74, main_cst_9, main_v75, main_v76, main_cst_10, main_v77, main_v78, main_v79, main_v80, main_v81, main_cst_11, main_v82, main_v83, main_cst_12, main_v84, main_v85, main_v86, main_v87, main_cst_13, main_v88, main_v89, main_v90, main_v91, main_v92, main_v93, main_v94, main_v95, main_v96, main_v97, main_v98, main_call2_cst, main_call2_v0, main_v99]
theorem lay02_writes : (lay02 : List (HloOp τ sig (Elt F))).Forall fun op => op.writes ⊆ (lay02_W.map (Proc.devRef (τ := τ) .tc)).toFinset := by
  simp only [lay02, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay02` does not write keeps its contents through it. -/
theorem lay02_keep (V : Valuation τ sig (Elt F)) {r : Ref sig .tc} (h : r ∉ lay02_W) :
    after lay02 V (no_index (Proc.devRef .tc r)) = V (Proc.devRef .tc r) :=
  after_of_writes_sub lay02 V lay02_writes h

/-- Graph 1's adjacency and features cut out of the stacked arguments and viewed as matrices. -/
def pre1 : List (HloOp τ sig (Elt F)) :=
  [ unary main_arg1 main_v100 ((extractStridedSlice S1x2048x2048 ![1, 0, 0] · slices_S4x2048x2048_S1x2048x2048_1_0_0) : (⟨S4x2048x2048, .f32⟩ : BufTy).Contents (Elt F) → (⟨S1x2048x2048, .f32⟩ : BufTy).Contents (Elt F)),
    reshape main_v100 main_v101 rfl shapeCasts_S1x2048x2048_S2048x2048,
    unary main_arg0 main_v102 ((extractStridedSlice S1x2048x128 ![1, 0, 0] · slices_S4x2048x128_S1x2048x128_1_0_0) : (⟨S4x2048x128, .f32⟩ : BufTy).Contents (Elt F) → (⟨S1x2048x128, .f32⟩ : BufTy).Contents (Elt F)),
    reshape main_v102 main_v103 rfl shapeCasts_S1x2048x128_S2048x128 ]
/-- The buffers the group `pre1` writes. -/
abbrev pre1_W : List (Ref sig .tc) := [main_v100, main_v101, main_v102, main_v103]
theorem pre1_writes : (pre1 : List (HloOp τ sig (Elt F))).Forall fun op => op.writes ⊆ (pre1_W.map (Proc.devRef (τ := τ) .tc)).toFinset := by
  simp only [pre1, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `pre1` does not write keeps its contents through it. -/
theorem pre1_keep (V : Valuation τ sig (Elt F)) {r : Ref sig .tc} (h : r ∉ pre1_W) :
    after pre1 V (no_index (Proc.devRef .tc r)) = V (Proc.devRef .tc r) :=
  after_of_writes_sub pre1 V pre1_writes h

/-- Layer 0 on graph 1. -/
def lay10 : List (HloOp τ sig (Elt F)) :=
  [ binary main_v103 main_arg2 main_v104 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v101 main_v105 ((transpose S2048x2048 [1, 0] · transposes_S2048x2048_S2048x2048_1_0) : (⟨S2048x2048, .f32⟩ : BufTy).Contents (Elt F) → (⟨S2048x2048, .f32⟩ : BufTy).Contents (Elt F)),
    binary main_v105 main_v104 main_v106 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg3 main_v107 (broadcastInDim S1x128 ![1] bcast_S128_S1x128_1 : (⟨S128, .f32⟩ : BufTy).Contents (Elt F) → (⟨S1x128, .f32⟩ : BufTy).Contents (Elt F)),
    unary main_v107 main_v108 (broadcastInDim S2048x128 ![0, 1] bcast_S1x128_S2048x128_0_1 : (⟨S1x128, .f32⟩ : BufTy).Contents (Elt F) → (⟨S2048x128, .f32⟩ : BufTy).Contents (Elt F)),
    binary main_v106 main_v108 main_v109 (addf : (⟨S2048x128, .f32⟩ : BufTy).Contents (Elt F) → (⟨S2048x128, .f32⟩ : BufTy).Contents (Elt F) → (⟨S2048x128, .f32⟩ : BufTy).Contents (Elt F)),
    binary main_v109 main_v103 main_v110 (addf : (⟨S2048x128, .f32⟩ : BufTy).Contents (Elt F) → (⟨S2048x128, .f32⟩ : BufTy).Contents (Elt F) → (⟨S2048x128, .f32⟩ : BufTy).Contents (Elt F)),
    nullary main_cst_14 (constant S_ .f32 0x00000000#32),
    binary main_v110 main_cst_14 main_v111 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v111 main_v112 (broadcastInDim S2048x1 ![0] bcast_S2048_S2048x1_0 : (⟨S2048, .f32⟩ : BufTy).Contents (Elt F) → (⟨S2048x1, .f32⟩ : BufTy).Contents (Elt F)),
    nullary main_cst_15 (constant S_ .f32 0x43000000#32),
    unary main_cst_15 main_v113 (broadcastInDim S2048x1 ![] bcast_S_S2048x1 : (⟨S_, .f32⟩ : BufTy).Contents (Elt F) → (⟨S2048x1, .f32⟩ : BufTy).Contents (Elt F)),
    binary main_v112 main_v113 main_v114 (Host.divf : (⟨S2048x1, .f32⟩ : BufTy).Contents (Elt F) → (⟨S2048x1, .f32⟩ : BufTy).Contents (Elt F) → (⟨S2048x1, .f32⟩ : BufTy).Contents (Elt F)),
    unary main_v114 main_v115 (broadcastInDim S2048x128 ![0, 1] bcast_S2048x1_S2048x128_0_1 : (⟨S2048x1, .f32⟩ : BufTy).Contents (Elt F) → (⟨S2048x128, .f32⟩ : BufTy).Contents (Elt F)),
    binary main_v110 main_v115 main_v116 (subf : (⟨S2048x128, .f32⟩ : BufTy).Contents (Elt F) → (⟨S2048x128, .f32⟩ : BufTy).Contents (Elt F) → (⟨S2048x128, .f32⟩ : BufTy).Contents (Elt F)),
    binary main_v116 main_v116 main_v117 (mulf : (⟨S2048x128, .f32⟩ : BufTy).Contents (Elt F) → (⟨S2048x128, .f32⟩ : BufTy).Contents (Elt F) → (⟨S2048x128, .f32⟩ : BufTy).Contents (Elt F)),
    nullary main_cst_16 (constant S_ .f32 0x00000000#32),
    binary main_v117 main_cst_16 main_v118 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v118 main_v119 (broadcastInDim S2048x1 ![0] bcast_S2048_S2048x1_0 : (⟨S2048, .f32⟩ : BufTy).Contents (Elt F) → (⟨S2048x1, .f32⟩ : BufTy).Contents (Elt F)),
    nullary main_cst_17 (constant S_ .f32 0x43000000#32),
    unary main_cst_17 main_v120 (broadcastInDim S2048x1 ![] bcast_S_S2048x1 : (⟨S_, .f32⟩ : BufTy).Contents (Elt F) → (⟨S2048x1, .f32⟩ : BufTy).Contents (Elt F)),
    binary main_v119 main_v120 main_v121 (Host.divf : (⟨S2048x1, .f32⟩ : BufTy).Contents (Elt F) → (⟨S2048x1, .f32⟩ : BufTy).Contents (Elt F) → (⟨S2048x1, .f32⟩ : BufTy).Contents (Elt F)),
    unary main_v114 main_v122 (broadcastInDim S2048x128 ![0, 1] bcast_S2048x1_S2048x128_0_1 : (⟨S2048x1, .f32⟩ : BufTy).Contents (Elt F) → (⟨S2048x128, .f32⟩ : BufTy).Contents (Elt F)),
    binary main_v110 main_v122 main_v123 (subf : (⟨S2048x128, .f32⟩ : BufTy).Contents (Elt F) → (⟨S2048x128, .f32⟩ : BufTy).Contents (Elt F) → (⟨S2048x128, .f32⟩ : BufTy).Contents (Elt F)),
    nullary main_cst_18 (constant S_ .f32 0x3727C5AC#32),
    unary main_cst_18 main_v124 (broadcastInDim S2048x1 ![] bcast_S_S2048x1 : (⟨S_, .f32⟩ : BufTy).Contents (Elt F) → (⟨S2048x1, .f32⟩ : BufTy).Contents (Elt F)),
    binary main_v121 main_v124 main_v125 (addf : (⟨S2048x1, .f32⟩ : BufTy).Contents (Elt F) → (⟨S2048x1, .f32⟩ : BufTy).Contents (Elt F) → (⟨S2048x1, .f32⟩ : BufTy).Contents (Elt F)),
    unary main_v125 main_v126 (Host.sqrt : (⟨S2048x1, .f32⟩ : BufTy).Contents (Elt F) → (⟨S2048x1, .f32⟩ : BufTy).Contents (Elt F)),
    unary main_v126 main_v127 (broadcastInDim S2048x128 ![0, 1] bcast_S2048x1_S2048x128_0_1 : (⟨S2048x1, .f32⟩ : BufTy).Contents (Elt F) → (⟨S2048x128, .f32⟩ : BufTy).Contents (Elt F)),
    binary main_v123 main_v127 main_v128 (Host.divf : (⟨S2048x128, .f32⟩ : BufTy).Contents (Elt F) → (⟨S2048x128, .f32⟩ : BufTy).Contents (Elt F) → (⟨S2048x128, .f32⟩ : BufTy).Contents (Elt F)),
    unary main_arg4 main_v129 (broadcastInDim S1x128 ![1] bcast_S128_S1x128_1 : (⟨S128, .f32⟩ : BufTy).Contents (Elt F) → (⟨S1x128, .f32⟩ : BufTy).Contents (Elt F)),
    unary main_v129 main_v130 (broadcastInDim S2048x128 ![0, 1] bcast_S1x128_S2048x128_0_1 : (⟨S1x128, .f32⟩ : BufTy).Contents (Elt F) → (⟨S2048x128, .f32⟩ : BufTy).Contents (Elt F)),
    binary main_v128 main_v130 main_v131 (mulf : (⟨S2048x128, .f32⟩ : BufTy).Contents (Elt F) → (⟨S2048x128, .f32⟩ : BufTy).Contents (Elt F) → (⟨S2048x128, .f32⟩ : BufTy).Contents (Elt F)),
    unary main_arg5 main_v132 (broadcastInDim S1x128 ![1] bcast_S128_S1x128_1 : (⟨S128, .f32⟩ : BufTy).Contents (Elt F) → (⟨S1x128, .f32⟩ : BufTy).Contents (Elt F)),
    unary main_v132 main_v133 (broadcastInDim S2048x128 ![0, 1] bcast_S1x128_S2048x128_0_1 : (⟨S1x128, .f32⟩ : BufTy).Contents (Elt F) → (⟨S2048x128, .f32⟩ : BufTy).Contents (Elt F)),
    binary main_v131 main_v133 main_v134 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2048x128, .f32⟩) main_call3_v0) (broadcastInDim S2048x128 ![] bcast_S_S2048x128),
    TRef.binary (TRef.of (T := ⟨S2048x128, .f32⟩) main_v134) (TRef.of (T := ⟨S2048x128, .f32⟩) main_call3_v0) (TRef.of (T := ⟨S2048x128, .f32⟩) main_v135) maximumf ]
/-- The buffers the group `lay10` writes. -/
abbrev lay10_W : List (Ref sig .tc) := [main_v104, main_v105, main_v106, main_v107, main_v108, main_v109, main_v110, main_cst_14, main_v111, main_v112, main_cst_15, main_v113, main_v114, main_v115, main_v116, main_v117, main_cst_16, main_v118, main_v119, main_cst_17, main_v120, main_v121, main_v122, main_v123, main_cst_18, main_v124, main_v125, main_v126, main_v127, main_v128, main_v129, main_v130, main_v131, main_v132, main_v133, main_v134, main_call3_cst, main_call3_v0, main_v135]
theorem lay10_writes : (lay10 : List (HloOp τ sig (Elt F))).Forall fun op => op.writes ⊆ (lay10_W.map (Proc.devRef (τ := τ) .tc)).toFinset := by
  simp only [lay10, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay10` does not write keeps its contents through it. -/
theorem lay10_keep (V : Valuation τ sig (Elt F)) {r : Ref sig .tc} (h : r ∉ lay10_W) :
    after lay10 V (no_index (Proc.devRef .tc r)) = V (Proc.devRef .tc r) :=
  after_of_writes_sub lay10 V lay10_writes h

/-- Layer 1 on graph 1. -/
def lay11 : List (HloOp τ sig (Elt F)) :=
  [ binary main_v135 main_arg6 main_v136 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v101 main_v137 ((transpose S2048x2048 [1, 0] · transposes_S2048x2048_S2048x2048_1_0) : (⟨S2048x2048, .f32⟩ : BufTy).Contents (Elt F) → (⟨S2048x2048, .f32⟩ : BufTy).Contents (Elt F)),
    binary main_v137 main_v136 main_v138 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg7 main_v139 (broadcastInDim S1x128 ![1] bcast_S128_S1x128_1 : (⟨S128, .f32⟩ : BufTy).Contents (Elt F) → (⟨S1x128, .f32⟩ : BufTy).Contents (Elt F)),
    unary main_v139 main_v140 (broadcastInDim S2048x128 ![0, 1] bcast_S1x128_S2048x128_0_1 : (⟨S1x128, .f32⟩ : BufTy).Contents (Elt F) → (⟨S2048x128, .f32⟩ : BufTy).Contents (Elt F)),
    binary main_v138 main_v140 main_v141 (addf : (⟨S2048x128, .f32⟩ : BufTy).Contents (Elt F) → (⟨S2048x128, .f32⟩ : BufTy).Contents (Elt F) → (⟨S2048x128, .f32⟩ : BufTy).Contents (Elt F)),
    binary main_v141 main_v135 main_v142 (addf : (⟨S2048x128, .f32⟩ : BufTy).Contents (Elt F) → (⟨S2048x128, .f32⟩ : BufTy).Contents (Elt F) → (⟨S2048x128, .f32⟩ : BufTy).Contents (Elt F)),
    nullary main_cst_19 (constant S_ .f32 0x00000000#32),
    binary main_v142 main_cst_19 main_v143 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v143 main_v144 (broadcastInDim S2048x1 ![0] bcast_S2048_S2048x1_0 : (⟨S2048, .f32⟩ : BufTy).Contents (Elt F) → (⟨S2048x1, .f32⟩ : BufTy).Contents (Elt F)),
    nullary main_cst_20 (constant S_ .f32 0x43000000#32),
    unary main_cst_20 main_v145 (broadcastInDim S2048x1 ![] bcast_S_S2048x1 : (⟨S_, .f32⟩ : BufTy).Contents (Elt F) → (⟨S2048x1, .f32⟩ : BufTy).Contents (Elt F)),
    binary main_v144 main_v145 main_v146 (Host.divf : (⟨S2048x1, .f32⟩ : BufTy).Contents (Elt F) → (⟨S2048x1, .f32⟩ : BufTy).Contents (Elt F) → (⟨S2048x1, .f32⟩ : BufTy).Contents (Elt F)),
    unary main_v146 main_v147 (broadcastInDim S2048x128 ![0, 1] bcast_S2048x1_S2048x128_0_1 : (⟨S2048x1, .f32⟩ : BufTy).Contents (Elt F) → (⟨S2048x128, .f32⟩ : BufTy).Contents (Elt F)),
    binary main_v142 main_v147 main_v148 (subf : (⟨S2048x128, .f32⟩ : BufTy).Contents (Elt F) → (⟨S2048x128, .f32⟩ : BufTy).Contents (Elt F) → (⟨S2048x128, .f32⟩ : BufTy).Contents (Elt F)),
    binary main_v148 main_v148 main_v149 (mulf : (⟨S2048x128, .f32⟩ : BufTy).Contents (Elt F) → (⟨S2048x128, .f32⟩ : BufTy).Contents (Elt F) → (⟨S2048x128, .f32⟩ : BufTy).Contents (Elt F)),
    nullary main_cst_21 (constant S_ .f32 0x00000000#32),
    binary main_v149 main_cst_21 main_v150 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v150 main_v151 (broadcastInDim S2048x1 ![0] bcast_S2048_S2048x1_0 : (⟨S2048, .f32⟩ : BufTy).Contents (Elt F) → (⟨S2048x1, .f32⟩ : BufTy).Contents (Elt F)),
    nullary main_cst_22 (constant S_ .f32 0x43000000#32),
    unary main_cst_22 main_v152 (broadcastInDim S2048x1 ![] bcast_S_S2048x1 : (⟨S_, .f32⟩ : BufTy).Contents (Elt F) → (⟨S2048x1, .f32⟩ : BufTy).Contents (Elt F)),
    binary main_v151 main_v152 main_v153 (Host.divf : (⟨S2048x1, .f32⟩ : BufTy).Contents (Elt F) → (⟨S2048x1, .f32⟩ : BufTy).Contents (Elt F) → (⟨S2048x1, .f32⟩ : BufTy).Contents (Elt F)),
    unary main_v146 main_v154 (broadcastInDim S2048x128 ![0, 1] bcast_S2048x1_S2048x128_0_1 : (⟨S2048x1, .f32⟩ : BufTy).Contents (Elt F) → (⟨S2048x128, .f32⟩ : BufTy).Contents (Elt F)),
    binary main_v142 main_v154 main_v155 (subf : (⟨S2048x128, .f32⟩ : BufTy).Contents (Elt F) → (⟨S2048x128, .f32⟩ : BufTy).Contents (Elt F) → (⟨S2048x128, .f32⟩ : BufTy).Contents (Elt F)),
    nullary main_cst_23 (constant S_ .f32 0x3727C5AC#32),
    unary main_cst_23 main_v156 (broadcastInDim S2048x1 ![] bcast_S_S2048x1 : (⟨S_, .f32⟩ : BufTy).Contents (Elt F) → (⟨S2048x1, .f32⟩ : BufTy).Contents (Elt F)),
    binary main_v153 main_v156 main_v157 (addf : (⟨S2048x1, .f32⟩ : BufTy).Contents (Elt F) → (⟨S2048x1, .f32⟩ : BufTy).Contents (Elt F) → (⟨S2048x1, .f32⟩ : BufTy).Contents (Elt F)),
    unary main_v157 main_v158 (Host.sqrt : (⟨S2048x1, .f32⟩ : BufTy).Contents (Elt F) → (⟨S2048x1, .f32⟩ : BufTy).Contents (Elt F)),
    unary main_v158 main_v159 (broadcastInDim S2048x128 ![0, 1] bcast_S2048x1_S2048x128_0_1 : (⟨S2048x1, .f32⟩ : BufTy).Contents (Elt F) → (⟨S2048x128, .f32⟩ : BufTy).Contents (Elt F)),
    binary main_v155 main_v159 main_v160 (Host.divf : (⟨S2048x128, .f32⟩ : BufTy).Contents (Elt F) → (⟨S2048x128, .f32⟩ : BufTy).Contents (Elt F) → (⟨S2048x128, .f32⟩ : BufTy).Contents (Elt F)),
    unary main_arg8 main_v161 (broadcastInDim S1x128 ![1] bcast_S128_S1x128_1 : (⟨S128, .f32⟩ : BufTy).Contents (Elt F) → (⟨S1x128, .f32⟩ : BufTy).Contents (Elt F)),
    unary main_v161 main_v162 (broadcastInDim S2048x128 ![0, 1] bcast_S1x128_S2048x128_0_1 : (⟨S1x128, .f32⟩ : BufTy).Contents (Elt F) → (⟨S2048x128, .f32⟩ : BufTy).Contents (Elt F)),
    binary main_v160 main_v162 main_v163 (mulf : (⟨S2048x128, .f32⟩ : BufTy).Contents (Elt F) → (⟨S2048x128, .f32⟩ : BufTy).Contents (Elt F) → (⟨S2048x128, .f32⟩ : BufTy).Contents (Elt F)),
    unary main_arg9 main_v164 (broadcastInDim S1x128 ![1] bcast_S128_S1x128_1 : (⟨S128, .f32⟩ : BufTy).Contents (Elt F) → (⟨S1x128, .f32⟩ : BufTy).Contents (Elt F)),
    unary main_v164 main_v165 (broadcastInDim S2048x128 ![0, 1] bcast_S1x128_S2048x128_0_1 : (⟨S1x128, .f32⟩ : BufTy).Contents (Elt F) → (⟨S2048x128, .f32⟩ : BufTy).Contents (Elt F)),
    binary main_v163 main_v165 main_v166 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048x128, .f32⟩) main_call4_v0) (broadcastInDim S2048x128 ![] bcast_S_S2048x128),
    TRef.binary (TRef.of (T := ⟨S2048x128, .f32⟩) main_v166) (TRef.of (T := ⟨S2048x128, .f32⟩) main_call4_v0) (TRef.of (T := ⟨S2048x128, .f32⟩) main_v167) maximumf ]
/-- The buffers the group `lay11` writes. -/
abbrev lay11_W : List (Ref sig .tc) := [main_v136, main_v137, main_v138, main_v139, main_v140, main_v141, main_v142, main_cst_19, main_v143, main_v144, main_cst_20, main_v145, main_v146, main_v147, main_v148, main_v149, main_cst_21, main_v150, main_v151, main_cst_22, main_v152, main_v153, main_v154, main_v155, main_cst_23, main_v156, main_v157, main_v158, main_v159, main_v160, main_v161, main_v162, main_v163, main_v164, main_v165, main_v166, main_call4_cst, main_call4_v0, main_v167]
theorem lay11_writes : (lay11 : List (HloOp τ sig (Elt F))).Forall fun op => op.writes ⊆ (lay11_W.map (Proc.devRef (τ := τ) .tc)).toFinset := by
  simp only [lay11, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay11` does not write keeps its contents through it. -/
theorem lay11_keep (V : Valuation τ sig (Elt F)) {r : Ref sig .tc} (h : r ∉ lay11_W) :
    after lay11 V (no_index (Proc.devRef .tc r)) = V (Proc.devRef .tc r) :=
  after_of_writes_sub lay11 V lay11_writes h

/-- Layer 2 on graph 1. -/
def lay12 : List (HloOp τ sig (Elt F)) :=
  [ binary main_v167 main_arg10 main_v168 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v101 main_v169 ((transpose S2048x2048 [1, 0] · transposes_S2048x2048_S2048x2048_1_0) : (⟨S2048x2048, .f32⟩ : BufTy).Contents (Elt F) → (⟨S2048x2048, .f32⟩ : BufTy).Contents (Elt F)),
    binary main_v169 main_v168 main_v170 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg11 main_v171 (broadcastInDim S1x128 ![1] bcast_S128_S1x128_1 : (⟨S128, .f32⟩ : BufTy).Contents (Elt F) → (⟨S1x128, .f32⟩ : BufTy).Contents (Elt F)),
    unary main_v171 main_v172 (broadcastInDim S2048x128 ![0, 1] bcast_S1x128_S2048x128_0_1 : (⟨S1x128, .f32⟩ : BufTy).Contents (Elt F) → (⟨S2048x128, .f32⟩ : BufTy).Contents (Elt F)),
    binary main_v170 main_v172 main_v173 (addf : (⟨S2048x128, .f32⟩ : BufTy).Contents (Elt F) → (⟨S2048x128, .f32⟩ : BufTy).Contents (Elt F) → (⟨S2048x128, .f32⟩ : BufTy).Contents (Elt F)),
    binary main_v173 main_v167 main_v174 (addf : (⟨S2048x128, .f32⟩ : BufTy).Contents (Elt F) → (⟨S2048x128, .f32⟩ : BufTy).Contents (Elt F) → (⟨S2048x128, .f32⟩ : BufTy).Contents (Elt F)),
    nullary main_cst_24 (constant S_ .f32 0x00000000#32),
    binary main_v174 main_cst_24 main_v175 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v175 main_v176 (broadcastInDim S2048x1 ![0] bcast_S2048_S2048x1_0 : (⟨S2048, .f32⟩ : BufTy).Contents (Elt F) → (⟨S2048x1, .f32⟩ : BufTy).Contents (Elt F)),
    nullary main_cst_25 (constant S_ .f32 0x43000000#32),
    unary main_cst_25 main_v177 (broadcastInDim S2048x1 ![] bcast_S_S2048x1 : (⟨S_, .f32⟩ : BufTy).Contents (Elt F) → (⟨S2048x1, .f32⟩ : BufTy).Contents (Elt F)),
    binary main_v176 main_v177 main_v178 (Host.divf : (⟨S2048x1, .f32⟩ : BufTy).Contents (Elt F) → (⟨S2048x1, .f32⟩ : BufTy).Contents (Elt F) → (⟨S2048x1, .f32⟩ : BufTy).Contents (Elt F)),
    unary main_v178 main_v179 (broadcastInDim S2048x128 ![0, 1] bcast_S2048x1_S2048x128_0_1 : (⟨S2048x1, .f32⟩ : BufTy).Contents (Elt F) → (⟨S2048x128, .f32⟩ : BufTy).Contents (Elt F)),
    binary main_v174 main_v179 main_v180 (subf : (⟨S2048x128, .f32⟩ : BufTy).Contents (Elt F) → (⟨S2048x128, .f32⟩ : BufTy).Contents (Elt F) → (⟨S2048x128, .f32⟩ : BufTy).Contents (Elt F)),
    binary main_v180 main_v180 main_v181 (mulf : (⟨S2048x128, .f32⟩ : BufTy).Contents (Elt F) → (⟨S2048x128, .f32⟩ : BufTy).Contents (Elt F) → (⟨S2048x128, .f32⟩ : BufTy).Contents (Elt F)),
    nullary main_cst_26 (constant S_ .f32 0x00000000#32),
    binary main_v181 main_cst_26 main_v182 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v182 main_v183 (broadcastInDim S2048x1 ![0] bcast_S2048_S2048x1_0 : (⟨S2048, .f32⟩ : BufTy).Contents (Elt F) → (⟨S2048x1, .f32⟩ : BufTy).Contents (Elt F)),
    nullary main_cst_27 (constant S_ .f32 0x43000000#32),
    unary main_cst_27 main_v184 (broadcastInDim S2048x1 ![] bcast_S_S2048x1 : (⟨S_, .f32⟩ : BufTy).Contents (Elt F) → (⟨S2048x1, .f32⟩ : BufTy).Contents (Elt F)),
    binary main_v183 main_v184 main_v185 (Host.divf : (⟨S2048x1, .f32⟩ : BufTy).Contents (Elt F) → (⟨S2048x1, .f32⟩ : BufTy).Contents (Elt F) → (⟨S2048x1, .f32⟩ : BufTy).Contents (Elt F)),
    unary main_v178 main_v186 (broadcastInDim S2048x128 ![0, 1] bcast_S2048x1_S2048x128_0_1 : (⟨S2048x1, .f32⟩ : BufTy).Contents (Elt F) → (⟨S2048x128, .f32⟩ : BufTy).Contents (Elt F)),
    binary main_v174 main_v186 main_v187 (subf : (⟨S2048x128, .f32⟩ : BufTy).Contents (Elt F) → (⟨S2048x128, .f32⟩ : BufTy).Contents (Elt F) → (⟨S2048x128, .f32⟩ : BufTy).Contents (Elt F)),
    nullary main_cst_28 (constant S_ .f32 0x3727C5AC#32),
    unary main_cst_28 main_v188 (broadcastInDim S2048x1 ![] bcast_S_S2048x1 : (⟨S_, .f32⟩ : BufTy).Contents (Elt F) → (⟨S2048x1, .f32⟩ : BufTy).Contents (Elt F)),
    binary main_v185 main_v188 main_v189 (addf : (⟨S2048x1, .f32⟩ : BufTy).Contents (Elt F) → (⟨S2048x1, .f32⟩ : BufTy).Contents (Elt F) → (⟨S2048x1, .f32⟩ : BufTy).Contents (Elt F)),
    unary main_v189 main_v190 (Host.sqrt : (⟨S2048x1, .f32⟩ : BufTy).Contents (Elt F) → (⟨S2048x1, .f32⟩ : BufTy).Contents (Elt F)),
    unary main_v190 main_v191 (broadcastInDim S2048x128 ![0, 1] bcast_S2048x1_S2048x128_0_1 : (⟨S2048x1, .f32⟩ : BufTy).Contents (Elt F) → (⟨S2048x128, .f32⟩ : BufTy).Contents (Elt F)),
    binary main_v187 main_v191 main_v192 (Host.divf : (⟨S2048x128, .f32⟩ : BufTy).Contents (Elt F) → (⟨S2048x128, .f32⟩ : BufTy).Contents (Elt F) → (⟨S2048x128, .f32⟩ : BufTy).Contents (Elt F)),
    unary main_arg12 main_v193 (broadcastInDim S1x128 ![1] bcast_S128_S1x128_1 : (⟨S128, .f32⟩ : BufTy).Contents (Elt F) → (⟨S1x128, .f32⟩ : BufTy).Contents (Elt F)),
    unary main_v193 main_v194 (broadcastInDim S2048x128 ![0, 1] bcast_S1x128_S2048x128_0_1 : (⟨S1x128, .f32⟩ : BufTy).Contents (Elt F) → (⟨S2048x128, .f32⟩ : BufTy).Contents (Elt F)),
    binary main_v192 main_v194 main_v195 (mulf : (⟨S2048x128, .f32⟩ : BufTy).Contents (Elt F) → (⟨S2048x128, .f32⟩ : BufTy).Contents (Elt F) → (⟨S2048x128, .f32⟩ : BufTy).Contents (Elt F)),
    unary main_arg13 main_v196 (broadcastInDim S1x128 ![1] bcast_S128_S1x128_1 : (⟨S128, .f32⟩ : BufTy).Contents (Elt F) → (⟨S1x128, .f32⟩ : BufTy).Contents (Elt F)),
    unary main_v196 main_v197 (broadcastInDim S2048x128 ![0, 1] bcast_S1x128_S2048x128_0_1 : (⟨S1x128, .f32⟩ : BufTy).Contents (Elt F) → (⟨S2048x128, .f32⟩ : BufTy).Contents (Elt F)),
    binary main_v195 main_v197 main_v198 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S2048x128, .f32⟩) main_call5_v0) (broadcastInDim S2048x128 ![] bcast_S_S2048x128),
    TRef.binary (TRef.of (T := ⟨S2048x128, .f32⟩) main_v198) (TRef.of (T := ⟨S2048x128, .f32⟩) main_call5_v0) (TRef.of (T := ⟨S2048x128, .f32⟩) main_v199) maximumf ]
/-- The buffers the group `lay12` writes. -/
abbrev lay12_W : List (Ref sig .tc) := [main_v168, main_v169, main_v170, main_v171, main_v172, main_v173, main_v174, main_cst_24, main_v175, main_v176, main_cst_25, main_v177, main_v178, main_v179, main_v180, main_v181, main_cst_26, main_v182, main_v183, main_cst_27, main_v184, main_v185, main_v186, main_v187, main_cst_28, main_v188, main_v189, main_v190, main_v191, main_v192, main_v193, main_v194, main_v195, main_v196, main_v197, main_v198, main_call5_cst, main_call5_v0, main_v199]
theorem lay12_writes : (lay12 : List (HloOp τ sig (Elt F))).Forall fun op => op.writes ⊆ (lay12_W.map (Proc.devRef (τ := τ) .tc)).toFinset := by
  simp only [lay12, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay12` does not write keeps its contents through it. -/
theorem lay12_keep (V : Valuation τ sig (Elt F)) {r : Ref sig .tc} (h : r ∉ lay12_W) :
    after lay12 V (no_index (Proc.devRef .tc r)) = V (Proc.devRef .tc r) :=
  after_of_writes_sub lay12 V lay12_writes h

/-- Graph 2's adjacency and features cut out of the stacked arguments and viewed as matrices. -/
def pre2 : List (HloOp τ sig (Elt F)) :=
  [ unary main_arg1 main_v200 ((extractStridedSlice S1x2048x2048 ![2, 0, 0] · slices_S4x2048x2048_S1x2048x2048_2_0_0) : (⟨S4x2048x2048, .f32⟩ : BufTy).Contents (Elt F) → (⟨S1x2048x2048, .f32⟩ : BufTy).Contents (Elt F)),
    reshape main_v200 main_v201 rfl shapeCasts_S1x2048x2048_S2048x2048,
    unary main_arg0 main_v202 ((extractStridedSlice S1x2048x128 ![2, 0, 0] · slices_S4x2048x128_S1x2048x128_2_0_0) : (⟨S4x2048x128, .f32⟩ : BufTy).Contents (Elt F) → (⟨S1x2048x128, .f32⟩ : BufTy).Contents (Elt F)),
    reshape main_v202 main_v203 rfl shapeCasts_S1x2048x128_S2048x128 ]
/-- The buffers the group `pre2` writes. -/
abbrev pre2_W : List (Ref sig .tc) := [main_v200, main_v201, main_v202, main_v203]
theorem pre2_writes : (pre2 : List (HloOp τ sig (Elt F))).Forall fun op => op.writes ⊆ (pre2_W.map (Proc.devRef (τ := τ) .tc)).toFinset := by
  simp only [pre2, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `pre2` does not write keeps its contents through it. -/
theorem pre2_keep (V : Valuation τ sig (Elt F)) {r : Ref sig .tc} (h : r ∉ pre2_W) :
    after pre2 V (no_index (Proc.devRef .tc r)) = V (Proc.devRef .tc r) :=
  after_of_writes_sub pre2 V pre2_writes h

/-- Layer 0 on graph 2. -/
def lay20 : List (HloOp τ sig (Elt F)) :=
  [ binary main_v203 main_arg2 main_v204 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v201 main_v205 ((transpose S2048x2048 [1, 0] · transposes_S2048x2048_S2048x2048_1_0) : (⟨S2048x2048, .f32⟩ : BufTy).Contents (Elt F) → (⟨S2048x2048, .f32⟩ : BufTy).Contents (Elt F)),
    binary main_v205 main_v204 main_v206 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg3 main_v207 (broadcastInDim S1x128 ![1] bcast_S128_S1x128_1 : (⟨S128, .f32⟩ : BufTy).Contents (Elt F) → (⟨S1x128, .f32⟩ : BufTy).Contents (Elt F)),
    unary main_v207 main_v208 (broadcastInDim S2048x128 ![0, 1] bcast_S1x128_S2048x128_0_1 : (⟨S1x128, .f32⟩ : BufTy).Contents (Elt F) → (⟨S2048x128, .f32⟩ : BufTy).Contents (Elt F)),
    binary main_v206 main_v208 main_v209 (addf : (⟨S2048x128, .f32⟩ : BufTy).Contents (Elt F) → (⟨S2048x128, .f32⟩ : BufTy).Contents (Elt F) → (⟨S2048x128, .f32⟩ : BufTy).Contents (Elt F)),
    binary main_v209 main_v203 main_v210 (addf : (⟨S2048x128, .f32⟩ : BufTy).Contents (Elt F) → (⟨S2048x128, .f32⟩ : BufTy).Contents (Elt F) → (⟨S2048x128, .f32⟩ : BufTy).Contents (Elt F)),
    nullary main_cst_29 (constant S_ .f32 0x00000000#32),
    binary main_v210 main_cst_29 main_v211 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v211 main_v212 (broadcastInDim S2048x1 ![0] bcast_S2048_S2048x1_0 : (⟨S2048, .f32⟩ : BufTy).Contents (Elt F) → (⟨S2048x1, .f32⟩ : BufTy).Contents (Elt F)),
    nullary main_cst_30 (constant S_ .f32 0x43000000#32),
    unary main_cst_30 main_v213 (broadcastInDim S2048x1 ![] bcast_S_S2048x1 : (⟨S_, .f32⟩ : BufTy).Contents (Elt F) → (⟨S2048x1, .f32⟩ : BufTy).Contents (Elt F)),
    binary main_v212 main_v213 main_v214 (Host.divf : (⟨S2048x1, .f32⟩ : BufTy).Contents (Elt F) → (⟨S2048x1, .f32⟩ : BufTy).Contents (Elt F) → (⟨S2048x1, .f32⟩ : BufTy).Contents (Elt F)),
    unary main_v214 main_v215 (broadcastInDim S2048x128 ![0, 1] bcast_S2048x1_S2048x128_0_1 : (⟨S2048x1, .f32⟩ : BufTy).Contents (Elt F) → (⟨S2048x128, .f32⟩ : BufTy).Contents (Elt F)),
    binary main_v210 main_v215 main_v216 (subf : (⟨S2048x128, .f32⟩ : BufTy).Contents (Elt F) → (⟨S2048x128, .f32⟩ : BufTy).Contents (Elt F) → (⟨S2048x128, .f32⟩ : BufTy).Contents (Elt F)),
    binary main_v216 main_v216 main_v217 (mulf : (⟨S2048x128, .f32⟩ : BufTy).Contents (Elt F) → (⟨S2048x128, .f32⟩ : BufTy).Contents (Elt F) → (⟨S2048x128, .f32⟩ : BufTy).Contents (Elt F)),
    nullary main_cst_31 (constant S_ .f32 0x00000000#32),
    binary main_v217 main_cst_31 main_v218 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v218 main_v219 (broadcastInDim S2048x1 ![0] bcast_S2048_S2048x1_0 : (⟨S2048, .f32⟩ : BufTy).Contents (Elt F) → (⟨S2048x1, .f32⟩ : BufTy).Contents (Elt F)),
    nullary main_cst_32 (constant S_ .f32 0x43000000#32),
    unary main_cst_32 main_v220 (broadcastInDim S2048x1 ![] bcast_S_S2048x1 : (⟨S_, .f32⟩ : BufTy).Contents (Elt F) → (⟨S2048x1, .f32⟩ : BufTy).Contents (Elt F)),
    binary main_v219 main_v220 main_v221 (Host.divf : (⟨S2048x1, .f32⟩ : BufTy).Contents (Elt F) → (⟨S2048x1, .f32⟩ : BufTy).Contents (Elt F) → (⟨S2048x1, .f32⟩ : BufTy).Contents (Elt F)),
    unary main_v214 main_v222 (broadcastInDim S2048x128 ![0, 1] bcast_S2048x1_S2048x128_0_1 : (⟨S2048x1, .f32⟩ : BufTy).Contents (Elt F) → (⟨S2048x128, .f32⟩ : BufTy).Contents (Elt F)),
    binary main_v210 main_v222 main_v223 (subf : (⟨S2048x128, .f32⟩ : BufTy).Contents (Elt F) → (⟨S2048x128, .f32⟩ : BufTy).Contents (Elt F) → (⟨S2048x128, .f32⟩ : BufTy).Contents (Elt F)),
    nullary main_cst_33 (constant S_ .f32 0x3727C5AC#32),
    unary main_cst_33 main_v224 (broadcastInDim S2048x1 ![] bcast_S_S2048x1 : (⟨S_, .f32⟩ : BufTy).Contents (Elt F) → (⟨S2048x1, .f32⟩ : BufTy).Contents (Elt F)),
    binary main_v221 main_v224 main_v225 (addf : (⟨S2048x1, .f32⟩ : BufTy).Contents (Elt F) → (⟨S2048x1, .f32⟩ : BufTy).Contents (Elt F) → (⟨S2048x1, .f32⟩ : BufTy).Contents (Elt F)),
    unary main_v225 main_v226 (Host.sqrt : (⟨S2048x1, .f32⟩ : BufTy).Contents (Elt F) → (⟨S2048x1, .f32⟩ : BufTy).Contents (Elt F)),
    unary main_v226 main_v227 (broadcastInDim S2048x128 ![0, 1] bcast_S2048x1_S2048x128_0_1 : (⟨S2048x1, .f32⟩ : BufTy).Contents (Elt F) → (⟨S2048x128, .f32⟩ : BufTy).Contents (Elt F)),
    binary main_v223 main_v227 main_v228 (Host.divf : (⟨S2048x128, .f32⟩ : BufTy).Contents (Elt F) → (⟨S2048x128, .f32⟩ : BufTy).Contents (Elt F) → (⟨S2048x128, .f32⟩ : BufTy).Contents (Elt F)),
    unary main_arg4 main_v229 (broadcastInDim S1x128 ![1] bcast_S128_S1x128_1 : (⟨S128, .f32⟩ : BufTy).Contents (Elt F) → (⟨S1x128, .f32⟩ : BufTy).Contents (Elt F)),
    unary main_v229 main_v230 (broadcastInDim S2048x128 ![0, 1] bcast_S1x128_S2048x128_0_1 : (⟨S1x128, .f32⟩ : BufTy).Contents (Elt F) → (⟨S2048x128, .f32⟩ : BufTy).Contents (Elt F)),
    binary main_v228 main_v230 main_v231 (mulf : (⟨S2048x128, .f32⟩ : BufTy).Contents (Elt F) → (⟨S2048x128, .f32⟩ : BufTy).Contents (Elt F) → (⟨S2048x128, .f32⟩ : BufTy).Contents (Elt F)),
    unary main_arg5 main_v232 (broadcastInDim S1x128 ![1] bcast_S128_S1x128_1 : (⟨S128, .f32⟩ : BufTy).Contents (Elt F) → (⟨S1x128, .f32⟩ : BufTy).Contents (Elt F)),
    unary main_v232 main_v233 (broadcastInDim S2048x128 ![0, 1] bcast_S1x128_S2048x128_0_1 : (⟨S1x128, .f32⟩ : BufTy).Contents (Elt F) → (⟨S2048x128, .f32⟩ : BufTy).Contents (Elt F)),
    binary main_v231 main_v233 main_v234 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S2048x128, .f32⟩) main_call6_v0) (broadcastInDim S2048x128 ![] bcast_S_S2048x128),
    TRef.binary (TRef.of (T := ⟨S2048x128, .f32⟩) main_v234) (TRef.of (T := ⟨S2048x128, .f32⟩) main_call6_v0) (TRef.of (T := ⟨S2048x128, .f32⟩) main_v235) maximumf ]
/-- The buffers the group `lay20` writes. -/
abbrev lay20_W : List (Ref sig .tc) := [main_v204, main_v205, main_v206, main_v207, main_v208, main_v209, main_v210, main_cst_29, main_v211, main_v212, main_cst_30, main_v213, main_v214, main_v215, main_v216, main_v217, main_cst_31, main_v218, main_v219, main_cst_32, main_v220, main_v221, main_v222, main_v223, main_cst_33, main_v224, main_v225, main_v226, main_v227, main_v228, main_v229, main_v230, main_v231, main_v232, main_v233, main_v234, main_call6_cst, main_call6_v0, main_v235]
theorem lay20_writes : (lay20 : List (HloOp τ sig (Elt F))).Forall fun op => op.writes ⊆ (lay20_W.map (Proc.devRef (τ := τ) .tc)).toFinset := by
  simp only [lay20, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay20` does not write keeps its contents through it. -/
theorem lay20_keep (V : Valuation τ sig (Elt F)) {r : Ref sig .tc} (h : r ∉ lay20_W) :
    after lay20 V (no_index (Proc.devRef .tc r)) = V (Proc.devRef .tc r) :=
  after_of_writes_sub lay20 V lay20_writes h

/-- Layer 1 on graph 2. -/
def lay21 : List (HloOp τ sig (Elt F)) :=
  [ binary main_v235 main_arg6 main_v236 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v201 main_v237 ((transpose S2048x2048 [1, 0] · transposes_S2048x2048_S2048x2048_1_0) : (⟨S2048x2048, .f32⟩ : BufTy).Contents (Elt F) → (⟨S2048x2048, .f32⟩ : BufTy).Contents (Elt F)),
    binary main_v237 main_v236 main_v238 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg7 main_v239 (broadcastInDim S1x128 ![1] bcast_S128_S1x128_1 : (⟨S128, .f32⟩ : BufTy).Contents (Elt F) → (⟨S1x128, .f32⟩ : BufTy).Contents (Elt F)),
    unary main_v239 main_v240 (broadcastInDim S2048x128 ![0, 1] bcast_S1x128_S2048x128_0_1 : (⟨S1x128, .f32⟩ : BufTy).Contents (Elt F) → (⟨S2048x128, .f32⟩ : BufTy).Contents (Elt F)),
    binary main_v238 main_v240 main_v241 (addf : (⟨S2048x128, .f32⟩ : BufTy).Contents (Elt F) → (⟨S2048x128, .f32⟩ : BufTy).Contents (Elt F) → (⟨S2048x128, .f32⟩ : BufTy).Contents (Elt F)),
    binary main_v241 main_v235 main_v242 (addf : (⟨S2048x128, .f32⟩ : BufTy).Contents (Elt F) → (⟨S2048x128, .f32⟩ : BufTy).Contents (Elt F) → (⟨S2048x128, .f32⟩ : BufTy).Contents (Elt F)),
    nullary main_cst_34 (constant S_ .f32 0x00000000#32),
    binary main_v242 main_cst_34 main_v243 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v243 main_v244 (broadcastInDim S2048x1 ![0] bcast_S2048_S2048x1_0 : (⟨S2048, .f32⟩ : BufTy).Contents (Elt F) → (⟨S2048x1, .f32⟩ : BufTy).Contents (Elt F)),
    nullary main_cst_35 (constant S_ .f32 0x43000000#32),
    unary main_cst_35 main_v245 (broadcastInDim S2048x1 ![] bcast_S_S2048x1 : (⟨S_, .f32⟩ : BufTy).Contents (Elt F) → (⟨S2048x1, .f32⟩ : BufTy).Contents (Elt F)),
    binary main_v244 main_v245 main_v246 (Host.divf : (⟨S2048x1, .f32⟩ : BufTy).Contents (Elt F) → (⟨S2048x1, .f32⟩ : BufTy).Contents (Elt F) → (⟨S2048x1, .f32⟩ : BufTy).Contents (Elt F)),
    unary main_v246 main_v247 (broadcastInDim S2048x128 ![0, 1] bcast_S2048x1_S2048x128_0_1 : (⟨S2048x1, .f32⟩ : BufTy).Contents (Elt F) → (⟨S2048x128, .f32⟩ : BufTy).Contents (Elt F)),
    binary main_v242 main_v247 main_v248 (subf : (⟨S2048x128, .f32⟩ : BufTy).Contents (Elt F) → (⟨S2048x128, .f32⟩ : BufTy).Contents (Elt F) → (⟨S2048x128, .f32⟩ : BufTy).Contents (Elt F)),
    binary main_v248 main_v248 main_v249 (mulf : (⟨S2048x128, .f32⟩ : BufTy).Contents (Elt F) → (⟨S2048x128, .f32⟩ : BufTy).Contents (Elt F) → (⟨S2048x128, .f32⟩ : BufTy).Contents (Elt F)),
    nullary main_cst_36 (constant S_ .f32 0x00000000#32),
    binary main_v249 main_cst_36 main_v250 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v250 main_v251 (broadcastInDim S2048x1 ![0] bcast_S2048_S2048x1_0 : (⟨S2048, .f32⟩ : BufTy).Contents (Elt F) → (⟨S2048x1, .f32⟩ : BufTy).Contents (Elt F)),
    nullary main_cst_37 (constant S_ .f32 0x43000000#32),
    unary main_cst_37 main_v252 (broadcastInDim S2048x1 ![] bcast_S_S2048x1 : (⟨S_, .f32⟩ : BufTy).Contents (Elt F) → (⟨S2048x1, .f32⟩ : BufTy).Contents (Elt F)),
    binary main_v251 main_v252 main_v253 (Host.divf : (⟨S2048x1, .f32⟩ : BufTy).Contents (Elt F) → (⟨S2048x1, .f32⟩ : BufTy).Contents (Elt F) → (⟨S2048x1, .f32⟩ : BufTy).Contents (Elt F)),
    unary main_v246 main_v254 (broadcastInDim S2048x128 ![0, 1] bcast_S2048x1_S2048x128_0_1 : (⟨S2048x1, .f32⟩ : BufTy).Contents (Elt F) → (⟨S2048x128, .f32⟩ : BufTy).Contents (Elt F)),
    binary main_v242 main_v254 main_v255 (subf : (⟨S2048x128, .f32⟩ : BufTy).Contents (Elt F) → (⟨S2048x128, .f32⟩ : BufTy).Contents (Elt F) → (⟨S2048x128, .f32⟩ : BufTy).Contents (Elt F)),
    nullary main_cst_38 (constant S_ .f32 0x3727C5AC#32),
    unary main_cst_38 main_v256 (broadcastInDim S2048x1 ![] bcast_S_S2048x1 : (⟨S_, .f32⟩ : BufTy).Contents (Elt F) → (⟨S2048x1, .f32⟩ : BufTy).Contents (Elt F)),
    binary main_v253 main_v256 main_v257 (addf : (⟨S2048x1, .f32⟩ : BufTy).Contents (Elt F) → (⟨S2048x1, .f32⟩ : BufTy).Contents (Elt F) → (⟨S2048x1, .f32⟩ : BufTy).Contents (Elt F)),
    unary main_v257 main_v258 (Host.sqrt : (⟨S2048x1, .f32⟩ : BufTy).Contents (Elt F) → (⟨S2048x1, .f32⟩ : BufTy).Contents (Elt F)),
    unary main_v258 main_v259 (broadcastInDim S2048x128 ![0, 1] bcast_S2048x1_S2048x128_0_1 : (⟨S2048x1, .f32⟩ : BufTy).Contents (Elt F) → (⟨S2048x128, .f32⟩ : BufTy).Contents (Elt F)),
    binary main_v255 main_v259 main_v260 (Host.divf : (⟨S2048x128, .f32⟩ : BufTy).Contents (Elt F) → (⟨S2048x128, .f32⟩ : BufTy).Contents (Elt F) → (⟨S2048x128, .f32⟩ : BufTy).Contents (Elt F)),
    unary main_arg8 main_v261 (broadcastInDim S1x128 ![1] bcast_S128_S1x128_1 : (⟨S128, .f32⟩ : BufTy).Contents (Elt F) → (⟨S1x128, .f32⟩ : BufTy).Contents (Elt F)),
    unary main_v261 main_v262 (broadcastInDim S2048x128 ![0, 1] bcast_S1x128_S2048x128_0_1 : (⟨S1x128, .f32⟩ : BufTy).Contents (Elt F) → (⟨S2048x128, .f32⟩ : BufTy).Contents (Elt F)),
    binary main_v260 main_v262 main_v263 (mulf : (⟨S2048x128, .f32⟩ : BufTy).Contents (Elt F) → (⟨S2048x128, .f32⟩ : BufTy).Contents (Elt F) → (⟨S2048x128, .f32⟩ : BufTy).Contents (Elt F)),
    unary main_arg9 main_v264 (broadcastInDim S1x128 ![1] bcast_S128_S1x128_1 : (⟨S128, .f32⟩ : BufTy).Contents (Elt F) → (⟨S1x128, .f32⟩ : BufTy).Contents (Elt F)),
    unary main_v264 main_v265 (broadcastInDim S2048x128 ![0, 1] bcast_S1x128_S2048x128_0_1 : (⟨S1x128, .f32⟩ : BufTy).Contents (Elt F) → (⟨S2048x128, .f32⟩ : BufTy).Contents (Elt F)),
    binary main_v263 main_v265 main_v266 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S2048x128, .f32⟩) main_call7_v0) (broadcastInDim S2048x128 ![] bcast_S_S2048x128),
    TRef.binary (TRef.of (T := ⟨S2048x128, .f32⟩) main_v266) (TRef.of (T := ⟨S2048x128, .f32⟩) main_call7_v0) (TRef.of (T := ⟨S2048x128, .f32⟩) main_v267) maximumf ]
/-- The buffers the group `lay21` writes. -/
abbrev lay21_W : List (Ref sig .tc) := [main_v236, main_v237, main_v238, main_v239, main_v240, main_v241, main_v242, main_cst_34, main_v243, main_v244, main_cst_35, main_v245, main_v246, main_v247, main_v248, main_v249, main_cst_36, main_v250, main_v251, main_cst_37, main_v252, main_v253, main_v254, main_v255, main_cst_38, main_v256, main_v257, main_v258, main_v259, main_v260, main_v261, main_v262, main_v263, main_v264, main_v265, main_v266, main_call7_cst, main_call7_v0, main_v267]
theorem lay21_writes : (lay21 : List (HloOp τ sig (Elt F))).Forall fun op => op.writes ⊆ (lay21_W.map (Proc.devRef (τ := τ) .tc)).toFinset := by
  simp only [lay21, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay21` does not write keeps its contents through it. -/
theorem lay21_keep (V : Valuation τ sig (Elt F)) {r : Ref sig .tc} (h : r ∉ lay21_W) :
    after lay21 V (no_index (Proc.devRef .tc r)) = V (Proc.devRef .tc r) :=
  after_of_writes_sub lay21 V lay21_writes h

/-- Layer 2 on graph 2. -/
def lay22 : List (HloOp τ sig (Elt F)) :=
  [ binary main_v267 main_arg10 main_v268 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v201 main_v269 ((transpose S2048x2048 [1, 0] · transposes_S2048x2048_S2048x2048_1_0) : (⟨S2048x2048, .f32⟩ : BufTy).Contents (Elt F) → (⟨S2048x2048, .f32⟩ : BufTy).Contents (Elt F)),
    binary main_v269 main_v268 main_v270 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg11 main_v271 (broadcastInDim S1x128 ![1] bcast_S128_S1x128_1 : (⟨S128, .f32⟩ : BufTy).Contents (Elt F) → (⟨S1x128, .f32⟩ : BufTy).Contents (Elt F)),
    unary main_v271 main_v272 (broadcastInDim S2048x128 ![0, 1] bcast_S1x128_S2048x128_0_1 : (⟨S1x128, .f32⟩ : BufTy).Contents (Elt F) → (⟨S2048x128, .f32⟩ : BufTy).Contents (Elt F)),
    binary main_v270 main_v272 main_v273 (addf : (⟨S2048x128, .f32⟩ : BufTy).Contents (Elt F) → (⟨S2048x128, .f32⟩ : BufTy).Contents (Elt F) → (⟨S2048x128, .f32⟩ : BufTy).Contents (Elt F)),
    binary main_v273 main_v267 main_v274 (addf : (⟨S2048x128, .f32⟩ : BufTy).Contents (Elt F) → (⟨S2048x128, .f32⟩ : BufTy).Contents (Elt F) → (⟨S2048x128, .f32⟩ : BufTy).Contents (Elt F)),
    nullary main_cst_39 (constant S_ .f32 0x00000000#32),
    binary main_v274 main_cst_39 main_v275 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v275 main_v276 (broadcastInDim S2048x1 ![0] bcast_S2048_S2048x1_0 : (⟨S2048, .f32⟩ : BufTy).Contents (Elt F) → (⟨S2048x1, .f32⟩ : BufTy).Contents (Elt F)),
    nullary main_cst_40 (constant S_ .f32 0x43000000#32),
    unary main_cst_40 main_v277 (broadcastInDim S2048x1 ![] bcast_S_S2048x1 : (⟨S_, .f32⟩ : BufTy).Contents (Elt F) → (⟨S2048x1, .f32⟩ : BufTy).Contents (Elt F)),
    binary main_v276 main_v277 main_v278 (Host.divf : (⟨S2048x1, .f32⟩ : BufTy).Contents (Elt F) → (⟨S2048x1, .f32⟩ : BufTy).Contents (Elt F) → (⟨S2048x1, .f32⟩ : BufTy).Contents (Elt F)),
    unary main_v278 main_v279 (broadcastInDim S2048x128 ![0, 1] bcast_S2048x1_S2048x128_0_1 : (⟨S2048x1, .f32⟩ : BufTy).Contents (Elt F) → (⟨S2048x128, .f32⟩ : BufTy).Contents (Elt F)),
    binary main_v274 main_v279 main_v280 (subf : (⟨S2048x128, .f32⟩ : BufTy).Contents (Elt F) → (⟨S2048x128, .f32⟩ : BufTy).Contents (Elt F) → (⟨S2048x128, .f32⟩ : BufTy).Contents (Elt F)),
    binary main_v280 main_v280 main_v281 (mulf : (⟨S2048x128, .f32⟩ : BufTy).Contents (Elt F) → (⟨S2048x128, .f32⟩ : BufTy).Contents (Elt F) → (⟨S2048x128, .f32⟩ : BufTy).Contents (Elt F)),
    nullary main_cst_41 (constant S_ .f32 0x00000000#32),
    binary main_v281 main_cst_41 main_v282 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v282 main_v283 (broadcastInDim S2048x1 ![0] bcast_S2048_S2048x1_0 : (⟨S2048, .f32⟩ : BufTy).Contents (Elt F) → (⟨S2048x1, .f32⟩ : BufTy).Contents (Elt F)),
    nullary main_cst_42 (constant S_ .f32 0x43000000#32),
    unary main_cst_42 main_v284 (broadcastInDim S2048x1 ![] bcast_S_S2048x1 : (⟨S_, .f32⟩ : BufTy).Contents (Elt F) → (⟨S2048x1, .f32⟩ : BufTy).Contents (Elt F)),
    binary main_v283 main_v284 main_v285 (Host.divf : (⟨S2048x1, .f32⟩ : BufTy).Contents (Elt F) → (⟨S2048x1, .f32⟩ : BufTy).Contents (Elt F) → (⟨S2048x1, .f32⟩ : BufTy).Contents (Elt F)),
    unary main_v278 main_v286 (broadcastInDim S2048x128 ![0, 1] bcast_S2048x1_S2048x128_0_1 : (⟨S2048x1, .f32⟩ : BufTy).Contents (Elt F) → (⟨S2048x128, .f32⟩ : BufTy).Contents (Elt F)),
    binary main_v274 main_v286 main_v287 (subf : (⟨S2048x128, .f32⟩ : BufTy).Contents (Elt F) → (⟨S2048x128, .f32⟩ : BufTy).Contents (Elt F) → (⟨S2048x128, .f32⟩ : BufTy).Contents (Elt F)),
    nullary main_cst_43 (constant S_ .f32 0x3727C5AC#32),
    unary main_cst_43 main_v288 (broadcastInDim S2048x1 ![] bcast_S_S2048x1 : (⟨S_, .f32⟩ : BufTy).Contents (Elt F) → (⟨S2048x1, .f32⟩ : BufTy).Contents (Elt F)),
    binary main_v285 main_v288 main_v289 (addf : (⟨S2048x1, .f32⟩ : BufTy).Contents (Elt F) → (⟨S2048x1, .f32⟩ : BufTy).Contents (Elt F) → (⟨S2048x1, .f32⟩ : BufTy).Contents (Elt F)),
    unary main_v289 main_v290 (Host.sqrt : (⟨S2048x1, .f32⟩ : BufTy).Contents (Elt F) → (⟨S2048x1, .f32⟩ : BufTy).Contents (Elt F)),
    unary main_v290 main_v291 (broadcastInDim S2048x128 ![0, 1] bcast_S2048x1_S2048x128_0_1 : (⟨S2048x1, .f32⟩ : BufTy).Contents (Elt F) → (⟨S2048x128, .f32⟩ : BufTy).Contents (Elt F)),
    binary main_v287 main_v291 main_v292 (Host.divf : (⟨S2048x128, .f32⟩ : BufTy).Contents (Elt F) → (⟨S2048x128, .f32⟩ : BufTy).Contents (Elt F) → (⟨S2048x128, .f32⟩ : BufTy).Contents (Elt F)),
    unary main_arg12 main_v293 (broadcastInDim S1x128 ![1] bcast_S128_S1x128_1 : (⟨S128, .f32⟩ : BufTy).Contents (Elt F) → (⟨S1x128, .f32⟩ : BufTy).Contents (Elt F)),
    unary main_v293 main_v294 (broadcastInDim S2048x128 ![0, 1] bcast_S1x128_S2048x128_0_1 : (⟨S1x128, .f32⟩ : BufTy).Contents (Elt F) → (⟨S2048x128, .f32⟩ : BufTy).Contents (Elt F)),
    binary main_v292 main_v294 main_v295 (mulf : (⟨S2048x128, .f32⟩ : BufTy).Contents (Elt F) → (⟨S2048x128, .f32⟩ : BufTy).Contents (Elt F) → (⟨S2048x128, .f32⟩ : BufTy).Contents (Elt F)),
    unary main_arg13 main_v296 (broadcastInDim S1x128 ![1] bcast_S128_S1x128_1 : (⟨S128, .f32⟩ : BufTy).Contents (Elt F) → (⟨S1x128, .f32⟩ : BufTy).Contents (Elt F)),
    unary main_v296 main_v297 (broadcastInDim S2048x128 ![0, 1] bcast_S1x128_S2048x128_0_1 : (⟨S1x128, .f32⟩ : BufTy).Contents (Elt F) → (⟨S2048x128, .f32⟩ : BufTy).Contents (Elt F)),
    binary main_v295 main_v297 main_v298 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S2048x128, .f32⟩) main_call8_v0) (broadcastInDim S2048x128 ![] bcast_S_S2048x128),
    TRef.binary (TRef.of (T := ⟨S2048x128, .f32⟩) main_v298) (TRef.of (T := ⟨S2048x128, .f32⟩) main_call8_v0) (TRef.of (T := ⟨S2048x128, .f32⟩) main_v299) maximumf ]
/-- The buffers the group `lay22` writes. -/
abbrev lay22_W : List (Ref sig .tc) := [main_v268, main_v269, main_v270, main_v271, main_v272, main_v273, main_v274, main_cst_39, main_v275, main_v276, main_cst_40, main_v277, main_v278, main_v279, main_v280, main_v281, main_cst_41, main_v282, main_v283, main_cst_42, main_v284, main_v285, main_v286, main_v287, main_cst_43, main_v288, main_v289, main_v290, main_v291, main_v292, main_v293, main_v294, main_v295, main_v296, main_v297, main_v298, main_call8_cst, main_call8_v0, main_v299]
theorem lay22_writes : (lay22 : List (HloOp τ sig (Elt F))).Forall fun op => op.writes ⊆ (lay22_W.map (Proc.devRef (τ := τ) .tc)).toFinset := by
  simp only [lay22, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay22` does not write keeps its contents through it. -/
theorem lay22_keep (V : Valuation τ sig (Elt F)) {r : Ref sig .tc} (h : r ∉ lay22_W) :
    after lay22 V (no_index (Proc.devRef .tc r)) = V (Proc.devRef .tc r) :=
  after_of_writes_sub lay22 V lay22_writes h

/-- Graph 3's adjacency and features cut out of the stacked arguments and viewed as matrices. -/
def pre3 : List (HloOp τ sig (Elt F)) :=
  [ unary main_arg1 main_v300 ((extractStridedSlice S1x2048x2048 ![3, 0, 0] · slices_S4x2048x2048_S1x2048x2048_3_0_0) : (⟨S4x2048x2048, .f32⟩ : BufTy).Contents (Elt F) → (⟨S1x2048x2048, .f32⟩ : BufTy).Contents (Elt F)),
    reshape main_v300 main_v301 rfl shapeCasts_S1x2048x2048_S2048x2048,
    unary main_arg0 main_v302 ((extractStridedSlice S1x2048x128 ![3, 0, 0] · slices_S4x2048x128_S1x2048x128_3_0_0) : (⟨S4x2048x128, .f32⟩ : BufTy).Contents (Elt F) → (⟨S1x2048x128, .f32⟩ : BufTy).Contents (Elt F)),
    reshape main_v302 main_v303 rfl shapeCasts_S1x2048x128_S2048x128 ]
/-- The buffers the group `pre3` writes. -/
abbrev pre3_W : List (Ref sig .tc) := [main_v300, main_v301, main_v302, main_v303]
theorem pre3_writes : (pre3 : List (HloOp τ sig (Elt F))).Forall fun op => op.writes ⊆ (pre3_W.map (Proc.devRef (τ := τ) .tc)).toFinset := by
  simp only [pre3, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `pre3` does not write keeps its contents through it. -/
theorem pre3_keep (V : Valuation τ sig (Elt F)) {r : Ref sig .tc} (h : r ∉ pre3_W) :
    after pre3 V (no_index (Proc.devRef .tc r)) = V (Proc.devRef .tc r) :=
  after_of_writes_sub pre3 V pre3_writes h

/-- Layer 0 on graph 3. -/
def lay30 : List (HloOp τ sig (Elt F)) :=
  [ binary main_v303 main_arg2 main_v304 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v301 main_v305 ((transpose S2048x2048 [1, 0] · transposes_S2048x2048_S2048x2048_1_0) : (⟨S2048x2048, .f32⟩ : BufTy).Contents (Elt F) → (⟨S2048x2048, .f32⟩ : BufTy).Contents (Elt F)),
    binary main_v305 main_v304 main_v306 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg3 main_v307 (broadcastInDim S1x128 ![1] bcast_S128_S1x128_1 : (⟨S128, .f32⟩ : BufTy).Contents (Elt F) → (⟨S1x128, .f32⟩ : BufTy).Contents (Elt F)),
    unary main_v307 main_v308 (broadcastInDim S2048x128 ![0, 1] bcast_S1x128_S2048x128_0_1 : (⟨S1x128, .f32⟩ : BufTy).Contents (Elt F) → (⟨S2048x128, .f32⟩ : BufTy).Contents (Elt F)),
    binary main_v306 main_v308 main_v309 (addf : (⟨S2048x128, .f32⟩ : BufTy).Contents (Elt F) → (⟨S2048x128, .f32⟩ : BufTy).Contents (Elt F) → (⟨S2048x128, .f32⟩ : BufTy).Contents (Elt F)),
    binary main_v309 main_v303 main_v310 (addf : (⟨S2048x128, .f32⟩ : BufTy).Contents (Elt F) → (⟨S2048x128, .f32⟩ : BufTy).Contents (Elt F) → (⟨S2048x128, .f32⟩ : BufTy).Contents (Elt F)),
    nullary main_cst_44 (constant S_ .f32 0x00000000#32),
    binary main_v310 main_cst_44 main_v311 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v311 main_v312 (broadcastInDim S2048x1 ![0] bcast_S2048_S2048x1_0 : (⟨S2048, .f32⟩ : BufTy).Contents (Elt F) → (⟨S2048x1, .f32⟩ : BufTy).Contents (Elt F)),
    nullary main_cst_45 (constant S_ .f32 0x43000000#32),
    unary main_cst_45 main_v313 (broadcastInDim S2048x1 ![] bcast_S_S2048x1 : (⟨S_, .f32⟩ : BufTy).Contents (Elt F) → (⟨S2048x1, .f32⟩ : BufTy).Contents (Elt F)),
    binary main_v312 main_v313 main_v314 (Host.divf : (⟨S2048x1, .f32⟩ : BufTy).Contents (Elt F) → (⟨S2048x1, .f32⟩ : BufTy).Contents (Elt F) → (⟨S2048x1, .f32⟩ : BufTy).Contents (Elt F)),
    unary main_v314 main_v315 (broadcastInDim S2048x128 ![0, 1] bcast_S2048x1_S2048x128_0_1 : (⟨S2048x1, .f32⟩ : BufTy).Contents (Elt F) → (⟨S2048x128, .f32⟩ : BufTy).Contents (Elt F)),
    binary main_v310 main_v315 main_v316 (subf : (⟨S2048x128, .f32⟩ : BufTy).Contents (Elt F) → (⟨S2048x128, .f32⟩ : BufTy).Contents (Elt F) → (⟨S2048x128, .f32⟩ : BufTy).Contents (Elt F)),
    binary main_v316 main_v316 main_v317 (mulf : (⟨S2048x128, .f32⟩ : BufTy).Contents (Elt F) → (⟨S2048x128, .f32⟩ : BufTy).Contents (Elt F) → (⟨S2048x128, .f32⟩ : BufTy).Contents (Elt F)),
    nullary main_cst_46 (constant S_ .f32 0x00000000#32),
    binary main_v317 main_cst_46 main_v318 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v318 main_v319 (broadcastInDim S2048x1 ![0] bcast_S2048_S2048x1_0 : (⟨S2048, .f32⟩ : BufTy).Contents (Elt F) → (⟨S2048x1, .f32⟩ : BufTy).Contents (Elt F)),
    nullary main_cst_47 (constant S_ .f32 0x43000000#32),
    unary main_cst_47 main_v320 (broadcastInDim S2048x1 ![] bcast_S_S2048x1 : (⟨S_, .f32⟩ : BufTy).Contents (Elt F) → (⟨S2048x1, .f32⟩ : BufTy).Contents (Elt F)),
    binary main_v319 main_v320 main_v321 (Host.divf : (⟨S2048x1, .f32⟩ : BufTy).Contents (Elt F) → (⟨S2048x1, .f32⟩ : BufTy).Contents (Elt F) → (⟨S2048x1, .f32⟩ : BufTy).Contents (Elt F)),
    unary main_v314 main_v322 (broadcastInDim S2048x128 ![0, 1] bcast_S2048x1_S2048x128_0_1 : (⟨S2048x1, .f32⟩ : BufTy).Contents (Elt F) → (⟨S2048x128, .f32⟩ : BufTy).Contents (Elt F)),
    binary main_v310 main_v322 main_v323 (subf : (⟨S2048x128, .f32⟩ : BufTy).Contents (Elt F) → (⟨S2048x128, .f32⟩ : BufTy).Contents (Elt F) → (⟨S2048x128, .f32⟩ : BufTy).Contents (Elt F)),
    nullary main_cst_48 (constant S_ .f32 0x3727C5AC#32),
    unary main_cst_48 main_v324 (broadcastInDim S2048x1 ![] bcast_S_S2048x1 : (⟨S_, .f32⟩ : BufTy).Contents (Elt F) → (⟨S2048x1, .f32⟩ : BufTy).Contents (Elt F)),
    binary main_v321 main_v324 main_v325 (addf : (⟨S2048x1, .f32⟩ : BufTy).Contents (Elt F) → (⟨S2048x1, .f32⟩ : BufTy).Contents (Elt F) → (⟨S2048x1, .f32⟩ : BufTy).Contents (Elt F)),
    unary main_v325 main_v326 (Host.sqrt : (⟨S2048x1, .f32⟩ : BufTy).Contents (Elt F) → (⟨S2048x1, .f32⟩ : BufTy).Contents (Elt F)),
    unary main_v326 main_v327 (broadcastInDim S2048x128 ![0, 1] bcast_S2048x1_S2048x128_0_1 : (⟨S2048x1, .f32⟩ : BufTy).Contents (Elt F) → (⟨S2048x128, .f32⟩ : BufTy).Contents (Elt F)),
    binary main_v323 main_v327 main_v328 (Host.divf : (⟨S2048x128, .f32⟩ : BufTy).Contents (Elt F) → (⟨S2048x128, .f32⟩ : BufTy).Contents (Elt F) → (⟨S2048x128, .f32⟩ : BufTy).Contents (Elt F)),
    unary main_arg4 main_v329 (broadcastInDim S1x128 ![1] bcast_S128_S1x128_1 : (⟨S128, .f32⟩ : BufTy).Contents (Elt F) → (⟨S1x128, .f32⟩ : BufTy).Contents (Elt F)),
    unary main_v329 main_v330 (broadcastInDim S2048x128 ![0, 1] bcast_S1x128_S2048x128_0_1 : (⟨S1x128, .f32⟩ : BufTy).Contents (Elt F) → (⟨S2048x128, .f32⟩ : BufTy).Contents (Elt F)),
    binary main_v328 main_v330 main_v331 (mulf : (⟨S2048x128, .f32⟩ : BufTy).Contents (Elt F) → (⟨S2048x128, .f32⟩ : BufTy).Contents (Elt F) → (⟨S2048x128, .f32⟩ : BufTy).Contents (Elt F)),
    unary main_arg5 main_v332 (broadcastInDim S1x128 ![1] bcast_S128_S1x128_1 : (⟨S128, .f32⟩ : BufTy).Contents (Elt F) → (⟨S1x128, .f32⟩ : BufTy).Contents (Elt F)),
    unary main_v332 main_v333 (broadcastInDim S2048x128 ![0, 1] bcast_S1x128_S2048x128_0_1 : (⟨S1x128, .f32⟩ : BufTy).Contents (Elt F) → (⟨S2048x128, .f32⟩ : BufTy).Contents (Elt F)),
    binary main_v331 main_v333 main_v334 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S2048x128, .f32⟩) main_call9_v0) (broadcastInDim S2048x128 ![] bcast_S_S2048x128),
    TRef.binary (TRef.of (T := ⟨S2048x128, .f32⟩) main_v334) (TRef.of (T := ⟨S2048x128, .f32⟩) main_call9_v0) (TRef.of (T := ⟨S2048x128, .f32⟩) main_v335) maximumf ]
/-- The buffers the group `lay30` writes. -/
abbrev lay30_W : List (Ref sig .tc) := [main_v304, main_v305, main_v306, main_v307, main_v308, main_v309, main_v310, main_cst_44, main_v311, main_v312, main_cst_45, main_v313, main_v314, main_v315, main_v316, main_v317, main_cst_46, main_v318, main_v319, main_cst_47, main_v320, main_v321, main_v322, main_v323, main_cst_48, main_v324, main_v325, main_v326, main_v327, main_v328, main_v329, main_v330, main_v331, main_v332, main_v333, main_v334, main_call9_cst, main_call9_v0, main_v335]
theorem lay30_writes : (lay30 : List (HloOp τ sig (Elt F))).Forall fun op => op.writes ⊆ (lay30_W.map (Proc.devRef (τ := τ) .tc)).toFinset := by
  simp only [lay30, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay30` does not write keeps its contents through it. -/
theorem lay30_keep (V : Valuation τ sig (Elt F)) {r : Ref sig .tc} (h : r ∉ lay30_W) :
    after lay30 V (no_index (Proc.devRef .tc r)) = V (Proc.devRef .tc r) :=
  after_of_writes_sub lay30 V lay30_writes h

/-- Layer 1 on graph 3. -/
def lay31 : List (HloOp τ sig (Elt F)) :=
  [ binary main_v335 main_arg6 main_v336 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v301 main_v337 ((transpose S2048x2048 [1, 0] · transposes_S2048x2048_S2048x2048_1_0) : (⟨S2048x2048, .f32⟩ : BufTy).Contents (Elt F) → (⟨S2048x2048, .f32⟩ : BufTy).Contents (Elt F)),
    binary main_v337 main_v336 main_v338 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg7 main_v339 (broadcastInDim S1x128 ![1] bcast_S128_S1x128_1 : (⟨S128, .f32⟩ : BufTy).Contents (Elt F) → (⟨S1x128, .f32⟩ : BufTy).Contents (Elt F)),
    unary main_v339 main_v340 (broadcastInDim S2048x128 ![0, 1] bcast_S1x128_S2048x128_0_1 : (⟨S1x128, .f32⟩ : BufTy).Contents (Elt F) → (⟨S2048x128, .f32⟩ : BufTy).Contents (Elt F)),
    binary main_v338 main_v340 main_v341 (addf : (⟨S2048x128, .f32⟩ : BufTy).Contents (Elt F) → (⟨S2048x128, .f32⟩ : BufTy).Contents (Elt F) → (⟨S2048x128, .f32⟩ : BufTy).Contents (Elt F)),
    binary main_v341 main_v335 main_v342 (addf : (⟨S2048x128, .f32⟩ : BufTy).Contents (Elt F) → (⟨S2048x128, .f32⟩ : BufTy).Contents (Elt F) → (⟨S2048x128, .f32⟩ : BufTy).Contents (Elt F)),
    nullary main_cst_49 (constant S_ .f32 0x00000000#32),
    binary main_v342 main_cst_49 main_v343 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v343 main_v344 (broadcastInDim S2048x1 ![0] bcast_S2048_S2048x1_0 : (⟨S2048, .f32⟩ : BufTy).Contents (Elt F) → (⟨S2048x1, .f32⟩ : BufTy).Contents (Elt F)),
    nullary main_cst_50 (constant S_ .f32 0x43000000#32),
    unary main_cst_50 main_v345 (broadcastInDim S2048x1 ![] bcast_S_S2048x1 : (⟨S_, .f32⟩ : BufTy).Contents (Elt F) → (⟨S2048x1, .f32⟩ : BufTy).Contents (Elt F)),
    binary main_v344 main_v345 main_v346 (Host.divf : (⟨S2048x1, .f32⟩ : BufTy).Contents (Elt F) → (⟨S2048x1, .f32⟩ : BufTy).Contents (Elt F) → (⟨S2048x1, .f32⟩ : BufTy).Contents (Elt F)),
    unary main_v346 main_v347 (broadcastInDim S2048x128 ![0, 1] bcast_S2048x1_S2048x128_0_1 : (⟨S2048x1, .f32⟩ : BufTy).Contents (Elt F) → (⟨S2048x128, .f32⟩ : BufTy).Contents (Elt F)),
    binary main_v342 main_v347 main_v348 (subf : (⟨S2048x128, .f32⟩ : BufTy).Contents (Elt F) → (⟨S2048x128, .f32⟩ : BufTy).Contents (Elt F) → (⟨S2048x128, .f32⟩ : BufTy).Contents (Elt F)),
    binary main_v348 main_v348 main_v349 (mulf : (⟨S2048x128, .f32⟩ : BufTy).Contents (Elt F) → (⟨S2048x128, .f32⟩ : BufTy).Contents (Elt F) → (⟨S2048x128, .f32⟩ : BufTy).Contents (Elt F)),
    nullary main_cst_51 (constant S_ .f32 0x00000000#32),
    binary main_v349 main_cst_51 main_v350 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v350 main_v351 (broadcastInDim S2048x1 ![0] bcast_S2048_S2048x1_0 : (⟨S2048, .f32⟩ : BufTy).Contents (Elt F) → (⟨S2048x1, .f32⟩ : BufTy).Contents (Elt F)),
    nullary main_cst_52 (constant S_ .f32 0x43000000#32),
    unary main_cst_52 main_v352 (broadcastInDim S2048x1 ![] bcast_S_S2048x1 : (⟨S_, .f32⟩ : BufTy).Contents (Elt F) → (⟨S2048x1, .f32⟩ : BufTy).Contents (Elt F)),
    binary main_v351 main_v352 main_v353 (Host.divf : (⟨S2048x1, .f32⟩ : BufTy).Contents (Elt F) → (⟨S2048x1, .f32⟩ : BufTy).Contents (Elt F) → (⟨S2048x1, .f32⟩ : BufTy).Contents (Elt F)),
    unary main_v346 main_v354 (broadcastInDim S2048x128 ![0, 1] bcast_S2048x1_S2048x128_0_1 : (⟨S2048x1, .f32⟩ : BufTy).Contents (Elt F) → (⟨S2048x128, .f32⟩ : BufTy).Contents (Elt F)),
    binary main_v342 main_v354 main_v355 (subf : (⟨S2048x128, .f32⟩ : BufTy).Contents (Elt F) → (⟨S2048x128, .f32⟩ : BufTy).Contents (Elt F) → (⟨S2048x128, .f32⟩ : BufTy).Contents (Elt F)),
    nullary main_cst_53 (constant S_ .f32 0x3727C5AC#32),
    unary main_cst_53 main_v356 (broadcastInDim S2048x1 ![] bcast_S_S2048x1 : (⟨S_, .f32⟩ : BufTy).Contents (Elt F) → (⟨S2048x1, .f32⟩ : BufTy).Contents (Elt F)),
    binary main_v353 main_v356 main_v357 (addf : (⟨S2048x1, .f32⟩ : BufTy).Contents (Elt F) → (⟨S2048x1, .f32⟩ : BufTy).Contents (Elt F) → (⟨S2048x1, .f32⟩ : BufTy).Contents (Elt F)),
    unary main_v357 main_v358 (Host.sqrt : (⟨S2048x1, .f32⟩ : BufTy).Contents (Elt F) → (⟨S2048x1, .f32⟩ : BufTy).Contents (Elt F)),
    unary main_v358 main_v359 (broadcastInDim S2048x128 ![0, 1] bcast_S2048x1_S2048x128_0_1 : (⟨S2048x1, .f32⟩ : BufTy).Contents (Elt F) → (⟨S2048x128, .f32⟩ : BufTy).Contents (Elt F)),
    binary main_v355 main_v359 main_v360 (Host.divf : (⟨S2048x128, .f32⟩ : BufTy).Contents (Elt F) → (⟨S2048x128, .f32⟩ : BufTy).Contents (Elt F) → (⟨S2048x128, .f32⟩ : BufTy).Contents (Elt F)),
    unary main_arg8 main_v361 (broadcastInDim S1x128 ![1] bcast_S128_S1x128_1 : (⟨S128, .f32⟩ : BufTy).Contents (Elt F) → (⟨S1x128, .f32⟩ : BufTy).Contents (Elt F)),
    unary main_v361 main_v362 (broadcastInDim S2048x128 ![0, 1] bcast_S1x128_S2048x128_0_1 : (⟨S1x128, .f32⟩ : BufTy).Contents (Elt F) → (⟨S2048x128, .f32⟩ : BufTy).Contents (Elt F)),
    binary main_v360 main_v362 main_v363 (mulf : (⟨S2048x128, .f32⟩ : BufTy).Contents (Elt F) → (⟨S2048x128, .f32⟩ : BufTy).Contents (Elt F) → (⟨S2048x128, .f32⟩ : BufTy).Contents (Elt F)),
    unary main_arg9 main_v364 (broadcastInDim S1x128 ![1] bcast_S128_S1x128_1 : (⟨S128, .f32⟩ : BufTy).Contents (Elt F) → (⟨S1x128, .f32⟩ : BufTy).Contents (Elt F)),
    unary main_v364 main_v365 (broadcastInDim S2048x128 ![0, 1] bcast_S1x128_S2048x128_0_1 : (⟨S1x128, .f32⟩ : BufTy).Contents (Elt F) → (⟨S2048x128, .f32⟩ : BufTy).Contents (Elt F)),
    binary main_v363 main_v365 main_v366 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S2048x128, .f32⟩) main_call10_v0) (broadcastInDim S2048x128 ![] bcast_S_S2048x128),
    TRef.binary (TRef.of (T := ⟨S2048x128, .f32⟩) main_v366) (TRef.of (T := ⟨S2048x128, .f32⟩) main_call10_v0) (TRef.of (T := ⟨S2048x128, .f32⟩) main_v367) maximumf ]
/-- The buffers the group `lay31` writes. -/
abbrev lay31_W : List (Ref sig .tc) := [main_v336, main_v337, main_v338, main_v339, main_v340, main_v341, main_v342, main_cst_49, main_v343, main_v344, main_cst_50, main_v345, main_v346, main_v347, main_v348, main_v349, main_cst_51, main_v350, main_v351, main_cst_52, main_v352, main_v353, main_v354, main_v355, main_cst_53, main_v356, main_v357, main_v358, main_v359, main_v360, main_v361, main_v362, main_v363, main_v364, main_v365, main_v366, main_call10_cst, main_call10_v0, main_v367]
theorem lay31_writes : (lay31 : List (HloOp τ sig (Elt F))).Forall fun op => op.writes ⊆ (lay31_W.map (Proc.devRef (τ := τ) .tc)).toFinset := by
  simp only [lay31, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay31` does not write keeps its contents through it. -/
theorem lay31_keep (V : Valuation τ sig (Elt F)) {r : Ref sig .tc} (h : r ∉ lay31_W) :
    after lay31 V (no_index (Proc.devRef .tc r)) = V (Proc.devRef .tc r) :=
  after_of_writes_sub lay31 V lay31_writes h

/-- Layer 2 on graph 3. -/
def lay32 : List (HloOp τ sig (Elt F)) :=
  [ binary main_v367 main_arg10 main_v368 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    unary main_v301 main_v369 ((transpose S2048x2048 [1, 0] · transposes_S2048x2048_S2048x2048_1_0) : (⟨S2048x2048, .f32⟩ : BufTy).Contents (Elt F) → (⟨S2048x2048, .f32⟩ : BufTy).Contents (Elt F)),
    binary main_v369 main_v368 main_v370 ((fun l r => Host.dotGeneral dot_S2048x2048_S2048x128_S2048x128_1_0_0_1_n_n none l r) : (⟨S2048x2048, .f32⟩ : BufTy).Contents (Elt F) → (⟨S2048x128, .f32⟩ : BufTy).Contents (Elt F) → (⟨S2048x128, .f32⟩ : BufTy).Contents (Elt F)),
    unary main_arg11 main_v371 (broadcastInDim S1x128 ![1] bcast_S128_S1x128_1 : (⟨S128, .f32⟩ : BufTy).Contents (Elt F) → (⟨S1x128, .f32⟩ : BufTy).Contents (Elt F)),
    unary main_v371 main_v372 (broadcastInDim S2048x128 ![0, 1] bcast_S1x128_S2048x128_0_1 : (⟨S1x128, .f32⟩ : BufTy).Contents (Elt F) → (⟨S2048x128, .f32⟩ : BufTy).Contents (Elt F)),
    binary main_v370 main_v372 main_v373 (addf : (⟨S2048x128, .f32⟩ : BufTy).Contents (Elt F) → (⟨S2048x128, .f32⟩ : BufTy).Contents (Elt F) → (⟨S2048x128, .f32⟩ : BufTy).Contents (Elt F)),
    binary main_v373 main_v367 main_v374 (addf : (⟨S2048x128, .f32⟩ : BufTy).Contents (Elt F) → (⟨S2048x128, .f32⟩ : BufTy).Contents (Elt F) → (⟨S2048x128, .f32⟩ : BufTy).Contents (Elt F)),
    nullary main_cst_54 (constant S_ .f32 0x00000000#32),
    binary main_v374 main_cst_54 main_v375 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v375 main_v376 (broadcastInDim S2048x1 ![0] bcast_S2048_S2048x1_0 : (⟨S2048, .f32⟩ : BufTy).Contents (Elt F) → (⟨S2048x1, .f32⟩ : BufTy).Contents (Elt F)),
    nullary main_cst_55 (constant S_ .f32 0x43000000#32),
    unary main_cst_55 main_v377 (broadcastInDim S2048x1 ![] bcast_S_S2048x1 : (⟨S_, .f32⟩ : BufTy).Contents (Elt F) → (⟨S2048x1, .f32⟩ : BufTy).Contents (Elt F)),
    binary main_v376 main_v377 main_v378 (Host.divf : (⟨S2048x1, .f32⟩ : BufTy).Contents (Elt F) → (⟨S2048x1, .f32⟩ : BufTy).Contents (Elt F) → (⟨S2048x1, .f32⟩ : BufTy).Contents (Elt F)),
    unary main_v378 main_v379 (broadcastInDim S2048x128 ![0, 1] bcast_S2048x1_S2048x128_0_1 : (⟨S2048x1, .f32⟩ : BufTy).Contents (Elt F) → (⟨S2048x128, .f32⟩ : BufTy).Contents (Elt F)),
    binary main_v374 main_v379 main_v380 (subf : (⟨S2048x128, .f32⟩ : BufTy).Contents (Elt F) → (⟨S2048x128, .f32⟩ : BufTy).Contents (Elt F) → (⟨S2048x128, .f32⟩ : BufTy).Contents (Elt F)),
    binary main_v380 main_v380 main_v381 (mulf : (⟨S2048x128, .f32⟩ : BufTy).Contents (Elt F) → (⟨S2048x128, .f32⟩ : BufTy).Contents (Elt F) → (⟨S2048x128, .f32⟩ : BufTy).Contents (Elt F)),
    nullary main_cst_56 (constant S_ .f32 0x00000000#32),
    binary main_v381 main_cst_56 main_v382 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v382 main_v383 (broadcastInDim S2048x1 ![0] bcast_S2048_S2048x1_0 : (⟨S2048, .f32⟩ : BufTy).Contents (Elt F) → (⟨S2048x1, .f32⟩ : BufTy).Contents (Elt F)),
    nullary main_cst_57 (constant S_ .f32 0x43000000#32),
    unary main_cst_57 main_v384 (broadcastInDim S2048x1 ![] bcast_S_S2048x1 : (⟨S_, .f32⟩ : BufTy).Contents (Elt F) → (⟨S2048x1, .f32⟩ : BufTy).Contents (Elt F)),
    binary main_v383 main_v384 main_v385 (Host.divf : (⟨S2048x1, .f32⟩ : BufTy).Contents (Elt F) → (⟨S2048x1, .f32⟩ : BufTy).Contents (Elt F) → (⟨S2048x1, .f32⟩ : BufTy).Contents (Elt F)),
    unary main_v378 main_v386 (broadcastInDim S2048x128 ![0, 1] bcast_S2048x1_S2048x128_0_1 : (⟨S2048x1, .f32⟩ : BufTy).Contents (Elt F) → (⟨S2048x128, .f32⟩ : BufTy).Contents (Elt F)),
    binary main_v374 main_v386 main_v387 (subf : (⟨S2048x128, .f32⟩ : BufTy).Contents (Elt F) → (⟨S2048x128, .f32⟩ : BufTy).Contents (Elt F) → (⟨S2048x128, .f32⟩ : BufTy).Contents (Elt F)),
    nullary main_cst_58 (constant S_ .f32 0x3727C5AC#32),
    unary main_cst_58 main_v388 (broadcastInDim S2048x1 ![] bcast_S_S2048x1 : (⟨S_, .f32⟩ : BufTy).Contents (Elt F) → (⟨S2048x1, .f32⟩ : BufTy).Contents (Elt F)),
    binary main_v385 main_v388 main_v389 (addf : (⟨S2048x1, .f32⟩ : BufTy).Contents (Elt F) → (⟨S2048x1, .f32⟩ : BufTy).Contents (Elt F) → (⟨S2048x1, .f32⟩ : BufTy).Contents (Elt F)),
    unary main_v389 main_v390 (Host.sqrt : (⟨S2048x1, .f32⟩ : BufTy).Contents (Elt F) → (⟨S2048x1, .f32⟩ : BufTy).Contents (Elt F)),
    unary main_v390 main_v391 (broadcastInDim S2048x128 ![0, 1] bcast_S2048x1_S2048x128_0_1 : (⟨S2048x1, .f32⟩ : BufTy).Contents (Elt F) → (⟨S2048x128, .f32⟩ : BufTy).Contents (Elt F)),
    binary main_v387 main_v391 main_v392 (Host.divf : (⟨S2048x128, .f32⟩ : BufTy).Contents (Elt F) → (⟨S2048x128, .f32⟩ : BufTy).Contents (Elt F) → (⟨S2048x128, .f32⟩ : BufTy).Contents (Elt F)),
    unary main_arg12 main_v393 (broadcastInDim S1x128 ![1] bcast_S128_S1x128_1 : (⟨S128, .f32⟩ : BufTy).Contents (Elt F) → (⟨S1x128, .f32⟩ : BufTy).Contents (Elt F)),
    unary main_v393 main_v394 (broadcastInDim S2048x128 ![0, 1] bcast_S1x128_S2048x128_0_1 : (⟨S1x128, .f32⟩ : BufTy).Contents (Elt F) → (⟨S2048x128, .f32⟩ : BufTy).Contents (Elt F)),
    binary main_v392 main_v394 main_v395 (mulf : (⟨S2048x128, .f32⟩ : BufTy).Contents (Elt F) → (⟨S2048x128, .f32⟩ : BufTy).Contents (Elt F) → (⟨S2048x128, .f32⟩ : BufTy).Contents (Elt F)),
    unary main_arg13 main_v396 (broadcastInDim S1x128 ![1] bcast_S128_S1x128_1 : (⟨S128, .f32⟩ : BufTy).Contents (Elt F) → (⟨S1x128, .f32⟩ : BufTy).Contents (Elt F)),
    unary main_v396 main_v397 (broadcastInDim S2048x128 ![0, 1] bcast_S1x128_S2048x128_0_1 : (⟨S1x128, .f32⟩ : BufTy).Contents (Elt F) → (⟨S2048x128, .f32⟩ : BufTy).Contents (Elt F)),
    binary main_v395 main_v397 main_v398 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S2048x128, .f32⟩) main_call11_v0) (broadcastInDim S2048x128 ![] bcast_S_S2048x128),
    TRef.binary (TRef.of (T := ⟨S2048x128, .f32⟩) main_v398) (TRef.of (T := ⟨S2048x128, .f32⟩) main_call11_v0) (TRef.of (T := ⟨S2048x128, .f32⟩) main_v399) maximumf ]
/-- The buffers the group `lay32` writes. -/
abbrev lay32_W : List (Ref sig .tc) := [main_v368, main_v369, main_v370, main_v371, main_v372, main_v373, main_v374, main_cst_54, main_v375, main_v376, main_cst_55, main_v377, main_v378, main_v379, main_v380, main_v381, main_cst_56, main_v382, main_v383, main_cst_57, main_v384, main_v385, main_v386, main_v387, main_cst_58, main_v388, main_v389, main_v390, main_v391, main_v392, main_v393, main_v394, main_v395, main_v396, main_v397, main_v398, main_call11_cst, main_call11_v0, main_v399]
theorem lay32_writes : (lay32 : List (HloOp τ sig (Elt F))).Forall fun op => op.writes ⊆ (lay32_W.map (Proc.devRef (τ := τ) .tc)).toFinset := by
  simp only [lay32, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `lay32` does not write keeps its contents through it. -/
theorem lay32_keep (V : Valuation τ sig (Elt F)) {r : Ref sig .tc} (h : r ∉ lay32_W) :
    after lay32 V (no_index (Proc.devRef .tc r)) = V (Proc.devRef .tc r) :=
  after_of_writes_sub lay32 V lay32_writes h

/-- The four graphs' results joined along a new leading axis. -/
def tail : List (HloOp τ sig (Elt F)) :=
  [ unary main_v99 main_v400 (broadcastInDim S1x2048x128 ![1, 2] bcast_S2048x128_S1x2048x128_1_2 : (⟨S2048x128, .f32⟩ : BufTy).Contents (Elt F) → (⟨S1x2048x128, .f32⟩ : BufTy).Contents (Elt F)),
    unary main_v199 main_v401 (broadcastInDim S1x2048x128 ![1, 2] bcast_S2048x128_S1x2048x128_1_2 : (⟨S2048x128, .f32⟩ : BufTy).Contents (Elt F) → (⟨S1x2048x128, .f32⟩ : BufTy).Contents (Elt F)),
    unary main_v299 main_v402 (broadcastInDim S1x2048x128 ![1, 2] bcast_S2048x128_S1x2048x128_1_2 : (⟨S2048x128, .f32⟩ : BufTy).Contents (Elt F) → (⟨S1x2048x128, .f32⟩ : BufTy).Contents (Elt F)),
    unary main_v399 main_v403 (broadcastInDim S1x2048x128 ![1, 2] bcast_S2048x128_S1x2048x128_1_2 : (⟨S2048x128, .f32⟩ : BufTy).Contents (Elt F) → (⟨S1x2048x128, .f32⟩ : BufTy).Contents (Elt F)),
    nary ![main_v400, main_v401, main_v402, main_v403] main_v404 (fun u => concatenate S4x2048x128 0 [⟨S1x2048x128, u 0⟩, ⟨S1x2048x128, u 1⟩, ⟨S1x2048x128, u 2⟩, ⟨S1x2048x128, u 3⟩] concatenates_S1x2048x128_S1x2048x128_S1x2048x128_S1x2048x128_S4x2048x128_d0) ]
/-- The buffers the group `tail` writes. -/
abbrev tail_W : List (Ref sig .tc) := [main_v400, main_v401, main_v402, main_v403, main_v404]
theorem tail_writes : (tail : List (HloOp τ sig (Elt F))).Forall fun op => op.writes ⊆ (tail_W.map (Proc.devRef (τ := τ) .tc)).toFinset := by
  simp only [tail, List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer the group `tail` does not write keeps its contents through it. -/
theorem tail_keep (V : Valuation τ sig (Elt F)) {r : Ref sig .tc} (h : r ∉ tail_W) :
    after tail V (no_index (Proc.devRef .tc r)) = V (Proc.devRef .tc r) :=
  after_of_writes_sub tail V tail_writes h

/-- Everything computed for graph 0: the cut, then the three layers. -/
def grp0 : List (HloOp τ sig (Elt F)) := pre0 ++ (lay00 ++ (lay01 ++ (lay02)))
/-- Everything computed for graph 1: the cut, then the three layers. -/
def grp1 : List (HloOp τ sig (Elt F)) := pre1 ++ (lay10 ++ (lay11 ++ (lay12)))
/-- Everything computed for graph 2: the cut, then the three layers. -/
def grp2 : List (HloOp τ sig (Elt F)) := pre2 ++ (lay20 ++ (lay21 ++ (lay22)))
/-- Everything computed for graph 3: the cut, then the three layers. -/
def grp3 : List (HloOp τ sig (Elt F)) := pre3 ++ (lay30 ++ (lay31 ++ (lay32)))

/-- The program's line of operations is the groups' lines one after the other. -/
theorem ops_eq : (ops : List (HloOp τ sig (Elt F))) = grp0 ++ (grp1 ++ (grp2 ++ (grp3 ++ (tail)))) := rfl

end Cert.RefSide

end
-- ==== Proof.LibHostRowSum.lean ====
/-
  The host's float sum along the rows of a matrix, read at a row, at the ideal values.

  For an `M × N` array `x` summed over its second axis from an initial value, entry `p` of the result is the initial
  value plus the sum of row `p`'s `N` entries.
-/
import Idealize.ShloMosaic.Lib.ValueIdx
import Idealize.ShloMosaic.PureOps.Ideal.Laws

noncomputable section

open scoped BigOperators

namespace Cert.Lib.HostRowSum

open Idealize.ShloMosaic Idealize.ShloMosaic.ValueIdx

variable {M N : Nat}

/-- Over row `p`, the index with `k` put on the summed axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The host's sum over the second axis of an `M × N` array, at row `p`: the initial value plus the row's sum. -/
theorem hostRowSum_apply {φ : FTy} {u : Shape} (x : FVec Ideal ⟨2, ![M, N]⟩ φ) (init : u.Idx → Ideal φ)
    (h' : (⟨2, ![M, N]⟩ : Shape).ReducesTo [1] ⟨1, ![M]⟩) (hu : 0 < u.numel)
    (h : (⟨2, ![M, N]⟩ : Shape).Reduces [1] ⟨1, ![M]⟩) (p : Fin M) :
    Host.reduceAdd x init h' hu (ix1 p) = init (Shape.Idx.first hu) + ∑ k : Fin N, x (ix2 p k) := by
  show Ideal.hostReduceAdd h' x (init (Shape.Idx.first hu)) (ix1 p) = _
  rw [Ideal.hostReduceAdd_single h' h]
  exact congrArg (init (Shape.Idx.first hu) + ·) (Finset.sum_congr rfl fun k _ => congrArg x (lift_row h p k))

end Cert.Lib.HostRowSum

end
-- ==== Proof.RefHost.lean ====
/-
  The reference's computation in the host's spelling, as functions of whole arrays, and what these functions are at an
  entry. The layer is written once — aggregate over the transposed adjacency, bias row, residual, row normalisation with
  scale and shift, positive part — with the host's own operations; at the extended reals each piece is read at an entry
  (a product of matrices as a sum over the contraction index, a row sum as the sum of the row, a repeated row or column
  as the entry it repeats), which identifies the layer, the three layers on a graph, and the join of the four graphs
  with the shared specification.
-/
import proofs.«141423_g37074157699470_cont_sun_m_1229_6_alg».proof.Proof.Gen.ReferenceIdeal
import proofs.«141423_g37074157699470_cont_sun_m_1229_6_alg».proof.Proof.Spec
import proofs.«141423_g37074157699470_cont_sun_m_1229_6_alg».proof.Proof.LibHostRowSum
import Idealize.ShloMosaic.Lib.ValueIdx
import Idealize.ShloMosaic.Lib.Pipeline.Value
import Idealize.ShloMosaic.Lib.IdealHost
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.StableHlo

open scoped BigOperators

section AnyValues

variable {F : FTy → Type} [FloatOps F]

/-! ## The layer in the host's spelling, as functions of whole arrays -/

/-- A parameter row repeated down the 2048 node rows (the host does it in two steps). -/
def hRowOf (v : (⟨S128, .f32⟩ : BufTy).Contents (Elt F)) : (⟨S2048x128, .f32⟩ : BufTy).Contents (Elt F) :=
  broadcastInDim S2048x128 ![0, 1] bcast_S1x128_S2048x128_0_1 (broadcastInDim S1x128 ![1] bcast_S128_S1x128_1 v)

/-- A column of per-node values repeated along the 128 features. -/
def hColSpread (c : (⟨S2048x1, .f32⟩ : BufTy).Contents (Elt F)) : (⟨S2048x128, .f32⟩ : BufTy).Contents (Elt F) :=
  broadcastInDim S2048x128 ![0, 1] bcast_S2048x1_S2048x128_0_1 c

/-- The rows' sums, from the zero word, as a column. -/
def hRowSum (y : (⟨S2048x128, .f32⟩ : BufTy).Contents (Elt F)) : (⟨S2048x1, .f32⟩ : BufTy).Contents (Elt F) :=
  broadcastInDim S2048x1 ![0] bcast_S2048_S2048x1_0 (Host.reduceAdd y (constant S_ .f32 0x00000000#32) reducesTo_S2048x128_S2048_d1 h_S_)

/-- The column holding one word at every node. -/
def hConstCol (w : BitVec 32) : (⟨S2048x1, .f32⟩ : BufTy).Contents (Elt F) :=
  broadcastInDim S2048x1 ![] bcast_S_S2048x1 (constant S_ .f32 w)

/-- The aggregate over the transposed adjacency of the features through the weight, plus the bias row, plus the residual. -/
def hPre (A : (⟨S2048x2048, .f32⟩ : BufTy).Contents (Elt F)) (x : (⟨S2048x128, .f32⟩ : BufTy).Contents (Elt F)) (W : (⟨S128x128, .f32⟩ : BufTy).Contents (Elt F)) (b : (⟨S128, .f32⟩ : BufTy).Contents (Elt F)) : (⟨S2048x128, .f32⟩ : BufTy).Contents (Elt F) :=
  addf (addf (Host.dotGeneral dot_S2048x2048_S2048x128_S2048x128_1_0_0_1_n_n none (transpose S2048x2048 [1, 0] A transposes_S2048x2048_S2048x2048_1_0)
      (Host.dotGeneral dot_S2048x128_S128x128_S2048x128_1_0_0_1_n_n none x W)) (hRowOf b)) x

/-- The rows' means, as a column. -/
def hMean (y : (⟨S2048x128, .f32⟩ : BufTy).Contents (Elt F)) : (⟨S2048x1, .f32⟩ : BufTy).Contents (Elt F) :=
  Host.divf (hRowSum y) (hConstCol 0x43000000#32)

/-- The deviations from the rows' means. -/
def hCen (y : (⟨S2048x128, .f32⟩ : BufTy).Contents (Elt F)) : (⟨S2048x128, .f32⟩ : BufTy).Contents (Elt F) :=
  subf y (hColSpread (hMean y))

/-- The rows' variances, as a column. -/
def hVar (y : (⟨S2048x128, .f32⟩ : BufTy).Contents (Elt F)) : (⟨S2048x1, .f32⟩ : BufTy).Contents (Elt F) :=
  Host.divf (hRowSum (mulf (hCen y) (hCen y))) (hConstCol 0x43000000#32)

/-- Row normalisation, scale and shift, and the positive part. -/
def hNorm (y : (⟨S2048x128, .f32⟩ : BufTy).Contents (Elt F)) (g β : (⟨S128, .f32⟩ : BufTy).Contents (Elt F)) : (⟨S2048x128, .f32⟩ : BufTy).Contents (Elt F) :=
  maximumf (addf (mulf (Host.divf (hCen y) (hColSpread (Host.sqrt (addf (hVar y) (hConstCol 0x3727C5AC#32))))) (hRowOf g)) (hRowOf β))
    (broadcastInDim S2048x128 ![] bcast_S_S2048x128 (constant S_ .f32 0x00000000#32))

/-- One layer. -/
def hLayer (A : (⟨S2048x2048, .f32⟩ : BufTy).Contents (Elt F)) (x : (⟨S2048x128, .f32⟩ : BufTy).Contents (Elt F)) (W : (⟨S128x128, .f32⟩ : BufTy).Contents (Elt F)) (b g β : (⟨S128, .f32⟩ : BufTy).Contents (Elt F)) : (⟨S2048x128, .f32⟩ : BufTy).Contents (Elt F) :=
  hNorm (hPre A x W b) g β

/-- Graph `t`'s adjacency: the cut at offset `t` on the leading axis, viewed as a matrix. -/
def hAdj (t : Nat) (h : S4x2048x2048.Slices ![t, 0, 0] S1x2048x2048) (Adj : (⟨S4x2048x2048, .f32⟩ : BufTy).Contents (Elt F)) : (⟨S2048x2048, .f32⟩ : BufTy).Contents (Elt F) :=
  shapeCast S2048x2048 (extractStridedSlice S1x2048x2048 ![t, 0, 0] Adj h) shapeCasts_S1x2048x2048_S2048x2048

/-- Graph `t`'s input features: the cut at offset `t` on the leading axis, viewed as a matrix. -/
def hFeat (t : Nat) (h : S4x2048x128.Slices ![t, 0, 0] S1x2048x128) (X : (⟨S4x2048x128, .f32⟩ : BufTy).Contents (Elt F)) : (⟨S2048x128, .f32⟩ : BufTy).Contents (Elt F) :=
  shapeCast S2048x128 (extractStridedSlice S1x2048x128 ![t, 0, 0] X h) shapeCasts_S1x2048x128_S2048x128

/-- The three layers on one graph. -/
def hNet3 (A : (⟨S2048x2048, .f32⟩ : BufTy).Contents (Elt F)) (x : (⟨S2048x128, .f32⟩ : BufTy).Contents (Elt F))
    (W0 : (⟨S128x128, .f32⟩ : BufTy).Contents (Elt F)) (b0 g0 β0 : (⟨S128, .f32⟩ : BufTy).Contents (Elt F))
    (W1 : (⟨S128x128, .f32⟩ : BufTy).Contents (Elt F)) (b1 g1 β1 : (⟨S128, .f32⟩ : BufTy).Contents (Elt F))
    (W2 : (⟨S128x128, .f32⟩ : BufTy).Contents (Elt F)) (b2 g2 β2 : (⟨S128, .f32⟩ : BufTy).Contents (Elt F)) : (⟨S2048x128, .f32⟩ : BufTy).Contents (Elt F) :=
  hLayer A (hLayer A (hLayer A x W0 b0 g0 β0) W1 b1 g1 β1) W2 b2 g2 β2

/-- A graph's result as a slab with a leading unit axis. -/
def hSlab (v : (⟨S2048x128, .f32⟩ : BufTy).Contents (Elt F)) : (⟨S1x2048x128, .f32⟩ : BufTy).Contents (Elt F) :=
  broadcastInDim S1x2048x128 ![1, 2] bcast_S2048x128_S1x2048x128_1_2 v

/-- The four graphs' results joined along the leading axis. -/
def hJoin (r0 r1 r2 r3 : (⟨S2048x128, .f32⟩ : BufTy).Contents (Elt F)) : (⟨S4x2048x128, .f32⟩ : BufTy).Contents (Elt F) :=
  concatenate S4x2048x128 0 [⟨S1x2048x128, hSlab r0⟩, ⟨S1x2048x128, hSlab r1⟩, ⟨S1x2048x128, hSlab r2⟩, ⟨S1x2048x128, hSlab r3⟩]
    concatenates_S1x2048x128_S1x2048x128_S1x2048x128_S1x2048x128_S4x2048x128_d0

/-- The whole result in the host's spelling, as a function of the fourteen argument arrays. -/
def hNet (X : (⟨S4x2048x128, .f32⟩ : BufTy).Contents (Elt F)) (Adj : (⟨S4x2048x2048, .f32⟩ : BufTy).Contents (Elt F))
    (W0 : (⟨S128x128, .f32⟩ : BufTy).Contents (Elt F)) (b0 g0 β0 : (⟨S128, .f32⟩ : BufTy).Contents (Elt F))
    (W1 : (⟨S128x128, .f32⟩ : BufTy).Contents (Elt F)) (b1 g1 β1 : (⟨S128, .f32⟩ : BufTy).Contents (Elt F))
    (W2 : (⟨S128x128, .f32⟩ : BufTy).Contents (Elt F)) (b2 g2 β2 : (⟨S128, .f32⟩ : BufTy).Contents (Elt F)) : (⟨S4x2048x128, .f32⟩ : BufTy).Contents (Elt F) :=
  hJoin
    (hNet3 (hAdj 0 slices_S4x2048x2048_S1x2048x2048_0_0_0 Adj) (hFeat 0 slices_S4x2048x128_S1x2048x128_0_0_0 X) W0 b0 g0 β0 W1 b1 g1 β1 W2 b2 g2 β2)
    (hNet3 (hAdj 1 slices_S4x2048x2048_S1x2048x2048_1_0_0 Adj) (hFeat 1 slices_S4x2048x128_S1x2048x128_1_0_0 X) W0 b0 g0 β0 W1 b1 g1 β1 W2 b2 g2 β2)
    (hNet3 (hAdj 2 slices_S4x2048x2048_S1x2048x2048_2_0_0 Adj) (hFeat 2 slices_S4x2048x128_S1x2048x128_2_0_0 X) W0 b0 g0 β0 W1 b1 g1 β1 W2 b2 g2 β2)
    (hNet3 (hAdj 3 slices_S4x2048x2048_S1x2048x2048_3_0_0 Adj) (hFeat 3 slices_S4x2048x128_S1x2048x128_3_0_0 X) W0 b0 g0 β0 W1 b1 g1 β1 W2 b2 g2 β2)

/-! ## The layout operations read at an entry (any values) -/

open Idealize.ShloMosaic.ValueIdx

theorem hRowOf_apply (v : (⟨S128, .f32⟩ : BufTy).Contents (Elt F)) (n : Fin 2048) (d : Fin 128) : hRowOf v (ix2 n d) = v (ix1 d) := by
  unfold hRowOf
  refine (broadcastInDim_apply _ bcast_S1x128_S2048x128_0_1 _ (ix2 n d) (ix2 (0 : Fin 1) d) (fun a => match a with
    | ⟨0, _⟩ => by show 0 = if (1 : Nat) = 1 then 0 else n.val; rw [if_pos rfl]
    | ⟨1, _⟩ => by show d.val = if (128 : Nat) = 1 then 0 else d.val; rw [if_neg (by decide)])).trans ?_
  exact broadcastInDim_apply _ bcast_S128_S1x128_1 v (ix2 (0 : Fin 1) d) (ix1 d) (fun a => match a with
    | ⟨0, _⟩ => by show d.val = if (128 : Nat) = 1 then 0 else d.val; rw [if_neg (by decide)])

theorem hColSpread_apply (c : (⟨S2048x1, .f32⟩ : BufTy).Contents (Elt F)) (n : Fin 2048) (d : Fin 128) : hColSpread c (ix2 n d) = c (ix2 n (0 : Fin 1)) := by
  unfold hColSpread
  exact broadcastInDim_apply _ bcast_S2048x1_S2048x128_0_1 c (ix2 n d) (ix2 n (0 : Fin 1)) (fun a => match a with
    | ⟨0, _⟩ => by show n.val = if (2048 : Nat) = 1 then 0 else n.val; rw [if_neg (by decide)]
    | ⟨1, _⟩ => by show 0 = if (1 : Nat) = 1 then 0 else d.val; rw [if_pos rfl])

theorem hSlab_apply (v : (⟨S2048x128, .f32⟩ : BufTy).Contents (Elt F)) (n : Fin 2048) (d : Fin 128) : hSlab v (ix3 (0 : Fin 1) n d) = v (ix2 n d) := by
  unfold hSlab
  exact broadcastInDim_apply _ bcast_S2048x128_S1x2048x128_1_2 v (ix3 (0 : Fin 1) n d) (ix2 n d) (fun a => match a with
    | ⟨0, _⟩ => by show n.val = if (2048 : Nat) = 1 then 0 else n.val; rw [if_neg (by decide)]
    | ⟨1, _⟩ => by show d.val = if (128 : Nat) = 1 then 0 else d.val; rw [if_neg (by decide)])

theorem hAdj_apply (t : Nat) (ht : t < 4) (h : S4x2048x2048.Slices ![t, 0, 0] S1x2048x2048) (Adj : (⟨S4x2048x2048, .f32⟩ : BufTy).Contents (Elt F))
    (k n : Fin 2048) : hAdj t h Adj (ix2 k n) = Adj (ix3 (⟨t, ht⟩ : Fin 4) k n) := by
  unfold hAdj
  refine (shapeCast_apply _ shapeCasts_S1x2048x2048_S2048x2048 (ix2 k n) (ix3 (0 : Fin 1) k n) (by
    rw [Shape.rowMajor_val_two, Shape.rowMajor_val_three]
    show (0 * 2048 + k.val) * 2048 + n.val = k.val * 2048 + n.val
    omega)).trans ?_
  exact extractStridedSlice_apply ![t, 0, 0] Adj h (ix3 (0 : Fin 1) k n) (ix3 (⟨t, ht⟩ : Fin 4) k n) (fun a => match a with
    | ⟨0, _⟩ => by show t = t + 0; omega
    | ⟨1, _⟩ => by show k.val = 0 + k.val; omega
    | ⟨2, _⟩ => by show n.val = 0 + n.val; omega)

theorem hFeat_apply (t : Nat) (ht : t < 4) (h : S4x2048x128.Slices ![t, 0, 0] S1x2048x128) (X : (⟨S4x2048x128, .f32⟩ : BufTy).Contents (Elt F))
    (n : Fin 2048) (d : Fin 128) : hFeat t h X (ix2 n d) = X (ix3 (⟨t, ht⟩ : Fin 4) n d) := by
  unfold hFeat
  refine (shapeCast_apply _ shapeCasts_S1x2048x128_S2048x128 (ix2 n d) (ix3 (0 : Fin 1) n d) (by
    rw [Shape.rowMajor_val_two, Shape.rowMajor_val_three]
    show (0 * 2048 + n.val) * 128 + d.val = n.val * 128 + d.val
    omega)).trans ?_
  exact extractStridedSlice_apply ![t, 0, 0] X h (ix3 (0 : Fin 1) n d) (ix3 (⟨t, ht⟩ : Fin 4) n d) (fun a => match a with
    | ⟨0, _⟩ => by show t = t + 0; omega
    | ⟨1, _⟩ => by show n.val = 0 + n.val; omega
    | ⟨2, _⟩ => by show d.val = 0 + d.val; omega)

end AnyValues

end Cert.RefSide

end
-- ==== Proof.RefFold.lean ====
/-
  The reference program's fold read back group by group. With the layer written once in the host's spelling as a function of whole arrays (adjacency, features, weight,
  bias, scale, shift), each group of operations is then shown to
  leave that function of its operands' contents in its result buffer, and the groups are chained: after the whole line
  the result buffer holds the join of the four graphs' three-layer results, as a function of the fourteen argument
  arrays, and every argument buffer holds what it held at launch.
-/
import proofs.«141423_g37074157699470_cont_sun_m_1229_6_alg».proof.Proof.RefChunks
import proofs.«141423_g37074157699470_cont_sun_m_1229_6_alg».proof.Proof.RefHost

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## Each group read back -/

theorem pre0_A (V : Valuation τ sig (Elt F)) :
    after pre0 V (no_index (Proc.devRef .tc main_v1)) = hAdj 0 slices_S4x2048x2048_S1x2048x2048_0_0_0 (V (Proc.devRef .tc main_arg1)) := by
  unfold pre0
  after_results_simp <;> rfl

theorem pre0_x (V : Valuation τ sig (Elt F)) :
    after pre0 V (no_index (Proc.devRef .tc main_v3)) = hFeat 0 slices_S4x2048x128_S1x2048x128_0_0_0 (V (Proc.devRef .tc main_arg0)) := by
  unfold pre0
  after_results_simp <;> rfl

theorem pre1_A (V : Valuation τ sig (Elt F)) :
    after pre1 V (no_index (Proc.devRef .tc main_v101)) = hAdj 1 slices_S4x2048x2048_S1x2048x2048_1_0_0 (V (Proc.devRef .tc main_arg1)) := by
  unfold pre1
  after_results_simp <;> rfl

theorem pre1_x (V : Valuation τ sig (Elt F)) :
    after pre1 V (no_index (Proc.devRef .tc main_v103)) = hFeat 1 slices_S4x2048x128_S1x2048x128_1_0_0 (V (Proc.devRef .tc main_arg0)) := by
  unfold pre1
  after_results_simp <;> rfl

theorem pre2_A (V : Valuation τ sig (Elt F)) :
    after pre2 V (no_index (Proc.devRef .tc main_v201)) = hAdj 2 slices_S4x2048x2048_S1x2048x2048_2_0_0 (V (Proc.devRef .tc main_arg1)) := by
  unfold pre2
  after_results_simp <;> rfl

theorem pre2_x (V : Valuation τ sig (Elt F)) :
    after pre2 V (no_index (Proc.devRef .tc main_v203)) = hFeat 2 slices_S4x2048x128_S1x2048x128_2_0_0 (V (Proc.devRef .tc main_arg0)) := by
  unfold pre2
  after_results_simp <;> rfl

theorem pre3_A (V : Valuation τ sig (Elt F)) :
    after pre3 V (no_index (Proc.devRef .tc main_v301)) = hAdj 3 slices_S4x2048x2048_S1x2048x2048_3_0_0 (V (Proc.devRef .tc main_arg1)) := by
  unfold pre3
  after_results_simp <;> rfl

theorem pre3_x (V : Valuation τ sig (Elt F)) :
    after pre3 V (no_index (Proc.devRef .tc main_v303)) = hFeat 3 slices_S4x2048x128_S1x2048x128_3_0_0 (V (Proc.devRef .tc main_arg0)) := by
  unfold pre3
  after_results_simp <;> rfl

theorem lay00_val (V : Valuation τ sig (Elt F)) :
    after lay00 V (no_index (Proc.devRef .tc main_v35)) =
      hLayer (V (Proc.devRef .tc main_v1)) (V (Proc.devRef .tc main_v3)) (V (Proc.devRef .tc main_arg2)) (V (Proc.devRef .tc main_arg3)) (V (Proc.devRef .tc main_arg4)) (V (Proc.devRef .tc main_arg5)) := by
  unfold lay00
  after_results_simp <;> rfl

theorem lay01_val (V : Valuation τ sig (Elt F)) :
    after lay01 V (no_index (Proc.devRef .tc main_v67)) =
      hLayer (V (Proc.devRef .tc main_v1)) (V (Proc.devRef .tc main_v35)) (V (Proc.devRef .tc main_arg6)) (V (Proc.devRef .tc main_arg7)) (V (Proc.devRef .tc main_arg8)) (V (Proc.devRef .tc main_arg9)) := by
  unfold lay01
  after_results_simp <;> rfl

theorem lay02_val (V : Valuation τ sig (Elt F)) :
    after lay02 V (no_index (Proc.devRef .tc main_v99)) =
      hLayer (V (Proc.devRef .tc main_v1)) (V (Proc.devRef .tc main_v67)) (V (Proc.devRef .tc main_arg10)) (V (Proc.devRef .tc main_arg11)) (V (Proc.devRef .tc main_arg12)) (V (Proc.devRef .tc main_arg13)) := by
  unfold lay02
  after_results_simp <;> rfl

theorem lay10_val (V : Valuation τ sig (Elt F)) :
    after lay10 V (no_index (Proc.devRef .tc main_v135)) =
      hLayer (V (Proc.devRef .tc main_v101)) (V (Proc.devRef .tc main_v103)) (V (Proc.devRef .tc main_arg2)) (V (Proc.devRef .tc main_arg3)) (V (Proc.devRef .tc main_arg4)) (V (Proc.devRef .tc main_arg5)) := by
  unfold lay10
  after_results_simp <;> rfl

theorem lay11_val (V : Valuation τ sig (Elt F)) :
    after lay11 V (no_index (Proc.devRef .tc main_v167)) =
      hLayer (V (Proc.devRef .tc main_v101)) (V (Proc.devRef .tc main_v135)) (V (Proc.devRef .tc main_arg6)) (V (Proc.devRef .tc main_arg7)) (V (Proc.devRef .tc main_arg8)) (V (Proc.devRef .tc main_arg9)) := by
  unfold lay11
  after_results_simp <;> rfl

theorem lay12_val (V : Valuation τ sig (Elt F)) :
    after lay12 V (no_index (Proc.devRef .tc main_v199)) =
      hLayer (V (Proc.devRef .tc main_v101)) (V (Proc.devRef .tc main_v167)) (V (Proc.devRef .tc main_arg10)) (V (Proc.devRef .tc main_arg11)) (V (Proc.devRef .tc main_arg12)) (V (Proc.devRef .tc main_arg13)) := by
  unfold lay12
  after_results_simp <;> rfl

theorem lay20_val (V : Valuation τ sig (Elt F)) :
    after lay20 V (no_index (Proc.devRef .tc main_v235)) =
      hLayer (V (Proc.devRef .tc main_v201)) (V (Proc.devRef .tc main_v203)) (V (Proc.devRef .tc main_arg2)) (V (Proc.devRef .tc main_arg3)) (V (Proc.devRef .tc main_arg4)) (V (Proc.devRef .tc main_arg5)) := by
  unfold lay20
  after_results_simp <;> rfl

theorem lay21_val (V : Valuation τ sig (Elt F)) :
    after lay21 V (no_index (Proc.devRef .tc main_v267)) =
      hLayer (V (Proc.devRef .tc main_v201)) (V (Proc.devRef .tc main_v235)) (V (Proc.devRef .tc main_arg6)) (V (Proc.devRef .tc main_arg7)) (V (Proc.devRef .tc main_arg8)) (V (Proc.devRef .tc main_arg9)) := by
  unfold lay21
  after_results_simp <;> rfl

theorem lay22_val (V : Valuation τ sig (Elt F)) :
    after lay22 V (no_index (Proc.devRef .tc main_v299)) =
      hLayer (V (Proc.devRef .tc main_v201)) (V (Proc.devRef .tc main_v267)) (V (Proc.devRef .tc main_arg10)) (V (Proc.devRef .tc main_arg11)) (V (Proc.devRef .tc main_arg12)) (V (Proc.devRef .tc main_arg13)) := by
  unfold lay22
  after_results_simp <;> rfl

theorem lay30_val (V : Valuation τ sig (Elt F)) :
    after lay30 V (no_index (Proc.devRef .tc main_v335)) =
      hLayer (V (Proc.devRef .tc main_v301)) (V (Proc.devRef .tc main_v303)) (V (Proc.devRef .tc main_arg2)) (V (Proc.devRef .tc main_arg3)) (V (Proc.devRef .tc main_arg4)) (V (Proc.devRef .tc main_arg5)) := by
  unfold lay30
  after_results_simp <;> rfl

theorem lay31_val (V : Valuation τ sig (Elt F)) :
    after lay31 V (no_index (Proc.devRef .tc main_v367)) =
      hLayer (V (Proc.devRef .tc main_v301)) (V (Proc.devRef .tc main_v335)) (V (Proc.devRef .tc main_arg6)) (V (Proc.devRef .tc main_arg7)) (V (Proc.devRef .tc main_arg8)) (V (Proc.devRef .tc main_arg9)) := by
  unfold lay31
  after_results_simp <;> rfl

theorem lay32_val (V : Valuation τ sig (Elt F)) :
    after lay32 V (no_index (Proc.devRef .tc main_v399)) =
      hLayer (V (Proc.devRef .tc main_v301)) (V (Proc.devRef .tc main_v367)) (V (Proc.devRef .tc main_arg10)) (V (Proc.devRef .tc main_arg11)) (V (Proc.devRef .tc main_arg12)) (V (Proc.devRef .tc main_arg13)) := by
  unfold lay32
  after_results_simp <;> rfl

theorem tail_val (V : Valuation τ sig (Elt F)) :
    after tail V (no_index (Proc.devRef .tc main_v404)) = hJoin (V (Proc.devRef .tc main_v99)) (V (Proc.devRef .tc main_v199)) (V (Proc.devRef .tc main_v299)) (V (Proc.devRef .tc main_v399)) := by
  unfold tail
  after_results_simp <;> rfl

/-! ## The groups chained -/

/-- The buffers graph 0's operations write. -/
abbrev grp0_W : List (Ref sig .tc) := pre0_W ++ (lay00_W ++ (lay01_W ++ lay02_W))

theorem grp0_keep (V : Valuation τ sig (Elt F)) {r : Ref sig .tc} (h : r ∉ grp0_W) :
    after grp0 V (no_index (Proc.devRef .tc r)) = V (Proc.devRef .tc r) := by
  simp only [grp0_W, List.mem_append, not_or] at h
  obtain ⟨h0, h1, h2, h3⟩ := h
  unfold grp0
  simp only [after_append]
  exact (lay02_keep _ h3).trans ((lay01_keep _ h2).trans ((lay00_keep _ h1).trans (pre0_keep _ h0)))

theorem grp0_val (V : Valuation τ sig (Elt F)) :
    after grp0 V (no_index (Proc.devRef .tc main_v99)) =
      hNet3 (hAdj 0 slices_S4x2048x2048_S1x2048x2048_0_0_0 (V (Proc.devRef .tc main_arg1))) (hFeat 0 slices_S4x2048x128_S1x2048x128_0_0_0 (V (Proc.devRef .tc main_arg0)))
        (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold grp0 hNet3
  simp (disch := decide) only [after_append, lay02_val, lay01_val, lay00_val, pre0_A, pre0_x, lay01_keep, lay00_keep, pre0_keep]

/-- The buffers graph 1's operations write. -/
abbrev grp1_W : List (Ref sig .tc) := pre1_W ++ (lay10_W ++ (lay11_W ++ lay12_W))

theorem grp1_keep (V : Valuation τ sig (Elt F)) {r : Ref sig .tc} (h : r ∉ grp1_W) :
    after grp1 V (no_index (Proc.devRef .tc r)) = V (Proc.devRef .tc r) := by
  simp only [grp1_W, List.mem_append, not_or] at h
  obtain ⟨h0, h1, h2, h3⟩ := h
  unfold grp1
  simp only [after_append]
  exact (lay12_keep _ h3).trans ((lay11_keep _ h2).trans ((lay10_keep _ h1).trans (pre1_keep _ h0)))

theorem grp1_val (V : Valuation τ sig (Elt F)) :
    after grp1 V (no_index (Proc.devRef .tc main_v199)) =
      hNet3 (hAdj 1 slices_S4x2048x2048_S1x2048x2048_1_0_0 (V (Proc.devRef .tc main_arg1))) (hFeat 1 slices_S4x2048x128_S1x2048x128_1_0_0 (V (Proc.devRef .tc main_arg0)))
        (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold grp1 hNet3
  simp (disch := decide) only [after_append, lay12_val, lay11_val, lay10_val, pre1_A, pre1_x, lay11_keep, lay10_keep, pre1_keep]

/-- The buffers graph 2's operations write. -/
abbrev grp2_W : List (Ref sig .tc) := pre2_W ++ (lay20_W ++ (lay21_W ++ lay22_W))

theorem grp2_keep (V : Valuation τ sig (Elt F)) {r : Ref sig .tc} (h : r ∉ grp2_W) :
    after grp2 V (no_index (Proc.devRef .tc r)) = V (Proc.devRef .tc r) := by
  simp only [grp2_W, List.mem_append, not_or] at h
  obtain ⟨h0, h1, h2, h3⟩ := h
  unfold grp2
  simp only [after_append]
  exact (lay22_keep _ h3).trans ((lay21_keep _ h2).trans ((lay20_keep _ h1).trans (pre2_keep _ h0)))

theorem grp2_val (V : Valuation τ sig (Elt F)) :
    after grp2 V (no_index (Proc.devRef .tc main_v299)) =
      hNet3 (hAdj 2 slices_S4x2048x2048_S1x2048x2048_2_0_0 (V (Proc.devRef .tc main_arg1))) (hFeat 2 slices_S4x2048x128_S1x2048x128_2_0_0 (V (Proc.devRef .tc main_arg0)))
        (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold grp2 hNet3
  simp (disch := decide) only [after_append, lay22_val, lay21_val, lay20_val, pre2_A, pre2_x, lay21_keep, lay20_keep, pre2_keep]

/-- The buffers graph 3's operations write. -/
abbrev grp3_W : List (Ref sig .tc) := pre3_W ++ (lay30_W ++ (lay31_W ++ lay32_W))

theorem grp3_keep (V : Valuation τ sig (Elt F)) {r : Ref sig .tc} (h : r ∉ grp3_W) :
    after grp3 V (no_index (Proc.devRef .tc r)) = V (Proc.devRef .tc r) := by
  simp only [grp3_W, List.mem_append, not_or] at h
  obtain ⟨h0, h1, h2, h3⟩ := h
  unfold grp3
  simp only [after_append]
  exact (lay32_keep _ h3).trans ((lay31_keep _ h2).trans ((lay30_keep _ h1).trans (pre3_keep _ h0)))

theorem grp3_val (V : Valuation τ sig (Elt F)) :
    after grp3 V (no_index (Proc.devRef .tc main_v399)) =
      hNet3 (hAdj 3 slices_S4x2048x2048_S1x2048x2048_3_0_0 (V (Proc.devRef .tc main_arg1))) (hFeat 3 slices_S4x2048x128_S1x2048x128_3_0_0 (V (Proc.devRef .tc main_arg0)))
        (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold grp3 hNet3
  simp (disch := decide) only [after_append, lay32_val, lay31_val, lay30_val, pre3_A, pre3_x, lay31_keep, lay30_keep, pre3_keep]

/-- The buffers the program writes. -/
abbrev ops_W : List (Ref sig .tc) := grp0_W ++ (grp1_W ++ (grp2_W ++ (grp3_W ++ tail_W)))

/-- A buffer the program does not write holds after the run what it held before. -/
theorem fold_keep (V : Valuation τ sig (Elt F)) {r : Ref sig .tc} (h : r ∉ ops_W) :
    after ops V (Proc.devRef .tc r) = V (Proc.devRef .tc r) := by
  have h0 : r ∉ grp0_W := fun hm => h (List.mem_append_left _ hm)
  have h1 : r ∉ grp1_W := fun hm => h (List.mem_append_right _ (List.mem_append_left _ hm))
  have h2 : r ∉ grp2_W := fun hm => h (List.mem_append_right _ (List.mem_append_right _ (List.mem_append_left _ hm)))
  have h3 : r ∉ grp3_W := fun hm =>
    h (List.mem_append_right _ (List.mem_append_right _ (List.mem_append_right _ (List.mem_append_left _ hm))))
  have h4 : r ∉ tail_W := fun hm =>
    h (List.mem_append_right _ (List.mem_append_right _ (List.mem_append_right _ (List.mem_append_right _ hm))))
  rw [ops_eq]
  simp only [after_append]
  exact (tail_keep _ h4).trans ((grp3_keep _ h3).trans ((grp2_keep _ h2).trans ((grp1_keep _ h1).trans (grp0_keep _ h0))))

/-- After the run the result buffer holds the host's whole-array function of the arguments' contents. -/
theorem fold_out (V : Valuation τ sig (Elt F)) :
    after ops V (Proc.devRef .tc main_v404) = hNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_eq]
  unfold hNet
  simp (disch := decide) only [after_append, tail_val, grp3_val, grp2_val, grp1_val, grp0_val, grp3_keep, grp2_keep, grp1_keep, grp0_keep]

end Cert.RefSide

end
-- ==== Proof.RefIdeal.lean ====
/-
  The reference's whole-array functions at the extended reals, read at an entry and identified with the shared
  specification: a product of matrices is the sum over the contraction index, a row sum the sum of the row's entries from
  zero, a repeated row or column the entry it repeats; so the layer in the host's spelling is the specification's layer
  entry by entry, the three layers on a graph its three layers, and the join of the four graphs its whole result.
-/
import proofs.«141423_g37074157699470_cont_sun_m_1229_6_alg».proof.Proof.RefHost

noncomputable section

namespace Cert.RefSide

open Cert.ReferenceIdeal Cert.ReferenceIdeal.Gen Idealize.ShloMosaic Idealize.ShloMosaic.TcCoe Idealize.SL.Sem Idealize.ShloMosaic.StableHlo

open scoped BigOperators
open Idealize.ShloMosaic.ValueIdx

/-! ## The host's operations at an entry, at the extended reals -/

/-- An array of rank two as a function of its two coordinates. -/
def m2 {a b : Nat} (v : (⟨2, ![a, b]⟩ : Shape).Idx → EReal) (p : Fin a) (q : Fin b) : EReal := v (ix2 p q)

theorem dotXW_lhs0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem dotXW_lhs1 (i : S2048x128.Idx) (q : dot_S2048x128_S128x128_S2048x128_1_0_0_1_n_n.contr.Idx) : (dot_S2048x128_S128x128_S2048x128_1_0_0_1_n_n.lhsIdx i q 1).val = (q ⟨0, by decide⟩).val :=
  dot_S2048x128_S128x128_S2048x128_1_0_0_1_n_n.lhsIdx_val_of_single rfl i q
theorem dotXW_rhs0 (i : S2048x128.Idx) (q : dot_S2048x128_S128x128_S2048x128_1_0_0_1_n_n.contr.Idx) : (dot_S2048x128_S128x128_S2048x128_1_0_0_1_n_n.rhsIdx i q 0).val = (q ⟨0, by decide⟩).val :=
  dot_S2048x128_S128x128_S2048x128_1_0_0_1_n_n.rhsIdx_val_of_single rfl i q
theorem dotXW_rhs1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The host's product of a `2048 × 128` array with a `128 × 128` array at an entry: the sum over the contraction index. -/
theorem dotXW_apply (l : FVec Ideal S2048x128 .f32) (r : FVec Ideal S128x128 .f32) (n : Fin 2048) (d : Fin 128) :
    Host.dotGeneral (F := Ideal) dot_S2048x128_S128x128_S2048x128_1_0_0_1_n_n none l r (ix2 n d) = ∑ k : Fin 128, l (ix2 n k) * r (ix2 k d) := by
  simp only [Host.dotGeneral]
  rw [Ideal.dotGeneral_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 n d) ((contrEquiv1 dot_S2048x128_S128x128_S2048x128_1_0_0_1_n_n 128 rfl rfl).symm k) = ix2 n k := funext fun a => Fin.ext (by
    match a with
    | ⟨0, _⟩ => exact dotXW_lhs0 _ _
    | ⟨1, _⟩ => exact (dotXW_lhs1 _ _).trans hk)
  have er : dot_S2048x128_S128x128_S2048x128_1_0_0_1_n_n.rhsIdx (ix2 n d) ((contrEquiv1 dot_S2048x128_S128x128_S2048x128_1_0_0_1_n_n 128 rfl rfl).symm k) = ix2 k d := funext fun a => Fin.ext (by
    match a with
    | ⟨0, _⟩ => exact (dotXW_rhs0 _ _).trans hk
    | ⟨1, _⟩ => exact dotXW_rhs1 _ _)
  rw [el, er]

theorem dotAH_lhs0 (i : S2048x128.Idx) (q : dot_S2048x2048_S2048x128_S2048x128_1_0_0_1_n_n.contr.Idx) : (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem dotAH_lhs1 (i : S2048x128.Idx) (q : dot_S2048x2048_S2048x128_S2048x128_1_0_0_1_n_n.contr.Idx) : (dot_S2048x2048_S2048x128_S2048x128_1_0_0_1_n_n.lhsIdx i q 1).val = (q ⟨0, by decide⟩).val :=
  dot_S2048x2048_S2048x128_S2048x128_1_0_0_1_n_n.lhsIdx_val_of_single rfl i q
theorem dotAH_rhs0 (i : S2048x128.Idx) (q : dot_S2048x2048_S2048x128_S2048x128_1_0_0_1_n_n.contr.Idx) : (dot_S2048x2048_S2048x128_S2048x128_1_0_0_1_n_n.rhsIdx i q 0).val = (q ⟨0, by decide⟩).val :=
  dot_S2048x2048_S2048x128_S2048x128_1_0_0_1_n_n.rhsIdx_val_of_single rfl i q
theorem dotAH_rhs1 (i : S2048x128.Idx) (q : dot_S2048x2048_S2048x128_S2048x128_1_0_0_1_n_n.contr.Idx) : (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The host's product of a `2048 × 2048` array with a `2048 × 128` array at an entry: the sum over the contraction index. -/
theorem dotAH_apply (l : FVec Ideal S2048x2048 .f32) (r : FVec Ideal S2048x128 .f32) (n : Fin 2048) (d : Fin 128) :
    Host.dotGeneral (F := Ideal) dot_S2048x2048_S2048x128_S2048x128_1_0_0_1_n_n none l r (ix2 n d) = ∑ k : Fin 2048, l (ix2 n k) * r (ix2 k d) := by
  simp only [Host.dotGeneral]
  rw [Ideal.dotGeneral_apply, ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 n d) ((contrEquiv1 dot_S2048x2048_S2048x128_S2048x128_1_0_0_1_n_n 2048 rfl rfl).symm k) = ix2 n k := funext fun a => Fin.ext (by
    match a with
    | ⟨0, _⟩ => exact dotAH_lhs0 _ _
    | ⟨1, _⟩ => exact (dotAH_lhs1 _ _).trans hk)
  have er : dot_S2048x2048_S2048x128_S2048x128_1_0_0_1_n_n.rhsIdx (ix2 n d) ((contrEquiv1 dot_S2048x2048_S2048x128_S2048x128_1_0_0_1_n_n 2048 rfl rfl).symm k) = ix2 k d := funext fun a => Fin.ext (by
    match a with
    | ⟨0, _⟩ => exact (dotAH_rhs0 _ _).trans hk
    | ⟨1, _⟩ => exact dotAH_rhs1 _ _)
  rw [el, er]

/-- The transposed adjacency at `(n, k)` is the adjacency at `(k, n)`. -/
theorem transposeA_apply (A : (⟨S2048x2048, .f32⟩ : BufTy).Contents (Elt Ideal)) (n k : Fin 2048) :
    transpose S2048x2048 [1, 0] A transposes_S2048x2048_S2048x2048_1_0 (ix2 n k) = A (ix2 k n) :=
  transpose_apply [1, 0] A transposes_S2048x2048_S2048x2048_1_0 (ix2 n k) (ix2 k n) (fun b => match b with
    | ⟨0, _⟩ => rfl
    | ⟨1, _⟩ => rfl)

/-- A row's sum from the zero word: `0` plus the sum of the row's entries. -/
theorem hRowSum_apply (y : (⟨S2048x128, .f32⟩ : BufTy).Contents (Elt Ideal)) (n : Fin 2048) :
    hRowSum y (ix2 n (0 : Fin 1)) = 0 + ∑ d : Fin 128, y (ix2 n d) := by
  unfold hRowSum
  refine (broadcastInDim_apply _ bcast_S2048_S2048x1_0 _ (ix2 n (0 : Fin 1)) (ix1 n) (fun a => match a with
    | ⟨0, _⟩ => by show n.val = if (2048 : Nat) = 1 then 0 else n.val; rw [if_neg (by decide)])).trans ?_
  refine (Cert.Lib.HostRowSum.hostRowSum_apply y (constant S_ .f32 0x00000000#32) reducesTo_S2048x128_S2048_d1 h_S_ (by decide) n).trans ?_
  exact congrArg (· + _) Ideal.ofBits_zero_f32

/-- The constant column at a node is the extended real its word encodes. -/
theorem hConstCol_apply (w : BitVec 32) (n : Fin 2048) : hConstCol (F := Ideal) w (ix2 n (0 : Fin 1)) = Ideal.ofBits .f32 w := by
  unfold hConstCol
  exact broadcastInDim_scalar_apply bcast_S_S2048x1 _ _

/-! ## The layer, entry by entry -/

theorem hPre_apply (A : (⟨S2048x2048, .f32⟩ : BufTy).Contents (Elt Ideal)) (x : (⟨S2048x128, .f32⟩ : BufTy).Contents (Elt Ideal)) (W : (⟨S128x128, .f32⟩ : BufTy).Contents (Elt Ideal)) (b : (⟨S128, .f32⟩ : BufTy).Contents (Elt Ideal))
    (n : Fin 2048) (d : Fin 128) :
    hPre A x W b (ix2 n d) = Cert.Spec.pre (m2 A) (m2 x) (m2 W) (Cert.Spec.row b) n d := by
  unfold hPre
  rw [addf_apply, addf_apply, dotAH_apply, hRowOf_apply]
  unfold Cert.Spec.pre Cert.Spec.feat
  refine congrArg (· + _) (congrArg (· + _) (Finset.sum_congr rfl fun k _ => ?_))
  rw [transposeA_apply, dotXW_apply]
  rfl

theorem hMean_apply (y : (⟨S2048x128, .f32⟩ : BufTy).Contents (Elt Ideal)) (n : Fin 2048) :
    hMean y (ix2 n (0 : Fin 1)) = Cert.Spec.rowMean (m2 y) n := by
  unfold hMean
  rw [hostDivf_apply, hRowSum_apply, hConstCol_apply]
  rfl

theorem hCen_apply (y : (⟨S2048x128, .f32⟩ : BufTy).Contents (Elt Ideal)) (n : Fin 2048) (d : Fin 128) :
    hCen y (ix2 n d) = m2 y n d - Cert.Spec.rowMean (m2 y) n := by
  unfold hCen
  rw [subf_apply, hColSpread_apply, hMean_apply]
  rfl

theorem hVar_apply (y : (⟨S2048x128, .f32⟩ : BufTy).Contents (Elt Ideal)) (n : Fin 2048) :
    hVar y (ix2 n (0 : Fin 1)) = Cert.Spec.rowVar (m2 y) n := by
  unfold hVar
  rw [hostDivf_apply, hRowSum_apply, hConstCol_apply]
  unfold Cert.Spec.rowVar
  refine congrArg (fun s => Ideal.div (0 + s) _) (Finset.sum_congr rfl fun d _ => ?_)
  rw [mulf_apply, hCen_apply]

theorem hNorm_apply (y : (⟨S2048x128, .f32⟩ : BufTy).Contents (Elt Ideal)) (g β : (⟨S128, .f32⟩ : BufTy).Contents (Elt Ideal)) (n : Fin 2048) (d : Fin 128) :
    hNorm y g β (ix2 n d) = Cert.Spec.normRelu (m2 y) (Cert.Spec.row g) (Cert.Spec.row β) n d := by
  unfold hNorm
  rw [maximumf_apply, addf_apply, mulf_apply, hostDivf_apply, hCen_apply, hColSpread_apply, hRowOf_apply, hRowOf_apply,
    broadcastInDim_scalar_apply, constant_apply, Ideal.ofBits_zero_f32]
  show max (Ideal.div _ (Ideal.sqrt (addf (hVar y) (hConstCol (F := Ideal) 0x3727C5AC#32) (ix2 n (0 : Fin 1)))) * _ + _) 0 = _
  rw [addf_apply, hVar_apply, hConstCol_apply]
  rfl

/-- The layer in the host's spelling is the specification's layer, entry by entry. -/
theorem hLayer_apply (A : (⟨S2048x2048, .f32⟩ : BufTy).Contents (Elt Ideal)) (x : (⟨S2048x128, .f32⟩ : BufTy).Contents (Elt Ideal)) (W : (⟨S128x128, .f32⟩ : BufTy).Contents (Elt Ideal)) (b g β : (⟨S128, .f32⟩ : BufTy).Contents (Elt Ideal))
    (n : Fin 2048) (d : Fin 128) :
    hLayer A x W b g β (ix2 n d)
      = Cert.Spec.layer (m2 A) (m2 x) (m2 W) (Cert.Spec.row b) (Cert.Spec.row g) (Cert.Spec.row β) n d := by
  unfold hLayer Cert.Spec.layer
  rw [hNorm_apply]
  exact congrArg (fun y => Cert.Spec.normRelu y (Cert.Spec.row g) (Cert.Spec.row β) n d)
    (funext fun p => funext fun q => hPre_apply A x W b p q)

theorem hLayer_eq (A : (⟨S2048x2048, .f32⟩ : BufTy).Contents (Elt Ideal)) (x : (⟨S2048x128, .f32⟩ : BufTy).Contents (Elt Ideal)) (W : (⟨S128x128, .f32⟩ : BufTy).Contents (Elt Ideal)) (b g β : (⟨S128, .f32⟩ : BufTy).Contents (Elt Ideal)) :
    m2 (hLayer A x W b g β) = Cert.Spec.layer (m2 A) (m2 x) (m2 W) (Cert.Spec.row b) (Cert.Spec.row g) (Cert.Spec.row β) :=
  funext fun n => funext fun d => hLayer_apply A x W b g β n d

/-- The three layers on a graph are the specification's three layers. -/
theorem hNet3_eq (A : (⟨S2048x2048, .f32⟩ : BufTy).Contents (Elt Ideal)) (x : (⟨S2048x128, .f32⟩ : BufTy).Contents (Elt Ideal))
    (W0 : (⟨S128x128, .f32⟩ : BufTy).Contents (Elt Ideal)) (b0 g0 β0 : (⟨S128, .f32⟩ : BufTy).Contents (Elt Ideal))
    (W1 : (⟨S128x128, .f32⟩ : BufTy).Contents (Elt Ideal)) (b1 g1 β1 : (⟨S128, .f32⟩ : BufTy).Contents (Elt Ideal))
    (W2 : (⟨S128x128, .f32⟩ : BufTy).Contents (Elt Ideal)) (b2 g2 β2 : (⟨S128, .f32⟩ : BufTy).Contents (Elt Ideal)) :
    m2 (hNet3 A x W0 b0 g0 β0 W1 b1 g1 β1 W2 b2 g2 β2)
      = Cert.Spec.net3 (m2 A) (m2 x) (m2 W0) (Cert.Spec.row b0) (Cert.Spec.row g0) (Cert.Spec.row β0)
          (m2 W1) (Cert.Spec.row b1) (Cert.Spec.row g1) (Cert.Spec.row β1) (m2 W2) (Cert.Spec.row b2) (Cert.Spec.row g2) (Cert.Spec.row β2) := by
  unfold hNet3 Cert.Spec.net3
  rw [hLayer_eq, hLayer_eq, hLayer_eq]

theorem hAdj_eq (t : Nat) (ht : t < 4) (h : S4x2048x2048.Slices ![t, 0, 0] S1x2048x2048) (Adj : (⟨S4x2048x2048, .f32⟩ : BufTy).Contents (Elt Ideal)) :
    m2 (hAdj t h Adj) = Cert.Spec.adjOf Adj (⟨t, ht⟩ : Fin 4) :=
  funext fun k => funext fun n => hAdj_apply t ht h Adj k n

theorem hFeat_eq (t : Nat) (ht : t < 4) (h : S4x2048x128.Slices ![t, 0, 0] S1x2048x128) (X : (⟨S4x2048x128, .f32⟩ : BufTy).Contents (Elt Ideal)) :
    m2 (hFeat t h X) = Cert.Spec.featOf X (⟨t, ht⟩ : Fin 4) :=
  funext fun n => funext fun d => hFeat_apply t ht h X n d

end Cert.RefSide

end
-- ==== Proof.RefJoin.lean ====
/-
  The four graphs' results joined along the leading axis, read at an entry.

  Each graph's 2048 × 128 result is given a leading unit axis and the four slabs are concatenated along it, so entry
  `(t, n, d)` of the joined array comes from piece `t` — the pieces before it span `t` positions of the leading axis — at
  `(0, n, d)`, which is graph `t`'s result at `(n, d)`.
-/
import proofs.«141423_g37074157699470_cont_sun_m_1229_6_alg».proof.Proof.RefHost
import Idealize.ShloMosaic.Lib.ValueIdx
import Idealize.ShloMosaic.Lib.Pipeline.Value

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The joined result at graph 0: piece 0 of the concatenation, whose span on the leading axis is `[0, 1)`. -/
theorem hJoin_apply0 (r0 r1 r2 r3 : (⟨S2048x128, .f32⟩ : BufTy).Contents (Elt F)) (n : Fin 2048) (d : Fin 128) :
    hJoin r0 r1 r2 r3 (ix3 (0 : Fin 4) n d) = r0 (ix2 n d) := by
  unfold hJoin
  refine (concatenate_apply_piece (t := S4x2048x128) (0 : Fin 3) ([⟨S1x2048x128, hSlab r0⟩, ⟨S1x2048x128, hSlab r1⟩, ⟨S1x2048x128, hSlab r2⟩, ⟨S1x2048x128, hSlab r3⟩] : List ((s : Shape) × (s.Idx → Elt F .f32)))
    concatenates_S1x2048x128_S1x2048x128_S1x2048x128_S1x2048x128_S4x2048x128_d0 (ix3 (0 : Fin 4) n d) 0 (by show (0 : Nat) < 4; decide) S1x2048x128 (hSlab r0) rfl rfl 0 rfl
    (ix3 (0 : Fin 1) n d) ?_ ?_).trans (hSlab_apply r0 n d)
  · intro b hb
    match b with
    | ⟨0, _⟩ => exact absurd rfl hb
    | ⟨1, _⟩ => rfl
    | ⟨2, _⟩ => rfl
  · rfl

/-- The joined result at graph 1: piece 1 of the concatenation, whose span on the leading axis is `[1, 2)`. -/
theorem hJoin_apply1 (r0 r1 r2 r3 : (⟨S2048x128, .f32⟩ : BufTy).Contents (Elt F)) (n : Fin 2048) (d : Fin 128) :
    hJoin r0 r1 r2 r3 (ix3 (1 : Fin 4) n d) = r1 (ix2 n d) := by
  unfold hJoin
  refine (concatenate_apply_piece (t := S4x2048x128) (0 : Fin 3) ([⟨S1x2048x128, hSlab r0⟩, ⟨S1x2048x128, hSlab r1⟩, ⟨S1x2048x128, hSlab r2⟩, ⟨S1x2048x128, hSlab r3⟩] : List ((s : Shape) × (s.Idx → Elt F .f32)))
    concatenates_S1x2048x128_S1x2048x128_S1x2048x128_S1x2048x128_S4x2048x128_d0 (ix3 (1 : Fin 4) n d) 1 (by show (1 : Nat) < 4; decide) S1x2048x128 (hSlab r1) rfl rfl 1 rfl
    (ix3 (0 : Fin 1) n d) ?_ ?_).trans (hSlab_apply r1 n d)
  · intro b hb
    match b with
    | ⟨0, _⟩ => exact absurd rfl hb
    | ⟨1, _⟩ => rfl
    | ⟨2, _⟩ => rfl
  · rfl

/-- The joined result at graph 2: piece 2 of the concatenation, whose span on the leading axis is `[2, 3)`. -/
theorem hJoin_apply2 (r0 r1 r2 r3 : (⟨S2048x128, .f32⟩ : BufTy).Contents (Elt F)) (n : Fin 2048) (d : Fin 128) :
    hJoin r0 r1 r2 r3 (ix3 (2 : Fin 4) n d) = r2 (ix2 n d) := by
  unfold hJoin
  refine (concatenate_apply_piece (t := S4x2048x128) (0 : Fin 3) ([⟨S1x2048x128, hSlab r0⟩, ⟨S1x2048x128, hSlab r1⟩, ⟨S1x2048x128, hSlab r2⟩, ⟨S1x2048x128, hSlab r3⟩] : List ((s : Shape) × (s.Idx → Elt F .f32)))
    concatenates_S1x2048x128_S1x2048x128_S1x2048x128_S1x2048x128_S4x2048x128_d0 (ix3 (2 : Fin 4) n d) 2 (by show (2 : Nat) < 4; decide) S1x2048x128 (hSlab r2) rfl rfl 2 rfl
    (ix3 (0 : Fin 1) n d) ?_ ?_).trans (hSlab_apply r2 n d)
  · intro b hb
    match b with
    | ⟨0, _⟩ => exact absurd rfl hb
    | ⟨1, _⟩ => rfl
    | ⟨2, _⟩ => rfl
  · rfl

/-- The joined result at graph 3: piece 3 of the concatenation, whose span on the leading axis is `[3, 4)`. -/
theorem hJoin_apply3 (r0 r1 r2 r3 : (⟨S2048x128, .f32⟩ : BufTy).Contents (Elt F)) (n : Fin 2048) (d : Fin 128) :
    hJoin r0 r1 r2 r3 (ix3 (3 : Fin 4) n d) = r3 (ix2 n d) := by
  unfold hJoin
  refine (concatenate_apply_piece (t := S4x2048x128) (0 : Fin 3) ([⟨S1x2048x128, hSlab r0⟩, ⟨S1x2048x128, hSlab r1⟩, ⟨S1x2048x128, hSlab r2⟩, ⟨S1x2048x128, hSlab r3⟩] : List ((s : Shape) × (s.Idx → Elt F .f32)))
    concatenates_S1x2048x128_S1x2048x128_S1x2048x128_S1x2048x128_S4x2048x128_d0 (ix3 (3 : Fin 4) n d) 3 (by show (3 : Nat) < 4; decide) S1x2048x128 (hSlab r3) rfl rfl 3 rfl
    (ix3 (0 : Fin 1) n d) ?_ ?_).trans (hSlab_apply r3 n d)
  · intro b hb
    match b with
    | ⟨0, _⟩ => exact absurd rfl hb
    | ⟨1, _⟩ => rfl
    | ⟨2, _⟩ => rfl
  · rfl

end Cert.RefSide

end
-- ==== Proof.RefSide.lean ====
/-
  The reference side of the claim. The run leaves in every buffer the fold of the program's operations over the launch
  contents; read back group by group that fold is, in the result buffer, the host's whole-array function of the fourteen
  arguments, and at the extended reals this function is the shared specification entry by entry (graph `t`'s slab of the
  join is graph `t`'s three layers); the argument buffers are written by no operation.
-/
import proofs.«141423_g37074157699470_cont_sun_m_1229_6_alg».proof.Proof.RefFold
import proofs.«141423_g37074157699470_cont_sun_m_1229_6_alg».proof.Proof.RefIdeal
import proofs.«141423_g37074157699470_cont_sun_m_1229_6_alg».proof.Proof.RefJoin

noncomputable section

namespace Cert.RefSide

open Cert.ReferenceIdeal Cert.ReferenceIdeal.Gen Idealize.ShloMosaic Idealize.ShloMosaic.TcCoe Idealize.SL.Sem Idealize.ShloMosaic.StableHlo

open Idealize.ShloMosaic.ValueIdx

/-- The whole result in the host's spelling at entry `(t, n, d)`: graph `t`'s three layers at `(n, d)`. -/
theorem hNet_apply (X : (⟨S4x2048x128, .f32⟩ : BufTy).Contents (Elt Ideal)) (Adj : (⟨S4x2048x2048, .f32⟩ : BufTy).Contents (Elt Ideal))
    (W0 : (⟨S128x128, .f32⟩ : BufTy).Contents (Elt Ideal)) (b0 g0 β0 : (⟨S128, .f32⟩ : BufTy).Contents (Elt Ideal))
    (W1 : (⟨S128x128, .f32⟩ : BufTy).Contents (Elt Ideal)) (b1 g1 β1 : (⟨S128, .f32⟩ : BufTy).Contents (Elt Ideal))
    (W2 : (⟨S128x128, .f32⟩ : BufTy).Contents (Elt Ideal)) (b2 g2 β2 : (⟨S128, .f32⟩ : BufTy).Contents (Elt Ideal))
    (t : Fin 4) (n : Fin 2048) (d : Fin 128) :
    hNet X Adj W0 b0 g0 β0 W1 b1 g1 β1 W2 b2 g2 β2 (ix3 t n d) = Cert.Spec.net X Adj W0 b0 g0 β0 W1 b1 g1 β1 W2 b2 g2 β2 (ix3 t n d) := by
  unfold hNet
  show _ = Cert.Spec.net3 (Cert.Spec.adjOf Adj t) (Cert.Spec.featOf X t) (Cert.Spec.mat W0) (Cert.Spec.row b0) (Cert.Spec.row g0) (Cert.Spec.row β0)
    (Cert.Spec.mat W1) (Cert.Spec.row b1) (Cert.Spec.row g1) (Cert.Spec.row β1) (Cert.Spec.mat W2) (Cert.Spec.row b2) (Cert.Spec.row g2) (Cert.Spec.row β2) n d
  match t with
  | ⟨0, _⟩ =>
    refine (hJoin_apply0 _ _ _ _ n d).trans ?_
    refine (congrFun (congrFun (hNet3_eq _ _ W0 b0 g0 β0 W1 b1 g1 β1 W2 b2 g2 β2) n) d).trans ?_
    rw [hAdj_eq 0 (by decide), hFeat_eq 0 (by decide)]
    rfl
  | ⟨1, _⟩ =>
    refine (hJoin_apply1 _ _ _ _ n d).trans ?_
    refine (congrFun (congrFun (hNet3_eq _ _ W0 b0 g0 β0 W1 b1 g1 β1 W2 b2 g2 β2) n) d).trans ?_
    rw [hAdj_eq 1 (by decide), hFeat_eq 1 (by decide)]
    rfl
  | ⟨2, _⟩ =>
    refine (hJoin_apply2 _ _ _ _ n d).trans ?_
    refine (congrFun (congrFun (hNet3_eq _ _ W0 b0 g0 β0 W1 b1 g1 β1 W2 b2 g2 β2) n) d).trans ?_
    rw [hAdj_eq 2 (by decide), hFeat_eq 2 (by decide)]
    rfl
  | ⟨3, _⟩ =>
    refine (hJoin_apply3 _ _ _ _ n d).trans ?_
    refine (congrFun (congrFun (hNet3_eq _ _ W0 b0 g0 β0 W1 b1 g1 β1 W2 b2 g2 β2) n) d).trans ?_
    rw [hAdj_eq 3 (by decide), hFeat_eq 3 (by decide)]
    rfl

/-- The host's whole-array function of the arguments is the shared specification. -/
theorem hNet_eq_spec (X : (⟨S4x2048x128, .f32⟩ : BufTy).Contents (Elt Ideal)) (Adj : (⟨S4x2048x2048, .f32⟩ : BufTy).Contents (Elt Ideal))
    (W0 : (⟨S128x128, .f32⟩ : BufTy).Contents (Elt Ideal)) (b0 g0 β0 : (⟨S128, .f32⟩ : BufTy).Contents (Elt Ideal))
    (W1 : (⟨S128x128, .f32⟩ : BufTy).Contents (Elt Ideal)) (b1 g1 β1 : (⟨S128, .f32⟩ : BufTy).Contents (Elt Ideal))
    (W2 : (⟨S128x128, .f32⟩ : BufTy).Contents (Elt Ideal)) (b2 g2 β2 : (⟨S128, .f32⟩ : BufTy).Contents (Elt Ideal)) :
    hNet X Adj W0 b0 g0 β0 W1 b1 g1 β1 W2 b2 g2 β2 = Cert.Spec.net X Adj W0 b0 g0 β0 W1 b1 g1 β1 W2 b2 g2 β2 :=
  funext fun i => by
    rw [eq_ix3 i]
    exact hNet_apply X Adj W0 b0 g0 β0 W1 b1 g1 β1 W2 b2 g2 β2 (i 0) (i 1) (i 2)

/-- From any memory with zero counters, every weakly fair execution of the reference terminates with the result buffer at
    the shared specification of the arguments' launch contents and every argument buffer unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v404) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v404).trans ((fold_out _).trans (hNet_eq_spec ..)),
      (h c main_arg0).trans (fold_keep _ (by decide)),
      (h c main_arg1).trans (fold_keep _ (by decide)),
      (h c main_arg2).trans (fold_keep _ (by decide)),
      (h c main_arg3).trans (fold_keep _ (by decide)),
      (h c main_arg4).trans (fold_keep _ (by decide)),
      (h c main_arg5).trans (fold_keep _ (by decide)),
      (h c main_arg6).trans (fold_keep _ (by decide)),
      (h c main_arg7).trans (fold_keep _ (by decide)),
      (h c main_arg8).trans (fold_keep _ (by decide)),
      (h c main_arg9).trans (fold_keep _ (by decide)),
      (h c main_arg10).trans (fold_keep _ (by decide)),
      (h c main_arg11).trans (fold_keep _ (by decide)),
      (h c main_arg12).trans (fold_keep _ (by decide)),
      (h c main_arg13).trans (fold_keep _ (by decide))⟩)
    (run_after m ρ)

end Cert.RefSide

end
-- ==== Proof.lean ====
/-
  The claim: the pipelined three-layer graph-convolution kernel and its plain reference compute the same arrays on the
  extended reals.

  Both programs take the features of four graphs (2048 nodes, 128 features each), the graphs' dense adjacencies and three
  layers' parameters. A layer maps the features `x` to `max ((y − μ) / √(var + ε) · g + β, 0)` with
  `y = Aᵀ · (x · W) + b + x` and `μ`, `var` the mean and variance of each row of `y`. The kernel works on one graph per
  grid point: it holds the graph's adjacency as four bands of 512 rows (four windows on the one adjacency array), forms
  the aggregate `Aᵀ · h` as `0` plus four band products contracted over the bands' rows, and multiplies by
  `rsqrt (var + ε)` where the reference divides by `√(var + ε)`. On the extended reals the regrouped sum is the same sum,
  and `d · rsqrt v = d / √v` for every `d` once `v > 0` — which `var + ε` always is, a variance being a sum of squares
  over 128 and `ε` a positive real — so no finiteness of the inputs is needed (Spec, Laws).

  The kernel's side: the body's run on whole buffers (BodyTriple…), the proof data and the launch of the pipeline whose
  four band windows share the adjacency array a quarter share each (FrameData…, Frame…), the stored block read at an
  entry as three layers of the specification (KerStep, KerBody), and the four blocks written back tiling the result
  array (KerValue). The reference's side: its 489 host operations run as a list cut into windows, the fold read layer by
  layer as whole-array functions and then at an entry (Ref…). The frames are the runs with the results dropped.
-/
import proofs.«141423_g37074157699470_cont_sun_m_1229_6_alg».proof.Defs
import proofs.«141423_g37074157699470_cont_sun_m_1229_6_alg».proof.Proof.Gen.Kernel
import proofs.«141423_g37074157699470_cont_sun_m_1229_6_alg».proof.Proof.Gen.KernelIdeal
import proofs.«141423_g37074157699470_cont_sun_m_1229_6_alg».proof.Proof.Gen.ReferenceIdeal
import proofs.«141423_g37074157699470_cont_sun_m_1229_6_alg».proof.Proof.Gen.Pre_finite_inputs
import proofs.«141423_g37074157699470_cont_sun_m_1229_6_alg».proof.Proof.FrameBits
import proofs.«141423_g37074157699470_cont_sun_m_1229_6_alg».proof.Proof.FrameIdeal
import proofs.«141423_g37074157699470_cont_sun_m_1229_6_alg».proof.Proof.KerValue
import proofs.«141423_g37074157699470_cont_sun_m_1229_6_alg».proof.Proof.RefSide

noncomputable section

namespace Cert.Proof

open Idealize.ShloMosaic Idealize.ShloMosaic.TcCoe Idealize.SL.Sem

/-- The word-level kernel runs to its end, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the reference: its run with the result dropped. -/
theorem frame_ri : Cert.frame_ReferenceIdeal := fun m ρ _ =>
  (θ_run (Cert.ReferenceIdeal.defs (F := Ideal)) _ _).mono (fun _ h c => (h c).2) (Cert.RefSide.run m ρ)

/-- The idealization rewrote no operation. -/
theorem preserves : Cert.preserves_Kernel_KernelIdeal := trivial

/-- From memories agreeing on the arguments both idealized programs end with the specification's result of those
    arguments: the kernel's result array is the four blocks it wrote back, the reference's is its fold read at an entry. -/
theorem algebraic : Cert.algebraic_KernelIdeal_ReferenceIdeal := by
  intro m ρ m' ρ' _ hagree
  refine ⟨fun c => Cert.KernelIdeal.Hand.result m c, ?_, ?_⟩
  · exact (θ_run (Cert.KernelIdeal.defs (F := Ideal)) _ _).mono
      (fun r h c => ⟨(h c).1.trans (Cert.KernelIdeal.Hand.final17 m c), (h c).2⟩) (Cert.KernelIdeal.Hand.run_post m ρ)
  · refine (θ_run (Cert.ReferenceIdeal.defs (F := Ideal)) _ _).mono (fun r h c => ⟨(h c).1.trans ?_, (h c).2⟩)
      (Cert.RefSide.run m' ρ')
    obtain ⟨a0, a1, a2, a3, a4, a5, a6, a7, a8, a9, a10, a11, a12, a13⟩ := hagree c
    rw [a0, a1, a2, a3, a4, a5, a6, a7, a8, a9, a10, a11, a12, a13]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
